-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S1024x50257 : Shape := ⟨2, ![1024, 50257]⟩
abbrev S_ : Shape := ⟨0, ![]⟩

class Facts : Prop where
  bcast_S_S1024x50257 : S_.BroadcastsInDim S1024x50257 (![] : Fin 0 → Fin S1024x50257.rank)
  reducesTo_S1024x50257_S_d0_1 : S1024x50257.ReducesTo [0, 1] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : IVec S4x4096 32) (main_arg1 : FVec F S1024x50257 .f32) : IVec S_ 1 :=
  let main_v0 : FVec F S1024x50257 .f32 := Host.absf main_arg1
  let main_cst : FVec F S_ .f32 := constant S_ .f32 0x7F800000#32
  let main_v1 : FVec F S1024x50257 .f32 := broadcastInDim S1024x50257 ![] bcast_S_S1024x50257 main_cst
  let main_v2 : IVec S1024x50257 1 := cmpf .olt main_v0 main_v1
  let main_c : IVec S_ 1 := constantI S_ 1 1#1
  let main_v3 : IVec S_ 1 := (fun x v => Host.reduce IntOp.andi x v reducesTo_S1024x50257_S_d0_1 h_S_) main_v2 main_c
  let main_c_0 : IVec S_ 32 := constantI S_ 32 0#32
  let main_v4 : IVec S4x4096 32 := broadcastInDim S4x4096 ![] bcast_S_S4x4096 main_c_0
  let main_v5 : IVec S4x4096 1 := cmpi .sge main_arg0 main_v4
  let main_c_1 : IVec S_ 32 := constantI S_ 32 50257#32
  let main_v6 : IVec S4x4096 32 := broadcastInDim S4x4096 ![] bcast_S_S4x4096 main_c_1
  let main_v7 : IVec S4x4096 1 := cmpi .slt main_arg0 main_v6
  let main_v8 : IVec S4x4096 1 := andi main_v5 main_v7
  let main_c_2 : IVec S_ 1 := constantI S_ 1 1#1
  let main_v9 : IVec S_ 1 := (fun x v => Host.reduce IntOp.andi x v reducesTo_S4x4096_S_d0_1 h_S_) main_v8 main_c_2
  let main_v10 : IVec S_ 1 := andi main_v3 main_v9
  main_v10
-- ==== Kernel.lean ====
abbrev S4x4096 : Shape := ⟨2, ![4, 4096]⟩
abbrev S1024x50257 : Shape := ⟨2, ![1024, 50257]⟩
abbrev S16384 : Shape := ⟨1, ![16384]⟩
abbrev S50257x1024 : Shape := ⟨2, ![50257, 1024]⟩
abbrev S16384x1024 : Shape := ⟨2, ![16384, 1024]⟩
abbrev S256x1024 : Shape := ⟨2, ![256, 1024]⟩
abbrev S8 : Shape := ⟨1, ![8]⟩
abbrev S1 : Shape := ⟨1, ![1]⟩
abbrev S_ : Shape := ⟨0, ![]⟩
abbrev S1x1024 : Shape := ⟨2, ![1, 1024]⟩
abbrev S1024 : Shape := ⟨1, ![1024]⟩
abbrev S4x4096x1024 : Shape := ⟨3, ![4, 4096, 1024]⟩

abbrev nBuf : Space → Nat
  | .hbm => 5
  | .vmem => 2
  | .smem => 1
  | _ => 0

abbrev bufTy : (tb : Table) → Fin (tcTables nBuf tb) → BufTy
  | .hbm, ⟨0, _⟩ => ⟨S4x4096, .i32⟩
  | .hbm, ⟨1, _⟩ => ⟨S1024x50257, .f32⟩
  | .hbm, ⟨2, _⟩ => ⟨S50257x1024, .f32⟩
  | .hbm, ⟨3, _⟩ => ⟨S16384x1024, .f32⟩
  | .hbm, ⟨4, _⟩ => ⟨S4x4096x1024, .f32⟩
  | .local _ .vmem, ⟨0, _⟩ => ⟨S256x1024, .f32⟩
  | .local _ .vmem, ⟨1, _⟩ => ⟨S256x1024, .f32⟩
  | .local _ .smem, ⟨0, _⟩ => ⟨S16384, .i32⟩
  | _, _ => ⟨S4x4096, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_chk1 (v3 : BitVec 32) : Prop :=
  (∀ a, (k0_off2 v3) a + S1x1024.size a ≤ S50257x1024.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x1024.size a ≤ S50257x1024.size a := fun v3 k0_hw1 => k0_hw1

def k0_off3 (i : grid0.Coords) : Fin 1 → Nat :=
  let arg0 : BitVec 32 := BitVec.ofNat 32 (i 0).val
  let c256_i32 : BitVec 32 := 256#32
  let v0 : BitVec 32 := Scalar.muli arg0 c256_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_chk2 (v12 : BitVec 32) : Prop :=
  (∀ a, (k0_off4 v12) a + S1x1024.size a ≤ S50257x1024.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x1024.size a ≤ S50257x1024.size a := fun v12 k0_hw2 => k0_hw2

def k0_off5 (i : grid0.Coords) : Fin 1 → Nat :=
  let arg0 : BitVec 32 := BitVec.ofNat 32 (i 0).val
  let c256_i32 : BitVec 32 := 256#32
  let v0 : BitVec 32 := Scalar.muli arg0 c256_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_chk3 (v21 : BitVec 32) : Prop :=
  (∀ a, (k0_off6 v21) a + S1x1024.size a ≤ S50257x1024.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x1024.size a ≤ S50257x1024.size a := fun v21 k0_hw3 => k0_hw3

def k0_off7 (i : grid0.Coords) : Fin 1 → Nat :=
  let arg0 : BitVec 32 := BitVec.ofNat 32 (i 0).val
  let c256_i32 : BitVec 32 := 256#32
  let v0 : BitVec 32 := Scalar.muli arg0 c256_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_chk4 (v30 : BitVec 32) : Prop :=
  (∀ a, (k0_off8 v30) a + S1x1024.size a ≤ S50257x1024.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x1024.size a ≤ S50257x1024.size a := fun v30 k0_hw4 => k0_hw4

def k0_off9 (i : grid0.Coords) : Fin 1 → Nat :=
  let arg0 : BitVec 32 := BitVec.ofNat 32 (i 0).val
  let c256_i32 : BitVec 32 := 256#32
  let v0 : BitVec 32 := Scalar.muli arg0 c256_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_chk5 (v39 : BitVec 32) : Prop :=
  (∀ a, (k0_off10 v39) a + S1x1024.size a ≤ S50257x1024.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x1024.size a ≤ S50257x1024.size a := fun v39 k0_hw5 => k0_hw5

def k0_off11 (i : grid0.Coords) : Fin 1 → Nat :=
  let arg0 : BitVec 32 := BitVec.ofNat 32 (i 0).val
  let c256_i32 : BitVec 32 := 256#32
  let v0 : BitVec 32 := Scalar.muli arg0 c256_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_chk6 (v48 : BitVec 32) : Prop :=
  (∀ a, (k0_off12 v48) a + S1x1024.size a ≤ S50257x1024.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x1024.size a ≤ S50257x1024.size a := fun v48 k0_hw6 => k0_hw6

def k0_off13 (i : grid0.Coords) : Fin 1 → Nat :=
  let arg0 : BitVec 32 := BitVec.ofNat 32 (i 0).val
  let c256_i32 : BitVec 32 := 256#32
  let v0 : BitVec 32 := Scalar.muli arg0 c256_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_chk7 (v57 : BitVec 32) : Prop :=
  (∀ a, (k0_off14 v57) a + S1x1024.size a ≤ S50257x1024.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x1024.size a ≤ S50257x1024.size a := fun v57 k0_hw7 => k0_hw7

def k0_off15 (i : grid0.Coords) : Fin 1 → Nat :=
  let arg0 : BitVec 32 := BitVec.ofNat 32 (i 0).val
  let c256_i32 : BitVec 32 := 256#32
  let v0 : BitVec 32 := Scalar.muli arg0 c256_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_chk8 (v66 : BitVec 32) : Prop :=
  (∀ a, (k0_off16 v66) a + S1x1024.size a ≤ S50257x1024.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x1024.size a ≤ S50257x1024.size a := fun v66 k0_hw8 => k0_hw8

def k0_off17 (i : grid0.Coords) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_40 : BitVec 32 := 0#32
  ![v75.toNat, 0]

def k0_chk9 (v75 : BitVec 32) : Prop :=
  (∀ a, (k0_off18 v75) a + S1x1024.size a ≤ S50257x1024.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x1024.size a ≤ S50257x1024.size a := fun v75 k0_hw9 => k0_hw9

def k0_off19 (i : grid0.Coords) : Fin 1 → Nat :=
  let arg0 : BitVec 32 := BitVec.ofNat 32 (i 0).val
  let c256_i32 : BitVec 32 := 256#32
  let v0 : BitVec 32 := Scalar.muli arg0 c256_i32
  let c9_i32 : BitVec 32 := 9#32
  let v88 : BitVec 32 := Scalar.addi v0 c9_i32
  let v89 : Index := Scalar.indexCast v88
  ![v89.toNat]
def k0_off20 (v90 : BitVec 32) : Fin 2 → Nat :=
  let c0_i32_49 : BitVec 32 := 0#32
  ![v90.toNat, 0]

def k0_chk10 (v90 : BitVec 32) : Prop :=
  (∀ a, (k0_off20 v90) a + S1x1024.size a ≤ S50257x1024.size a)
instance k0_chk10.dec : ∀ (v90 : BitVec 32), Decidable (k0_chk10 v90) := fun v90 => decidable_of_iff' _ (Iff.of_eq (k0_chk10.eq_1 v90))
theorem k0_off20_inb : ∀ (v90 : BitVec 32) (k0_hw10 : k0_chk10 v90), ∀ a, (k0_off20 v90) a + S1x1024.size a ≤ S50257x1024.size a := fun v90 k0_hw10 => k0_hw10

def k0_off21 (i : grid0.Coords) : Fin 1 → Nat :=
  let arg0 : BitVec 32 := BitVec.ofNat 32 (i 0).val
  let c256_i32 : BitVec 32 := 256#32
  let v0 : BitVec 32 := Scalar.muli arg0 c256_i32
  let c10_i32 : BitVec 32 := 10#32
  let v103 : BitVec 32 := Scalar.addi v0 c10_i32
  let v104 : Index := Scalar.indexCast v103
  ![v104.toNat]
def k0_off22 (v105 : BitVec 32) : Fin 2 → Nat :=
  let c0_i32_58 : BitVec 32 := 0#32
  ![v105.toNat, 0]

def k0_chk11 (v105 : BitVec 32) : Prop :=
  (∀ a, (k0_off22 v105) a + S1x1024.size a ≤ S50257x1024.size a)
instance k0_chk11.dec : ∀ (v105 : BitVec 32), Decidable (k0_chk11 v105) := fun v105 => decidable_of_iff' _ (Iff.of_eq (k0_chk11.eq_1 v105))
theorem k0_off22_inb : ∀ (v105 : BitVec 32) (k0_hw11 : k0_chk11 v105), ∀ a, (k0_off22 v105) a + S1x1024.size a ≤ S50257x1024.size a := fun v105 k0_hw11 => k0_hw11

def k0_off23 (i : grid0.Coords) : Fin 1 → Nat :=
  let arg0 : BitVec 32 := BitVec.ofNat 32 (i 0).val
  let c256_i32 : BitVec 32 := 256#32
  let v0 : BitVec 32 := Scalar.muli arg0 c256_i32
  let c11_i32 : BitVec 32 := 11#32
  let v118 : BitVec 32 := Scalar.addi v0 c11_i32
  let v119 : Index := Scalar.indexCast v118
  ![v119.toNat]
def k0_off24 (v120 : BitVec 32) : Fin 2 → Nat :=
  let c0_i32_67 : BitVec 32 := 0#32
  ![v120.toNat, 0]

def k0_chk12 (v120 : BitVec 32) : Prop :=
  (∀ a, (k0_off24 v120) a + S1x1024.size a ≤ S50257x1024.size a)
instance k0_chk12.dec : ∀ (v120 : BitVec 32), Decidable (k0_chk12 v120) := fun v120 => decidable_of_iff' _ (Iff.of_eq (k0_chk12.eq_1 v120))
theorem k0_off24_inb : ∀ (v120 : BitVec 32) (k0_hw12 : k0_chk12 v120), ∀ a, (k0_off24 v120) a + S1x1024.size a ≤ S50257x1024.size a := fun v120 k0_hw12 => k0_hw12

def k0_off25 (i : grid0.Coords) : Fin 1 → Nat :=
  let arg0 : BitVec 32 := BitVec.ofNat 32 (i 0).val
  let c256_i32 : BitVec 32 := 256#32
  let v0 : BitVec 32 := Scalar.muli arg0 c256_i32
  let c12_i32 : BitVec 32 := 12#32
  let v133 : BitVec 32 := Scalar.addi v0 c12_i32
  let v134 : Index := Scalar.indexCast v133
  ![v134.toNat]
def k0_off26 (v135 : BitVec 32) : Fin 2 → Nat :=
  let c0_i32_76 : BitVec 32 := 0#32
  ![v135.toNat, 0]

def k0_chk13 (v135 : BitVec 32) : Prop :=
  (∀ a, (k0_off26 v135) a + S1x1024.size a ≤ S50257x1024.size a)
instance k0_chk13.dec : ∀ (v135 : BitVec 32), Decidable (k0_chk13 v135) := fun v135 => decidable_of_iff' _ (Iff.of_eq (k0_chk13.eq_1 v135))
theorem k0_off26_inb : ∀ (v135 : BitVec 32) (k0_hw13 : k0_chk13 v135), ∀ a, (k0_off26 v135) a + S1x1024.size a ≤ S50257x1024.size a := fun v135 k0_hw13 => k0_hw13

def k0_off27 (i : grid0.Coords) : Fin 1 → Nat :=
  let arg0 : BitVec 32 := BitVec.ofNat 32 (i 0).val
  let c256_i32 : BitVec 32 := 256#32
  let v0 : BitVec 32 := Scalar.muli arg0 c256_i32
  let c13_i32 : BitVec 32 := 13#32
  let v148 : BitVec 32 := Scalar.addi v0 c13_i32
  let v149 : Index := Scalar.indexCast v148
  ![v149.toNat]
def k0_off28 (v150 : BitVec 32) : Fin 2 → Nat :=
  let c0_i32_85 : BitVec 32 := 0#32
  ![v150.toNat, 0]

def k0_chk14 (v150 : BitVec 32) : Prop :=
  (∀ a, (k0_off28 v150) a + S1x1024.size a ≤ S50257x1024.size a)
instance k0_chk14.dec : ∀ (v150 : BitVec 32), Decidable (k0_chk14 v150) := fun v150 => decidable_of_iff' _ (Iff.of_eq (k0_chk14.eq_1 v150))
theorem k0_off28_inb : ∀ (v150 : BitVec 32) (k0_hw14 : k0_chk14 v150), ∀ a, (k0_off28 v150) a + S1x1024.size a ≤ S50257x1024.size a := fun v150 k0_hw14 => k0_hw14

def k0_off29 (i : grid0.Coords) : Fin 1 → Nat :=
  let arg0 : BitVec 32 := BitVec.ofNat 32 (i 0).val
  let c256_i32 : BitVec 32 := 256#32
  let v0 : BitVec 32 := Scalar.muli arg0 c256_i32
  let c14_i32 : BitVec 32 := 14#32
  let v163 : BitVec 32 := Scalar.addi v0 c14_i32
  let v164 : Index := Scalar.indexCast v163
  ![v164.toNat]
def k0_off30 (v165 : BitVec 32) : Fin 2 → Nat :=
  let c0_i32_94 : BitVec 32 := 0#32
  ![v165.toNat, 0]

def k0_chk15 (v165 : BitVec 32) : Prop :=
  (∀ a, (k0_off30 v165) a + S1x1024.size a ≤ S50257x1024.size a)
instance k0_chk15.dec : ∀ (v165 : BitVec 32), Decidable (k0_chk15 v165) := fun v165 => decidable_of_iff' _ (Iff.of_eq (k0_chk15.eq_1 v165))
theorem k0_off30_inb : ∀ (v165 : BitVec 32) (k0_hw15 : k0_chk15 v165), ∀ a, (k0_off30 v165) a + S1x1024.size a ≤ S50257x1024.size a := fun v165 k0_hw15 => k0_hw15

def k0_off31 (i : grid0.Coords) : Fin 1 → Nat :=
  let arg0 : BitVec 32 := BitVec.ofNat 32 (i 0).val
  let c256_i32 : BitVec 32 := 256#32
  let v0 : BitVec 32 := Scalar.muli arg0 c256_i32
  let c15_i32 : BitVec 32 := 15#32
  let v178 : BitVec 32 := Scalar.addi v0 c15_i32
  let v179 : Index := Scalar.indexCast v178
  ![v179.toNat]
def k0_off32 (v180 : BitVec 32) : Fin 2 → Nat :=
  let c0_i32_103 : BitVec 32 := 0#32
  ![v180.toNat, 0]

def k0_chk16 (v180 : BitVec 32) : Prop :=
  (∀ a, (k0_off32 v180) a + S1x1024.size a ≤ S50257x1024.size a)
instance k0_chk16.dec : ∀ (v180 : BitVec 32), Decidable (k0_chk16 v180) := fun v180 => decidable_of_iff' _ (Iff.of_eq (k0_chk16.eq_1 v180))
theorem k0_off32_inb : ∀ (v180 : BitVec 32) (k0_hw16 : k0_chk16 v180), ∀ a, (k0_off32 v180) a + S1x1024.size a ≤ S50257x1024.size a := fun v180 k0_hw16 => k0_hw16

def k0_off33 (i : grid0.Coords) : Fin 1 → Nat :=
  let arg0 : BitVec 32 := BitVec.ofNat 32 (i 0).val
  let c256_i32 : BitVec 32 := 256#32
  let v0 : BitVec 32 := Scalar.muli arg0 c256_i32
  let c16_i32 : BitVec 32 := 16#32
  let v193 : BitVec 32 := Scalar.addi v0 c16_i32
  let v194 : Index := Scalar.indexCast v193
  ![v194.toNat]
def k0_off34 (v195 : BitVec 32) : Fin 2 → Nat :=
  let c0_i32_112 : BitVec 32 := 0#32
  ![v195.toNat, 0]

def k0_chk17 (v195 : BitVec 32) : Prop :=
  (∀ a, (k0_off34 v195) a + S1x1024.size a ≤ S50257x1024.size a)
instance k0_chk17.dec : ∀ (v195 : BitVec 32), Decidable (k0_chk17 v195) := fun v195 => decidable_of_iff' _ (Iff.of_eq (k0_chk17.eq_1 v195))
theorem k0_off34_inb : ∀ (v195 : BitVec 32) (k0_hw17 : k0_chk17 v195), ∀ a, (k0_off34 v195) a + S1x1024.size a ≤ S50257x1024.size a := fun v195 k0_hw17 => k0_hw17

def k0_off35 (i : grid0.Coords) : Fin 1 → Nat :=
  let arg0 : BitVec 32 := BitVec.ofNat 32 (i 0).val
  let c256_i32 : BitVec 32 := 256#32
  let v0 : BitVec 32 := Scalar.muli arg0 c256_i32
  let c17_i32 : BitVec 32 := 17#32
  let v208 : BitVec 32 := Scalar.addi v0 c17_i32
  let v209 : Index := Scalar.indexCast v208
  ![v209.toNat]
def k0_off36 (v210 : BitVec 32) : Fin 2 → Nat :=
  let c0_i32_121 : BitVec 32 := 0#32
  ![v210.toNat, 0]

def k0_chk18 (v210 : BitVec 32) : Prop :=
  (∀ a, (k0_off36 v210) a + S1x1024.size a ≤ S50257x1024.size a)
instance k0_chk18.dec : ∀ (v210 : BitVec 32), Decidable (k0_chk18 v210) := fun v210 => decidable_of_iff' _ (Iff.of_eq (k0_chk18.eq_1 v210))
theorem k0_off36_inb : ∀ (v210 : BitVec 32) (k0_hw18 : k0_chk18 v210), ∀ a, (k0_off36 v210) a + S1x1024.size a ≤ S50257x1024.size a := fun v210 k0_hw18 => k0_hw18

def k0_off37 (i : grid0.Coords) : Fin 1 → Nat :=
  let arg0 : BitVec 32 := BitVec.ofNat 32 (i 0).val
  let c256_i32 : BitVec 32 := 256#32
  let v0 : BitVec 32 := Scalar.muli arg0 c256_i32
  let c18_i32 : BitVec 32 := 18#32
  let v223 : BitVec 32 := Scalar.addi v0 c18_i32
  let v224 : Index := Scalar.indexCast v223
  ![v224.toNat]
def k0_off38 (v225 : BitVec 32) : Fin 2 → Nat :=
  let c0_i32_130 : BitVec 32 := 0#32
  ![v225.toNat, 0]

def k0_chk19 (v225 : BitVec 32) : Prop :=
  (∀ a, (k0_off38 v225) a + S1x1024.size a ≤ S50257x1024.size a)
instance k0_chk19.dec : ∀ (v225 : BitVec 32), Decidable (k0_chk19 v225) := fun v225 => decidable_of_iff' _ (Iff.of_eq (k0_chk19.eq_1 v225))
theorem k0_off38_inb : ∀ (v225 : BitVec 32) (k0_hw19 : k0_chk19 v225), ∀ a, (k0_off38 v225) a + S1x1024.size a ≤ S50257x1024.size a := fun v225 k0_hw19 => k0_hw19

def k0_off39 (i : grid0.Coords) : Fin 1 → Nat :=
  let arg0 : BitVec 32 := BitVec.ofNat 32 (i 0).val
  let c256_i32 : BitVec 32 := 256#32
  let v0 : BitVec 32 := Scalar.muli arg0 c256_i32
  let c19_i32 : BitVec 32 := 19#32
  let v238 : BitVec 32 := Scalar.addi v0 c19_i32
  let v239 : Index := Scalar.indexCast v238
  ![v239.toNat]
def k0_off40 (v240 : BitVec 32) : Fin 2 → Nat :=
  let c0_i32_139 : BitVec 32 := 0#32
  ![v240.toNat, 0]

def k0_chk20 (v240 : BitVec 32) : Prop :=
  (∀ a, (k0_off40 v240) a + S1x1024.size a ≤ S50257x1024.size a)
instance k0_chk20.dec : ∀ (v240 : BitVec 32), Decidable (k0_chk20 v240) := fun v240 => decidable_of_iff' _ (Iff.of_eq (k0_chk20.eq_1 v240))
theorem k0_off40_inb : ∀ (v240 : BitVec 32) (k0_hw20 : k0_chk20 v240), ∀ a, (k0_off40 v240) a + S1x1024.size a ≤ S50257x1024.size a := fun v240 k0_hw20 => k0_hw20

def k0_off41 (i : grid0.Coords) : Fin 1 → Nat :=
  let arg0 : BitVec 32 := BitVec.ofNat 32 (i 0).val
  let c256_i32 : BitVec 32 := 256#32
  let v0 : BitVec 32 := Scalar.muli arg0 c256_i32
  let c20_i32 : BitVec 32 := 20#32
  let v253 : BitVec 32 := Scalar.addi v0 c20_i32
  let v254 : Index := Scalar.indexCast v253
  ![v254.toNat]
def k0_off42 (v255 : BitVec 32) : Fin 2 → Nat :=
  let c0_i32_148 : BitVec 32 := 0#32
  ![v255.toNat, 0]

def k0_chk21 (v255 : BitVec 32) : Prop :=
  (∀ a, (k0_off42 v255) a + S1x1024.size a ≤ S50257x1024.size a)
instance k0_chk21.dec : ∀ (v255 : BitVec 32), Decidable (k0_chk21 v255) := fun v255 => decidable_of_iff' _ (Iff.of_eq (k0_chk21.eq_1 v255))
theorem k0_off42_inb : ∀ (v255 : BitVec 32) (k0_hw21 : k0_chk21 v255), ∀ a, (k0_off42 v255) a + S1x1024.size a ≤ S50257x1024.size a := fun v255 k0_hw21 => k0_hw21

def k0_off43 (i : grid0.Coords) : Fin 1 → Nat :=
  let arg0 : BitVec 32 := BitVec.ofNat 32 (i 0).val
  let c256_i32 : BitVec 32 := 256#32
  let v0 : BitVec 32 := Scalar.muli arg0 c256_i32
  let c21_i32 : BitVec 32 := 21#32
  let v268 : BitVec 32 := Scalar.addi v0 c21_i32
  let v269 : Index := Scalar.indexCast v268
  ![v269.toNat]
def k0_off44 (v270 : BitVec 32) : Fin 2 → Nat :=
  let c0_i32_157 : BitVec 32 := 0#32
  ![v270.toNat, 0]

def k0_chk22 (v270 : BitVec 32) : Prop :=
  (∀ a, (k0_off44 v270) a + S1x1024.size a ≤ S50257x1024.size a)
instance k0_chk22.dec : ∀ (v270 : BitVec 32), Decidable (k0_chk22 v270) := fun v270 => decidable_of_iff' _ (Iff.of_eq (k0_chk22.eq_1 v270))
theorem k0_off44_inb : ∀ (v270 : BitVec 32) (k0_hw22 : k0_chk22 v270), ∀ a, (k0_off44 v270) a + S1x1024.size a ≤ S50257x1024.size a := fun v270 k0_hw22 => k0_hw22

def k0_off45 (i : grid0.Coords) : Fin 1 → Nat :=
  let arg0 : BitVec 32 := BitVec.ofNat 32 (i 0).val
  let c256_i32 : BitVec 32 := 256#32
  let v0 : BitVec 32 := Scalar.muli arg0 c256_i32
  let c22_i32 : BitVec 32 := 22#32
  let v283 : BitVec 32 := Scalar.addi v0 c22_i32
  let v284 : Index := Scalar.indexCast v283
  ![v284.toNat]
def k0_off46 (v285 : BitVec 32) : Fin 2 → Nat :=
  let c0_i32_166 : BitVec 32 := 0#32
  ![v285.toNat, 0]

def k0_chk23 (v285 : BitVec 32) : Prop :=
  (∀ a, (k0_off46 v285) a + S1x1024.size a ≤ S50257x1024.size a)
instance k0_chk23.dec : ∀ (v285 : BitVec 32), Decidable (k0_chk23 v285) := fun v285 => decidable_of_iff' _ (Iff.of_eq (k0_chk23.eq_1 v285))
theorem k0_off46_inb : ∀ (v285 : BitVec 32) (k0_hw23 : k0_chk23 v285), ∀ a, (k0_off46 v285) a + S1x1024.size a ≤ S50257x1024.size a := fun v285 k0_hw23 => k0_hw23

def k0_off47 (i : grid0.Coords) : Fin 1 → Nat :=
  let arg0 : BitVec 32 := BitVec.ofNat 32 (i 0).val
  let c256_i32 : BitVec 32 := 256#32
  let v0 : BitVec 32 := Scalar.muli arg0 c256_i32
  let c23_i32 : BitVec 32 := 23#32
  let v298 : BitVec 32 := Scalar.addi v0 c23_i32
  let v299 : Index := Scalar.indexCast v298
  ![v299.toNat]
def k0_off48 (v300 : BitVec 32) : Fin 2 → Nat :=
  let c0_i32_175 : BitVec 32 := 0#32
  ![v300.toNat, 0]

def k0_chk24 (v300 : BitVec 32) : Prop :=
  (∀ a, (k0_off48 v300) a + S1x1024.size a ≤ S50257x1024.size a)
instance k0_chk24.dec : ∀ (v300 : BitVec 32), Decidable (k0_chk24 v300) := fun v300 => decidable_of_iff' _ (Iff.of_eq (k0_chk24.eq_1 v300))
theorem k0_off48_inb : ∀ (v300 : BitVec 32) (k0_hw24 : k0_chk24 v300), ∀ a, (k0_off48 v300) a + S1x1024.size a ≤ S50257x1024.size a := fun v300 k0_hw24 => k0_hw24

def k0_off49 (i : grid0.Coords) : Fin 1 → Nat :=
  let arg0 : BitVec 32 := BitVec.ofNat 32 (i 0).val
  let c256_i32 : BitVec 32 := 256#32
  let v0 : BitVec 32 := Scalar.muli arg0 c256_i32
  let c24_i32 : BitVec 32 := 24#32
  let v313 : BitVec 32 := Scalar.addi v0 c24_i32
  let v314 : Index := Scalar.indexCast v313
  ![v314.toNat]
def k0_off50 (v315 : BitVec 32) : Fin 2 → Nat :=
  let c0_i32_184 : BitVec 32 := 0#32
  ![v315.toNat, 0]

def k0_chk25 (v315 : BitVec 32) : Prop :=
  (∀ a, (k0_off50 v315) a + S1x1024.size a ≤ S50257x1024.size a)
instance k0_chk25.dec : ∀ (v315 : BitVec 32), Decidable (k0_chk25 v315) := fun v315 => decidable_of_iff' _ (Iff.of_eq (k0_chk25.eq_1 v315))
theorem k0_off50_inb : ∀ (v315 : BitVec 32) (k0_hw25 : k0_chk25 v315), ∀ a, (k0_off50 v315) a + S1x1024.size a ≤ S50257x1024.size a := fun v315 k0_hw25 => k0_hw25

def k0_off51 (i : grid0.Coords) : Fin 1 → Nat :=
  let arg0 : BitVec 32 := BitVec.ofNat 32 (i 0).val
  let c256_i32 : BitVec 32 := 256#32
  let v0 : BitVec 32 := Scalar.muli arg0 c256_i32
  let c25_i32 : BitVec 32 := 25#32
  let v328 : BitVec 32 := Scalar.addi v0 c25_i32
  let v329 : Index := Scalar.indexCast v328
  ![v329.toNat]
def k0_off52 (v330 : BitVec 32) : Fin 2 → Nat :=
  let c0_i32_193 : BitVec 32 := 0#32
  ![v330.toNat, 0]

def k0_chk26 (v330 : BitVec 32) : Prop :=
  (∀ a, (k0_off52 v330) a + S1x1024.size a ≤ S50257x1024.size a)
instance k0_chk26.dec : ∀ (v330 : BitVec 32), Decidable (k0_chk26 v330) := fun v330 => decidable_of_iff' _ (Iff.of_eq (k0_chk26.eq_1 v330))
theorem k0_off52_inb : ∀ (v330 : BitVec 32) (k0_hw26 : k0_chk26 v330), ∀ a, (k0_off52 v330) a + S1x1024.size a ≤ S50257x1024.size a := fun v330 k0_hw26 => k0_hw26

def k0_off53 (i : grid0.Coords) : Fin 1 → Nat :=
  let arg0 : BitVec 32 := BitVec.ofNat 32 (i 0).val
  let c256_i32 : BitVec 32 := 256#32
  let v0 : BitVec 32 := Scalar.muli arg0 c256_i32
  let c26_i32 : BitVec 32 := 26#32
  let v343 : BitVec 32 := Scalar.addi v0 c26_i32
  let v344 : Index := Scalar.indexCast v343
  ![v344.toNat]
def k0_off54 (v345 : BitVec 32) : Fin 2 → Nat :=
  let c0_i32_202 : BitVec 32 := 0#32
  ![v345.toNat, 0]

def k0_chk27 (v345 : BitVec 32) : Prop :=
  (∀ a, (k0_off54 v345) a + S1x1024.size a ≤ S50257x1024.size a)
instance k0_chk27.dec : ∀ (v345 : BitVec 32), Decidable (k0_chk27 v345) := fun v345 => decidable_of_iff' _ (Iff.of_eq (k0_chk27.eq_1 v345))
theorem k0_off54_inb : ∀ (v345 : BitVec 32) (k0_hw27 : k0_chk27 v345), ∀ a, (k0_off54 v345) a + S1x1024.size a ≤ S50257x1024.size a := fun v345 k0_hw27 => k0_hw27

def k0_off55 (i : grid0.Coords) : Fin 1 → Nat :=
  let arg0 : BitVec 32 := BitVec.ofNat 32 (i 0).val
  let c256_i32 : BitVec 32 := 256#32
  let v0 : BitVec 32 := Scalar.muli arg0 c256_i32
  let c27_i32 : BitVec 32 := 27#32
  let v358 : BitVec 32 := Scalar.addi v0 c27_i32
  let v359 : Index := Scalar.indexCast v358
  ![v359.toNat]
def k0_off56 (v360 : BitVec 32) : Fin 2 → Nat :=
  let c0_i32_211 : BitVec 32 := 0#32
  ![v360.toNat, 0]

def k0_chk28 (v360 : BitVec 32) : Prop :=
  (∀ a, (k0_off56 v360) a + S1x1024.size a ≤ S50257x1024.size a)
instance k0_chk28.dec : ∀ (v360 : BitVec 32), Decidable (k0_chk28 v360) := fun v360 => decidable_of_iff' _ (Iff.of_eq (k0_chk28.eq_1 v360))
theorem k0_off56_inb : ∀ (v360 : BitVec 32) (k0_hw28 : k0_chk28 v360), ∀ a, (k0_off56 v360) a + S1x1024.size a ≤ S50257x1024.size a := fun v360 k0_hw28 => k0_hw28

def k0_off57 (i : grid0.Coords) : Fin 1 → Nat :=
  let arg0 : BitVec 32 := BitVec.ofNat 32 (i 0).val
  let c256_i32 : BitVec 32 := 256#32
  let v0 : BitVec 32 := Scalar.muli arg0 c256_i32
  let c28_i32 : BitVec 32 := 28#32
  let v373 : BitVec 32 := Scalar.addi v0 c28_i32
  let v374 : Index := Scalar.indexCast v373
  ![v374.toNat]
def k0_off58 (v375 : BitVec 32) : Fin 2 → Nat :=
  let c0_i32_220 : BitVec 32 := 0#32
  ![v375.toNat, 0]

def k0_chk29 (v375 : BitVec 32) : Prop :=
  (∀ a, (k0_off58 v375) a + S1x1024.size a ≤ S50257x1024.size a)
instance k0_chk29.dec : ∀ (v375 : BitVec 32), Decidable (k0_chk29 v375) := fun v375 => decidable_of_iff' _ (Iff.of_eq (k0_chk29.eq_1 v375))
theorem k0_off58_inb : ∀ (v375 : BitVec 32) (k0_hw29 : k0_chk29 v375), ∀ a, (k0_off58 v375) a + S1x1024.size a ≤ S50257x1024.size a := fun v375 k0_hw29 => k0_hw29

def k0_off59 (i : grid0.Coords) : Fin 1 → Nat :=
  let arg0 : BitVec 32 := BitVec.ofNat 32 (i 0).val
  let c256_i32 : BitVec 32 := 256#32
  let v0 : BitVec 32 := Scalar.muli arg0 c256_i32
  let c29_i32 : BitVec 32 := 29#32
  let v388 : BitVec 32 := Scalar.addi v0 c29_i32
  let v389 : Index := Scalar.indexCast v388
  ![v389.toNat]
def k0_off60 (v390 : BitVec 32) : Fin 2 → Nat :=
  let c0_i32_229 : BitVec 32 := 0#32
  ![v390.toNat, 0]

def k0_chk30 (v390 : BitVec 32) : Prop :=
  (∀ a, (k0_off60 v390) a + S1x1024.size a ≤ S50257x1024.size a)
instance k0_chk30.dec : ∀ (v390 : BitVec 32), Decidable (k0_chk30 v390) := fun v390 => decidable_of_iff' _ (Iff.of_eq (k0_chk30.eq_1 v390))
theorem k0_off60_inb : ∀ (v390 : BitVec 32) (k0_hw30 : k0_chk30 v390), ∀ a, (k0_off60 v390) a + S1x1024.size a ≤ S50257x1024.size a := fun v390 k0_hw30 => k0_hw30

def k0_off61 (i : grid0.Coords) : Fin 1 → Nat :=
  let arg0 : BitVec 32 := BitVec.ofNat 32 (i 0).val
  let c256_i32 : BitVec 32 := 256#32
  let v0 : BitVec 32 := Scalar.muli arg0 c256_i32
  let c30_i32 : BitVec 32 := 30#32
  let v403 : BitVec 32 := Scalar.addi v0 c30_i32
  let v404 : Index := Scalar.indexCast v403
  ![v404.toNat]
def k0_off62 (v405 : BitVec 32) : Fin 2 → Nat :=
  let c0_i32_238 : BitVec 32 := 0#32
  ![v405.toNat, 0]

def k0_chk31 (v405 : BitVec 32) : Prop :=
  (∀ a, (k0_off62 v405) a + S1x1024.size a ≤ S50257x1024.size a)
instance k0_chk31.dec : ∀ (v405 : BitVec 32), Decidable (k0_chk31 v405) := fun v405 => decidable_of_iff' _ (Iff.of_eq (k0_chk31.eq_1 v405))
theorem k0_off62_inb : ∀ (v405 : BitVec 32) (k0_hw31 : k0_chk31 v405), ∀ a, (k0_off62 v405) a + S1x1024.size a ≤ S50257x1024.size a := fun v405 k0_hw31 => k0_hw31

def k0_off63 (i : grid0.Coords) : Fin 1 → Nat :=
  let arg0 : BitVec 32 := BitVec.ofNat 32 (i 0).val
  let c256_i32 : BitVec 32 := 256#32
  let v0 : BitVec 32 := Scalar.muli arg0 c256_i32
  let c31_i32 : BitVec 32 := 31#32
  let v418 : BitVec 32 := Scalar.addi v0 c31_i32
  let v419 : Index := Scalar.indexCast v418
  ![v419.toNat]
def k0_off64 (v420 : BitVec 32) : Fin 2 → Nat :=
  let c0_i32_247 : BitVec 32 := 0#32
  ![v420.toNat, 0]

def k0_chk32 (v420 : BitVec 32) : Prop :=
  (∀ a, (k0_off64 v420) a + S1x1024.size a ≤ S50257x1024.size a)
instance k0_chk32.dec : ∀ (v420 : BitVec 32), Decidable (k0_chk32 v420) := fun v420 => decidable_of_iff' _ (Iff.of_eq (k0_chk32.eq_1 v420))
theorem k0_off64_inb : ∀ (v420 : BitVec 32) (k0_hw32 : k0_chk32 v420), ∀ a, (k0_off64 v420) a + S1x1024.size a ≤ S50257x1024.size a := fun v420 k0_hw32 => k0_hw32

def k0_off65 (i : grid0.Coords) : Fin 1 → Nat :=
  let arg0 : BitVec 32 := BitVec.ofNat 32 (i 0).val
  let c256_i32 : BitVec 32 := 256#32
  let v0 : BitVec 32 := Scalar.muli arg0 c256_i32
  let c32_i32 : BitVec 32 := 32#32
  let v433 : BitVec 32 := Scalar.addi v0 c32_i32
  let v434 : Index := Scalar.indexCast v433
  ![v434.toNat]
def k0_off66 (v435 : BitVec 32) : Fin 2 → Nat :=
  let c0_i32_256 : BitVec 32 := 0#32
  ![v435.toNat, 0]

def k0_chk33 (v435 : BitVec 32) : Prop :=
  (∀ a, (k0_off66 v435) a + S1x1024.size a ≤ S50257x1024.size a)
instance k0_chk33.dec : ∀ (v435 : BitVec 32), Decidable (k0_chk33 v435) := fun v435 => decidable_of_iff' _ (Iff.of_eq (k0_chk33.eq_1 v435))
theorem k0_off66_inb : ∀ (v435 : BitVec 32) (k0_hw33 : k0_chk33 v435), ∀ a, (k0_off66 v435) a + S1x1024.size a ≤ S50257x1024.size a := fun v435 k0_hw33 => k0_hw33

def k0_off67 (i : grid0.Coords) : Fin 1 → Nat :=
  let arg0 : BitVec 32 := BitVec.ofNat 32 (i 0).val
  let c256_i32 : BitVec 32 := 256#32
  let v0 : BitVec 32 := Scalar.muli arg0 c256_i32
  let c33_i32 : BitVec 32 := 33#32
  let v448 : BitVec 32 := Scalar.addi v0 c33_i32
  let v449 : Index := Scalar.indexCast v448
  ![v449.toNat]
def k0_off68 (v450 : BitVec 32) : Fin 2 → Nat :=
  let c0_i32_265 : BitVec 32 := 0#32
  ![v450.toNat, 0]

def k0_chk34 (v450 : BitVec 32) : Prop :=
  (∀ a, (k0_off68 v450) a + S1x1024.size a ≤ S50257x1024.size a)
instance k0_chk34.dec : ∀ (v450 : BitVec 32), Decidable (k0_chk34 v450) := fun v450 => decidable_of_iff' _ (Iff.of_eq (k0_chk34.eq_1 v450))
theorem k0_off68_inb : ∀ (v450 : BitVec 32) (k0_hw34 : k0_chk34 v450), ∀ a, (k0_off68 v450) a + S1x1024.size a ≤ S50257x1024.size a := fun v450 k0_hw34 => k0_hw34

def k0_off69 (i : grid0.Coords) : Fin 1 → Nat :=
  let arg0 : BitVec 32 := BitVec.ofNat 32 (i 0).val
  let c256_i32 : BitVec 32 := 256#32
  let v0 : BitVec 32 := Scalar.muli arg0 c256_i32
  let c34_i32 : BitVec 32 := 34#32
  let v463 : BitVec 32 := Scalar.addi v0 c34_i32
  let v464 : Index := Scalar.indexCast v463
  ![v464.toNat]
def k0_off70 (v465 : BitVec 32) : Fin 2 → Nat :=
  let c0_i32_274 : BitVec 32 := 0#32
  ![v465.toNat, 0]

def k0_chk35 (v465 : BitVec 32) : Prop :=
  (∀ a, (k0_off70 v465) a + S1x1024.size a ≤ S50257x1024.size a)
instance k0_chk35.dec : ∀ (v465 : BitVec 32), Decidable (k0_chk35 v465) := fun v465 => decidable_of_iff' _ (Iff.of_eq (k0_chk35.eq_1 v465))
theorem k0_off70_inb : ∀ (v465 : BitVec 32) (k0_hw35 : k0_chk35 v465), ∀ a, (k0_off70 v465) a + S1x1024.size a ≤ S50257x1024.size a := fun v465 k0_hw35 => k0_hw35

def k0_off71 (i : grid0.Coords) : Fin 1 → Nat :=
  let arg0 : BitVec 32 := BitVec.ofNat 32 (i 0).val
  let c256_i32 : BitVec 32 := 256#32
  let v0 : BitVec 32 := Scalar.muli arg0 c256_i32
  let c35_i32 : BitVec 32 := 35#32
  let v478 : BitVec 32 := Scalar.addi v0 c35_i32
  let v479 : Index := Scalar.indexCast v478
  ![v479.toNat]
def k0_off72 (v480 : BitVec 32) : Fin 2 → Nat :=
  let c0_i32_283 : BitVec 32 := 0#32
  ![v480.toNat, 0]

def k0_chk36 (v480 : BitVec 32) : Prop :=
  (∀ a, (k0_off72 v480) a + S1x1024.size a ≤ S50257x1024.size a)
instance k0_chk36.dec : ∀ (v480 : BitVec 32), Decidable (k0_chk36 v480) := fun v480 => decidable_of_iff' _ (Iff.of_eq (k0_chk36.eq_1 v480))
theorem k0_off72_inb : ∀ (v480 : BitVec 32) (k0_hw36 : k0_chk36 v480), ∀ a, (k0_off72 v480) a + S1x1024.size a ≤ S50257x1024.size a := fun v480 k0_hw36 => k0_hw36

def k0_off73 (i : grid0.Coords) : Fin 1 → Nat :=
  let arg0 : BitVec 32 := BitVec.ofNat 32 (i 0).val
  let c256_i32 : BitVec 32 := 256#32
  let v0 : BitVec 32 := Scalar.muli arg0 c256_i32
  let c36_i32 : BitVec 32 := 36#32
  let v493 : BitVec 32 := Scalar.addi v0 c36_i32
  let v494 : Index := Scalar.indexCast v493
  ![v494.toNat]
def k0_off74 (v495 : BitVec 32) : Fin 2 → Nat :=
  let c0_i32_292 : BitVec 32 := 0#32
  ![v495.toNat, 0]

def k0_chk37 (v495 : BitVec 32) : Prop :=
  (∀ a, (k0_off74 v495) a + S1x1024.size a ≤ S50257x1024.size a)
instance k0_chk37.dec : ∀ (v495 : BitVec 32), Decidable (k0_chk37 v495) := fun v495 => decidable_of_iff' _ (Iff.of_eq (k0_chk37.eq_1 v495))
theorem k0_off74_inb : ∀ (v495 : BitVec 32) (k0_hw37 : k0_chk37 v495), ∀ a, (k0_off74 v495) a + S1x1024.size a ≤ S50257x1024.size a := fun v495 k0_hw37 => k0_hw37

def k0_off75 (i : grid0.Coords) : Fin 1 → Nat :=
  let arg0 : BitVec 32 := BitVec.ofNat 32 (i 0).val
  let c256_i32 : BitVec 32 := 256#32
  let v0 : BitVec 32 := Scalar.muli arg0 c256_i32
  let c37_i32 : BitVec 32 := 37#32
  let v508 : BitVec 32 := Scalar.addi v0 c37_i32
  let v509 : Index := Scalar.indexCast v508
  ![v509.toNat]
def k0_off76 (v510 : BitVec 32) : Fin 2 → Nat :=
  let c0_i32_301 : BitVec 32 := 0#32
  ![v510.toNat, 0]

def k0_chk38 (v510 : BitVec 32) : Prop :=
  (∀ a, (k0_off76 v510) a + S1x1024.size a ≤ S50257x1024.size a)
instance k0_chk38.dec : ∀ (v510 : BitVec 32), Decidable (k0_chk38 v510) := fun v510 => decidable_of_iff' _ (Iff.of_eq (k0_chk38.eq_1 v510))
theorem k0_off76_inb : ∀ (v510 : BitVec 32) (k0_hw38 : k0_chk38 v510), ∀ a, (k0_off76 v510) a + S1x1024.size a ≤ S50257x1024.size a := fun v510 k0_hw38 => k0_hw38

def k0_off77 (i : grid0.Coords) : Fin 1 → Nat :=
  let arg0 : BitVec 32 := BitVec.ofNat 32 (i 0).val
  let c256_i32 : BitVec 32 := 256#32
  let v0 : BitVec 32 := Scalar.muli arg0 c256_i32
  let c38_i32 : BitVec 32 := 38#32
  let v523 : BitVec 32 := Scalar.addi v0 c38_i32
  let v524 : Index := Scalar.indexCast v523
  ![v524.toNat]
def k0_off78 (v525 : BitVec 32) : Fin 2 → Nat :=
  let c0_i32_310 : BitVec 32 := 0#32
  ![v525.toNat, 0]

def k0_chk39 (v525 : BitVec 32) : Prop :=
  (∀ a, (k0_off78 v525) a + S1x1024.size a ≤ S50257x1024.size a)
instance k0_chk39.dec : ∀ (v525 : BitVec 32), Decidable (k0_chk39 v525) := fun v525 => decidable_of_iff' _ (Iff.of_eq (k0_chk39.eq_1 v525))
theorem k0_off78_inb : ∀ (v525 : BitVec 32) (k0_hw39 : k0_chk39 v525), ∀ a, (k0_off78 v525) a + S1x1024.size a ≤ S50257x1024.size a := fun v525 k0_hw39 => k0_hw39

def k0_off79 (i : grid0.Coords) : Fin 1 → Nat :=
  let arg0 : BitVec 32 := BitVec.ofNat 32 (i 0).val
  let c256_i32 : BitVec 32 := 256#32
  let v0 : BitVec 32 := Scalar.muli arg0 c256_i32
  let c39_i32 : BitVec 32 := 39#32
  let v538 : BitVec 32 := Scalar.addi v0 c39_i32
  let v539 : Index := Scalar.indexCast v538
  ![v539.toNat]
def k0_off80 (v540 : BitVec 32) : Fin 2 → Nat :=
  let c0_i32_319 : BitVec 32 := 0#32
  ![v540.toNat, 0]

def k0_chk40 (v540 : BitVec 32) : Prop :=
  (∀ a, (k0_off80 v540) a + S1x1024.size a ≤ S50257x1024.size a)
instance k0_chk40.dec : ∀ (v540 : BitVec 32), Decidable (k0_chk40 v540) := fun v540 => decidable_of_iff' _ (Iff.of_eq (k0_chk40.eq_1 v540))
theorem k0_off80_inb : ∀ (v540 : BitVec 32) (k0_hw40 : k0_chk40 v540), ∀ a, (k0_off80 v540) a + S1x1024.size a ≤ S50257x1024.size a := fun v540 k0_hw40 => k0_hw40

def k0_off81 (i : grid0.Coords) : Fin 1 → Nat :=
  let arg0 : BitVec 32 := BitVec.ofNat 32 (i 0).val
  let c256_i32 : BitVec 32 := 256#32
  let v0 : BitVec 32 := Scalar.muli arg0 c256_i32
  let c40_i32 : BitVec 32 := 40#32
  let v553 : BitVec 32 := Scalar.addi v0 c40_i32
  let v554 : Index := Scalar.indexCast v553
  ![v554.toNat]
def k0_off82 (v555 : BitVec 32) : Fin 2 → Nat :=
  let c0_i32_328 : BitVec 32 := 0#32
  ![v555.toNat, 0]

def k0_chk41 (v555 : BitVec 32) : Prop :=
  (∀ a, (k0_off82 v555) a + S1x1024.size a ≤ S50257x1024.size a)
instance k0_chk41.dec : ∀ (v555 : BitVec 32), Decidable (k0_chk41 v555) := fun v555 => decidable_of_iff' _ (Iff.of_eq (k0_chk41.eq_1 v555))
theorem k0_off82_inb : ∀ (v555 : BitVec 32) (k0_hw41 : k0_chk41 v555), ∀ a, (k0_off82 v555) a + S1x1024.size a ≤ S50257x1024.size a := fun v555 k0_hw41 => k0_hw41

def k0_off83 (i : grid0.Coords) : Fin 1 → Nat :=
  let arg0 : BitVec 32 := BitVec.ofNat 32 (i 0).val
  let c256_i32 : BitVec 32 := 256#32
  let v0 : BitVec 32 := Scalar.muli arg0 c256_i32
  let c41_i32 : BitVec 32 := 41#32
  let v568 : BitVec 32 := Scalar.addi v0 c41_i32
  let v569 : Index := Scalar.indexCast v568
  ![v569.toNat]
def k0_off84 (v570 : BitVec 32) : Fin 2 → Nat :=
  let c0_i32_337 : BitVec 32 := 0#32
  ![v570.toNat, 0]

def k0_chk42 (v570 : BitVec 32) : Prop :=
  (∀ a, (k0_off84 v570) a + S1x1024.size a ≤ S50257x1024.size a)
instance k0_chk42.dec : ∀ (v570 : BitVec 32), Decidable (k0_chk42 v570) := fun v570 => decidable_of_iff' _ (Iff.of_eq (k0_chk42.eq_1 v570))
theorem k0_off84_inb : ∀ (v570 : BitVec 32) (k0_hw42 : k0_chk42 v570), ∀ a, (k0_off84 v570) a + S1x1024.size a ≤ S50257x1024.size a := fun v570 k0_hw42 => k0_hw42

def k0_off85 (i : grid0.Coords) : Fin 1 → Nat :=
  let arg0 : BitVec 32 := BitVec.ofNat 32 (i 0).val
  let c256_i32 : BitVec 32 := 256#32
  let v0 : BitVec 32 := Scalar.muli arg0 c256_i32
  let c42_i32 : BitVec 32 := 42#32
  let v583 : BitVec 32 := Scalar.addi v0 c42_i32
  let v584 : Index := Scalar.indexCast v583
  ![v584.toNat]
def k0_off86 (v585 : BitVec 32) : Fin 2 → Nat :=
  let c0_i32_346 : BitVec 32 := 0#32
  ![v585.toNat, 0]

def k0_chk43 (v585 : BitVec 32) : Prop :=
  (∀ a, (k0_off86 v585) a + S1x1024.size a ≤ S50257x1024.size a)
instance k0_chk43.dec : ∀ (v585 : BitVec 32), Decidable (k0_chk43 v585) := fun v585 => decidable_of_iff' _ (Iff.of_eq (k0_chk43.eq_1 v585))
theorem k0_off86_inb : ∀ (v585 : BitVec 32) (k0_hw43 : k0_chk43 v585), ∀ a, (k0_off86 v585) a + S1x1024.size a ≤ S50257x1024.size a := fun v585 k0_hw43 => k0_hw43

def k0_off87 (i : grid0.Coords) : Fin 1 → Nat :=
  let arg0 : BitVec 32 := BitVec.ofNat 32 (i 0).val
  let c256_i32 : BitVec 32 := 256#32
  let v0 : BitVec 32 := Scalar.muli arg0 c256_i32
  let c43_i32 : BitVec 32 := 43#32
  let v598 : BitVec 32 := Scalar.addi v0 c43_i32
  let v599 : Index := Scalar.indexCast v598
  ![v599.toNat]
def k0_off88 (v600 : BitVec 32) : Fin 2 → Nat :=
  let c0_i32_355 : BitVec 32 := 0#32
  ![v600.toNat, 0]

def k0_chk44 (v600 : BitVec 32) : Prop :=
  (∀ a, (k0_off88 v600) a + S1x1024.size a ≤ S50257x1024.size a)
instance k0_chk44.dec : ∀ (v600 : BitVec 32), Decidable (k0_chk44 v600) := fun v600 => decidable_of_iff' _ (Iff.of_eq (k0_chk44.eq_1 v600))
theorem k0_off88_inb : ∀ (v600 : BitVec 32) (k0_hw44 : k0_chk44 v600), ∀ a, (k0_off88 v600) a + S1x1024.size a ≤ S50257x1024.size a := fun v600 k0_hw44 => k0_hw44

def k0_off89 (i : grid0.Coords) : Fin 1 → Nat :=
  let arg0 : BitVec 32 := BitVec.ofNat 32 (i 0).val
  let c256_i32 : BitVec 32 := 256#32
  let v0 : BitVec 32 := Scalar.muli arg0 c256_i32
  let c44_i32 : BitVec 32 := 44#32
  let v613 : BitVec 32 := Scalar.addi v0 c44_i32
  let v614 : Index := Scalar.indexCast v613
  ![v614.toNat]
def k0_off90 (v615 : BitVec 32) : Fin 2 → Nat :=
  let c0_i32_364 : BitVec 32 := 0#32
  ![v615.toNat, 0]

def k0_chk45 (v615 : BitVec 32) : Prop :=
  (∀ a, (k0_off90 v615) a + S1x1024.size a ≤ S50257x1024.size a)
instance k0_chk45.dec : ∀ (v615 : BitVec 32), Decidable (k0_chk45 v615) := fun v615 => decidable_of_iff' _ (Iff.of_eq (k0_chk45.eq_1 v615))
theorem k0_off90_inb : ∀ (v615 : BitVec 32) (k0_hw45 : k0_chk45 v615), ∀ a, (k0_off90 v615) a + S1x1024.size a ≤ S50257x1024.size a := fun v615 k0_hw45 => k0_hw45

def k0_off91 (i : grid0.Coords) : Fin 1 → Nat :=
  let arg0 : BitVec 32 := BitVec.ofNat 32 (i 0).val
  let c256_i32 : BitVec 32 := 256#32
  let v0 : BitVec 32 := Scalar.muli arg0 c256_i32
  let c45_i32 : BitVec 32 := 45#32
  let v628 : BitVec 32 := Scalar.addi v0 c45_i32
  let v629 : Index := Scalar.indexCast v628
  ![v629.toNat]
def k0_off92 (v630 : BitVec 32) : Fin 2 → Nat :=
  let c0_i32_373 : BitVec 32 := 0#32
  ![v630.toNat, 0]

def k0_chk46 (v630 : BitVec 32) : Prop :=
  (∀ a, (k0_off92 v630) a + S1x1024.size a ≤ S50257x1024.size a)
instance k0_chk46.dec : ∀ (v630 : BitVec 32), Decidable (k0_chk46 v630) := fun v630 => decidable_of_iff' _ (Iff.of_eq (k0_chk46.eq_1 v630))
theorem k0_off92_inb : ∀ (v630 : BitVec 32) (k0_hw46 : k0_chk46 v630), ∀ a, (k0_off92 v630) a + S1x1024.size a ≤ S50257x1024.size a := fun v630 k0_hw46 => k0_hw46

def k0_off93 (i : grid0.Coords) : Fin 1 → Nat :=
  let arg0 : BitVec 32 := BitVec.ofNat 32 (i 0).val
  let c256_i32 : BitVec 32 := 256#32
  let v0 : BitVec 32 := Scalar.muli arg0 c256_i32
  let c46_i32 : BitVec 32 := 46#32
  let v643 : BitVec 32 := Scalar.addi v0 c46_i32
  let v644 : Index := Scalar.indexCast v643
  ![v644.toNat]
def k0_off94 (v645 : BitVec 32) : Fin 2 → Nat :=
  let c0_i32_382 : BitVec 32 := 0#32
  ![v645.toNat, 0]

def k0_chk47 (v645 : BitVec 32) : Prop :=
  (∀ a, (k0_off94 v645) a + S1x1024.size a ≤ S50257x1024.size a)
instance k0_chk47.dec : ∀ (v645 : BitVec 32), Decidable (k0_chk47 v645) := fun v645 => decidable_of_iff' _ (Iff.of_eq (k0_chk47.eq_1 v645))
theorem k0_off94_inb : ∀ (v645 : BitVec 32) (k0_hw47 : k0_chk47 v645), ∀ a, (k0_off94 v645) a + S1x1024.size a ≤ S50257x1024.size a := fun v645 k0_hw47 => k0_hw47

def k0_off95 (i : grid0.Coords) : Fin 1 → Nat :=
  let arg0 : BitVec 32 := BitVec.ofNat 32 (i 0).val
  let c256_i32 : BitVec 32 := 256#32
  let v0 : BitVec 32 := Scalar.muli arg0 c256_i32
  let c47_i32 : BitVec 32 := 47#32
  let v658 : BitVec 32 := Scalar.addi v0 c47_i32
  let v659 : Index := Scalar.indexCast v658
  ![v659.toNat]
def k0_off96 (v660 : BitVec 32) : Fin 2 → Nat :=
  let c0_i32_391 : BitVec 32 := 0#32
  ![v660.toNat, 0]

def k0_chk48 (v660 : BitVec 32) : Prop :=
  (∀ a, (k0_off96 v660) a + S1x1024.size a ≤ S50257x1024.size a)
instance k0_chk48.dec : ∀ (v660 : BitVec 32), Decidable (k0_chk48 v660) := fun v660 => decidable_of_iff' _ (Iff.of_eq (k0_chk48.eq_1 v660))
theorem k0_off96_inb : ∀ (v660 : BitVec 32) (k0_hw48 : k0_chk48 v660), ∀ a, (k0_off96 v660) a + S1x1024.size a ≤ S50257x1024.size a := fun v660 k0_hw48 => k0_hw48

def k0_off97 (i : grid0.Coords) : Fin 1 → Nat :=
  let arg0 : BitVec 32 := BitVec.ofNat 32 (i 0).val
  let c256_i32 : BitVec 32 := 256#32
  let v0 : BitVec 32 := Scalar.muli arg0 c256_i32
  let c48_i32 : BitVec 32 := 48#32
  let v673 : BitVec 32 := Scalar.addi v0 c48_i32
  let v674 : Index := Scalar.indexCast v673
  ![v674.toNat]
def k0_off98 (v675 : BitVec 32) : Fin 2 → Nat :=
  let c0_i32_400 : BitVec 32 := 0#32
  ![v675.toNat, 0]

def k0_chk49 (v675 : BitVec 32) : Prop :=
  (∀ a, (k0_off98 v675) a + S1x1024.size a ≤ S50257x1024.size a)
instance k0_chk49.dec : ∀ (v675 : BitVec 32), Decidable (k0_chk49 v675) := fun v675 => decidable_of_iff' _ (Iff.of_eq (k0_chk49.eq_1 v675))
theorem k0_off98_inb : ∀ (v675 : BitVec 32) (k0_hw49 : k0_chk49 v675), ∀ a, (k0_off98 v675) a + S1x1024.size a ≤ S50257x1024.size a := fun v675 k0_hw49 => k0_hw49

def k0_off99 (i : grid0.Coords) : Fin 1 → Nat :=
  let arg0 : BitVec 32 := BitVec.ofNat 32 (i 0).val
  let c256_i32 : BitVec 32 := 256#32
  let v0 : BitVec 32 := Scalar.muli arg0 c256_i32
  let c49_i32 : BitVec 32 := 49#32
  let v688 : BitVec 32 := Scalar.addi v0 c49_i32
  let v689 : Index := Scalar.indexCast v688
  ![v689.toNat]
def k0_off100 (v690 : BitVec 32) : Fin 2 → Nat :=
  let c0_i32_409 : BitVec 32 := 0#32
  ![v690.toNat, 0]

def k0_chk50 (v690 : BitVec 32) : Prop :=
  (∀ a, (k0_off100 v690) a + S1x1024.size a ≤ S50257x1024.size a)
instance k0_chk50.dec : ∀ (v690 : BitVec 32), Decidable (k0_chk50 v690) := fun v690 => decidable_of_iff' _ (Iff.of_eq (k0_chk50.eq_1 v690))
theorem k0_off100_inb : ∀ (v690 : BitVec 32) (k0_hw50 : k0_chk50 v690), ∀ a, (k0_off100 v690) a + S1x1024.size a ≤ S50257x1024.size a := fun v690 k0_hw50 => k0_hw50

def k0_off101 (i : grid0.Coords) : Fin 1 → Nat :=
  let arg0 : BitVec 32 := BitVec.ofNat 32 (i 0).val
  let c256_i32 : BitVec 32 := 256#32
  let v0 : BitVec 32 := Scalar.muli arg0 c256_i32
  let c50_i32 : BitVec 32 := 50#32
  let v703 : BitVec 32 := Scalar.addi v0 c50_i32
  let v704 : Index := Scalar.indexCast v703
  ![v704.toNat]
def k0_off102 (v705 : BitVec 32) : Fin 2 → Nat :=
  let c0_i32_418 : BitVec 32 := 0#32
  ![v705.toNat, 0]

def k0_chk51 (v705 : BitVec 32) : Prop :=
  (∀ a, (k0_off102 v705) a + S1x1024.size a ≤ S50257x1024.size a)
instance k0_chk51.dec : ∀ (v705 : BitVec 32), Decidable (k0_chk51 v705) := fun v705 => decidable_of_iff' _ (Iff.of_eq (k0_chk51.eq_1 v705))
theorem k0_off102_inb : ∀ (v705 : BitVec 32) (k0_hw51 : k0_chk51 v705), ∀ a, (k0_off102 v705) a + S1x1024.size a ≤ S50257x1024.size a := fun v705 k0_hw51 => k0_hw51

def k0_off103 (i : grid0.Coords) : Fin 1 → Nat :=
  let arg0 : BitVec 32 := BitVec.ofNat 32 (i 0).val
  let c256_i32 : BitVec 32 := 256#32
  let v0 : BitVec 32 := Scalar.muli arg0 c256_i32
  let c51_i32 : BitVec 32 := 51#32
  let v718 : BitVec 32 := Scalar.addi v0 c51_i32
  let v719 : Index := Scalar.indexCast v718
  ![v719.toNat]
def k0_off104 (v720 : BitVec 32) : Fin 2 → Nat :=
  let c0_i32_427 : BitVec 32 := 0#32
  ![v720.toNat, 0]

def k0_chk52 (v720 : BitVec 32) : Prop :=
  (∀ a, (k0_off104 v720) a + S1x1024.size a ≤ S50257x1024.size a)
instance k0_chk52.dec : ∀ (v720 : BitVec 32), Decidable (k0_chk52 v720) := fun v720 => decidable_of_iff' _ (Iff.of_eq (k0_chk52.eq_1 v720))
theorem k0_off104_inb : ∀ (v720 : BitVec 32) (k0_hw52 : k0_chk52 v720), ∀ a, (k0_off104 v720) a + S1x1024.size a ≤ S50257x1024.size a := fun v720 k0_hw52 => k0_hw52

def k0_off105 (i : grid0.Coords) : Fin 1 → Nat :=
  let arg0 : BitVec 32 := BitVec.ofNat 32 (i 0).val
  let c256_i32 : BitVec 32 := 256#32
  let v0 : BitVec 32 := Scalar.muli arg0 c256_i32
  let c52_i32 : BitVec 32 := 52#32
  let v733 : BitVec 32 := Scalar.addi v0 c52_i32
  let v734 : Index := Scalar.indexCast v733
  ![v734.toNat]
def k0_off106 (v735 : BitVec 32) : Fin 2 → Nat :=
  let c0_i32_436 : BitVec 32 := 0#32
  ![v735.toNat, 0]

def k0_chk53 (v735 : BitVec 32) : Prop :=
  (∀ a, (k0_off106 v735) a + S1x1024.size a ≤ S50257x1024.size a)
instance k0_chk53.dec : ∀ (v735 : BitVec 32), Decidable (k0_chk53 v735) := fun v735 => decidable_of_iff' _ (Iff.of_eq (k0_chk53.eq_1 v735))
theorem k0_off106_inb : ∀ (v735 : BitVec 32) (k0_hw53 : k0_chk53 v735), ∀ a, (k0_off106 v735) a + S1x1024.size a ≤ S50257x1024.size a := fun v735 k0_hw53 => k0_hw53

def k0_off107 (i : grid0.Coords) : Fin 1 → Nat :=
  let arg0 : BitVec 32 := BitVec.ofNat 32 (i 0).val
  let c256_i32 : BitVec 32 := 256#32
  let v0 : BitVec 32 := Scalar.muli arg0 c256_i32
  let c53_i32 : BitVec 32 := 53#32
  let v748 : BitVec 32 := Scalar.addi v0 c53_i32
  let v749 : Index := Scalar.indexCast v748
  ![v749.toNat]
def k0_off108 (v750 : BitVec 32) : Fin 2 → Nat :=
  let c0_i32_445 : BitVec 32 := 0#32
  ![v750.toNat, 0]

def k0_chk54 (v750 : BitVec 32) : Prop :=
  (∀ a, (k0_off108 v750) a + S1x1024.size a ≤ S50257x1024.size a)
instance k0_chk54.dec : ∀ (v750 : BitVec 32), Decidable (k0_chk54 v750) := fun v750 => decidable_of_iff' _ (Iff.of_eq (k0_chk54.eq_1 v750))
theorem k0_off108_inb : ∀ (v750 : BitVec 32) (k0_hw54 : k0_chk54 v750), ∀ a, (k0_off108 v750) a + S1x1024.size a ≤ S50257x1024.size a := fun v750 k0_hw54 => k0_hw54

def k0_off109 (i : grid0.Coords) : Fin 1 → Nat :=
  let arg0 : BitVec 32 := BitVec.ofNat 32 (i 0).val
  let c256_i32 : BitVec 32 := 256#32
  let v0 : BitVec 32 := Scalar.muli arg0 c256_i32
  let c54_i32 : BitVec 32 := 54#32
  let v763 : BitVec 32 := Scalar.addi v0 c54_i32
  let v764 : Index := Scalar.indexCast v763
  ![v764.toNat]
def k0_off110 (v765 : BitVec 32) : Fin 2 → Nat :=
  let c0_i32_454 : BitVec 32 := 0#32
  ![v765.toNat, 0]

def k0_chk55 (v765 : BitVec 32) : Prop :=
  (∀ a, (k0_off110 v765) a + S1x1024.size a ≤ S50257x1024.size a)
instance k0_chk55.dec : ∀ (v765 : BitVec 32), Decidable (k0_chk55 v765) := fun v765 => decidable_of_iff' _ (Iff.of_eq (k0_chk55.eq_1 v765))
theorem k0_off110_inb : ∀ (v765 : BitVec 32) (k0_hw55 : k0_chk55 v765), ∀ a, (k0_off110 v765) a + S1x1024.size a ≤ S50257x1024.size a := fun v765 k0_hw55 => k0_hw55

def k0_off111 (i : grid0.Coords) : Fin 1 → Nat :=
  let arg0 : BitVec 32 := BitVec.ofNat 32 (i 0).val
  let c256_i32 : BitVec 32 := 256#32
  let v0 : BitVec 32 := Scalar.muli arg0 c256_i32
  let c55_i32 : BitVec 32 := 55#32
  let v778 : BitVec 32 := Scalar.addi v0 c55_i32
  let v779 : Index := Scalar.indexCast v778
  ![v779.toNat]
def k0_off112 (v780 : BitVec 32) : Fin 2 → Nat :=
  let c0_i32_463 : BitVec 32 := 0#32
  ![v780.toNat, 0]

def k0_chk56 (v780 : BitVec 32) : Prop :=
  (∀ a, (k0_off112 v780) a + S1x1024.size a ≤ S50257x1024.size a)
instance k0_chk56.dec : ∀ (v780 : BitVec 32), Decidable (k0_chk56 v780) := fun v780 => decidable_of_iff' _ (Iff.of_eq (k0_chk56.eq_1 v780))
theorem k0_off112_inb : ∀ (v780 : BitVec 32) (k0_hw56 : k0_chk56 v780), ∀ a, (k0_off112 v780) a + S1x1024.size a ≤ S50257x1024.size a := fun v780 k0_hw56 => k0_hw56

def k0_off113 (i : grid0.Coords) : Fin 1 → Nat :=
  let arg0 : BitVec 32 := BitVec.ofNat 32 (i 0).val
  let c256_i32 : BitVec 32 := 256#32
  let v0 : BitVec 32 := Scalar.muli arg0 c256_i32
  let c56_i32 : BitVec 32 := 56#32
  let v793 : BitVec 32 := Scalar.addi v0 c56_i32
  let v794 : Index := Scalar.indexCast v793
  ![v794.toNat]
def k0_off114 (v795 : BitVec 32) : Fin 2 → Nat :=
  let c0_i32_472 : BitVec 32 := 0#32
  ![v795.toNat, 0]

def k0_chk57 (v795 : BitVec 32) : Prop :=
  (∀ a, (k0_off114 v795) a + S1x1024.size a ≤ S50257x1024.size a)
instance k0_chk57.dec : ∀ (v795 : BitVec 32), Decidable (k0_chk57 v795) := fun v795 => decidable_of_iff' _ (Iff.of_eq (k0_chk57.eq_1 v795))
theorem k0_off114_inb : ∀ (v795 : BitVec 32) (k0_hw57 : k0_chk57 v795), ∀ a, (k0_off114 v795) a + S1x1024.size a ≤ S50257x1024.size a := fun v795 k0_hw57 => k0_hw57

def k0_off115 (i : grid0.Coords) : Fin 1 → Nat :=
  let arg0 : BitVec 32 := BitVec.ofNat 32 (i 0).val
  let c256_i32 : BitVec 32 := 256#32
  let v0 : BitVec 32 := Scalar.muli arg0 c256_i32
  let c57_i32 : BitVec 32 := 57#32
  let v808 : BitVec 32 := Scalar.addi v0 c57_i32
  let v809 : Index := Scalar.indexCast v808
  ![v809.toNat]
def k0_off116 (v810 : BitVec 32) : Fin 2 → Nat :=
  let c0_i32_481 : BitVec 32 := 0#32
  ![v810.toNat, 0]

def k0_chk58 (v810 : BitVec 32) : Prop :=
  (∀ a, (k0_off116 v810) a + S1x1024.size a ≤ S50257x1024.size a)
instance k0_chk58.dec : ∀ (v810 : BitVec 32), Decidable (k0_chk58 v810) := fun v810 => decidable_of_iff' _ (Iff.of_eq (k0_chk58.eq_1 v810))
theorem k0_off116_inb : ∀ (v810 : BitVec 32) (k0_hw58 : k0_chk58 v810), ∀ a, (k0_off116 v810) a + S1x1024.size a ≤ S50257x1024.size a := fun v810 k0_hw58 => k0_hw58

def k0_off117 (i : grid0.Coords) : Fin 1 → Nat :=
  let arg0 : BitVec 32 := BitVec.ofNat 32 (i 0).val
  let c256_i32 : BitVec 32 := 256#32
  let v0 : BitVec 32 := Scalar.muli arg0 c256_i32
  let c58_i32 : BitVec 32 := 58#32
  let v823 : BitVec 32 := Scalar.addi v0 c58_i32
  let v824 : Index := Scalar.indexCast v823
  ![v824.toNat]
def k0_off118 (v825 : BitVec 32) : Fin 2 → Nat :=
  let c0_i32_490 : BitVec 32 := 0#32
  ![v825.toNat, 0]

def k0_chk59 (v825 : BitVec 32) : Prop :=
  (∀ a, (k0_off118 v825) a + S1x1024.size a ≤ S50257x1024.size a)
instance k0_chk59.dec : ∀ (v825 : BitVec 32), Decidable (k0_chk59 v825) := fun v825 => decidable_of_iff' _ (Iff.of_eq (k0_chk59.eq_1 v825))
theorem k0_off118_inb : ∀ (v825 : BitVec 32) (k0_hw59 : k0_chk59 v825), ∀ a, (k0_off118 v825) a + S1x1024.size a ≤ S50257x1024.size a := fun v825 k0_hw59 => k0_hw59

def k0_off119 (i : grid0.Coords) : Fin 1 → Nat :=
  let arg0 : BitVec 32 := BitVec.ofNat 32 (i 0).val
  let c256_i32 : BitVec 32 := 256#32
  let v0 : BitVec 32 := Scalar.muli arg0 c256_i32
  let c59_i32 : BitVec 32 := 59#32
  let v838 : BitVec 32 := Scalar.addi v0 c59_i32
  let v839 : Index := Scalar.indexCast v838
  ![v839.toNat]
def k0_off120 (v840 : BitVec 32) : Fin 2 → Nat :=
  let c0_i32_499 : BitVec 32 := 0#32
  ![v840.toNat, 0]

def k0_chk60 (v840 : BitVec 32) : Prop :=
  (∀ a, (k0_off120 v840) a + S1x1024.size a ≤ S50257x1024.size a)
instance k0_chk60.dec : ∀ (v840 : BitVec 32), Decidable (k0_chk60 v840) := fun v840 => decidable_of_iff' _ (Iff.of_eq (k0_chk60.eq_1 v840))
theorem k0_off120_inb : ∀ (v840 : BitVec 32) (k0_hw60 : k0_chk60 v840), ∀ a, (k0_off120 v840) a + S1x1024.size a ≤ S50257x1024.size a := fun v840 k0_hw60 => k0_hw60

def k0_off121 (i : grid0.Coords) : Fin 1 → Nat :=
  let arg0 : BitVec 32 := BitVec.ofNat 32 (i 0).val
  let c256_i32 : BitVec 32 := 256#32
  let v0 : BitVec 32 := Scalar.muli arg0 c256_i32
  let c60_i32 : BitVec 32 := 60#32
  let v853 : BitVec 32 := Scalar.addi v0 c60_i32
  let v854 : Index := Scalar.indexCast v853
  ![v854.toNat]
def k0_off122 (v855 : BitVec 32) : Fin 2 → Nat :=
  let c0_i32_508 : BitVec 32 := 0#32
  ![v855.toNat, 0]

def k0_chk61 (v855 : BitVec 32) : Prop :=
  (∀ a, (k0_off122 v855) a + S1x1024.size a ≤ S50257x1024.size a)
instance k0_chk61.dec : ∀ (v855 : BitVec 32), Decidable (k0_chk61 v855) := fun v855 => decidable_of_iff' _ (Iff.of_eq (k0_chk61.eq_1 v855))
theorem k0_off122_inb : ∀ (v855 : BitVec 32) (k0_hw61 : k0_chk61 v855), ∀ a, (k0_off122 v855) a + S1x1024.size a ≤ S50257x1024.size a := fun v855 k0_hw61 => k0_hw61

def k0_off123 (i : grid0.Coords) : Fin 1 → Nat :=
  let arg0 : BitVec 32 := BitVec.ofNat 32 (i 0).val
  let c256_i32 : BitVec 32 := 256#32
  let v0 : BitVec 32 := Scalar.muli arg0 c256_i32
  let c61_i32 : BitVec 32 := 61#32
  let v868 : BitVec 32 := Scalar.addi v0 c61_i32
  let v869 : Index := Scalar.indexCast v868
  ![v869.toNat]
def k0_off124 (v870 : BitVec 32) : Fin 2 → Nat :=
  let c0_i32_517 : BitVec 32 := 0#32
  ![v870.toNat, 0]

def k0_chk62 (v870 : BitVec 32) : Prop :=
  (∀ a, (k0_off124 v870) a + S1x1024.size a ≤ S50257x1024.size a)
instance k0_chk62.dec : ∀ (v870 : BitVec 32), Decidable (k0_chk62 v870) := fun v870 => decidable_of_iff' _ (Iff.of_eq (k0_chk62.eq_1 v870))
theorem k0_off124_inb : ∀ (v870 : BitVec 32) (k0_hw62 : k0_chk62 v870), ∀ a, (k0_off124 v870) a + S1x1024.size a ≤ S50257x1024.size a := fun v870 k0_hw62 => k0_hw62

def k0_off125 (i : grid0.Coords) : Fin 1 → Nat :=
  let arg0 : BitVec 32 := BitVec.ofNat 32 (i 0).val
  let c256_i32 : BitVec 32 := 256#32
  let v0 : BitVec 32 := Scalar.muli arg0 c256_i32
  let c62_i32 : BitVec 32 := 62#32
  let v883 : BitVec 32 := Scalar.addi v0 c62_i32
  let v884 : Index := Scalar.indexCast v883
  ![v884.toNat]
def k0_off126 (v885 : BitVec 32) : Fin 2 → Nat :=
  let c0_i32_526 : BitVec 32 := 0#32
  ![v885.toNat, 0]

def k0_chk63 (v885 : BitVec 32) : Prop :=
  (∀ a, (k0_off126 v885) a + S1x1024.size a ≤ S50257x1024.size a)
instance k0_chk63.dec : ∀ (v885 : BitVec 32), Decidable (k0_chk63 v885) := fun v885 => decidable_of_iff' _ (Iff.of_eq (k0_chk63.eq_1 v885))
theorem k0_off126_inb : ∀ (v885 : BitVec 32) (k0_hw63 : k0_chk63 v885), ∀ a, (k0_off126 v885) a + S1x1024.size a ≤ S50257x1024.size a := fun v885 k0_hw63 => k0_hw63

def k0_off127 (i : grid0.Coords) : Fin 1 → Nat :=
  let arg0 : BitVec 32 := BitVec.ofNat 32 (i 0).val
  let c256_i32 : BitVec 32 := 256#32
  let v0 : BitVec 32 := Scalar.muli arg0 c256_i32
  let c63_i32 : BitVec 32 := 63#32
  let v898 : BitVec 32 := Scalar.addi v0 c63_i32
  let v899 : Index := Scalar.indexCast v898
  ![v899.toNat]
def k0_off128 (v900 : BitVec 32) : Fin 2 → Nat :=
  let c0_i32_535 : BitVec 32 := 0#32
  ![v900.toNat, 0]

def k0_chk64 (v900 : BitVec 32) : Prop :=
  (∀ a, (k0_off128 v900) a + S1x1024.size a ≤ S50257x1024.size a)
instance k0_chk64.dec : ∀ (v900 : BitVec 32), Decidable (k0_chk64 v900) := fun v900 => decidable_of_iff' _ (Iff.of_eq (k0_chk64.eq_1 v900))
theorem k0_off128_inb : ∀ (v900 : BitVec 32) (k0_hw64 : k0_chk64 v900), ∀ a, (k0_off128 v900) a + S1x1024.size a ≤ S50257x1024.size a := fun v900 k0_hw64 => k0_hw64

def k0_off129 (i : grid0.Coords) : Fin 1 → Nat :=
  let arg0 : BitVec 32 := BitVec.ofNat 32 (i 0).val
  let c256_i32 : BitVec 32 := 256#32
  let v0 : BitVec 32 := Scalar.muli arg0 c256_i32
  let c64_i32 : BitVec 32 := 64#32
  let v913 : BitVec 32 := Scalar.addi v0 c64_i32
  let v914 : Index := Scalar.indexCast v913
  ![v914.toNat]
def k0_off130 (v915 : BitVec 32) : Fin 2 → Nat :=
  let c0_i32_544 : BitVec 32 := 0#32
  ![v915.toNat, 0]

def k0_chk65 (v915 : BitVec 32) : Prop :=
  (∀ a, (k0_off130 v915) a + S1x1024.size a ≤ S50257x1024.size a)
instance k0_chk65.dec : ∀ (v915 : BitVec 32), Decidable (k0_chk65 v915) := fun v915 => decidable_of_iff' _ (Iff.of_eq (k0_chk65.eq_1 v915))
theorem k0_off130_inb : ∀ (v915 : BitVec 32) (k0_hw65 : k0_chk65 v915), ∀ a, (k0_off130 v915) a + S1x1024.size a ≤ S50257x1024.size a := fun v915 k0_hw65 => k0_hw65

def k0_off131 (i : grid0.Coords) : Fin 1 → Nat :=
  let arg0 : BitVec 32 := BitVec.ofNat 32 (i 0).val
  let c256_i32 : BitVec 32 := 256#32
  let v0 : BitVec 32 := Scalar.muli arg0 c256_i32
  let c65_i32 : BitVec 32 := 65#32
  let v928 : BitVec 32 := Scalar.addi v0 c65_i32
  let v929 : Index := Scalar.indexCast v928
  ![v929.toNat]
def k0_off132 (v930 : BitVec 32) : Fin 2 → Nat :=
  let c0_i32_553 : BitVec 32 := 0#32
  ![v930.toNat, 0]

def k0_chk66 (v930 : BitVec 32) : Prop :=
  (∀ a, (k0_off132 v930) a + S1x1024.size a ≤ S50257x1024.size a)
instance k0_chk66.dec : ∀ (v930 : BitVec 32), Decidable (k0_chk66 v930) := fun v930 => decidable_of_iff' _ (Iff.of_eq (k0_chk66.eq_1 v930))
theorem k0_off132_inb : ∀ (v930 : BitVec 32) (k0_hw66 : k0_chk66 v930), ∀ a, (k0_off132 v930) a + S1x1024.size a ≤ S50257x1024.size a := fun v930 k0_hw66 => k0_hw66

def k0_off133 (i : grid0.Coords) : Fin 1 → Nat :=
  let arg0 : BitVec 32 := BitVec.ofNat 32 (i 0).val
  let c256_i32 : BitVec 32 := 256#32
  let v0 : BitVec 32 := Scalar.muli arg0 c256_i32
  let c66_i32 : BitVec 32 := 66#32
  let v943 : BitVec 32 := Scalar.addi v0 c66_i32
  let v944 : Index := Scalar.indexCast v943
  ![v944.toNat]
def k0_off134 (v945 : BitVec 32) : Fin 2 → Nat :=
  let c0_i32_562 : BitVec 32 := 0#32
  ![v945.toNat, 0]

def k0_chk67 (v945 : BitVec 32) : Prop :=
  (∀ a, (k0_off134 v945) a + S1x1024.size a ≤ S50257x1024.size a)
instance k0_chk67.dec : ∀ (v945 : BitVec 32), Decidable (k0_chk67 v945) := fun v945 => decidable_of_iff' _ (Iff.of_eq (k0_chk67.eq_1 v945))
theorem k0_off134_inb : ∀ (v945 : BitVec 32) (k0_hw67 : k0_chk67 v945), ∀ a, (k0_off134 v945) a + S1x1024.size a ≤ S50257x1024.size a := fun v945 k0_hw67 => k0_hw67

def k0_off135 (i : grid0.Coords) : Fin 1 → Nat :=
  let arg0 : BitVec 32 := BitVec.ofNat 32 (i 0).val
  let c256_i32 : BitVec 32 := 256#32
  let v0 : BitVec 32 := Scalar.muli arg0 c256_i32
  let c67_i32 : BitVec 32 := 67#32
  let v958 : BitVec 32 := Scalar.addi v0 c67_i32
  let v959 : Index := Scalar.indexCast v958
  ![v959.toNat]
def k0_off136 (v960 : BitVec 32) : Fin 2 → Nat :=
  let c0_i32_571 : BitVec 32 := 0#32
  ![v960.toNat, 0]

def k0_chk68 (v960 : BitVec 32) : Prop :=
  (∀ a, (k0_off136 v960) a + S1x1024.size a ≤ S50257x1024.size a)
instance k0_chk68.dec : ∀ (v960 : BitVec 32), Decidable (k0_chk68 v960) := fun v960 => decidable_of_iff' _ (Iff.of_eq (k0_chk68.eq_1 v960))
theorem k0_off136_inb : ∀ (v960 : BitVec 32) (k0_hw68 : k0_chk68 v960), ∀ a, (k0_off136 v960) a + S1x1024.size a ≤ S50257x1024.size a := fun v960 k0_hw68 => k0_hw68

def k0_off137 (i : grid0.Coords) : Fin 1 → Nat :=
  let arg0 : BitVec 32 := BitVec.ofNat 32 (i 0).val
  let c256_i32 : BitVec 32 := 256#32
  let v0 : BitVec 32 := Scalar.muli arg0 c256_i32
  let c68_i32 : BitVec 32 := 68#32
  let v973 : BitVec 32 := Scalar.addi v0 c68_i32
  let v974 : Index := Scalar.indexCast v973
  ![v974.toNat]
def k0_off138 (v975 : BitVec 32) : Fin 2 → Nat :=
  let c0_i32_580 : BitVec 32 := 0#32
  ![v975.toNat, 0]

def k0_chk69 (v975 : BitVec 32) : Prop :=
  (∀ a, (k0_off138 v975) a + S1x1024.size a ≤ S50257x1024.size a)
instance k0_chk69.dec : ∀ (v975 : BitVec 32), Decidable (k0_chk69 v975) := fun v975 => decidable_of_iff' _ (Iff.of_eq (k0_chk69.eq_1 v975))
theorem k0_off138_inb : ∀ (v975 : BitVec 32) (k0_hw69 : k0_chk69 v975), ∀ a, (k0_off138 v975) a + S1x1024.size a ≤ S50257x1024.size a := fun v975 k0_hw69 => k0_hw69

def k0_off139 (i : grid0.Coords) : Fin 1 → Nat :=
  let arg0 : BitVec 32 := BitVec.ofNat 32 (i 0).val
  let c256_i32 : BitVec 32 := 256#32
  let v0 : BitVec 32 := Scalar.muli arg0 c256_i32
  let c69_i32 : BitVec 32 := 69#32
  let v988 : BitVec 32 := Scalar.addi v0 c69_i32
  let v989 : Index := Scalar.indexCast v988
  ![v989.toNat]
def k0_off140 (v990 : BitVec 32) : Fin 2 → Nat :=
  let c0_i32_589 : BitVec 32 := 0#32
  ![v990.toNat, 0]

def k0_chk70 (v990 : BitVec 32) : Prop :=
  (∀ a, (k0_off140 v990) a + S1x1024.size a ≤ S50257x1024.size a)
instance k0_chk70.dec : ∀ (v990 : BitVec 32), Decidable (k0_chk70 v990) := fun v990 => decidable_of_iff' _ (Iff.of_eq (k0_chk70.eq_1 v990))
theorem k0_off140_inb : ∀ (v990 : BitVec 32) (k0_hw70 : k0_chk70 v990), ∀ a, (k0_off140 v990) a + S1x1024.size a ≤ S50257x1024.size a := fun v990 k0_hw70 => k0_hw70

def k0_off141 (i : grid0.Coords) : Fin 1 → Nat :=
  let arg0 : BitVec 32 := BitVec.ofNat 32 (i 0).val
  let c256_i32 : BitVec 32 := 256#32
  let v0 : BitVec 32 := Scalar.muli arg0 c256_i32
  let c70_i32 : BitVec 32 := 70#32
  let v1003 : BitVec 32 := Scalar.addi v0 c70_i32
  let v1004 : Index := Scalar.indexCast v1003
  ![v1004.toNat]
def k0_off142 (v1005 : BitVec 32) : Fin 2 → Nat :=
  let c0_i32_598 : BitVec 32 := 0#32
  ![v1005.toNat, 0]

def k0_chk71 (v1005 : BitVec 32) : Prop :=
  (∀ a, (k0_off142 v1005) a + S1x1024.size a ≤ S50257x1024.size a)
instance k0_chk71.dec : ∀ (v1005 : BitVec 32), Decidable (k0_chk71 v1005) := fun v1005 => decidable_of_iff' _ (Iff.of_eq (k0_chk71.eq_1 v1005))
theorem k0_off142_inb : ∀ (v1005 : BitVec 32) (k0_hw71 : k0_chk71 v1005), ∀ a, (k0_off142 v1005) a + S1x1024.size a ≤ S50257x1024.size a := fun v1005 k0_hw71 => k0_hw71

def k0_off143 (i : grid0.Coords) : Fin 1 → Nat :=
  let arg0 : BitVec 32 := BitVec.ofNat 32 (i 0).val
  let c256_i32 : BitVec 32 := 256#32
  let v0 : BitVec 32 := Scalar.muli arg0 c256_i32
  let c71_i32 : BitVec 32 := 71#32
  let v1018 : BitVec 32 := Scalar.addi v0 c71_i32
  let v1019 : Index := Scalar.indexCast v1018
  ![v1019.toNat]
def k0_off144 (v1020 : BitVec 32) : Fin 2 → Nat :=
  let c0_i32_607 : BitVec 32 := 0#32
  ![v1020.toNat, 0]

def k0_chk72 (v1020 : BitVec 32) : Prop :=
  (∀ a, (k0_off144 v1020) a + S1x1024.size a ≤ S50257x1024.size a)
instance k0_chk72.dec : ∀ (v1020 : BitVec 32), Decidable (k0_chk72 v1020) := fun v1020 => decidable_of_iff' _ (Iff.of_eq (k0_chk72.eq_1 v1020))
theorem k0_off144_inb : ∀ (v1020 : BitVec 32) (k0_hw72 : k0_chk72 v1020), ∀ a, (k0_off144 v1020) a + S1x1024.size a ≤ S50257x1024.size a := fun v1020 k0_hw72 => k0_hw72

def k0_off145 (i : grid0.Coords) : Fin 1 → Nat :=
  let arg0 : BitVec 32 := BitVec.ofNat 32 (i 0).val
  let c256_i32 : BitVec 32 := 256#32
  let v0 : BitVec 32 := Scalar.muli arg0 c256_i32
  let c72_i32 : BitVec 32 := 72#32
  let v1033 : BitVec 32 := Scalar.addi v0 c72_i32
  let v1034 : Index := Scalar.indexCast v1033
  ![v1034.toNat]
def k0_off146 (v1035 : BitVec 32) : Fin 2 → Nat :=
  let c0_i32_616 : BitVec 32 := 0#32
  ![v1035.toNat, 0]

def k0_chk73 (v1035 : BitVec 32) : Prop :=
  (∀ a, (k0_off146 v1035) a + S1x1024.size a ≤ S50257x1024.size a)
instance k0_chk73.dec : ∀ (v1035 : BitVec 32), Decidable (k0_chk73 v1035) := fun v1035 => decidable_of_iff' _ (Iff.of_eq (k0_chk73.eq_1 v1035))
theorem k0_off146_inb : ∀ (v1035 : BitVec 32) (k0_hw73 : k0_chk73 v1035), ∀ a, (k0_off146 v1035) a + S1x1024.size a ≤ S50257x1024.size a := fun v1035 k0_hw73 => k0_hw73

def k0_off147 (i : grid0.Coords) : Fin 1 → Nat :=
  let arg0 : BitVec 32 := BitVec.ofNat 32 (i 0).val
  let c256_i32 : BitVec 32 := 256#32
  let v0 : BitVec 32 := Scalar.muli arg0 c256_i32
  let c73_i32 : BitVec 32 := 73#32
  let v1048 : BitVec 32 := Scalar.addi v0 c73_i32
  let v1049 : Index := Scalar.indexCast v1048
  ![v1049.toNat]
def k0_off148 (v1050 : BitVec 32) : Fin 2 → Nat :=
  let c0_i32_625 : BitVec 32 := 0#32
  ![v1050.toNat, 0]

def k0_chk74 (v1050 : BitVec 32) : Prop :=
  (∀ a, (k0_off148 v1050) a + S1x1024.size a ≤ S50257x1024.size a)
instance k0_chk74.dec : ∀ (v1050 : BitVec 32), Decidable (k0_chk74 v1050) := fun v1050 => decidable_of_iff' _ (Iff.of_eq (k0_chk74.eq_1 v1050))
theorem k0_off148_inb : ∀ (v1050 : BitVec 32) (k0_hw74 : k0_chk74 v1050), ∀ a, (k0_off148 v1050) a + S1x1024.size a ≤ S50257x1024.size a := fun v1050 k0_hw74 => k0_hw74

def k0_off149 (i : grid0.Coords) : Fin 1 → Nat :=
  let arg0 : BitVec 32 := BitVec.ofNat 32 (i 0).val
  let c256_i32 : BitVec 32 := 256#32
  let v0 : BitVec 32 := Scalar.muli arg0 c256_i32
  let c74_i32 : BitVec 32 := 74#32
  let v1063 : BitVec 32 := Scalar.addi v0 c74_i32
  let v1064 : Index := Scalar.indexCast v1063
  ![v1064.toNat]
def k0_off150 (v1065 : BitVec 32) : Fin 2 → Nat :=
  let c0_i32_634 : BitVec 32 := 0#32
  ![v1065.toNat, 0]

def k0_chk75 (v1065 : BitVec 32) : Prop :=
  (∀ a, (k0_off150 v1065) a + S1x1024.size a ≤ S50257x1024.size a)
instance k0_chk75.dec : ∀ (v1065 : BitVec 32), Decidable (k0_chk75 v1065) := fun v1065 => decidable_of_iff' _ (Iff.of_eq (k0_chk75.eq_1 v1065))
theorem k0_off150_inb : ∀ (v1065 : BitVec 32) (k0_hw75 : k0_chk75 v1065), ∀ a, (k0_off150 v1065) a + S1x1024.size a ≤ S50257x1024.size a := fun v1065 k0_hw75 => k0_hw75

def k0_off151 (i : grid0.Coords) : Fin 1 → Nat :=
  let arg0 : BitVec 32 := BitVec.ofNat 32 (i 0).val
  let c256_i32 : BitVec 32 := 256#32
  let v0 : BitVec 32 := Scalar.muli arg0 c256_i32
  let c75_i32 : BitVec 32 := 75#32
  let v1078 : BitVec 32 := Scalar.addi v0 c75_i32
  let v1079 : Index := Scalar.indexCast v1078
  ![v1079.toNat]
def k0_off152 (v1080 : BitVec 32) : Fin 2 → Nat :=
  let c0_i32_643 : BitVec 32 := 0#32
  ![v1080.toNat, 0]

def k0_chk76 (v1080 : BitVec 32) : Prop :=
  (∀ a, (k0_off152 v1080) a + S1x1024.size a ≤ S50257x1024.size a)
instance k0_chk76.dec : ∀ (v1080 : BitVec 32), Decidable (k0_chk76 v1080) := fun v1080 => decidable_of_iff' _ (Iff.of_eq (k0_chk76.eq_1 v1080))
theorem k0_off152_inb : ∀ (v1080 : BitVec 32) (k0_hw76 : k0_chk76 v1080), ∀ a, (k0_off152 v1080) a + S1x1024.size a ≤ S50257x1024.size a := fun v1080 k0_hw76 => k0_hw76

def k0_off153 (i : grid0.Coords) : Fin 1 → Nat :=
  let arg0 : BitVec 32 := BitVec.ofNat 32 (i 0).val
  let c256_i32 : BitVec 32 := 256#32
  let v0 : BitVec 32 := Scalar.muli arg0 c256_i32
  let c76_i32 : BitVec 32 := 76#32
  let v1093 : BitVec 32 := Scalar.addi v0 c76_i32
  let v1094 : Index := Scalar.indexCast v1093
  ![v1094.toNat]
def k0_off154 (v1095 : BitVec 32) : Fin 2 → Nat :=
  let c0_i32_652 : BitVec 32 := 0#32
  ![v1095.toNat, 0]

def k0_chk77 (v1095 : BitVec 32) : Prop :=
  (∀ a, (k0_off154 v1095) a + S1x1024.size a ≤ S50257x1024.size a)
instance k0_chk77.dec : ∀ (v1095 : BitVec 32), Decidable (k0_chk77 v1095) := fun v1095 => decidable_of_iff' _ (Iff.of_eq (k0_chk77.eq_1 v1095))
theorem k0_off154_inb : ∀ (v1095 : BitVec 32) (k0_hw77 : k0_chk77 v1095), ∀ a, (k0_off154 v1095) a + S1x1024.size a ≤ S50257x1024.size a := fun v1095 k0_hw77 => k0_hw77

def k0_off155 (i : grid0.Coords) : Fin 1 → Nat :=
  let arg0 : BitVec 32 := BitVec.ofNat 32 (i 0).val
  let c256_i32 : BitVec 32 := 256#32
  let v0 : BitVec 32 := Scalar.muli arg0 c256_i32
  let c77_i32 : BitVec 32 := 77#32
  let v1108 : BitVec 32 := Scalar.addi v0 c77_i32
  let v1109 : Index := Scalar.indexCast v1108
  ![v1109.toNat]
def k0_off156 (v1110 : BitVec 32) : Fin 2 → Nat :=
  let c0_i32_661 : BitVec 32 := 0#32
  ![v1110.toNat, 0]

def k0_chk78 (v1110 : BitVec 32) : Prop :=
  (∀ a, (k0_off156 v1110) a + S1x1024.size a ≤ S50257x1024.size a)
instance k0_chk78.dec : ∀ (v1110 : BitVec 32), Decidable (k0_chk78 v1110) := fun v1110 => decidable_of_iff' _ (Iff.of_eq (k0_chk78.eq_1 v1110))
theorem k0_off156_inb : ∀ (v1110 : BitVec 32) (k0_hw78 : k0_chk78 v1110), ∀ a, (k0_off156 v1110) a + S1x1024.size a ≤ S50257x1024.size a := fun v1110 k0_hw78 => k0_hw78

def k0_off157 (i : grid0.Coords) : Fin 1 → Nat :=
  let arg0 : BitVec 32 := BitVec.ofNat 32 (i 0).val
  let c256_i32 : BitVec 32 := 256#32
  let v0 : BitVec 32 := Scalar.muli arg0 c256_i32
  let c78_i32 : BitVec 32 := 78#32
  let v1123 : BitVec 32 := Scalar.addi v0 c78_i32
  let v1124 : Index := Scalar.indexCast v1123
  ![v1124.toNat]
def k0_off158 (v1125 : BitVec 32) : Fin 2 → Nat :=
  let c0_i32_670 : BitVec 32 := 0#32
  ![v1125.toNat, 0]

def k0_chk79 (v1125 : BitVec 32) : Prop :=
  (∀ a, (k0_off158 v1125) a + S1x1024.size a ≤ S50257x1024.size a)
instance k0_chk79.dec : ∀ (v1125 : BitVec 32), Decidable (k0_chk79 v1125) := fun v1125 => decidable_of_iff' _ (Iff.of_eq (k0_chk79.eq_1 v1125))
theorem k0_off158_inb : ∀ (v1125 : BitVec 32) (k0_hw79 : k0_chk79 v1125), ∀ a, (k0_off158 v1125) a + S1x1024.size a ≤ S50257x1024.size a := fun v1125 k0_hw79 => k0_hw79

def k0_off159 (i : grid0.Coords) : Fin 1 → Nat :=
  let arg0 : BitVec 32 := BitVec.ofNat 32 (i 0).val
  let c256_i32 : BitVec 32 := 256#32
  let v0 : BitVec 32 := Scalar.muli arg0 c256_i32
  let c79_i32 : BitVec 32 := 79#32
  let v1138 : BitVec 32 := Scalar.addi v0 c79_i32
  let v1139 : Index := Scalar.indexCast v1138
  ![v1139.toNat]
def k0_off160 (v1140 : BitVec 32) : Fin 2 → Nat :=
  let c0_i32_679 : BitVec 32 := 0#32
  ![v1140.toNat, 0]

def k0_chk80 (v1140 : BitVec 32) : Prop :=
  (∀ a, (k0_off160 v1140) a + S1x1024.size a ≤ S50257x1024.size a)
instance k0_chk80.dec : ∀ (v1140 : BitVec 32), Decidable (k0_chk80 v1140) := fun v1140 => decidable_of_iff' _ (Iff.of_eq (k0_chk80.eq_1 v1140))
theorem k0_off160_inb : ∀ (v1140 : BitVec 32) (k0_hw80 : k0_chk80 v1140), ∀ a, (k0_off160 v1140) a + S1x1024.size a ≤ S50257x1024.size a := fun v1140 k0_hw80 => k0_hw80

def k0_off161 (i : grid0.Coords) : Fin 1 → Nat :=
  let arg0 : BitVec 32 := BitVec.ofNat 32 (i 0).val
  let c256_i32 : BitVec 32 := 256#32
  let v0 : BitVec 32 := Scalar.muli arg0 c256_i32
  let c80_i32 : BitVec 32 := 80#32
  let v1153 : BitVec 32 := Scalar.addi v0 c80_i32
  let v1154 : Index := Scalar.indexCast v1153
  ![v1154.toNat]
def k0_off162 (v1155 : BitVec 32) : Fin 2 → Nat :=
  let c0_i32_688 : BitVec 32 := 0#32
  ![v1155.toNat, 0]

def k0_chk81 (v1155 : BitVec 32) : Prop :=
  (∀ a, (k0_off162 v1155) a + S1x1024.size a ≤ S50257x1024.size a)
instance k0_chk81.dec : ∀ (v1155 : BitVec 32), Decidable (k0_chk81 v1155) := fun v1155 => decidable_of_iff' _ (Iff.of_eq (k0_chk81.eq_1 v1155))
theorem k0_off162_inb : ∀ (v1155 : BitVec 32) (k0_hw81 : k0_chk81 v1155), ∀ a, (k0_off162 v1155) a + S1x1024.size a ≤ S50257x1024.size a := fun v1155 k0_hw81 => k0_hw81

def k0_off163 (i : grid0.Coords) : Fin 1 → Nat :=
  let arg0 : BitVec 32 := BitVec.ofNat 32 (i 0).val
  let c256_i32 : BitVec 32 := 256#32
  let v0 : BitVec 32 := Scalar.muli arg0 c256_i32
  let c81_i32 : BitVec 32 := 81#32
  let v1168 : BitVec 32 := Scalar.addi v0 c81_i32
  let v1169 : Index := Scalar.indexCast v1168
  ![v1169.toNat]
def k0_off164 (v1170 : BitVec 32) : Fin 2 → Nat :=
  let c0_i32_697 : BitVec 32 := 0#32
  ![v1170.toNat, 0]

def k0_chk82 (v1170 : BitVec 32) : Prop :=
  (∀ a, (k0_off164 v1170) a + S1x1024.size a ≤ S50257x1024.size a)
instance k0_chk82.dec : ∀ (v1170 : BitVec 32), Decidable (k0_chk82 v1170) := fun v1170 => decidable_of_iff' _ (Iff.of_eq (k0_chk82.eq_1 v1170))
theorem k0_off164_inb : ∀ (v1170 : BitVec 32) (k0_hw82 : k0_chk82 v1170), ∀ a, (k0_off164 v1170) a + S1x1024.size a ≤ S50257x1024.size a := fun v1170 k0_hw82 => k0_hw82

def k0_off165 (i : grid0.Coords) : Fin 1 → Nat :=
  let arg0 : BitVec 32 := BitVec.ofNat 32 (i 0).val
  let c256_i32 : BitVec 32 := 256#32
  let v0 : BitVec 32 := Scalar.muli arg0 c256_i32
  let c82_i32 : BitVec 32 := 82#32
  let v1183 : BitVec 32 := Scalar.addi v0 c82_i32
  let v1184 : Index := Scalar.indexCast v1183
  ![v1184.toNat]
def k0_off166 (v1185 : BitVec 32) : Fin 2 → Nat :=
  let c0_i32_706 : BitVec 32 := 0#32
  ![v1185.toNat, 0]

def k0_chk83 (v1185 : BitVec 32) : Prop :=
  (∀ a, (k0_off166 v1185) a + S1x1024.size a ≤ S50257x1024.size a)
instance k0_chk83.dec : ∀ (v1185 : BitVec 32), Decidable (k0_chk83 v1185) := fun v1185 => decidable_of_iff' _ (Iff.of_eq (k0_chk83.eq_1 v1185))
theorem k0_off166_inb : ∀ (v1185 : BitVec 32) (k0_hw83 : k0_chk83 v1185), ∀ a, (k0_off166 v1185) a + S1x1024.size a ≤ S50257x1024.size a := fun v1185 k0_hw83 => k0_hw83

def k0_off167 (i : grid0.Coords) : Fin 1 → Nat :=
  let arg0 : BitVec 32 := BitVec.ofNat 32 (i 0).val
  let c256_i32 : BitVec 32 := 256#32
  let v0 : BitVec 32 := Scalar.muli arg0 c256_i32
  let c83_i32 : BitVec 32 := 83#32
  let v1198 : BitVec 32 := Scalar.addi v0 c83_i32
  let v1199 : Index := Scalar.indexCast v1198
  ![v1199.toNat]
def k0_off168 (v1200 : BitVec 32) : Fin 2 → Nat :=
  let c0_i32_715 : BitVec 32 := 0#32
  ![v1200.toNat, 0]

def k0_chk84 (v1200 : BitVec 32) : Prop :=
  (∀ a, (k0_off168 v1200) a + S1x1024.size a ≤ S50257x1024.size a)
instance k0_chk84.dec : ∀ (v1200 : BitVec 32), Decidable (k0_chk84 v1200) := fun v1200 => decidable_of_iff' _ (Iff.of_eq (k0_chk84.eq_1 v1200))
theorem k0_off168_inb : ∀ (v1200 : BitVec 32) (k0_hw84 : k0_chk84 v1200), ∀ a, (k0_off168 v1200) a + S1x1024.size a ≤ S50257x1024.size a := fun v1200 k0_hw84 => k0_hw84

def k0_off169 (i : grid0.Coords) : Fin 1 → Nat :=
  let arg0 : BitVec 32 := BitVec.ofNat 32 (i 0).val
  let c256_i32 : BitVec 32 := 256#32
  let v0 : BitVec 32 := Scalar.muli arg0 c256_i32
  let c84_i32 : BitVec 32 := 84#32
  let v1213 : BitVec 32 := Scalar.addi v0 c84_i32
  let v1214 : Index := Scalar.indexCast v1213
  ![v1214.toNat]
def k0_off170 (v1215 : BitVec 32) : Fin 2 → Nat :=
  let c0_i32_724 : BitVec 32 := 0#32
  ![v1215.toNat, 0]

def k0_chk85 (v1215 : BitVec 32) : Prop :=
  (∀ a, (k0_off170 v1215) a + S1x1024.size a ≤ S50257x1024.size a)
instance k0_chk85.dec : ∀ (v1215 : BitVec 32), Decidable (k0_chk85 v1215) := fun v1215 => decidable_of_iff' _ (Iff.of_eq (k0_chk85.eq_1 v1215))
theorem k0_off170_inb : ∀ (v1215 : BitVec 32) (k0_hw85 : k0_chk85 v1215), ∀ a, (k0_off170 v1215) a + S1x1024.size a ≤ S50257x1024.size a := fun v1215 k0_hw85 => k0_hw85

def k0_off171 (i : grid0.Coords) : Fin 1 → Nat :=
  let arg0 : BitVec 32 := BitVec.ofNat 32 (i 0).val
  let c256_i32 : BitVec 32 := 256#32
  let v0 : BitVec 32 := Scalar.muli arg0 c256_i32
  let c85_i32 : BitVec 32 := 85#32
  let v1228 : BitVec 32 := Scalar.addi v0 c85_i32
  let v1229 : Index := Scalar.indexCast v1228
  ![v1229.toNat]
def k0_off172 (v1230 : BitVec 32) : Fin 2 → Nat :=
  let c0_i32_733 : BitVec 32 := 0#32
  ![v1230.toNat, 0]

def k0_chk86 (v1230 : BitVec 32) : Prop :=
  (∀ a, (k0_off172 v1230) a + S1x1024.size a ≤ S50257x1024.size a)
instance k0_chk86.dec : ∀ (v1230 : BitVec 32), Decidable (k0_chk86 v1230) := fun v1230 => decidable_of_iff' _ (Iff.of_eq (k0_chk86.eq_1 v1230))
theorem k0_off172_inb : ∀ (v1230 : BitVec 32) (k0_hw86 : k0_chk86 v1230), ∀ a, (k0_off172 v1230) a + S1x1024.size a ≤ S50257x1024.size a := fun v1230 k0_hw86 => k0_hw86

def k0_off173 (i : grid0.Coords) : Fin 1 → Nat :=
  let arg0 : BitVec 32 := BitVec.ofNat 32 (i 0).val
  let c256_i32 : BitVec 32 := 256#32
  let v0 : BitVec 32 := Scalar.muli arg0 c256_i32
  let c86_i32 : BitVec 32 := 86#32
  let v1243 : BitVec 32 := Scalar.addi v0 c86_i32
  let v1244 : Index := Scalar.indexCast v1243
  ![v1244.toNat]
def k0_off174 (v1245 : BitVec 32) : Fin 2 → Nat :=
  let c0_i32_742 : BitVec 32 := 0#32
  ![v1245.toNat, 0]

def k0_chk87 (v1245 : BitVec 32) : Prop :=
  (∀ a, (k0_off174 v1245) a + S1x1024.size a ≤ S50257x1024.size a)
instance k0_chk87.dec : ∀ (v1245 : BitVec 32), Decidable (k0_chk87 v1245) := fun v1245 => decidable_of_iff' _ (Iff.of_eq (k0_chk87.eq_1 v1245))
theorem k0_off174_inb : ∀ (v1245 : BitVec 32) (k0_hw87 : k0_chk87 v1245), ∀ a, (k0_off174 v1245) a + S1x1024.size a ≤ S50257x1024.size a := fun v1245 k0_hw87 => k0_hw87

def k0_off175 (i : grid0.Coords) : Fin 1 → Nat :=
  let arg0 : BitVec 32 := BitVec.ofNat 32 (i 0).val
  let c256_i32 : BitVec 32 := 256#32
  let v0 : BitVec 32 := Scalar.muli arg0 c256_i32
  let c87_i32 : BitVec 32 := 87#32
  let v1258 : BitVec 32 := Scalar.addi v0 c87_i32
  let v1259 : Index := Scalar.indexCast v1258
  ![v1259.toNat]
def k0_off176 (v1260 : BitVec 32) : Fin 2 → Nat :=
  let c0_i32_751 : BitVec 32 := 0#32
  ![v1260.toNat, 0]

def k0_chk88 (v1260 : BitVec 32) : Prop :=
  (∀ a, (k0_off176 v1260) a + S1x1024.size a ≤ S50257x1024.size a)
instance k0_chk88.dec : ∀ (v1260 : BitVec 32), Decidable (k0_chk88 v1260) := fun v1260 => decidable_of_iff' _ (Iff.of_eq (k0_chk88.eq_1 v1260))
theorem k0_off176_inb : ∀ (v1260 : BitVec 32) (k0_hw88 : k0_chk88 v1260), ∀ a, (k0_off176 v1260) a + S1x1024.size a ≤ S50257x1024.size a := fun v1260 k0_hw88 => k0_hw88

def k0_off177 (i : grid0.Coords) : Fin 1 → Nat :=
  let arg0 : BitVec 32 := BitVec.ofNat 32 (i 0).val
  let c256_i32 : BitVec 32 := 256#32
  let v0 : BitVec 32 := Scalar.muli arg0 c256_i32
  let c88_i32 : BitVec 32 := 88#32
  let v1273 : BitVec 32 := Scalar.addi v0 c88_i32
  let v1274 : Index := Scalar.indexCast v1273
  ![v1274.toNat]
def k0_off178 (v1275 : BitVec 32) : Fin 2 → Nat :=
  let c0_i32_760 : BitVec 32 := 0#32
  ![v1275.toNat, 0]

def k0_chk89 (v1275 : BitVec 32) : Prop :=
  (∀ a, (k0_off178 v1275) a + S1x1024.size a ≤ S50257x1024.size a)
instance k0_chk89.dec : ∀ (v1275 : BitVec 32), Decidable (k0_chk89 v1275) := fun v1275 => decidable_of_iff' _ (Iff.of_eq (k0_chk89.eq_1 v1275))
theorem k0_off178_inb : ∀ (v1275 : BitVec 32) (k0_hw89 : k0_chk89 v1275), ∀ a, (k0_off178 v1275) a + S1x1024.size a ≤ S50257x1024.size a := fun v1275 k0_hw89 => k0_hw89

def k0_off179 (i : grid0.Coords) : Fin 1 → Nat :=
  let arg0 : BitVec 32 := BitVec.ofNat 32 (i 0).val
  let c256_i32 : BitVec 32 := 256#32
  let v0 : BitVec 32 := Scalar.muli arg0 c256_i32
  let c89_i32 : BitVec 32 := 89#32
  let v1288 : BitVec 32 := Scalar.addi v0 c89_i32
  let v1289 : Index := Scalar.indexCast v1288
  ![v1289.toNat]
def k0_off180 (v1290 : BitVec 32) : Fin 2 → Nat :=
  let c0_i32_769 : BitVec 32 := 0#32
  ![v1290.toNat, 0]

def k0_chk90 (v1290 : BitVec 32) : Prop :=
  (∀ a, (k0_off180 v1290) a + S1x1024.size a ≤ S50257x1024.size a)
instance k0_chk90.dec : ∀ (v1290 : BitVec 32), Decidable (k0_chk90 v1290) := fun v1290 => decidable_of_iff' _ (Iff.of_eq (k0_chk90.eq_1 v1290))
theorem k0_off180_inb : ∀ (v1290 : BitVec 32) (k0_hw90 : k0_chk90 v1290), ∀ a, (k0_off180 v1290) a + S1x1024.size a ≤ S50257x1024.size a := fun v1290 k0_hw90 => k0_hw90

def k0_off181 (i : grid0.Coords) : Fin 1 → Nat :=
  let arg0 : BitVec 32 := BitVec.ofNat 32 (i 0).val
  let c256_i32 : BitVec 32 := 256#32
  let v0 : BitVec 32 := Scalar.muli arg0 c256_i32
  let c90_i32 : BitVec 32 := 90#32
  let v1303 : BitVec 32 := Scalar.addi v0 c90_i32
  let v1304 : Index := Scalar.indexCast v1303
  ![v1304.toNat]
def k0_off182 (v1305 : BitVec 32) : Fin 2 → Nat :=
  let c0_i32_778 : BitVec 32 := 0#32
  ![v1305.toNat, 0]

def k0_chk91 (v1305 : BitVec 32) : Prop :=
  (∀ a, (k0_off182 v1305) a + S1x1024.size a ≤ S50257x1024.size a)
instance k0_chk91.dec : ∀ (v1305 : BitVec 32), Decidable (k0_chk91 v1305) := fun v1305 => decidable_of_iff' _ (Iff.of_eq (k0_chk91.eq_1 v1305))
theorem k0_off182_inb : ∀ (v1305 : BitVec 32) (k0_hw91 : k0_chk91 v1305), ∀ a, (k0_off182 v1305) a + S1x1024.size a ≤ S50257x1024.size a := fun v1305 k0_hw91 => k0_hw91

def k0_off183 (i : grid0.Coords) : Fin 1 → Nat :=
  let arg0 : BitVec 32 := BitVec.ofNat 32 (i 0).val
  let c256_i32 : BitVec 32 := 256#32
  let v0 : BitVec 32 := Scalar.muli arg0 c256_i32
  let c91_i32 : BitVec 32 := 91#32
  let v1318 : BitVec 32 := Scalar.addi v0 c91_i32
  let v1319 : Index := Scalar.indexCast v1318
  ![v1319.toNat]
def k0_off184 (v1320 : BitVec 32) : Fin 2 → Nat :=
  let c0_i32_787 : BitVec 32 := 0#32
  ![v1320.toNat, 0]

def k0_chk92 (v1320 : BitVec 32) : Prop :=
  (∀ a, (k0_off184 v1320) a + S1x1024.size a ≤ S50257x1024.size a)
instance k0_chk92.dec : ∀ (v1320 : BitVec 32), Decidable (k0_chk92 v1320) := fun v1320 => decidable_of_iff' _ (Iff.of_eq (k0_chk92.eq_1 v1320))
theorem k0_off184_inb : ∀ (v1320 : BitVec 32) (k0_hw92 : k0_chk92 v1320), ∀ a, (k0_off184 v1320) a + S1x1024.size a ≤ S50257x1024.size a := fun v1320 k0_hw92 => k0_hw92

def k0_off185 (i : grid0.Coords) : Fin 1 → Nat :=
  let arg0 : BitVec 32 := BitVec.ofNat 32 (i 0).val
  let c256_i32 : BitVec 32 := 256#32
  let v0 : BitVec 32 := Scalar.muli arg0 c256_i32
  let c92_i32 : BitVec 32 := 92#32
  let v1333 : BitVec 32 := Scalar.addi v0 c92_i32
  let v1334 : Index := Scalar.indexCast v1333
  ![v1334.toNat]
def k0_off186 (v1335 : BitVec 32) : Fin 2 → Nat :=
  let c0_i32_796 : BitVec 32 := 0#32
  ![v1335.toNat, 0]

def k0_chk93 (v1335 : BitVec 32) : Prop :=
  (∀ a, (k0_off186 v1335) a + S1x1024.size a ≤ S50257x1024.size a)
instance k0_chk93.dec : ∀ (v1335 : BitVec 32), Decidable (k0_chk93 v1335) := fun v1335 => decidable_of_iff' _ (Iff.of_eq (k0_chk93.eq_1 v1335))
theorem k0_off186_inb : ∀ (v1335 : BitVec 32) (k0_hw93 : k0_chk93 v1335), ∀ a, (k0_off186 v1335) a + S1x1024.size a ≤ S50257x1024.size a := fun v1335 k0_hw93 => k0_hw93

def k0_off187 (i : grid0.Coords) : Fin 1 → Nat :=
  let arg0 : BitVec 32 := BitVec.ofNat 32 (i 0).val
  let c256_i32 : BitVec 32 := 256#32
  let v0 : BitVec 32 := Scalar.muli arg0 c256_i32
  let c93_i32 : BitVec 32 := 93#32
  let v1348 : BitVec 32 := Scalar.addi v0 c93_i32
  let v1349 : Index := Scalar.indexCast v1348
  ![v1349.toNat]
def k0_off188 (v1350 : BitVec 32) : Fin 2 → Nat :=
  let c0_i32_805 : BitVec 32 := 0#32
  ![v1350.toNat, 0]

def k0_chk94 (v1350 : BitVec 32) : Prop :=
  (∀ a, (k0_off188 v1350) a + S1x1024.size a ≤ S50257x1024.size a)
instance k0_chk94.dec : ∀ (v1350 : BitVec 32), Decidable (k0_chk94 v1350) := fun v1350 => decidable_of_iff' _ (Iff.of_eq (k0_chk94.eq_1 v1350))
theorem k0_off188_inb : ∀ (v1350 : BitVec 32) (k0_hw94 : k0_chk94 v1350), ∀ a, (k0_off188 v1350) a + S1x1024.size a ≤ S50257x1024.size a := fun v1350 k0_hw94 => k0_hw94

def k0_off189 (i : grid0.Coords) : Fin 1 → Nat :=
  let arg0 : BitVec 32 := BitVec.ofNat 32 (i 0).val
  let c256_i32 : BitVec 32 := 256#32
  let v0 : BitVec 32 := Scalar.muli arg0 c256_i32
  let c94_i32 : BitVec 32 := 94#32
  let v1363 : BitVec 32 := Scalar.addi v0 c94_i32
  let v1364 : Index := Scalar.indexCast v1363
  ![v1364.toNat]
def k0_off190 (v1365 : BitVec 32) : Fin 2 → Nat :=
  let c0_i32_814 : BitVec 32 := 0#32
  ![v1365.toNat, 0]

def k0_chk95 (v1365 : BitVec 32) : Prop :=
  (∀ a, (k0_off190 v1365) a + S1x1024.size a ≤ S50257x1024.size a)
instance k0_chk95.dec : ∀ (v1365 : BitVec 32), Decidable (k0_chk95 v1365) := fun v1365 => decidable_of_iff' _ (Iff.of_eq (k0_chk95.eq_1 v1365))
theorem k0_off190_inb : ∀ (v1365 : BitVec 32) (k0_hw95 : k0_chk95 v1365), ∀ a, (k0_off190 v1365) a + S1x1024.size a ≤ S50257x1024.size a := fun v1365 k0_hw95 => k0_hw95

def k0_off191 (i : grid0.Coords) : Fin 1 → Nat :=
  let arg0 : BitVec 32 := BitVec.ofNat 32 (i 0).val
  let c256_i32 : BitVec 32 := 256#32
  let v0 : BitVec 32 := Scalar.muli arg0 c256_i32
  let c95_i32 : BitVec 32 := 95#32
  let v1378 : BitVec 32 := Scalar.addi v0 c95_i32
  let v1379 : Index := Scalar.indexCast v1378
  ![v1379.toNat]
def k0_off192 (v1380 : BitVec 32) : Fin 2 → Nat :=
  let c0_i32_823 : BitVec 32 := 0#32
  ![v1380.toNat, 0]

def k0_chk96 (v1380 : BitVec 32) : Prop :=
  (∀ a, (k0_off192 v1380) a + S1x1024.size a ≤ S50257x1024.size a)
instance k0_chk96.dec : ∀ (v1380 : BitVec 32), Decidable (k0_chk96 v1380) := fun v1380 => decidable_of_iff' _ (Iff.of_eq (k0_chk96.eq_1 v1380))
theorem k0_off192_inb : ∀ (v1380 : BitVec 32) (k0_hw96 : k0_chk96 v1380), ∀ a, (k0_off192 v1380) a + S1x1024.size a ≤ S50257x1024.size a := fun v1380 k0_hw96 => k0_hw96

def k0_off193 (i : grid0.Coords) : Fin 1 → Nat :=
  let arg0 : BitVec 32 := BitVec.ofNat 32 (i 0).val
  let c256_i32 : BitVec 32 := 256#32
  let v0 : BitVec 32 := Scalar.muli arg0 c256_i32
  let c96_i32 : BitVec 32 := 96#32
  let v1393 : BitVec 32 := Scalar.addi v0 c96_i32
  let v1394 : Index := Scalar.indexCast v1393
  ![v1394.toNat]
def k0_off194 (v1395 : BitVec 32) : Fin 2 → Nat :=
  let c0_i32_832 : BitVec 32 := 0#32
  ![v1395.toNat, 0]

def k0_chk97 (v1395 : BitVec 32) : Prop :=
  (∀ a, (k0_off194 v1395) a + S1x1024.size a ≤ S50257x1024.size a)
instance k0_chk97.dec : ∀ (v1395 : BitVec 32), Decidable (k0_chk97 v1395) := fun v1395 => decidable_of_iff' _ (Iff.of_eq (k0_chk97.eq_1 v1395))
theorem k0_off194_inb : ∀ (v1395 : BitVec 32) (k0_hw97 : k0_chk97 v1395), ∀ a, (k0_off194 v1395) a + S1x1024.size a ≤ S50257x1024.size a := fun v1395 k0_hw97 => k0_hw97

def k0_off195 (i : grid0.Coords) : Fin 1 → Nat :=
  let arg0 : BitVec 32 := BitVec.ofNat 32 (i 0).val
  let c256_i32 : BitVec 32 := 256#32
  let v0 : BitVec 32 := Scalar.muli arg0 c256_i32
  let c97_i32 : BitVec 32 := 97#32
  let v1408 : BitVec 32 := Scalar.addi v0 c97_i32
  let v1409 : Index := Scalar.indexCast v1408
  ![v1409.toNat]
def k0_off196 (v1410 : BitVec 32) : Fin 2 → Nat :=
  let c0_i32_841 : BitVec 32 := 0#32
  ![v1410.toNat, 0]

def k0_chk98 (v1410 : BitVec 32) : Prop :=
  (∀ a, (k0_off196 v1410) a + S1x1024.size a ≤ S50257x1024.size a)
instance k0_chk98.dec : ∀ (v1410 : BitVec 32), Decidable (k0_chk98 v1410) := fun v1410 => decidable_of_iff' _ (Iff.of_eq (k0_chk98.eq_1 v1410))
theorem k0_off196_inb : ∀ (v1410 : BitVec 32) (k0_hw98 : k0_chk98 v1410), ∀ a, (k0_off196 v1410) a + S1x1024.size a ≤ S50257x1024.size a := fun v1410 k0_hw98 => k0_hw98

def k0_off197 (i : grid0.Coords) : Fin 1 → Nat :=
  let arg0 : BitVec 32 := BitVec.ofNat 32 (i 0).val
  let c256_i32 : BitVec 32 := 256#32
  let v0 : BitVec 32 := Scalar.muli arg0 c256_i32
  let c98_i32 : BitVec 32 := 98#32
  let v1423 : BitVec 32 := Scalar.addi v0 c98_i32
  let v1424 : Index := Scalar.indexCast v1423
  ![v1424.toNat]
def k0_off198 (v1425 : BitVec 32) : Fin 2 → Nat :=
  let c0_i32_850 : BitVec 32 := 0#32
  ![v1425.toNat, 0]

def k0_chk99 (v1425 : BitVec 32) : Prop :=
  (∀ a, (k0_off198 v1425) a + S1x1024.size a ≤ S50257x1024.size a)
instance k0_chk99.dec : ∀ (v1425 : BitVec 32), Decidable (k0_chk99 v1425) := fun v1425 => decidable_of_iff' _ (Iff.of_eq (k0_chk99.eq_1 v1425))
theorem k0_off198_inb : ∀ (v1425 : BitVec 32) (k0_hw99 : k0_chk99 v1425), ∀ a, (k0_off198 v1425) a + S1x1024.size a ≤ S50257x1024.size a := fun v1425 k0_hw99 => k0_hw99

def k0_off199 (i : grid0.Coords) : Fin 1 → Nat :=
  let arg0 : BitVec 32 := BitVec.ofNat 32 (i 0).val
  let c256_i32 : BitVec 32 := 256#32
  let v0 : BitVec 32 := Scalar.muli arg0 c256_i32
  let c99_i32 : BitVec 32 := 99#32
  let v1438 : BitVec 32 := Scalar.addi v0 c99_i32
  let v1439 : Index := Scalar.indexCast v1438
  ![v1439.toNat]
def k0_off200 (v1440 : BitVec 32) : Fin 2 → Nat :=
  let c0_i32_859 : BitVec 32 := 0#32
  ![v1440.toNat, 0]

def k0_chk100 (v1440 : BitVec 32) : Prop :=
  (∀ a, (k0_off200 v1440) a + S1x1024.size a ≤ S50257x1024.size a)
instance k0_chk100.dec : ∀ (v1440 : BitVec 32), Decidable (k0_chk100 v1440) := fun v1440 => decidable_of_iff' _ (Iff.of_eq (k0_chk100.eq_1 v1440))
theorem k0_off200_inb : ∀ (v1440 : BitVec 32) (k0_hw100 : k0_chk100 v1440), ∀ a, (k0_off200 v1440) a + S1x1024.size a ≤ S50257x1024.size a := fun v1440 k0_hw100 => k0_hw100

def k0_off201 (i : grid0.Coords) : Fin 1 → Nat :=
  let arg0 : BitVec 32 := BitVec.ofNat 32 (i 0).val
  let c256_i32 : BitVec 32 := 256#32
  let v0 : BitVec 32 := Scalar.muli arg0 c256_i32
  let c100_i32 : BitVec 32 := 100#32
  let v1453 : BitVec 32 := Scalar.addi v0 c100_i32
  let v1454 : Index := Scalar.indexCast v1453
  ![v1454.toNat]
def k0_off202 (v1455 : BitVec 32) : Fin 2 → Nat :=
  let c0_i32_868 : BitVec 32 := 0#32
  ![v1455.toNat, 0]

def k0_chk101 (v1455 : BitVec 32) : Prop :=
  (∀ a, (k0_off202 v1455) a + S1x1024.size a ≤ S50257x1024.size a)
instance k0_chk101.dec : ∀ (v1455 : BitVec 32), Decidable (k0_chk101 v1455) := fun v1455 => decidable_of_iff' _ (Iff.of_eq (k0_chk101.eq_1 v1455))
theorem k0_off202_inb : ∀ (v1455 : BitVec 32) (k0_hw101 : k0_chk101 v1455), ∀ a, (k0_off202 v1455) a + S1x1024.size a ≤ S50257x1024.size a := fun v1455 k0_hw101 => k0_hw101

def k0_off203 (i : grid0.Coords) : Fin 1 → Nat :=
  let arg0 : BitVec 32 := BitVec.ofNat 32 (i 0).val
  let c256_i32 : BitVec 32 := 256#32
  let v0 : BitVec 32 := Scalar.muli arg0 c256_i32
  let c101_i32 : BitVec 32 := 101#32
  let v1468 : BitVec 32 := Scalar.addi v0 c101_i32
  let v1469 : Index := Scalar.indexCast v1468
  ![v1469.toNat]
def k0_off204 (v1470 : BitVec 32) : Fin 2 → Nat :=
  let c0_i32_877 : BitVec 32 := 0#32
  ![v1470.toNat, 0]

def k0_chk102 (v1470 : BitVec 32) : Prop :=
  (∀ a, (k0_off204 v1470) a + S1x1024.size a ≤ S50257x1024.size a)
instance k0_chk102.dec : ∀ (v1470 : BitVec 32), Decidable (k0_chk102 v1470) := fun v1470 => decidable_of_iff' _ (Iff.of_eq (k0_chk102.eq_1 v1470))
theorem k0_off204_inb : ∀ (v1470 : BitVec 32) (k0_hw102 : k0_chk102 v1470), ∀ a, (k0_off204 v1470) a + S1x1024.size a ≤ S50257x1024.size a := fun v1470 k0_hw102 => k0_hw102

def k0_off205 (i : grid0.Coords) : Fin 1 → Nat :=
  let arg0 : BitVec 32 := BitVec.ofNat 32 (i 0).val
  let c256_i32 : BitVec 32 := 256#32
  let v0 : BitVec 32 := Scalar.muli arg0 c256_i32
  let c102_i32 : BitVec 32 := 102#32
  let v1483 : BitVec 32 := Scalar.addi v0 c102_i32
  let v1484 : Index := Scalar.indexCast v1483
  ![v1484.toNat]
def k0_off206 (v1485 : BitVec 32) : Fin 2 → Nat :=
  let c0_i32_886 : BitVec 32 := 0#32
  ![v1485.toNat, 0]

def k0_chk103 (v1485 : BitVec 32) : Prop :=
  (∀ a, (k0_off206 v1485) a + S1x1024.size a ≤ S50257x1024.size a)
instance k0_chk103.dec : ∀ (v1485 : BitVec 32), Decidable (k0_chk103 v1485) := fun v1485 => decidable_of_iff' _ (Iff.of_eq (k0_chk103.eq_1 v1485))
theorem k0_off206_inb : ∀ (v1485 : BitVec 32) (k0_hw103 : k0_chk103 v1485), ∀ a, (k0_off206 v1485) a + S1x1024.size a ≤ S50257x1024.size a := fun v1485 k0_hw103 => k0_hw103

def k0_off207 (i : grid0.Coords) : Fin 1 → Nat :=
  let arg0 : BitVec 32 := BitVec.ofNat 32 (i 0).val
  let c256_i32 : BitVec 32 := 256#32
  let v0 : BitVec 32 := Scalar.muli arg0 c256_i32
  let c103_i32 : BitVec 32 := 103#32
  let v1498 : BitVec 32 := Scalar.addi v0 c103_i32
  let v1499 : Index := Scalar.indexCast v1498
  ![v1499.toNat]
def k0_off208 (v1500 : BitVec 32) : Fin 2 → Nat :=
  let c0_i32_895 : BitVec 32 := 0#32
  ![v1500.toNat, 0]

def k0_chk104 (v1500 : BitVec 32) : Prop :=
  (∀ a, (k0_off208 v1500) a + S1x1024.size a ≤ S50257x1024.size a)
instance k0_chk104.dec : ∀ (v1500 : BitVec 32), Decidable (k0_chk104 v1500) := fun v1500 => decidable_of_iff' _ (Iff.of_eq (k0_chk104.eq_1 v1500))
theorem k0_off208_inb : ∀ (v1500 : BitVec 32) (k0_hw104 : k0_chk104 v1500), ∀ a, (k0_off208 v1500) a + S1x1024.size a ≤ S50257x1024.size a := fun v1500 k0_hw104 => k0_hw104

def k0_off209 (i : grid0.Coords) : Fin 1 → Nat :=
  let arg0 : BitVec 32 := BitVec.ofNat 32 (i 0).val
  let c256_i32 : BitVec 32 := 256#32
  let v0 : BitVec 32 := Scalar.muli arg0 c256_i32
  let c104_i32 : BitVec 32 := 104#32
  let v1513 : BitVec 32 := Scalar.addi v0 c104_i32
  let v1514 : Index := Scalar.indexCast v1513
  ![v1514.toNat]
def k0_off210 (v1515 : BitVec 32) : Fin 2 → Nat :=
  let c0_i32_904 : BitVec 32 := 0#32
  ![v1515.toNat, 0]

def k0_chk105 (v1515 : BitVec 32) : Prop :=
  (∀ a, (k0_off210 v1515) a + S1x1024.size a ≤ S50257x1024.size a)
instance k0_chk105.dec : ∀ (v1515 : BitVec 32), Decidable (k0_chk105 v1515) := fun v1515 => decidable_of_iff' _ (Iff.of_eq (k0_chk105.eq_1 v1515))
theorem k0_off210_inb : ∀ (v1515 : BitVec 32) (k0_hw105 : k0_chk105 v1515), ∀ a, (k0_off210 v1515) a + S1x1024.size a ≤ S50257x1024.size a := fun v1515 k0_hw105 => k0_hw105

def k0_off211 (i : grid0.Coords) : Fin 1 → Nat :=
  let arg0 : BitVec 32 := BitVec.ofNat 32 (i 0).val
  let c256_i32 : BitVec 32 := 256#32
  let v0 : BitVec 32 := Scalar.muli arg0 c256_i32
  let c105_i32 : BitVec 32 := 105#32
  let v1528 : BitVec 32 := Scalar.addi v0 c105_i32
  let v1529 : Index := Scalar.indexCast v1528
  ![v1529.toNat]
def k0_off212 (v1530 : BitVec 32) : Fin 2 → Nat :=
  let c0_i32_913 : BitVec 32 := 0#32
  ![v1530.toNat, 0]

def k0_chk106 (v1530 : BitVec 32) : Prop :=
  (∀ a, (k0_off212 v1530) a + S1x1024.size a ≤ S50257x1024.size a)
instance k0_chk106.dec : ∀ (v1530 : BitVec 32), Decidable (k0_chk106 v1530) := fun v1530 => decidable_of_iff' _ (Iff.of_eq (k0_chk106.eq_1 v1530))
theorem k0_off212_inb : ∀ (v1530 : BitVec 32) (k0_hw106 : k0_chk106 v1530), ∀ a, (k0_off212 v1530) a + S1x1024.size a ≤ S50257x1024.size a := fun v1530 k0_hw106 => k0_hw106

def k0_off213 (i : grid0.Coords) : Fin 1 → Nat :=
  let arg0 : BitVec 32 := BitVec.ofNat 32 (i 0).val
  let c256_i32 : BitVec 32 := 256#32
  let v0 : BitVec 32 := Scalar.muli arg0 c256_i32
  let c106_i32 : BitVec 32 := 106#32
  let v1543 : BitVec 32 := Scalar.addi v0 c106_i32
  let v1544 : Index := Scalar.indexCast v1543
  ![v1544.toNat]
def k0_off214 (v1545 : BitVec 32) : Fin 2 → Nat :=
  let c0_i32_922 : BitVec 32 := 0#32
  ![v1545.toNat, 0]

def k0_chk107 (v1545 : BitVec 32) : Prop :=
  (∀ a, (k0_off214 v1545) a + S1x1024.size a ≤ S50257x1024.size a)
instance k0_chk107.dec : ∀ (v1545 : BitVec 32), Decidable (k0_chk107 v1545) := fun v1545 => decidable_of_iff' _ (Iff.of_eq (k0_chk107.eq_1 v1545))
theorem k0_off214_inb : ∀ (v1545 : BitVec 32) (k0_hw107 : k0_chk107 v1545), ∀ a, (k0_off214 v1545) a + S1x1024.size a ≤ S50257x1024.size a := fun v1545 k0_hw107 => k0_hw107

def k0_off215 (i : grid0.Coords) : Fin 1 → Nat :=
  let arg0 : BitVec 32 := BitVec.ofNat 32 (i 0).val
  let c256_i32 : BitVec 32 := 256#32
  let v0 : BitVec 32 := Scalar.muli arg0 c256_i32
  let c107_i32 : BitVec 32 := 107#32
  let v1558 : BitVec 32 := Scalar.addi v0 c107_i32
  let v1559 : Index := Scalar.indexCast v1558
  ![v1559.toNat]
def k0_off216 (v1560 : BitVec 32) : Fin 2 → Nat :=
  let c0_i32_931 : BitVec 32 := 0#32
  ![v1560.toNat, 0]

def k0_chk108 (v1560 : BitVec 32) : Prop :=
  (∀ a, (k0_off216 v1560) a + S1x1024.size a ≤ S50257x1024.size a)
instance k0_chk108.dec : ∀ (v1560 : BitVec 32), Decidable (k0_chk108 v1560) := fun v1560 => decidable_of_iff' _ (Iff.of_eq (k0_chk108.eq_1 v1560))
theorem k0_off216_inb : ∀ (v1560 : BitVec 32) (k0_hw108 : k0_chk108 v1560), ∀ a, (k0_off216 v1560) a + S1x1024.size a ≤ S50257x1024.size a := fun v1560 k0_hw108 => k0_hw108

def k0_off217 (i : grid0.Coords) : Fin 1 → Nat :=
  let arg0 : BitVec 32 := BitVec.ofNat 32 (i 0).val
  let c256_i32 : BitVec 32 := 256#32
  let v0 : BitVec 32 := Scalar.muli arg0 c256_i32
  let c108_i32 : BitVec 32 := 108#32
  let v1573 : BitVec 32 := Scalar.addi v0 c108_i32
  let v1574 : Index := Scalar.indexCast v1573
  ![v1574.toNat]
def k0_off218 (v1575 : BitVec 32) : Fin 2 → Nat :=
  let c0_i32_940 : BitVec 32 := 0#32
  ![v1575.toNat, 0]

def k0_chk109 (v1575 : BitVec 32) : Prop :=
  (∀ a, (k0_off218 v1575) a + S1x1024.size a ≤ S50257x1024.size a)
instance k0_chk109.dec : ∀ (v1575 : BitVec 32), Decidable (k0_chk109 v1575) := fun v1575 => decidable_of_iff' _ (Iff.of_eq (k0_chk109.eq_1 v1575))
theorem k0_off218_inb : ∀ (v1575 : BitVec 32) (k0_hw109 : k0_chk109 v1575), ∀ a, (k0_off218 v1575) a + S1x1024.size a ≤ S50257x1024.size a := fun v1575 k0_hw109 => k0_hw109

def k0_off219 (i : grid0.Coords) : Fin 1 → Nat :=
  let arg0 : BitVec 32 := BitVec.ofNat 32 (i 0).val
  let c256_i32 : BitVec 32 := 256#32
  let v0 : BitVec 32 := Scalar.muli arg0 c256_i32
  let c109_i32 : BitVec 32 := 109#32
  let v1588 : BitVec 32 := Scalar.addi v0 c109_i32
  let v1589 : Index := Scalar.indexCast v1588
  ![v1589.toNat]
def k0_off220 (v1590 : BitVec 32) : Fin 2 → Nat :=
  let c0_i32_949 : BitVec 32 := 0#32
  ![v1590.toNat, 0]

def k0_chk110 (v1590 : BitVec 32) : Prop :=
  (∀ a, (k0_off220 v1590) a + S1x1024.size a ≤ S50257x1024.size a)
instance k0_chk110.dec : ∀ (v1590 : BitVec 32), Decidable (k0_chk110 v1590) := fun v1590 => decidable_of_iff' _ (Iff.of_eq (k0_chk110.eq_1 v1590))
theorem k0_off220_inb : ∀ (v1590 : BitVec 32) (k0_hw110 : k0_chk110 v1590), ∀ a, (k0_off220 v1590) a + S1x1024.size a ≤ S50257x1024.size a := fun v1590 k0_hw110 => k0_hw110

def k0_off221 (i : grid0.Coords) : Fin 1 → Nat :=
  let arg0 : BitVec 32 := BitVec.ofNat 32 (i 0).val
  let c256_i32 : BitVec 32 := 256#32
  let v0 : BitVec 32 := Scalar.muli arg0 c256_i32
  let c110_i32 : BitVec 32 := 110#32
  let v1603 : BitVec 32 := Scalar.addi v0 c110_i32
  let v1604 : Index := Scalar.indexCast v1603
  ![v1604.toNat]
def k0_off222 (v1605 : BitVec 32) : Fin 2 → Nat :=
  let c0_i32_958 : BitVec 32 := 0#32
  ![v1605.toNat, 0]

def k0_chk111 (v1605 : BitVec 32) : Prop :=
  (∀ a, (k0_off222 v1605) a + S1x1024.size a ≤ S50257x1024.size a)
instance k0_chk111.dec : ∀ (v1605 : BitVec 32), Decidable (k0_chk111 v1605) := fun v1605 => decidable_of_iff' _ (Iff.of_eq (k0_chk111.eq_1 v1605))
theorem k0_off222_inb : ∀ (v1605 : BitVec 32) (k0_hw111 : k0_chk111 v1605), ∀ a, (k0_off222 v1605) a + S1x1024.size a ≤ S50257x1024.size a := fun v1605 k0_hw111 => k0_hw111

def k0_off223 (i : grid0.Coords) : Fin 1 → Nat :=
  let arg0 : BitVec 32 := BitVec.ofNat 32 (i 0).val
  let c256_i32 : BitVec 32 := 256#32
  let v0 : BitVec 32 := Scalar.muli arg0 c256_i32
  let c111_i32 : BitVec 32 := 111#32
  let v1618 : BitVec 32 := Scalar.addi v0 c111_i32
  let v1619 : Index := Scalar.indexCast v1618
  ![v1619.toNat]
def k0_off224 (v1620 : BitVec 32) : Fin 2 → Nat :=
  let c0_i32_967 : BitVec 32 := 0#32
  ![v1620.toNat, 0]

def k0_chk112 (v1620 : BitVec 32) : Prop :=
  (∀ a, (k0_off224 v1620) a + S1x1024.size a ≤ S50257x1024.size a)
instance k0_chk112.dec : ∀ (v1620 : BitVec 32), Decidable (k0_chk112 v1620) := fun v1620 => decidable_of_iff' _ (Iff.of_eq (k0_chk112.eq_1 v1620))
theorem k0_off224_inb : ∀ (v1620 : BitVec 32) (k0_hw112 : k0_chk112 v1620), ∀ a, (k0_off224 v1620) a + S1x1024.size a ≤ S50257x1024.size a := fun v1620 k0_hw112 => k0_hw112

def k0_off225 (i : grid0.Coords) : Fin 1 → Nat :=
  let arg0 : BitVec 32 := BitVec.ofNat 32 (i 0).val
  let c256_i32 : BitVec 32 := 256#32
  let v0 : BitVec 32 := Scalar.muli arg0 c256_i32
  let c112_i32 : BitVec 32 := 112#32
  let v1633 : BitVec 32 := Scalar.addi v0 c112_i32
  let v1634 : Index := Scalar.indexCast v1633
  ![v1634.toNat]
def k0_off226 (v1635 : BitVec 32) : Fin 2 → Nat :=
  let c0_i32_976 : BitVec 32 := 0#32
  ![v1635.toNat, 0]

def k0_chk113 (v1635 : BitVec 32) : Prop :=
  (∀ a, (k0_off226 v1635) a + S1x1024.size a ≤ S50257x1024.size a)
instance k0_chk113.dec : ∀ (v1635 : BitVec 32), Decidable (k0_chk113 v1635) := fun v1635 => decidable_of_iff' _ (Iff.of_eq (k0_chk113.eq_1 v1635))
theorem k0_off226_inb : ∀ (v1635 : BitVec 32) (k0_hw113 : k0_chk113 v1635), ∀ a, (k0_off226 v1635) a + S1x1024.size a ≤ S50257x1024.size a := fun v1635 k0_hw113 => k0_hw113

def k0_off227 (i : grid0.Coords) : Fin 1 → Nat :=
  let arg0 : BitVec 32 := BitVec.ofNat 32 (i 0).val
  let c256_i32 : BitVec 32 := 256#32
  let v0 : BitVec 32 := Scalar.muli arg0 c256_i32
  let c113_i32 : BitVec 32 := 113#32
  let v1648 : BitVec 32 := Scalar.addi v0 c113_i32
  let v1649 : Index := Scalar.indexCast v1648
  ![v1649.toNat]
def k0_off228 (v1650 : BitVec 32) : Fin 2 → Nat :=
  let c0_i32_985 : BitVec 32 := 0#32
  ![v1650.toNat, 0]

def k0_chk114 (v1650 : BitVec 32) : Prop :=
  (∀ a, (k0_off228 v1650) a + S1x1024.size a ≤ S50257x1024.size a)
instance k0_chk114.dec : ∀ (v1650 : BitVec 32), Decidable (k0_chk114 v1650) := fun v1650 => decidable_of_iff' _ (Iff.of_eq (k0_chk114.eq_1 v1650))
theorem k0_off228_inb : ∀ (v1650 : BitVec 32) (k0_hw114 : k0_chk114 v1650), ∀ a, (k0_off228 v1650) a + S1x1024.size a ≤ S50257x1024.size a := fun v1650 k0_hw114 => k0_hw114

def k0_off229 (i : grid0.Coords) : Fin 1 → Nat :=
  let arg0 : BitVec 32 := BitVec.ofNat 32 (i 0).val
  let c256_i32 : BitVec 32 := 256#32
  let v0 : BitVec 32 := Scalar.muli arg0 c256_i32
  let c114_i32 : BitVec 32 := 114#32
  let v1663 : BitVec 32 := Scalar.addi v0 c114_i32
  let v1664 : Index := Scalar.indexCast v1663
  ![v1664.toNat]
def k0_off230 (v1665 : BitVec 32) : Fin 2 → Nat :=
  let c0_i32_994 : BitVec 32 := 0#32
  ![v1665.toNat, 0]

def k0_chk115 (v1665 : BitVec 32) : Prop :=
  (∀ a, (k0_off230 v1665) a + S1x1024.size a ≤ S50257x1024.size a)
instance k0_chk115.dec : ∀ (v1665 : BitVec 32), Decidable (k0_chk115 v1665) := fun v1665 => decidable_of_iff' _ (Iff.of_eq (k0_chk115.eq_1 v1665))
theorem k0_off230_inb : ∀ (v1665 : BitVec 32) (k0_hw115 : k0_chk115 v1665), ∀ a, (k0_off230 v1665) a + S1x1024.size a ≤ S50257x1024.size a := fun v1665 k0_hw115 => k0_hw115

def k0_off231 (i : grid0.Coords) : Fin 1 → Nat :=
  let arg0 : BitVec 32 := BitVec.ofNat 32 (i 0).val
  let c256_i32 : BitVec 32 := 256#32
  let v0 : BitVec 32 := Scalar.muli arg0 c256_i32
  let c115_i32 : BitVec 32 := 115#32
  let v1678 : BitVec 32 := Scalar.addi v0 c115_i32
  let v1679 : Index := Scalar.indexCast v1678
  ![v1679.toNat]
def k0_off232 (v1680 : BitVec 32) : Fin 2 → Nat :=
  let c0_i32_1003 : BitVec 32 := 0#32
  ![v1680.toNat, 0]

def k0_chk116 (v1680 : BitVec 32) : Prop :=
  (∀ a, (k0_off232 v1680) a + S1x1024.size a ≤ S50257x1024.size a)
instance k0_chk116.dec : ∀ (v1680 : BitVec 32), Decidable (k0_chk116 v1680) := fun v1680 => decidable_of_iff' _ (Iff.of_eq (k0_chk116.eq_1 v1680))
theorem k0_off232_inb : ∀ (v1680 : BitVec 32) (k0_hw116 : k0_chk116 v1680), ∀ a, (k0_off232 v1680) a + S1x1024.size a ≤ S50257x1024.size a := fun v1680 k0_hw116 => k0_hw116

def k0_off233 (i : grid0.Coords) : Fin 1 → Nat :=
  let arg0 : BitVec 32 := BitVec.ofNat 32 (i 0).val
  let c256_i32 : BitVec 32 := 256#32
  let v0 : BitVec 32 := Scalar.muli arg0 c256_i32
  let c116_i32 : BitVec 32 := 116#32
  let v1693 : BitVec 32 := Scalar.addi v0 c116_i32
  let v1694 : Index := Scalar.indexCast v1693
  ![v1694.toNat]
def k0_off234 (v1695 : BitVec 32) : Fin 2 → Nat :=
  let c0_i32_1012 : BitVec 32 := 0#32
  ![v1695.toNat, 0]

def k0_chk117 (v1695 : BitVec 32) : Prop :=
  (∀ a, (k0_off234 v1695) a + S1x1024.size a ≤ S50257x1024.size a)
instance k0_chk117.dec : ∀ (v1695 : BitVec 32), Decidable (k0_chk117 v1695) := fun v1695 => decidable_of_iff' _ (Iff.of_eq (k0_chk117.eq_1 v1695))
theorem k0_off234_inb : ∀ (v1695 : BitVec 32) (k0_hw117 : k0_chk117 v1695), ∀ a, (k0_off234 v1695) a + S1x1024.size a ≤ S50257x1024.size a := fun v1695 k0_hw117 => k0_hw117

def k0_off235 (i : grid0.Coords) : Fin 1 → Nat :=
  let arg0 : BitVec 32 := BitVec.ofNat 32 (i 0).val
  let c256_i32 : BitVec 32 := 256#32
  let v0 : BitVec 32 := Scalar.muli arg0 c256_i32
  let c117_i32 : BitVec 32 := 117#32
  let v1708 : BitVec 32 := Scalar.addi v0 c117_i32
  let v1709 : Index := Scalar.indexCast v1708
  ![v1709.toNat]
def k0_off236 (v1710 : BitVec 32) : Fin 2 → Nat :=
  let c0_i32_1021 : BitVec 32 := 0#32
  ![v1710.toNat, 0]

def k0_chk118 (v1710 : BitVec 32) : Prop :=
  (∀ a, (k0_off236 v1710) a + S1x1024.size a ≤ S50257x1024.size a)
instance k0_chk118.dec : ∀ (v1710 : BitVec 32), Decidable (k0_chk118 v1710) := fun v1710 => decidable_of_iff' _ (Iff.of_eq (k0_chk118.eq_1 v1710))
theorem k0_off236_inb : ∀ (v1710 : BitVec 32) (k0_hw118 : k0_chk118 v1710), ∀ a, (k0_off236 v1710) a + S1x1024.size a ≤ S50257x1024.size a := fun v1710 k0_hw118 => k0_hw118

def k0_off237 (i : grid0.Coords) : Fin 1 → Nat :=
  let arg0 : BitVec 32 := BitVec.ofNat 32 (i 0).val
  let c256_i32 : BitVec 32 := 256#32
  let v0 : BitVec 32 := Scalar.muli arg0 c256_i32
  let c118_i32 : BitVec 32 := 118#32
  let v1723 : BitVec 32 := Scalar.addi v0 c118_i32
  let v1724 : Index := Scalar.indexCast v1723
  ![v1724.toNat]
def k0_off238 (v1725 : BitVec 32) : Fin 2 → Nat :=
  let c0_i32_1030 : BitVec 32 := 0#32
  ![v1725.toNat, 0]

def k0_chk119 (v1725 : BitVec 32) : Prop :=
  (∀ a, (k0_off238 v1725) a + S1x1024.size a ≤ S50257x1024.size a)
instance k0_chk119.dec : ∀ (v1725 : BitVec 32), Decidable (k0_chk119 v1725) := fun v1725 => decidable_of_iff' _ (Iff.of_eq (k0_chk119.eq_1 v1725))
theorem k0_off238_inb : ∀ (v1725 : BitVec 32) (k0_hw119 : k0_chk119 v1725), ∀ a, (k0_off238 v1725) a + S1x1024.size a ≤ S50257x1024.size a := fun v1725 k0_hw119 => k0_hw119

def k0_off239 (i : grid0.Coords) : Fin 1 → Nat :=
  let arg0 : BitVec 32 := BitVec.ofNat 32 (i 0).val
  let c256_i32 : BitVec 32 := 256#32
  let v0 : BitVec 32 := Scalar.muli arg0 c256_i32
  let c119_i32 : BitVec 32 := 119#32
  let v1738 : BitVec 32 := Scalar.addi v0 c119_i32
  let v1739 : Index := Scalar.indexCast v1738
  ![v1739.toNat]
def k0_off240 (v1740 : BitVec 32) : Fin 2 → Nat :=
  let c0_i32_1039 : BitVec 32 := 0#32
  ![v1740.toNat, 0]

def k0_chk120 (v1740 : BitVec 32) : Prop :=
  (∀ a, (k0_off240 v1740) a + S1x1024.size a ≤ S50257x1024.size a)
instance k0_chk120.dec : ∀ (v1740 : BitVec 32), Decidable (k0_chk120 v1740) := fun v1740 => decidable_of_iff' _ (Iff.of_eq (k0_chk120.eq_1 v1740))
theorem k0_off240_inb : ∀ (v1740 : BitVec 32) (k0_hw120 : k0_chk120 v1740), ∀ a, (k0_off240 v1740) a + S1x1024.size a ≤ S50257x1024.size a := fun v1740 k0_hw120 => k0_hw120

def k0_off241 (i : grid0.Coords) : Fin 1 → Nat :=
  let arg0 : BitVec 32 := BitVec.ofNat 32 (i 0).val
  let c256_i32 : BitVec 32 := 256#32
  let v0 : BitVec 32 := Scalar.muli arg0 c256_i32
  let c120_i32 : BitVec 32 := 120#32
  let v1753 : BitVec 32 := Scalar.addi v0 c120_i32
  let v1754 : Index := Scalar.indexCast v1753
  ![v1754.toNat]
def k0_off242 (v1755 : BitVec 32) : Fin 2 → Nat :=
  let c0_i32_1048 : BitVec 32 := 0#32
  ![v1755.toNat, 0]

def k0_chk121 (v1755 : BitVec 32) : Prop :=
  (∀ a, (k0_off242 v1755) a + S1x1024.size a ≤ S50257x1024.size a)
instance k0_chk121.dec : ∀ (v1755 : BitVec 32), Decidable (k0_chk121 v1755) := fun v1755 => decidable_of_iff' _ (Iff.of_eq (k0_chk121.eq_1 v1755))
theorem k0_off242_inb : ∀ (v1755 : BitVec 32) (k0_hw121 : k0_chk121 v1755), ∀ a, (k0_off242 v1755) a + S1x1024.size a ≤ S50257x1024.size a := fun v1755 k0_hw121 => k0_hw121

def k0_off243 (i : grid0.Coords) : Fin 1 → Nat :=
  let arg0 : BitVec 32 := BitVec.ofNat 32 (i 0).val
  let c256_i32 : BitVec 32 := 256#32
  let v0 : BitVec 32 := Scalar.muli arg0 c256_i32
  let c121_i32 : BitVec 32 := 121#32
  let v1768 : BitVec 32 := Scalar.addi v0 c121_i32
  let v1769 : Index := Scalar.indexCast v1768
  ![v1769.toNat]
def k0_off244 (v1770 : BitVec 32) : Fin 2 → Nat :=
  let c0_i32_1057 : BitVec 32 := 0#32
  ![v1770.toNat, 0]

def k0_chk122 (v1770 : BitVec 32) : Prop :=
  (∀ a, (k0_off244 v1770) a + S1x1024.size a ≤ S50257x1024.size a)
instance k0_chk122.dec : ∀ (v1770 : BitVec 32), Decidable (k0_chk122 v1770) := fun v1770 => decidable_of_iff' _ (Iff.of_eq (k0_chk122.eq_1 v1770))
theorem k0_off244_inb : ∀ (v1770 : BitVec 32) (k0_hw122 : k0_chk122 v1770), ∀ a, (k0_off244 v1770) a + S1x1024.size a ≤ S50257x1024.size a := fun v1770 k0_hw122 => k0_hw122

def k0_off245 (i : grid0.Coords) : Fin 1 → Nat :=
  let arg0 : BitVec 32 := BitVec.ofNat 32 (i 0).val
  let c256_i32 : BitVec 32 := 256#32
  let v0 : BitVec 32 := Scalar.muli arg0 c256_i32
  let c122_i32 : BitVec 32 := 122#32
  let v1783 : BitVec 32 := Scalar.addi v0 c122_i32
  let v1784 : Index := Scalar.indexCast v1783
  ![v1784.toNat]
def k0_off246 (v1785 : BitVec 32) : Fin 2 → Nat :=
  let c0_i32_1066 : BitVec 32 := 0#32
  ![v1785.toNat, 0]

def k0_chk123 (v1785 : BitVec 32) : Prop :=
  (∀ a, (k0_off246 v1785) a + S1x1024.size a ≤ S50257x1024.size a)
instance k0_chk123.dec : ∀ (v1785 : BitVec 32), Decidable (k0_chk123 v1785) := fun v1785 => decidable_of_iff' _ (Iff.of_eq (k0_chk123.eq_1 v1785))
theorem k0_off246_inb : ∀ (v1785 : BitVec 32) (k0_hw123 : k0_chk123 v1785), ∀ a, (k0_off246 v1785) a + S1x1024.size a ≤ S50257x1024.size a := fun v1785 k0_hw123 => k0_hw123

def k0_off247 (i : grid0.Coords) : Fin 1 → Nat :=
  let arg0 : BitVec 32 := BitVec.ofNat 32 (i 0).val
  let c256_i32 : BitVec 32 := 256#32
  let v0 : BitVec 32 := Scalar.muli arg0 c256_i32
  let c123_i32 : BitVec 32 := 123#32
  let v1798 : BitVec 32 := Scalar.addi v0 c123_i32
  let v1799 : Index := Scalar.indexCast v1798
  ![v1799.toNat]
def k0_off248 (v1800 : BitVec 32) : Fin 2 → Nat :=
  let c0_i32_1075 : BitVec 32 := 0#32
  ![v1800.toNat, 0]

def k0_chk124 (v1800 : BitVec 32) : Prop :=
  (∀ a, (k0_off248 v1800) a + S1x1024.size a ≤ S50257x1024.size a)
instance k0_chk124.dec : ∀ (v1800 : BitVec 32), Decidable (k0_chk124 v1800) := fun v1800 => decidable_of_iff' _ (Iff.of_eq (k0_chk124.eq_1 v1800))
theorem k0_off248_inb : ∀ (v1800 : BitVec 32) (k0_hw124 : k0_chk124 v1800), ∀ a, (k0_off248 v1800) a + S1x1024.size a ≤ S50257x1024.size a := fun v1800 k0_hw124 => k0_hw124

def k0_off249 (i : grid0.Coords) : Fin 1 → Nat :=
  let arg0 : BitVec 32 := BitVec.ofNat 32 (i 0).val
  let c256_i32 : BitVec 32 := 256#32
  let v0 : BitVec 32 := Scalar.muli arg0 c256_i32
  let c124_i32 : BitVec 32 := 124#32
  let v1813 : BitVec 32 := Scalar.addi v0 c124_i32
  let v1814 : Index := Scalar.indexCast v1813
  ![v1814.toNat]
def k0_off250 (v1815 : BitVec 32) : Fin 2 → Nat :=
  let c0_i32_1084 : BitVec 32 := 0#32
  ![v1815.toNat, 0]

def k0_chk125 (v1815 : BitVec 32) : Prop :=
  (∀ a, (k0_off250 v1815) a + S1x1024.size a ≤ S50257x1024.size a)
instance k0_chk125.dec : ∀ (v1815 : BitVec 32), Decidable (k0_chk125 v1815) := fun v1815 => decidable_of_iff' _ (Iff.of_eq (k0_chk125.eq_1 v1815))
theorem k0_off250_inb : ∀ (v1815 : BitVec 32) (k0_hw125 : k0_chk125 v1815), ∀ a, (k0_off250 v1815) a + S1x1024.size a ≤ S50257x1024.size a := fun v1815 k0_hw125 => k0_hw125

def k0_off251 (i : grid0.Coords) : Fin 1 → Nat :=
  let arg0 : BitVec 32 := BitVec.ofNat 32 (i 0).val
  let c256_i32 : BitVec 32 := 256#32
  let v0 : BitVec 32 := Scalar.muli arg0 c256_i32
  let c125_i32 : BitVec 32 := 125#32
  let v1828 : BitVec 32 := Scalar.addi v0 c125_i32
  let v1829 : Index := Scalar.indexCast v1828
  ![v1829.toNat]
def k0_off252 (v1830 : BitVec 32) : Fin 2 → Nat :=
  let c0_i32_1093 : BitVec 32 := 0#32
  ![v1830.toNat, 0]

def k0_chk126 (v1830 : BitVec 32) : Prop :=
  (∀ a, (k0_off252 v1830) a + S1x1024.size a ≤ S50257x1024.size a)
instance k0_chk126.dec : ∀ (v1830 : BitVec 32), Decidable (k0_chk126 v1830) := fun v1830 => decidable_of_iff' _ (Iff.of_eq (k0_chk126.eq_1 v1830))
theorem k0_off252_inb : ∀ (v1830 : BitVec 32) (k0_hw126 : k0_chk126 v1830), ∀ a, (k0_off252 v1830) a + S1x1024.size a ≤ S50257x1024.size a := fun v1830 k0_hw126 => k0_hw126

def k0_off253 (i : grid0.Coords) : Fin 1 → Nat :=
  let arg0 : BitVec 32 := BitVec.ofNat 32 (i 0).val
  let c256_i32 : BitVec 32 := 256#32
  let v0 : BitVec 32 := Scalar.muli arg0 c256_i32
  let c126_i32 : BitVec 32 := 126#32
  let v1843 : BitVec 32 := Scalar.addi v0 c126_i32
  let v1844 : Index := Scalar.indexCast v1843
  ![v1844.toNat]
def k0_off254 (v1845 : BitVec 32) : Fin 2 → Nat :=
  let c0_i32_1102 : BitVec 32 := 0#32
  ![v1845.toNat, 0]

def k0_chk127 (v1845 : BitVec 32) : Prop :=
  (∀ a, (k0_off254 v1845) a + S1x1024.size a ≤ S50257x1024.size a)
instance k0_chk127.dec : ∀ (v1845 : BitVec 32), Decidable (k0_chk127 v1845) := fun v1845 => decidable_of_iff' _ (Iff.of_eq (k0_chk127.eq_1 v1845))
theorem k0_off254_inb : ∀ (v1845 : BitVec 32) (k0_hw127 : k0_chk127 v1845), ∀ a, (k0_off254 v1845) a + S1x1024.size a ≤ S50257x1024.size a := fun v1845 k0_hw127 => k0_hw127

def k0_off255 (i : grid0.Coords) : Fin 1 → Nat :=
  let arg0 : BitVec 32 := BitVec.ofNat 32 (i 0).val
  let c256_i32 : BitVec 32 := 256#32
  let v0 : BitVec 32 := Scalar.muli arg0 c256_i32
  let c127_i32 : BitVec 32 := 127#32
  let v1858 : BitVec 32 := Scalar.addi v0 c127_i32
  let v1859 : Index := Scalar.indexCast v1858
  ![v1859.toNat]
def k0_off256 (v1860 : BitVec 32) : Fin 2 → Nat :=
  let c0_i32_1111 : BitVec 32 := 0#32
  ![v1860.toNat, 0]

def k0_chk128 (v1860 : BitVec 32) : Prop :=
  (∀ a, (k0_off256 v1860) a + S1x1024.size a ≤ S50257x1024.size a)
instance k0_chk128.dec : ∀ (v1860 : BitVec 32), Decidable (k0_chk128 v1860) := fun v1860 => decidable_of_iff' _ (Iff.of_eq (k0_chk128.eq_1 v1860))
theorem k0_off256_inb : ∀ (v1860 : BitVec 32) (k0_hw128 : k0_chk128 v1860), ∀ a, (k0_off256 v1860) a + S1x1024.size a ≤ S50257x1024.size a := fun v1860 k0_hw128 => k0_hw128

def k0_off257 (i : grid0.Coords) : Fin 1 → Nat :=
  let arg0 : BitVec 32 := BitVec.ofNat 32 (i 0).val
  let c256_i32 : BitVec 32 := 256#32
  let v0 : BitVec 32 := Scalar.muli arg0 c256_i32
  let c128_i32 : BitVec 32 := 128#32
  let v1873 : BitVec 32 := Scalar.addi v0 c128_i32
  let v1874 : Index := Scalar.indexCast v1873
  ![v1874.toNat]
def k0_off258 (v1875 : BitVec 32) : Fin 2 → Nat :=
  let c0_i32_1120 : BitVec 32 := 0#32
  ![v1875.toNat, 0]

def k0_chk129 (v1875 : BitVec 32) : Prop :=
  (∀ a, (k0_off258 v1875) a + S1x1024.size a ≤ S50257x1024.size a)
instance k0_chk129.dec : ∀ (v1875 : BitVec 32), Decidable (k0_chk129 v1875) := fun v1875 => decidable_of_iff' _ (Iff.of_eq (k0_chk129.eq_1 v1875))
theorem k0_off258_inb : ∀ (v1875 : BitVec 32) (k0_hw129 : k0_chk129 v1875), ∀ a, (k0_off258 v1875) a + S1x1024.size a ≤ S50257x1024.size a := fun v1875 k0_hw129 => k0_hw129

def k0_off259 (i : grid0.Coords) : Fin 1 → Nat :=
  let arg0 : BitVec 32 := BitVec.ofNat 32 (i 0).val
  let c256_i32 : BitVec 32 := 256#32
  let v0 : BitVec 32 := Scalar.muli arg0 c256_i32
  let c129_i32 : BitVec 32 := 129#32
  let v1888 : BitVec 32 := Scalar.addi v0 c129_i32
  let v1889 : Index := Scalar.indexCast v1888
  ![v1889.toNat]
def k0_off260 (v1890 : BitVec 32) : Fin 2 → Nat :=
  let c0_i32_1129 : BitVec 32 := 0#32
  ![v1890.toNat, 0]

def k0_chk130 (v1890 : BitVec 32) : Prop :=
  (∀ a, (k0_off260 v1890) a + S1x1024.size a ≤ S50257x1024.size a)
instance k0_chk130.dec : ∀ (v1890 : BitVec 32), Decidable (k0_chk130 v1890) := fun v1890 => decidable_of_iff' _ (Iff.of_eq (k0_chk130.eq_1 v1890))
theorem k0_off260_inb : ∀ (v1890 : BitVec 32) (k0_hw130 : k0_chk130 v1890), ∀ a, (k0_off260 v1890) a + S1x1024.size a ≤ S50257x1024.size a := fun v1890 k0_hw130 => k0_hw130

def k0_off261 (i : grid0.Coords) : Fin 1 → Nat :=
  let arg0 : BitVec 32 := BitVec.ofNat 32 (i 0).val
  let c256_i32 : BitVec 32 := 256#32
  let v0 : BitVec 32 := Scalar.muli arg0 c256_i32
  let c130_i32 : BitVec 32 := 130#32
  let v1903 : BitVec 32 := Scalar.addi v0 c130_i32
  let v1904 : Index := Scalar.indexCast v1903
  ![v1904.toNat]
def k0_off262 (v1905 : BitVec 32) : Fin 2 → Nat :=
  let c0_i32_1138 : BitVec 32 := 0#32
  ![v1905.toNat, 0]

def k0_chk131 (v1905 : BitVec 32) : Prop :=
  (∀ a, (k0_off262 v1905) a + S1x1024.size a ≤ S50257x1024.size a)
instance k0_chk131.dec : ∀ (v1905 : BitVec 32), Decidable (k0_chk131 v1905) := fun v1905 => decidable_of_iff' _ (Iff.of_eq (k0_chk131.eq_1 v1905))
theorem k0_off262_inb : ∀ (v1905 : BitVec 32) (k0_hw131 : k0_chk131 v1905), ∀ a, (k0_off262 v1905) a + S1x1024.size a ≤ S50257x1024.size a := fun v1905 k0_hw131 => k0_hw131

def k0_off263 (i : grid0.Coords) : Fin 1 → Nat :=
  let arg0 : BitVec 32 := BitVec.ofNat 32 (i 0).val
  let c256_i32 : BitVec 32 := 256#32
  let v0 : BitVec 32 := Scalar.muli arg0 c256_i32
  let c131_i32 : BitVec 32 := 131#32
  let v1918 : BitVec 32 := Scalar.addi v0 c131_i32
  let v1919 : Index := Scalar.indexCast v1918
  ![v1919.toNat]
def k0_off264 (v1920 : BitVec 32) : Fin 2 → Nat :=
  let c0_i32_1147 : BitVec 32 := 0#32
  ![v1920.toNat, 0]

def k0_chk132 (v1920 : BitVec 32) : Prop :=
  (∀ a, (k0_off264 v1920) a + S1x1024.size a ≤ S50257x1024.size a)
instance k0_chk132.dec : ∀ (v1920 : BitVec 32), Decidable (k0_chk132 v1920) := fun v1920 => decidable_of_iff' _ (Iff.of_eq (k0_chk132.eq_1 v1920))
theorem k0_off264_inb : ∀ (v1920 : BitVec 32) (k0_hw132 : k0_chk132 v1920), ∀ a, (k0_off264 v1920) a + S1x1024.size a ≤ S50257x1024.size a := fun v1920 k0_hw132 => k0_hw132

def k0_off265 (i : grid0.Coords) : Fin 1 → Nat :=
  let arg0 : BitVec 32 := BitVec.ofNat 32 (i 0).val
  let c256_i32 : BitVec 32 := 256#32
  let v0 : BitVec 32 := Scalar.muli arg0 c256_i32
  let c132_i32 : BitVec 32 := 132#32
  let v1933 : BitVec 32 := Scalar.addi v0 c132_i32
  let v1934 : Index := Scalar.indexCast v1933
  ![v1934.toNat]
def k0_off266 (v1935 : BitVec 32) : Fin 2 → Nat :=
  let c0_i32_1156 : BitVec 32 := 0#32
  ![v1935.toNat, 0]

def k0_chk133 (v1935 : BitVec 32) : Prop :=
  (∀ a, (k0_off266 v1935) a + S1x1024.size a ≤ S50257x1024.size a)
instance k0_chk133.dec : ∀ (v1935 : BitVec 32), Decidable (k0_chk133 v1935) := fun v1935 => decidable_of_iff' _ (Iff.of_eq (k0_chk133.eq_1 v1935))
theorem k0_off266_inb : ∀ (v1935 : BitVec 32) (k0_hw133 : k0_chk133 v1935), ∀ a, (k0_off266 v1935) a + S1x1024.size a ≤ S50257x1024.size a := fun v1935 k0_hw133 => k0_hw133

def k0_off267 (i : grid0.Coords) : Fin 1 → Nat :=
  let arg0 : BitVec 32 := BitVec.ofNat 32 (i 0).val
  let c256_i32 : BitVec 32 := 256#32
  let v0 : BitVec 32 := Scalar.muli arg0 c256_i32
  let c133_i32 : BitVec 32 := 133#32
  let v1948 : BitVec 32 := Scalar.addi v0 c133_i32
  let v1949 : Index := Scalar.indexCast v1948
  ![v1949.toNat]
def k0_off268 (v1950 : BitVec 32) : Fin 2 → Nat :=
  let c0_i32_1165 : BitVec 32 := 0#32
  ![v1950.toNat, 0]

def k0_chk134 (v1950 : BitVec 32) : Prop :=
  (∀ a, (k0_off268 v1950) a + S1x1024.size a ≤ S50257x1024.size a)
instance k0_chk134.dec : ∀ (v1950 : BitVec 32), Decidable (k0_chk134 v1950) := fun v1950 => decidable_of_iff' _ (Iff.of_eq (k0_chk134.eq_1 v1950))
theorem k0_off268_inb : ∀ (v1950 : BitVec 32) (k0_hw134 : k0_chk134 v1950), ∀ a, (k0_off268 v1950) a + S1x1024.size a ≤ S50257x1024.size a := fun v1950 k0_hw134 => k0_hw134

def k0_off269 (i : grid0.Coords) : Fin 1 → Nat :=
  let arg0 : BitVec 32 := BitVec.ofNat 32 (i 0).val
  let c256_i32 : BitVec 32 := 256#32
  let v0 : BitVec 32 := Scalar.muli arg0 c256_i32
  let c134_i32 : BitVec 32 := 134#32
  let v1963 : BitVec 32 := Scalar.addi v0 c134_i32
  let v1964 : Index := Scalar.indexCast v1963
  ![v1964.toNat]
def k0_off270 (v1965 : BitVec 32) : Fin 2 → Nat :=
  let c0_i32_1174 : BitVec 32 := 0#32
  ![v1965.toNat, 0]

def k0_chk135 (v1965 : BitVec 32) : Prop :=
  (∀ a, (k0_off270 v1965) a + S1x1024.size a ≤ S50257x1024.size a)
instance k0_chk135.dec : ∀ (v1965 : BitVec 32), Decidable (k0_chk135 v1965) := fun v1965 => decidable_of_iff' _ (Iff.of_eq (k0_chk135.eq_1 v1965))
theorem k0_off270_inb : ∀ (v1965 : BitVec 32) (k0_hw135 : k0_chk135 v1965), ∀ a, (k0_off270 v1965) a + S1x1024.size a ≤ S50257x1024.size a := fun v1965 k0_hw135 => k0_hw135

def k0_off271 (i : grid0.Coords) : Fin 1 → Nat :=
  let arg0 : BitVec 32 := BitVec.ofNat 32 (i 0).val
  let c256_i32 : BitVec 32 := 256#32
  let v0 : BitVec 32 := Scalar.muli arg0 c256_i32
  let c135_i32 : BitVec 32 := 135#32
  let v1978 : BitVec 32 := Scalar.addi v0 c135_i32
  let v1979 : Index := Scalar.indexCast v1978
  ![v1979.toNat]
def k0_off272 (v1980 : BitVec 32) : Fin 2 → Nat :=
  let c0_i32_1183 : BitVec 32 := 0#32
  ![v1980.toNat, 0]

def k0_chk136 (v1980 : BitVec 32) : Prop :=
  (∀ a, (k0_off272 v1980) a + S1x1024.size a ≤ S50257x1024.size a)
instance k0_chk136.dec : ∀ (v1980 : BitVec 32), Decidable (k0_chk136 v1980) := fun v1980 => decidable_of_iff' _ (Iff.of_eq (k0_chk136.eq_1 v1980))
theorem k0_off272_inb : ∀ (v1980 : BitVec 32) (k0_hw136 : k0_chk136 v1980), ∀ a, (k0_off272 v1980) a + S1x1024.size a ≤ S50257x1024.size a := fun v1980 k0_hw136 => k0_hw136

def k0_off273 (i : grid0.Coords) : Fin 1 → Nat :=
  let arg0 : BitVec 32 := BitVec.ofNat 32 (i 0).val
  let c256_i32 : BitVec 32 := 256#32
  let v0 : BitVec 32 := Scalar.muli arg0 c256_i32
  let c136_i32 : BitVec 32 := 136#32
  let v1993 : BitVec 32 := Scalar.addi v0 c136_i32
  let v1994 : Index := Scalar.indexCast v1993
  ![v1994.toNat]
def k0_off274 (v1995 : BitVec 32) : Fin 2 → Nat :=
  let c0_i32_1192 : BitVec 32 := 0#32
  ![v1995.toNat, 0]

def k0_chk137 (v1995 : BitVec 32) : Prop :=
  (∀ a, (k0_off274 v1995) a + S1x1024.size a ≤ S50257x1024.size a)
instance k0_chk137.dec : ∀ (v1995 : BitVec 32), Decidable (k0_chk137 v1995) := fun v1995 => decidable_of_iff' _ (Iff.of_eq (k0_chk137.eq_1 v1995))
theorem k0_off274_inb : ∀ (v1995 : BitVec 32) (k0_hw137 : k0_chk137 v1995), ∀ a, (k0_off274 v1995) a + S1x1024.size a ≤ S50257x1024.size a := fun v1995 k0_hw137 => k0_hw137

def k0_off275 (i : grid0.Coords) : Fin 1 → Nat :=
  let arg0 : BitVec 32 := BitVec.ofNat 32 (i 0).val
  let c256_i32 : BitVec 32 := 256#32
  let v0 : BitVec 32 := Scalar.muli arg0 c256_i32
  let c137_i32 : BitVec 32 := 137#32
  let v2008 : BitVec 32 := Scalar.addi v0 c137_i32
  let v2009 : Index := Scalar.indexCast v2008
  ![v2009.toNat]
def k0_off276 (v2010 : BitVec 32) : Fin 2 → Nat :=
  let c0_i32_1201 : BitVec 32 := 0#32
  ![v2010.toNat, 0]

def k0_chk138 (v2010 : BitVec 32) : Prop :=
  (∀ a, (k0_off276 v2010) a + S1x1024.size a ≤ S50257x1024.size a)
instance k0_chk138.dec : ∀ (v2010 : BitVec 32), Decidable (k0_chk138 v2010) := fun v2010 => decidable_of_iff' _ (Iff.of_eq (k0_chk138.eq_1 v2010))
theorem k0_off276_inb : ∀ (v2010 : BitVec 32) (k0_hw138 : k0_chk138 v2010), ∀ a, (k0_off276 v2010) a + S1x1024.size a ≤ S50257x1024.size a := fun v2010 k0_hw138 => k0_hw138

def k0_off277 (i : grid0.Coords) : Fin 1 → Nat :=
  let arg0 : BitVec 32 := BitVec.ofNat 32 (i 0).val
  let c256_i32 : BitVec 32 := 256#32
  let v0 : BitVec 32 := Scalar.muli arg0 c256_i32
  let c138_i32 : BitVec 32 := 138#32
  let v2023 : BitVec 32 := Scalar.addi v0 c138_i32
  let v2024 : Index := Scalar.indexCast v2023
  ![v2024.toNat]
def k0_off278 (v2025 : BitVec 32) : Fin 2 → Nat :=
  let c0_i32_1210 : BitVec 32 := 0#32
  ![v2025.toNat, 0]

def k0_chk139 (v2025 : BitVec 32) : Prop :=
  (∀ a, (k0_off278 v2025) a + S1x1024.size a ≤ S50257x1024.size a)
instance k0_chk139.dec : ∀ (v2025 : BitVec 32), Decidable (k0_chk139 v2025) := fun v2025 => decidable_of_iff' _ (Iff.of_eq (k0_chk139.eq_1 v2025))
theorem k0_off278_inb : ∀ (v2025 : BitVec 32) (k0_hw139 : k0_chk139 v2025), ∀ a, (k0_off278 v2025) a + S1x1024.size a ≤ S50257x1024.size a := fun v2025 k0_hw139 => k0_hw139

def k0_off279 (i : grid0.Coords) : Fin 1 → Nat :=
  let arg0 : BitVec 32 := BitVec.ofNat 32 (i 0).val
  let c256_i32 : BitVec 32 := 256#32
  let v0 : BitVec 32 := Scalar.muli arg0 c256_i32
  let c139_i32 : BitVec 32 := 139#32
  let v2038 : BitVec 32 := Scalar.addi v0 c139_i32
  let v2039 : Index := Scalar.indexCast v2038
  ![v2039.toNat]
def k0_off280 (v2040 : BitVec 32) : Fin 2 → Nat :=
  let c0_i32_1219 : BitVec 32 := 0#32
  ![v2040.toNat, 0]

def k0_chk140 (v2040 : BitVec 32) : Prop :=
  (∀ a, (k0_off280 v2040) a + S1x1024.size a ≤ S50257x1024.size a)
instance k0_chk140.dec : ∀ (v2040 : BitVec 32), Decidable (k0_chk140 v2040) := fun v2040 => decidable_of_iff' _ (Iff.of_eq (k0_chk140.eq_1 v2040))
theorem k0_off280_inb : ∀ (v2040 : BitVec 32) (k0_hw140 : k0_chk140 v2040), ∀ a, (k0_off280 v2040) a + S1x1024.size a ≤ S50257x1024.size a := fun v2040 k0_hw140 => k0_hw140

def k0_off281 (i : grid0.Coords) : Fin 1 → Nat :=
  let arg0 : BitVec 32 := BitVec.ofNat 32 (i 0).val
  let c256_i32 : BitVec 32 := 256#32
  let v0 : BitVec 32 := Scalar.muli arg0 c256_i32
  let c140_i32 : BitVec 32 := 140#32
  let v2053 : BitVec 32 := Scalar.addi v0 c140_i32
  let v2054 : Index := Scalar.indexCast v2053
  ![v2054.toNat]
def k0_off282 (v2055 : BitVec 32) : Fin 2 → Nat :=
  let c0_i32_1228 : BitVec 32 := 0#32
  ![v2055.toNat, 0]

def k0_chk141 (v2055 : BitVec 32) : Prop :=
  (∀ a, (k0_off282 v2055) a + S1x1024.size a ≤ S50257x1024.size a)
instance k0_chk141.dec : ∀ (v2055 : BitVec 32), Decidable (k0_chk141 v2055) := fun v2055 => decidable_of_iff' _ (Iff.of_eq (k0_chk141.eq_1 v2055))
theorem k0_off282_inb : ∀ (v2055 : BitVec 32) (k0_hw141 : k0_chk141 v2055), ∀ a, (k0_off282 v2055) a + S1x1024.size a ≤ S50257x1024.size a := fun v2055 k0_hw141 => k0_hw141

def k0_off283 (i : grid0.Coords) : Fin 1 → Nat :=
  let arg0 : BitVec 32 := BitVec.ofNat 32 (i 0).val
  let c256_i32 : BitVec 32 := 256#32
  let v0 : BitVec 32 := Scalar.muli arg0 c256_i32
  let c141_i32 : BitVec 32 := 141#32
  let v2068 : BitVec 32 := Scalar.addi v0 c141_i32
  let v2069 : Index := Scalar.indexCast v2068
  ![v2069.toNat]
def k0_off284 (v2070 : BitVec 32) : Fin 2 → Nat :=
  let c0_i32_1237 : BitVec 32 := 0#32
  ![v2070.toNat, 0]

def k0_chk142 (v2070 : BitVec 32) : Prop :=
  (∀ a, (k0_off284 v2070) a + S1x1024.size a ≤ S50257x1024.size a)
instance k0_chk142.dec : ∀ (v2070 : BitVec 32), Decidable (k0_chk142 v2070) := fun v2070 => decidable_of_iff' _ (Iff.of_eq (k0_chk142.eq_1 v2070))
theorem k0_off284_inb : ∀ (v2070 : BitVec 32) (k0_hw142 : k0_chk142 v2070), ∀ a, (k0_off284 v2070) a + S1x1024.size a ≤ S50257x1024.size a := fun v2070 k0_hw142 => k0_hw142

def k0_off285 (i : grid0.Coords) : Fin 1 → Nat :=
  let arg0 : BitVec 32 := BitVec.ofNat 32 (i 0).val
  let c256_i32 : BitVec 32 := 256#32
  let v0 : BitVec 32 := Scalar.muli arg0 c256_i32
  let c142_i32 : BitVec 32 := 142#32
  let v2083 : BitVec 32 := Scalar.addi v0 c142_i32
  let v2084 : Index := Scalar.indexCast v2083
  ![v2084.toNat]
def k0_off286 (v2085 : BitVec 32) : Fin 2 → Nat :=
  let c0_i32_1246 : BitVec 32 := 0#32
  ![v2085.toNat, 0]

def k0_chk143 (v2085 : BitVec 32) : Prop :=
  (∀ a, (k0_off286 v2085) a + S1x1024.size a ≤ S50257x1024.size a)
instance k0_chk143.dec : ∀ (v2085 : BitVec 32), Decidable (k0_chk143 v2085) := fun v2085 => decidable_of_iff' _ (Iff.of_eq (k0_chk143.eq_1 v2085))
theorem k0_off286_inb : ∀ (v2085 : BitVec 32) (k0_hw143 : k0_chk143 v2085), ∀ a, (k0_off286 v2085) a + S1x1024.size a ≤ S50257x1024.size a := fun v2085 k0_hw143 => k0_hw143

def k0_off287 (i : grid0.Coords) : Fin 1 → Nat :=
  let arg0 : BitVec 32 := BitVec.ofNat 32 (i 0).val
  let c256_i32 : BitVec 32 := 256#32
  let v0 : BitVec 32 := Scalar.muli arg0 c256_i32
  let c143_i32 : BitVec 32 := 143#32
  let v2098 : BitVec 32 := Scalar.addi v0 c143_i32
  let v2099 : Index := Scalar.indexCast v2098
  ![v2099.toNat]
def k0_off288 (v2100 : BitVec 32) : Fin 2 → Nat :=
  let c0_i32_1255 : BitVec 32 := 0#32
  ![v2100.toNat, 0]

def k0_chk144 (v2100 : BitVec 32) : Prop :=
  (∀ a, (k0_off288 v2100) a + S1x1024.size a ≤ S50257x1024.size a)
instance k0_chk144.dec : ∀ (v2100 : BitVec 32), Decidable (k0_chk144 v2100) := fun v2100 => decidable_of_iff' _ (Iff.of_eq (k0_chk144.eq_1 v2100))
theorem k0_off288_inb : ∀ (v2100 : BitVec 32) (k0_hw144 : k0_chk144 v2100), ∀ a, (k0_off288 v2100) a + S1x1024.size a ≤ S50257x1024.size a := fun v2100 k0_hw144 => k0_hw144

def k0_off289 (i : grid0.Coords) : Fin 1 → Nat :=
  let arg0 : BitVec 32 := BitVec.ofNat 32 (i 0).val
  let c256_i32 : BitVec 32 := 256#32
  let v0 : BitVec 32 := Scalar.muli arg0 c256_i32
  let c144_i32 : BitVec 32 := 144#32
  let v2113 : BitVec 32 := Scalar.addi v0 c144_i32
  let v2114 : Index := Scalar.indexCast v2113
  ![v2114.toNat]
def k0_off290 (v2115 : BitVec 32) : Fin 2 → Nat :=
  let c0_i32_1264 : BitVec 32 := 0#32
  ![v2115.toNat, 0]

def k0_chk145 (v2115 : BitVec 32) : Prop :=
  (∀ a, (k0_off290 v2115) a + S1x1024.size a ≤ S50257x1024.size a)
instance k0_chk145.dec : ∀ (v2115 : BitVec 32), Decidable (k0_chk145 v2115) := fun v2115 => decidable_of_iff' _ (Iff.of_eq (k0_chk145.eq_1 v2115))
theorem k0_off290_inb : ∀ (v2115 : BitVec 32) (k0_hw145 : k0_chk145 v2115), ∀ a, (k0_off290 v2115) a + S1x1024.size a ≤ S50257x1024.size a := fun v2115 k0_hw145 => k0_hw145

def k0_off291 (i : grid0.Coords) : Fin 1 → Nat :=
  let arg0 : BitVec 32 := BitVec.ofNat 32 (i 0).val
  let c256_i32 : BitVec 32 := 256#32
  let v0 : BitVec 32 := Scalar.muli arg0 c256_i32
  let c145_i32 : BitVec 32 := 145#32
  let v2128 : BitVec 32 := Scalar.addi v0 c145_i32
  let v2129 : Index := Scalar.indexCast v2128
  ![v2129.toNat]
def k0_off292 (v2130 : BitVec 32) : Fin 2 → Nat :=
  let c0_i32_1273 : BitVec 32 := 0#32
  ![v2130.toNat, 0]

def k0_chk146 (v2130 : BitVec 32) : Prop :=
  (∀ a, (k0_off292 v2130) a + S1x1024.size a ≤ S50257x1024.size a)
instance k0_chk146.dec : ∀ (v2130 : BitVec 32), Decidable (k0_chk146 v2130) := fun v2130 => decidable_of_iff' _ (Iff.of_eq (k0_chk146.eq_1 v2130))
theorem k0_off292_inb : ∀ (v2130 : BitVec 32) (k0_hw146 : k0_chk146 v2130), ∀ a, (k0_off292 v2130) a + S1x1024.size a ≤ S50257x1024.size a := fun v2130 k0_hw146 => k0_hw146

def k0_off293 (i : grid0.Coords) : Fin 1 → Nat :=
  let arg0 : BitVec 32 := BitVec.ofNat 32 (i 0).val
  let c256_i32 : BitVec 32 := 256#32
  let v0 : BitVec 32 := Scalar.muli arg0 c256_i32
  let c146_i32 : BitVec 32 := 146#32
  let v2143 : BitVec 32 := Scalar.addi v0 c146_i32
  let v2144 : Index := Scalar.indexCast v2143
  ![v2144.toNat]
def k0_off294 (v2145 : BitVec 32) : Fin 2 → Nat :=
  let c0_i32_1282 : BitVec 32 := 0#32
  ![v2145.toNat, 0]

def k0_chk147 (v2145 : BitVec 32) : Prop :=
  (∀ a, (k0_off294 v2145) a + S1x1024.size a ≤ S50257x1024.size a)
instance k0_chk147.dec : ∀ (v2145 : BitVec 32), Decidable (k0_chk147 v2145) := fun v2145 => decidable_of_iff' _ (Iff.of_eq (k0_chk147.eq_1 v2145))
theorem k0_off294_inb : ∀ (v2145 : BitVec 32) (k0_hw147 : k0_chk147 v2145), ∀ a, (k0_off294 v2145) a + S1x1024.size a ≤ S50257x1024.size a := fun v2145 k0_hw147 => k0_hw147

def k0_off295 (i : grid0.Coords) : Fin 1 → Nat :=
  let arg0 : BitVec 32 := BitVec.ofNat 32 (i 0).val
  let c256_i32 : BitVec 32 := 256#32
  let v0 : BitVec 32 := Scalar.muli arg0 c256_i32
  let c147_i32 : BitVec 32 := 147#32
  let v2158 : BitVec 32 := Scalar.addi v0 c147_i32
  let v2159 : Index := Scalar.indexCast v2158
  ![v2159.toNat]
def k0_off296 (v2160 : BitVec 32) : Fin 2 → Nat :=
  let c0_i32_1291 : BitVec 32 := 0#32
  ![v2160.toNat, 0]

def k0_chk148 (v2160 : BitVec 32) : Prop :=
  (∀ a, (k0_off296 v2160) a + S1x1024.size a ≤ S50257x1024.size a)
instance k0_chk148.dec : ∀ (v2160 : BitVec 32), Decidable (k0_chk148 v2160) := fun v2160 => decidable_of_iff' _ (Iff.of_eq (k0_chk148.eq_1 v2160))
theorem k0_off296_inb : ∀ (v2160 : BitVec 32) (k0_hw148 : k0_chk148 v2160), ∀ a, (k0_off296 v2160) a + S1x1024.size a ≤ S50257x1024.size a := fun v2160 k0_hw148 => k0_hw148

def k0_off297 (i : grid0.Coords) : Fin 1 → Nat :=
  let arg0 : BitVec 32 := BitVec.ofNat 32 (i 0).val
  let c256_i32 : BitVec 32 := 256#32
  let v0 : BitVec 32 := Scalar.muli arg0 c256_i32
  let c148_i32 : BitVec 32 := 148#32
  let v2173 : BitVec 32 := Scalar.addi v0 c148_i32
  let v2174 : Index := Scalar.indexCast v2173
  ![v2174.toNat]
def k0_off298 (v2175 : BitVec 32) : Fin 2 → Nat :=
  let c0_i32_1300 : BitVec 32 := 0#32
  ![v2175.toNat, 0]

def k0_chk149 (v2175 : BitVec 32) : Prop :=
  (∀ a, (k0_off298 v2175) a + S1x1024.size a ≤ S50257x1024.size a)
instance k0_chk149.dec : ∀ (v2175 : BitVec 32), Decidable (k0_chk149 v2175) := fun v2175 => decidable_of_iff' _ (Iff.of_eq (k0_chk149.eq_1 v2175))
theorem k0_off298_inb : ∀ (v2175 : BitVec 32) (k0_hw149 : k0_chk149 v2175), ∀ a, (k0_off298 v2175) a + S1x1024.size a ≤ S50257x1024.size a := fun v2175 k0_hw149 => k0_hw149

def k0_off299 (i : grid0.Coords) : Fin 1 → Nat :=
  let arg0 : BitVec 32 := BitVec.ofNat 32 (i 0).val
  let c256_i32 : BitVec 32 := 256#32
  let v0 : BitVec 32 := Scalar.muli arg0 c256_i32
  let c149_i32 : BitVec 32 := 149#32
  let v2188 : BitVec 32 := Scalar.addi v0 c149_i32
  let v2189 : Index := Scalar.indexCast v2188
  ![v2189.toNat]
def k0_off300 (v2190 : BitVec 32) : Fin 2 → Nat :=
  let c0_i32_1309 : BitVec 32 := 0#32
  ![v2190.toNat, 0]

def k0_chk150 (v2190 : BitVec 32) : Prop :=
  (∀ a, (k0_off300 v2190) a + S1x1024.size a ≤ S50257x1024.size a)
instance k0_chk150.dec : ∀ (v2190 : BitVec 32), Decidable (k0_chk150 v2190) := fun v2190 => decidable_of_iff' _ (Iff.of_eq (k0_chk150.eq_1 v2190))
theorem k0_off300_inb : ∀ (v2190 : BitVec 32) (k0_hw150 : k0_chk150 v2190), ∀ a, (k0_off300 v2190) a + S1x1024.size a ≤ S50257x1024.size a := fun v2190 k0_hw150 => k0_hw150

def k0_off301 (i : grid0.Coords) : Fin 1 → Nat :=
  let arg0 : BitVec 32 := BitVec.ofNat 32 (i 0).val
  let c256_i32 : BitVec 32 := 256#32
  let v0 : BitVec 32 := Scalar.muli arg0 c256_i32
  let c150_i32 : BitVec 32 := 150#32
  let v2203 : BitVec 32 := Scalar.addi v0 c150_i32
  let v2204 : Index := Scalar.indexCast v2203
  ![v2204.toNat]
def k0_off302 (v2205 : BitVec 32) : Fin 2 → Nat :=
  let c0_i32_1318 : BitVec 32 := 0#32
  ![v2205.toNat, 0]

def k0_chk151 (v2205 : BitVec 32) : Prop :=
  (∀ a, (k0_off302 v2205) a + S1x1024.size a ≤ S50257x1024.size a)
instance k0_chk151.dec : ∀ (v2205 : BitVec 32), Decidable (k0_chk151 v2205) := fun v2205 => decidable_of_iff' _ (Iff.of_eq (k0_chk151.eq_1 v2205))
theorem k0_off302_inb : ∀ (v2205 : BitVec 32) (k0_hw151 : k0_chk151 v2205), ∀ a, (k0_off302 v2205) a + S1x1024.size a ≤ S50257x1024.size a := fun v2205 k0_hw151 => k0_hw151

def k0_off303 (i : grid0.Coords) : Fin 1 → Nat :=
  let arg0 : BitVec 32 := BitVec.ofNat 32 (i 0).val
  let c256_i32 : BitVec 32 := 256#32
  let v0 : BitVec 32 := Scalar.muli arg0 c256_i32
  let c151_i32 : BitVec 32 := 151#32
  let v2218 : BitVec 32 := Scalar.addi v0 c151_i32
  let v2219 : Index := Scalar.indexCast v2218
  ![v2219.toNat]
def k0_off304 (v2220 : BitVec 32) : Fin 2 → Nat :=
  let c0_i32_1327 : BitVec 32 := 0#32
  ![v2220.toNat, 0]

def k0_chk152 (v2220 : BitVec 32) : Prop :=
  (∀ a, (k0_off304 v2220) a + S1x1024.size a ≤ S50257x1024.size a)
instance k0_chk152.dec : ∀ (v2220 : BitVec 32), Decidable (k0_chk152 v2220) := fun v2220 => decidable_of_iff' _ (Iff.of_eq (k0_chk152.eq_1 v2220))
theorem k0_off304_inb : ∀ (v2220 : BitVec 32) (k0_hw152 : k0_chk152 v2220), ∀ a, (k0_off304 v2220) a + S1x1024.size a ≤ S50257x1024.size a := fun v2220 k0_hw152 => k0_hw152

def k0_off305 (i : grid0.Coords) : Fin 1 → Nat :=
  let arg0 : BitVec 32 := BitVec.ofNat 32 (i 0).val
  let c256_i32 : BitVec 32 := 256#32
  let v0 : BitVec 32 := Scalar.muli arg0 c256_i32
  let c152_i32 : BitVec 32 := 152#32
  let v2233 : BitVec 32 := Scalar.addi v0 c152_i32
  let v2234 : Index := Scalar.indexCast v2233
  ![v2234.toNat]
def k0_off306 (v2235 : BitVec 32) : Fin 2 → Nat :=
  let c0_i32_1336 : BitVec 32 := 0#32
  ![v2235.toNat, 0]

def k0_chk153 (v2235 : BitVec 32) : Prop :=
  (∀ a, (k0_off306 v2235) a + S1x1024.size a ≤ S50257x1024.size a)
instance k0_chk153.dec : ∀ (v2235 : BitVec 32), Decidable (k0_chk153 v2235) := fun v2235 => decidable_of_iff' _ (Iff.of_eq (k0_chk153.eq_1 v2235))
theorem k0_off306_inb : ∀ (v2235 : BitVec 32) (k0_hw153 : k0_chk153 v2235), ∀ a, (k0_off306 v2235) a + S1x1024.size a ≤ S50257x1024.size a := fun v2235 k0_hw153 => k0_hw153

def k0_off307 (i : grid0.Coords) : Fin 1 → Nat :=
  let arg0 : BitVec 32 := BitVec.ofNat 32 (i 0).val
  let c256_i32 : BitVec 32 := 256#32
  let v0 : BitVec 32 := Scalar.muli arg0 c256_i32
  let c153_i32 : BitVec 32 := 153#32
  let v2248 : BitVec 32 := Scalar.addi v0 c153_i32
  let v2249 : Index := Scalar.indexCast v2248
  ![v2249.toNat]
def k0_off308 (v2250 : BitVec 32) : Fin 2 → Nat :=
  let c0_i32_1345 : BitVec 32 := 0#32
  ![v2250.toNat, 0]

def k0_chk154 (v2250 : BitVec 32) : Prop :=
  (∀ a, (k0_off308 v2250) a + S1x1024.size a ≤ S50257x1024.size a)
instance k0_chk154.dec : ∀ (v2250 : BitVec 32), Decidable (k0_chk154 v2250) := fun v2250 => decidable_of_iff' _ (Iff.of_eq (k0_chk154.eq_1 v2250))
theorem k0_off308_inb : ∀ (v2250 : BitVec 32) (k0_hw154 : k0_chk154 v2250), ∀ a, (k0_off308 v2250) a + S1x1024.size a ≤ S50257x1024.size a := fun v2250 k0_hw154 => k0_hw154

def k0_off309 (i : grid0.Coords) : Fin 1 → Nat :=
  let arg0 : BitVec 32 := BitVec.ofNat 32 (i 0).val
  let c256_i32 : BitVec 32 := 256#32
  let v0 : BitVec 32 := Scalar.muli arg0 c256_i32
  let c154_i32 : BitVec 32 := 154#32
  let v2263 : BitVec 32 := Scalar.addi v0 c154_i32
  let v2264 : Index := Scalar.indexCast v2263
  ![v2264.toNat]
def k0_off310 (v2265 : BitVec 32) : Fin 2 → Nat :=
  let c0_i32_1354 : BitVec 32 := 0#32
  ![v2265.toNat, 0]

def k0_chk155 (v2265 : BitVec 32) : Prop :=
  (∀ a, (k0_off310 v2265) a + S1x1024.size a ≤ S50257x1024.size a)
instance k0_chk155.dec : ∀ (v2265 : BitVec 32), Decidable (k0_chk155 v2265) := fun v2265 => decidable_of_iff' _ (Iff.of_eq (k0_chk155.eq_1 v2265))
theorem k0_off310_inb : ∀ (v2265 : BitVec 32) (k0_hw155 : k0_chk155 v2265), ∀ a, (k0_off310 v2265) a + S1x1024.size a ≤ S50257x1024.size a := fun v2265 k0_hw155 => k0_hw155

def k0_off311 (i : grid0.Coords) : Fin 1 → Nat :=
  let arg0 : BitVec 32 := BitVec.ofNat 32 (i 0).val
  let c256_i32 : BitVec 32 := 256#32
  let v0 : BitVec 32 := Scalar.muli arg0 c256_i32
  let c155_i32 : BitVec 32 := 155#32
  let v2278 : BitVec 32 := Scalar.addi v0 c155_i32
  let v2279 : Index := Scalar.indexCast v2278
  ![v2279.toNat]
def k0_off312 (v2280 : BitVec 32) : Fin 2 → Nat :=
  let c0_i32_1363 : BitVec 32 := 0#32
  ![v2280.toNat, 0]

def k0_chk156 (v2280 : BitVec 32) : Prop :=
  (∀ a, (k0_off312 v2280) a + S1x1024.size a ≤ S50257x1024.size a)
instance k0_chk156.dec : ∀ (v2280 : BitVec 32), Decidable (k0_chk156 v2280) := fun v2280 => decidable_of_iff' _ (Iff.of_eq (k0_chk156.eq_1 v2280))
theorem k0_off312_inb : ∀ (v2280 : BitVec 32) (k0_hw156 : k0_chk156 v2280), ∀ a, (k0_off312 v2280) a + S1x1024.size a ≤ S50257x1024.size a := fun v2280 k0_hw156 => k0_hw156

def k0_off313 (i : grid0.Coords) : Fin 1 → Nat :=
  let arg0 : BitVec 32 := BitVec.ofNat 32 (i 0).val
  let c256_i32 : BitVec 32 := 256#32
  let v0 : BitVec 32 := Scalar.muli arg0 c256_i32
  let c156_i32 : BitVec 32 := 156#32
  let v2293 : BitVec 32 := Scalar.addi v0 c156_i32
  let v2294 : Index := Scalar.indexCast v2293
  ![v2294.toNat]
def k0_off314 (v2295 : BitVec 32) : Fin 2 → Nat :=
  let c0_i32_1372 : BitVec 32 := 0#32
  ![v2295.toNat, 0]

def k0_chk157 (v2295 : BitVec 32) : Prop :=
  (∀ a, (k0_off314 v2295) a + S1x1024.size a ≤ S50257x1024.size a)
instance k0_chk157.dec : ∀ (v2295 : BitVec 32), Decidable (k0_chk157 v2295) := fun v2295 => decidable_of_iff' _ (Iff.of_eq (k0_chk157.eq_1 v2295))
theorem k0_off314_inb : ∀ (v2295 : BitVec 32) (k0_hw157 : k0_chk157 v2295), ∀ a, (k0_off314 v2295) a + S1x1024.size a ≤ S50257x1024.size a := fun v2295 k0_hw157 => k0_hw157

def k0_off315 (i : grid0.Coords) : Fin 1 → Nat :=
  let arg0 : BitVec 32 := BitVec.ofNat 32 (i 0).val
  let c256_i32 : BitVec 32 := 256#32
  let v0 : BitVec 32 := Scalar.muli arg0 c256_i32
  let c157_i32 : BitVec 32 := 157#32
  let v2308 : BitVec 32 := Scalar.addi v0 c157_i32
  let v2309 : Index := Scalar.indexCast v2308
  ![v2309.toNat]
def k0_off316 (v2310 : BitVec 32) : Fin 2 → Nat :=
  let c0_i32_1381 : BitVec 32 := 0#32
  ![v2310.toNat, 0]

def k0_chk158 (v2310 : BitVec 32) : Prop :=
  (∀ a, (k0_off316 v2310) a + S1x1024.size a ≤ S50257x1024.size a)
instance k0_chk158.dec : ∀ (v2310 : BitVec 32), Decidable (k0_chk158 v2310) := fun v2310 => decidable_of_iff' _ (Iff.of_eq (k0_chk158.eq_1 v2310))
theorem k0_off316_inb : ∀ (v2310 : BitVec 32) (k0_hw158 : k0_chk158 v2310), ∀ a, (k0_off316 v2310) a + S1x1024.size a ≤ S50257x1024.size a := fun v2310 k0_hw158 => k0_hw158

def k0_off317 (i : grid0.Coords) : Fin 1 → Nat :=
  let arg0 : BitVec 32 := BitVec.ofNat 32 (i 0).val
  let c256_i32 : BitVec 32 := 256#32
  let v0 : BitVec 32 := Scalar.muli arg0 c256_i32
  let c158_i32 : BitVec 32 := 158#32
  let v2323 : BitVec 32 := Scalar.addi v0 c158_i32
  let v2324 : Index := Scalar.indexCast v2323
  ![v2324.toNat]
def k0_off318 (v2325 : BitVec 32) : Fin 2 → Nat :=
  let c0_i32_1390 : BitVec 32 := 0#32
  ![v2325.toNat, 0]

def k0_chk159 (v2325 : BitVec 32) : Prop :=
  (∀ a, (k0_off318 v2325) a + S1x1024.size a ≤ S50257x1024.size a)
instance k0_chk159.dec : ∀ (v2325 : BitVec 32), Decidable (k0_chk159 v2325) := fun v2325 => decidable_of_iff' _ (Iff.of_eq (k0_chk159.eq_1 v2325))
theorem k0_off318_inb : ∀ (v2325 : BitVec 32) (k0_hw159 : k0_chk159 v2325), ∀ a, (k0_off318 v2325) a + S1x1024.size a ≤ S50257x1024.size a := fun v2325 k0_hw159 => k0_hw159

def k0_off319 (i : grid0.Coords) : Fin 1 → Nat :=
  let arg0 : BitVec 32 := BitVec.ofNat 32 (i 0).val
  let c256_i32 : BitVec 32 := 256#32
  let v0 : BitVec 32 := Scalar.muli arg0 c256_i32
  let c159_i32 : BitVec 32 := 159#32
  let v2338 : BitVec 32 := Scalar.addi v0 c159_i32
  let v2339 : Index := Scalar.indexCast v2338
  ![v2339.toNat]
def k0_off320 (v2340 : BitVec 32) : Fin 2 → Nat :=
  let c0_i32_1399 : BitVec 32 := 0#32
  ![v2340.toNat, 0]

def k0_chk160 (v2340 : BitVec 32) : Prop :=
  (∀ a, (k0_off320 v2340) a + S1x1024.size a ≤ S50257x1024.size a)
instance k0_chk160.dec : ∀ (v2340 : BitVec 32), Decidable (k0_chk160 v2340) := fun v2340 => decidable_of_iff' _ (Iff.of_eq (k0_chk160.eq_1 v2340))
theorem k0_off320_inb : ∀ (v2340 : BitVec 32) (k0_hw160 : k0_chk160 v2340), ∀ a, (k0_off320 v2340) a + S1x1024.size a ≤ S50257x1024.size a := fun v2340 k0_hw160 => k0_hw160

def k0_off321 (i : grid0.Coords) : Fin 1 → Nat :=
  let arg0 : BitVec 32 := BitVec.ofNat 32 (i 0).val
  let c256_i32 : BitVec 32 := 256#32
  let v0 : BitVec 32 := Scalar.muli arg0 c256_i32
  let c160_i32 : BitVec 32 := 160#32
  let v2353 : BitVec 32 := Scalar.addi v0 c160_i32
  let v2354 : Index := Scalar.indexCast v2353
  ![v2354.toNat]
def k0_off322 (v2355 : BitVec 32) : Fin 2 → Nat :=
  let c0_i32_1408 : BitVec 32 := 0#32
  ![v2355.toNat, 0]

def k0_chk161 (v2355 : BitVec 32) : Prop :=
  (∀ a, (k0_off322 v2355) a + S1x1024.size a ≤ S50257x1024.size a)
instance k0_chk161.dec : ∀ (v2355 : BitVec 32), Decidable (k0_chk161 v2355) := fun v2355 => decidable_of_iff' _ (Iff.of_eq (k0_chk161.eq_1 v2355))
theorem k0_off322_inb : ∀ (v2355 : BitVec 32) (k0_hw161 : k0_chk161 v2355), ∀ a, (k0_off322 v2355) a + S1x1024.size a ≤ S50257x1024.size a := fun v2355 k0_hw161 => k0_hw161

def k0_off323 (i : grid0.Coords) : Fin 1 → Nat :=
  let arg0 : BitVec 32 := BitVec.ofNat 32 (i 0).val
  let c256_i32 : BitVec 32 := 256#32
  let v0 : BitVec 32 := Scalar.muli arg0 c256_i32
  let c161_i32 : BitVec 32 := 161#32
  let v2368 : BitVec 32 := Scalar.addi v0 c161_i32
  let v2369 : Index := Scalar.indexCast v2368
  ![v2369.toNat]
def k0_off324 (v2370 : BitVec 32) : Fin 2 → Nat :=
  let c0_i32_1417 : BitVec 32 := 0#32
  ![v2370.toNat, 0]

def k0_chk162 (v2370 : BitVec 32) : Prop :=
  (∀ a, (k0_off324 v2370) a + S1x1024.size a ≤ S50257x1024.size a)
instance k0_chk162.dec : ∀ (v2370 : BitVec 32), Decidable (k0_chk162 v2370) := fun v2370 => decidable_of_iff' _ (Iff.of_eq (k0_chk162.eq_1 v2370))
theorem k0_off324_inb : ∀ (v2370 : BitVec 32) (k0_hw162 : k0_chk162 v2370), ∀ a, (k0_off324 v2370) a + S1x1024.size a ≤ S50257x1024.size a := fun v2370 k0_hw162 => k0_hw162

def k0_off325 (i : grid0.Coords) : Fin 1 → Nat :=
  let arg0 : BitVec 32 := BitVec.ofNat 32 (i 0).val
  let c256_i32 : BitVec 32 := 256#32
  let v0 : BitVec 32 := Scalar.muli arg0 c256_i32
  let c162_i32 : BitVec 32 := 162#32
  let v2383 : BitVec 32 := Scalar.addi v0 c162_i32
  let v2384 : Index := Scalar.indexCast v2383
  ![v2384.toNat]
def k0_off326 (v2385 : BitVec 32) : Fin 2 → Nat :=
  let c0_i32_1426 : BitVec 32 := 0#32
  ![v2385.toNat, 0]

def k0_chk163 (v2385 : BitVec 32) : Prop :=
  (∀ a, (k0_off326 v2385) a + S1x1024.size a ≤ S50257x1024.size a)
instance k0_chk163.dec : ∀ (v2385 : BitVec 32), Decidable (k0_chk163 v2385) := fun v2385 => decidable_of_iff' _ (Iff.of_eq (k0_chk163.eq_1 v2385))
theorem k0_off326_inb : ∀ (v2385 : BitVec 32) (k0_hw163 : k0_chk163 v2385), ∀ a, (k0_off326 v2385) a + S1x1024.size a ≤ S50257x1024.size a := fun v2385 k0_hw163 => k0_hw163

def k0_off327 (i : grid0.Coords) : Fin 1 → Nat :=
  let arg0 : BitVec 32 := BitVec.ofNat 32 (i 0).val
  let c256_i32 : BitVec 32 := 256#32
  let v0 : BitVec 32 := Scalar.muli arg0 c256_i32
  let c163_i32 : BitVec 32 := 163#32
  let v2398 : BitVec 32 := Scalar.addi v0 c163_i32
  let v2399 : Index := Scalar.indexCast v2398
  ![v2399.toNat]
def k0_off328 (v2400 : BitVec 32) : Fin 2 → Nat :=
  let c0_i32_1435 : BitVec 32 := 0#32
  ![v2400.toNat, 0]

def k0_chk164 (v2400 : BitVec 32) : Prop :=
  (∀ a, (k0_off328 v2400) a + S1x1024.size a ≤ S50257x1024.size a)
instance k0_chk164.dec : ∀ (v2400 : BitVec 32), Decidable (k0_chk164 v2400) := fun v2400 => decidable_of_iff' _ (Iff.of_eq (k0_chk164.eq_1 v2400))
theorem k0_off328_inb : ∀ (v2400 : BitVec 32) (k0_hw164 : k0_chk164 v2400), ∀ a, (k0_off328 v2400) a + S1x1024.size a ≤ S50257x1024.size a := fun v2400 k0_hw164 => k0_hw164

def k0_off329 (i : grid0.Coords) : Fin 1 → Nat :=
  let arg0 : BitVec 32 := BitVec.ofNat 32 (i 0).val
  let c256_i32 : BitVec 32 := 256#32
  let v0 : BitVec 32 := Scalar.muli arg0 c256_i32
  let c164_i32 : BitVec 32 := 164#32
  let v2413 : BitVec 32 := Scalar.addi v0 c164_i32
  let v2414 : Index := Scalar.indexCast v2413
  ![v2414.toNat]
def k0_off330 (v2415 : BitVec 32) : Fin 2 → Nat :=
  let c0_i32_1444 : BitVec 32 := 0#32
  ![v2415.toNat, 0]

def k0_chk165 (v2415 : BitVec 32) : Prop :=
  (∀ a, (k0_off330 v2415) a + S1x1024.size a ≤ S50257x1024.size a)
instance k0_chk165.dec : ∀ (v2415 : BitVec 32), Decidable (k0_chk165 v2415) := fun v2415 => decidable_of_iff' _ (Iff.of_eq (k0_chk165.eq_1 v2415))
theorem k0_off330_inb : ∀ (v2415 : BitVec 32) (k0_hw165 : k0_chk165 v2415), ∀ a, (k0_off330 v2415) a + S1x1024.size a ≤ S50257x1024.size a := fun v2415 k0_hw165 => k0_hw165

def k0_off331 (i : grid0.Coords) : Fin 1 → Nat :=
  let arg0 : BitVec 32 := BitVec.ofNat 32 (i 0).val
  let c256_i32 : BitVec 32 := 256#32
  let v0 : BitVec 32 := Scalar.muli arg0 c256_i32
  let c165_i32 : BitVec 32 := 165#32
  let v2428 : BitVec 32 := Scalar.addi v0 c165_i32
  let v2429 : Index := Scalar.indexCast v2428
  ![v2429.toNat]
def k0_off332 (v2430 : BitVec 32) : Fin 2 → Nat :=
  let c0_i32_1453 : BitVec 32 := 0#32
  ![v2430.toNat, 0]

def k0_chk166 (v2430 : BitVec 32) : Prop :=
  (∀ a, (k0_off332 v2430) a + S1x1024.size a ≤ S50257x1024.size a)
instance k0_chk166.dec : ∀ (v2430 : BitVec 32), Decidable (k0_chk166 v2430) := fun v2430 => decidable_of_iff' _ (Iff.of_eq (k0_chk166.eq_1 v2430))
theorem k0_off332_inb : ∀ (v2430 : BitVec 32) (k0_hw166 : k0_chk166 v2430), ∀ a, (k0_off332 v2430) a + S1x1024.size a ≤ S50257x1024.size a := fun v2430 k0_hw166 => k0_hw166

def k0_off333 (i : grid0.Coords) : Fin 1 → Nat :=
  let arg0 : BitVec 32 := BitVec.ofNat 32 (i 0).val
  let c256_i32 : BitVec 32 := 256#32
  let v0 : BitVec 32 := Scalar.muli arg0 c256_i32
  let c166_i32 : BitVec 32 := 166#32
  let v2443 : BitVec 32 := Scalar.addi v0 c166_i32
  let v2444 : Index := Scalar.indexCast v2443
  ![v2444.toNat]
def k0_off334 (v2445 : BitVec 32) : Fin 2 → Nat :=
  let c0_i32_1462 : BitVec 32 := 0#32
  ![v2445.toNat, 0]

def k0_chk167 (v2445 : BitVec 32) : Prop :=
  (∀ a, (k0_off334 v2445) a + S1x1024.size a ≤ S50257x1024.size a)
instance k0_chk167.dec : ∀ (v2445 : BitVec 32), Decidable (k0_chk167 v2445) := fun v2445 => decidable_of_iff' _ (Iff.of_eq (k0_chk167.eq_1 v2445))
theorem k0_off334_inb : ∀ (v2445 : BitVec 32) (k0_hw167 : k0_chk167 v2445), ∀ a, (k0_off334 v2445) a + S1x1024.size a ≤ S50257x1024.size a := fun v2445 k0_hw167 => k0_hw167

def k0_off335 (i : grid0.Coords) : Fin 1 → Nat :=
  let arg0 : BitVec 32 := BitVec.ofNat 32 (i 0).val
  let c256_i32 : BitVec 32 := 256#32
  let v0 : BitVec 32 := Scalar.muli arg0 c256_i32
  let c167_i32 : BitVec 32 := 167#32
  let v2458 : BitVec 32 := Scalar.addi v0 c167_i32
  let v2459 : Index := Scalar.indexCast v2458
  ![v2459.toNat]
def k0_off336 (v2460 : BitVec 32) : Fin 2 → Nat :=
  let c0_i32_1471 : BitVec 32 := 0#32
  ![v2460.toNat, 0]

def k0_chk168 (v2460 : BitVec 32) : Prop :=
  (∀ a, (k0_off336 v2460) a + S1x1024.size a ≤ S50257x1024.size a)
instance k0_chk168.dec : ∀ (v2460 : BitVec 32), Decidable (k0_chk168 v2460) := fun v2460 => decidable_of_iff' _ (Iff.of_eq (k0_chk168.eq_1 v2460))
theorem k0_off336_inb : ∀ (v2460 : BitVec 32) (k0_hw168 : k0_chk168 v2460), ∀ a, (k0_off336 v2460) a + S1x1024.size a ≤ S50257x1024.size a := fun v2460 k0_hw168 => k0_hw168

def k0_off337 (i : grid0.Coords) : Fin 1 → Nat :=
  let arg0 : BitVec 32 := BitVec.ofNat 32 (i 0).val
  let c256_i32 : BitVec 32 := 256#32
  let v0 : BitVec 32 := Scalar.muli arg0 c256_i32
  let c168_i32 : BitVec 32 := 168#32
  let v2473 : BitVec 32 := Scalar.addi v0 c168_i32
  let v2474 : Index := Scalar.indexCast v2473
  ![v2474.toNat]
def k0_off338 (v2475 : BitVec 32) : Fin 2 → Nat :=
  let c0_i32_1480 : BitVec 32 := 0#32
  ![v2475.toNat, 0]

def k0_chk169 (v2475 : BitVec 32) : Prop :=
  (∀ a, (k0_off338 v2475) a + S1x1024.size a ≤ S50257x1024.size a)
instance k0_chk169.dec : ∀ (v2475 : BitVec 32), Decidable (k0_chk169 v2475) := fun v2475 => decidable_of_iff' _ (Iff.of_eq (k0_chk169.eq_1 v2475))
theorem k0_off338_inb : ∀ (v2475 : BitVec 32) (k0_hw169 : k0_chk169 v2475), ∀ a, (k0_off338 v2475) a + S1x1024.size a ≤ S50257x1024.size a := fun v2475 k0_hw169 => k0_hw169

def k0_off339 (i : grid0.Coords) : Fin 1 → Nat :=
  let arg0 : BitVec 32 := BitVec.ofNat 32 (i 0).val
  let c256_i32 : BitVec 32 := 256#32
  let v0 : BitVec 32 := Scalar.muli arg0 c256_i32
  let c169_i32 : BitVec 32 := 169#32
  let v2488 : BitVec 32 := Scalar.addi v0 c169_i32
  let v2489 : Index := Scalar.indexCast v2488
  ![v2489.toNat]
def k0_off340 (v2490 : BitVec 32) : Fin 2 → Nat :=
  let c0_i32_1489 : BitVec 32 := 0#32
  ![v2490.toNat, 0]

def k0_chk170 (v2490 : BitVec 32) : Prop :=
  (∀ a, (k0_off340 v2490) a + S1x1024.size a ≤ S50257x1024.size a)
instance k0_chk170.dec : ∀ (v2490 : BitVec 32), Decidable (k0_chk170 v2490) := fun v2490 => decidable_of_iff' _ (Iff.of_eq (k0_chk170.eq_1 v2490))
theorem k0_off340_inb : ∀ (v2490 : BitVec 32) (k0_hw170 : k0_chk170 v2490), ∀ a, (k0_off340 v2490) a + S1x1024.size a ≤ S50257x1024.size a := fun v2490 k0_hw170 => k0_hw170

def k0_off341 (i : grid0.Coords) : Fin 1 → Nat :=
  let arg0 : BitVec 32 := BitVec.ofNat 32 (i 0).val
  let c256_i32 : BitVec 32 := 256#32
  let v0 : BitVec 32 := Scalar.muli arg0 c256_i32
  let c170_i32 : BitVec 32 := 170#32
  let v2503 : BitVec 32 := Scalar.addi v0 c170_i32
  let v2504 : Index := Scalar.indexCast v2503
  ![v2504.toNat]
def k0_off342 (v2505 : BitVec 32) : Fin 2 → Nat :=
  let c0_i32_1498 : BitVec 32 := 0#32
  ![v2505.toNat, 0]

def k0_chk171 (v2505 : BitVec 32) : Prop :=
  (∀ a, (k0_off342 v2505) a + S1x1024.size a ≤ S50257x1024.size a)
instance k0_chk171.dec : ∀ (v2505 : BitVec 32), Decidable (k0_chk171 v2505) := fun v2505 => decidable_of_iff' _ (Iff.of_eq (k0_chk171.eq_1 v2505))
theorem k0_off342_inb : ∀ (v2505 : BitVec 32) (k0_hw171 : k0_chk171 v2505), ∀ a, (k0_off342 v2505) a + S1x1024.size a ≤ S50257x1024.size a := fun v2505 k0_hw171 => k0_hw171

def k0_off343 (i : grid0.Coords) : Fin 1 → Nat :=
  let arg0 : BitVec 32 := BitVec.ofNat 32 (i 0).val
  let c256_i32 : BitVec 32 := 256#32
  let v0 : BitVec 32 := Scalar.muli arg0 c256_i32
  let c171_i32 : BitVec 32 := 171#32
  let v2518 : BitVec 32 := Scalar.addi v0 c171_i32
  let v2519 : Index := Scalar.indexCast v2518
  ![v2519.toNat]
def k0_off344 (v2520 : BitVec 32) : Fin 2 → Nat :=
  let c0_i32_1507 : BitVec 32 := 0#32
  ![v2520.toNat, 0]

def k0_chk172 (v2520 : BitVec 32) : Prop :=
  (∀ a, (k0_off344 v2520) a + S1x1024.size a ≤ S50257x1024.size a)
instance k0_chk172.dec : ∀ (v2520 : BitVec 32), Decidable (k0_chk172 v2520) := fun v2520 => decidable_of_iff' _ (Iff.of_eq (k0_chk172.eq_1 v2520))
theorem k0_off344_inb : ∀ (v2520 : BitVec 32) (k0_hw172 : k0_chk172 v2520), ∀ a, (k0_off344 v2520) a + S1x1024.size a ≤ S50257x1024.size a := fun v2520 k0_hw172 => k0_hw172

def k0_off345 (i : grid0.Coords) : Fin 1 → Nat :=
  let arg0 : BitVec 32 := BitVec.ofNat 32 (i 0).val
  let c256_i32 : BitVec 32 := 256#32
  let v0 : BitVec 32 := Scalar.muli arg0 c256_i32
  let c172_i32 : BitVec 32 := 172#32
  let v2533 : BitVec 32 := Scalar.addi v0 c172_i32
  let v2534 : Index := Scalar.indexCast v2533
  ![v2534.toNat]
def k0_off346 (v2535 : BitVec 32) : Fin 2 → Nat :=
  let c0_i32_1516 : BitVec 32 := 0#32
  ![v2535.toNat, 0]

def k0_chk173 (v2535 : BitVec 32) : Prop :=
  (∀ a, (k0_off346 v2535) a + S1x1024.size a ≤ S50257x1024.size a)
instance k0_chk173.dec : ∀ (v2535 : BitVec 32), Decidable (k0_chk173 v2535) := fun v2535 => decidable_of_iff' _ (Iff.of_eq (k0_chk173.eq_1 v2535))
theorem k0_off346_inb : ∀ (v2535 : BitVec 32) (k0_hw173 : k0_chk173 v2535), ∀ a, (k0_off346 v2535) a + S1x1024.size a ≤ S50257x1024.size a := fun v2535 k0_hw173 => k0_hw173

def k0_off347 (i : grid0.Coords) : Fin 1 → Nat :=
  let arg0 : BitVec 32 := BitVec.ofNat 32 (i 0).val
  let c256_i32 : BitVec 32 := 256#32
  let v0 : BitVec 32 := Scalar.muli arg0 c256_i32
  let c173_i32 : BitVec 32 := 173#32
  let v2548 : BitVec 32 := Scalar.addi v0 c173_i32
  let v2549 : Index := Scalar.indexCast v2548
  ![v2549.toNat]
def k0_off348 (v2550 : BitVec 32) : Fin 2 → Nat :=
  let c0_i32_1525 : BitVec 32 := 0#32
  ![v2550.toNat, 0]

def k0_chk174 (v2550 : BitVec 32) : Prop :=
  (∀ a, (k0_off348 v2550) a + S1x1024.size a ≤ S50257x1024.size a)
instance k0_chk174.dec : ∀ (v2550 : BitVec 32), Decidable (k0_chk174 v2550) := fun v2550 => decidable_of_iff' _ (Iff.of_eq (k0_chk174.eq_1 v2550))
theorem k0_off348_inb : ∀ (v2550 : BitVec 32) (k0_hw174 : k0_chk174 v2550), ∀ a, (k0_off348 v2550) a + S1x1024.size a ≤ S50257x1024.size a := fun v2550 k0_hw174 => k0_hw174

def k0_off349 (i : grid0.Coords) : Fin 1 → Nat :=
  let arg0 : BitVec 32 := BitVec.ofNat 32 (i 0).val
  let c256_i32 : BitVec 32 := 256#32
  let v0 : BitVec 32 := Scalar.muli arg0 c256_i32
  let c174_i32 : BitVec 32 := 174#32
  let v2563 : BitVec 32 := Scalar.addi v0 c174_i32
  let v2564 : Index := Scalar.indexCast v2563
  ![v2564.toNat]
def k0_off350 (v2565 : BitVec 32) : Fin 2 → Nat :=
  let c0_i32_1534 : BitVec 32 := 0#32
  ![v2565.toNat, 0]

def k0_chk175 (v2565 : BitVec 32) : Prop :=
  (∀ a, (k0_off350 v2565) a + S1x1024.size a ≤ S50257x1024.size a)
instance k0_chk175.dec : ∀ (v2565 : BitVec 32), Decidable (k0_chk175 v2565) := fun v2565 => decidable_of_iff' _ (Iff.of_eq (k0_chk175.eq_1 v2565))
theorem k0_off350_inb : ∀ (v2565 : BitVec 32) (k0_hw175 : k0_chk175 v2565), ∀ a, (k0_off350 v2565) a + S1x1024.size a ≤ S50257x1024.size a := fun v2565 k0_hw175 => k0_hw175

def k0_off351 (i : grid0.Coords) : Fin 1 → Nat :=
  let arg0 : BitVec 32 := BitVec.ofNat 32 (i 0).val
  let c256_i32 : BitVec 32 := 256#32
  let v0 : BitVec 32 := Scalar.muli arg0 c256_i32
  let c175_i32 : BitVec 32 := 175#32
  let v2578 : BitVec 32 := Scalar.addi v0 c175_i32
  let v2579 : Index := Scalar.indexCast v2578
  ![v2579.toNat]
def k0_off352 (v2580 : BitVec 32) : Fin 2 → Nat :=
  let c0_i32_1543 : BitVec 32 := 0#32
  ![v2580.toNat, 0]

def k0_chk176 (v2580 : BitVec 32) : Prop :=
  (∀ a, (k0_off352 v2580) a + S1x1024.size a ≤ S50257x1024.size a)
instance k0_chk176.dec : ∀ (v2580 : BitVec 32), Decidable (k0_chk176 v2580) := fun v2580 => decidable_of_iff' _ (Iff.of_eq (k0_chk176.eq_1 v2580))
theorem k0_off352_inb : ∀ (v2580 : BitVec 32) (k0_hw176 : k0_chk176 v2580), ∀ a, (k0_off352 v2580) a + S1x1024.size a ≤ S50257x1024.size a := fun v2580 k0_hw176 => k0_hw176

def k0_off353 (i : grid0.Coords) : Fin 1 → Nat :=
  let arg0 : BitVec 32 := BitVec.ofNat 32 (i 0).val
  let c256_i32 : BitVec 32 := 256#32
  let v0 : BitVec 32 := Scalar.muli arg0 c256_i32
  let c176_i32 : BitVec 32 := 176#32
  let v2593 : BitVec 32 := Scalar.addi v0 c176_i32
  let v2594 : Index := Scalar.indexCast v2593
  ![v2594.toNat]
def k0_off354 (v2595 : BitVec 32) : Fin 2 → Nat :=
  let c0_i32_1552 : BitVec 32 := 0#32
  ![v2595.toNat, 0]

def k0_chk177 (v2595 : BitVec 32) : Prop :=
  (∀ a, (k0_off354 v2595) a + S1x1024.size a ≤ S50257x1024.size a)
instance k0_chk177.dec : ∀ (v2595 : BitVec 32), Decidable (k0_chk177 v2595) := fun v2595 => decidable_of_iff' _ (Iff.of_eq (k0_chk177.eq_1 v2595))
theorem k0_off354_inb : ∀ (v2595 : BitVec 32) (k0_hw177 : k0_chk177 v2595), ∀ a, (k0_off354 v2595) a + S1x1024.size a ≤ S50257x1024.size a := fun v2595 k0_hw177 => k0_hw177

def k0_off355 (i : grid0.Coords) : Fin 1 → Nat :=
  let arg0 : BitVec 32 := BitVec.ofNat 32 (i 0).val
  let c256_i32 : BitVec 32 := 256#32
  let v0 : BitVec 32 := Scalar.muli arg0 c256_i32
  let c177_i32 : BitVec 32 := 177#32
  let v2608 : BitVec 32 := Scalar.addi v0 c177_i32
  let v2609 : Index := Scalar.indexCast v2608
  ![v2609.toNat]
def k0_off356 (v2610 : BitVec 32) : Fin 2 → Nat :=
  let c0_i32_1561 : BitVec 32 := 0#32
  ![v2610.toNat, 0]

def k0_chk178 (v2610 : BitVec 32) : Prop :=
  (∀ a, (k0_off356 v2610) a + S1x1024.size a ≤ S50257x1024.size a)
instance k0_chk178.dec : ∀ (v2610 : BitVec 32), Decidable (k0_chk178 v2610) := fun v2610 => decidable_of_iff' _ (Iff.of_eq (k0_chk178.eq_1 v2610))
theorem k0_off356_inb : ∀ (v2610 : BitVec 32) (k0_hw178 : k0_chk178 v2610), ∀ a, (k0_off356 v2610) a + S1x1024.size a ≤ S50257x1024.size a := fun v2610 k0_hw178 => k0_hw178

def k0_off357 (i : grid0.Coords) : Fin 1 → Nat :=
  let arg0 : BitVec 32 := BitVec.ofNat 32 (i 0).val
  let c256_i32 : BitVec 32 := 256#32
  let v0 : BitVec 32 := Scalar.muli arg0 c256_i32
  let c178_i32 : BitVec 32 := 178#32
  let v2623 : BitVec 32 := Scalar.addi v0 c178_i32
  let v2624 : Index := Scalar.indexCast v2623
  ![v2624.toNat]
def k0_off358 (v2625 : BitVec 32) : Fin 2 → Nat :=
  let c0_i32_1570 : BitVec 32 := 0#32
  ![v2625.toNat, 0]

def k0_chk179 (v2625 : BitVec 32) : Prop :=
  (∀ a, (k0_off358 v2625) a + S1x1024.size a ≤ S50257x1024.size a)
instance k0_chk179.dec : ∀ (v2625 : BitVec 32), Decidable (k0_chk179 v2625) := fun v2625 => decidable_of_iff' _ (Iff.of_eq (k0_chk179.eq_1 v2625))
theorem k0_off358_inb : ∀ (v2625 : BitVec 32) (k0_hw179 : k0_chk179 v2625), ∀ a, (k0_off358 v2625) a + S1x1024.size a ≤ S50257x1024.size a := fun v2625 k0_hw179 => k0_hw179

def k0_off359 (i : grid0.Coords) : Fin 1 → Nat :=
  let arg0 : BitVec 32 := BitVec.ofNat 32 (i 0).val
  let c256_i32 : BitVec 32 := 256#32
  let v0 : BitVec 32 := Scalar.muli arg0 c256_i32
  let c179_i32 : BitVec 32 := 179#32
  let v2638 : BitVec 32 := Scalar.addi v0 c179_i32
  let v2639 : Index := Scalar.indexCast v2638
  ![v2639.toNat]
def k0_off360 (v2640 : BitVec 32) : Fin 2 → Nat :=
  let c0_i32_1579 : BitVec 32 := 0#32
  ![v2640.toNat, 0]

def k0_chk180 (v2640 : BitVec 32) : Prop :=
  (∀ a, (k0_off360 v2640) a + S1x1024.size a ≤ S50257x1024.size a)
instance k0_chk180.dec : ∀ (v2640 : BitVec 32), Decidable (k0_chk180 v2640) := fun v2640 => decidable_of_iff' _ (Iff.of_eq (k0_chk180.eq_1 v2640))
theorem k0_off360_inb : ∀ (v2640 : BitVec 32) (k0_hw180 : k0_chk180 v2640), ∀ a, (k0_off360 v2640) a + S1x1024.size a ≤ S50257x1024.size a := fun v2640 k0_hw180 => k0_hw180

def k0_off361 (i : grid0.Coords) : Fin 1 → Nat :=
  let arg0 : BitVec 32 := BitVec.ofNat 32 (i 0).val
  let c256_i32 : BitVec 32 := 256#32
  let v0 : BitVec 32 := Scalar.muli arg0 c256_i32
  let c180_i32 : BitVec 32 := 180#32
  let v2653 : BitVec 32 := Scalar.addi v0 c180_i32
  let v2654 : Index := Scalar.indexCast v2653
  ![v2654.toNat]
def k0_off362 (v2655 : BitVec 32) : Fin 2 → Nat :=
  let c0_i32_1588 : BitVec 32 := 0#32
  ![v2655.toNat, 0]

def k0_chk181 (v2655 : BitVec 32) : Prop :=
  (∀ a, (k0_off362 v2655) a + S1x1024.size a ≤ S50257x1024.size a)
instance k0_chk181.dec : ∀ (v2655 : BitVec 32), Decidable (k0_chk181 v2655) := fun v2655 => decidable_of_iff' _ (Iff.of_eq (k0_chk181.eq_1 v2655))
theorem k0_off362_inb : ∀ (v2655 : BitVec 32) (k0_hw181 : k0_chk181 v2655), ∀ a, (k0_off362 v2655) a + S1x1024.size a ≤ S50257x1024.size a := fun v2655 k0_hw181 => k0_hw181

def k0_off363 (i : grid0.Coords) : Fin 1 → Nat :=
  let arg0 : BitVec 32 := BitVec.ofNat 32 (i 0).val
  let c256_i32 : BitVec 32 := 256#32
  let v0 : BitVec 32 := Scalar.muli arg0 c256_i32
  let c181_i32 : BitVec 32 := 181#32
  let v2668 : BitVec 32 := Scalar.addi v0 c181_i32
  let v2669 : Index := Scalar.indexCast v2668
  ![v2669.toNat]
def k0_off364 (v2670 : BitVec 32) : Fin 2 → Nat :=
  let c0_i32_1597 : BitVec 32 := 0#32
  ![v2670.toNat, 0]

def k0_chk182 (v2670 : BitVec 32) : Prop :=
  (∀ a, (k0_off364 v2670) a + S1x1024.size a ≤ S50257x1024.size a)
instance k0_chk182.dec : ∀ (v2670 : BitVec 32), Decidable (k0_chk182 v2670) := fun v2670 => decidable_of_iff' _ (Iff.of_eq (k0_chk182.eq_1 v2670))
theorem k0_off364_inb : ∀ (v2670 : BitVec 32) (k0_hw182 : k0_chk182 v2670), ∀ a, (k0_off364 v2670) a + S1x1024.size a ≤ S50257x1024.size a := fun v2670 k0_hw182 => k0_hw182

def k0_off365 (i : grid0.Coords) : Fin 1 → Nat :=
  let arg0 : BitVec 32 := BitVec.ofNat 32 (i 0).val
  let c256_i32 : BitVec 32 := 256#32
  let v0 : BitVec 32 := Scalar.muli arg0 c256_i32
  let c182_i32 : BitVec 32 := 182#32
  let v2683 : BitVec 32 := Scalar.addi v0 c182_i32
  let v2684 : Index := Scalar.indexCast v2683
  ![v2684.toNat]
def k0_off366 (v2685 : BitVec 32) : Fin 2 → Nat :=
  let c0_i32_1606 : BitVec 32 := 0#32
  ![v2685.toNat, 0]

def k0_chk183 (v2685 : BitVec 32) : Prop :=
  (∀ a, (k0_off366 v2685) a + S1x1024.size a ≤ S50257x1024.size a)
instance k0_chk183.dec : ∀ (v2685 : BitVec 32), Decidable (k0_chk183 v2685) := fun v2685 => decidable_of_iff' _ (Iff.of_eq (k0_chk183.eq_1 v2685))
theorem k0_off366_inb : ∀ (v2685 : BitVec 32) (k0_hw183 : k0_chk183 v2685), ∀ a, (k0_off366 v2685) a + S1x1024.size a ≤ S50257x1024.size a := fun v2685 k0_hw183 => k0_hw183

def k0_off367 (i : grid0.Coords) : Fin 1 → Nat :=
  let arg0 : BitVec 32 := BitVec.ofNat 32 (i 0).val
  let c256_i32 : BitVec 32 := 256#32
  let v0 : BitVec 32 := Scalar.muli arg0 c256_i32
  let c183_i32 : BitVec 32 := 183#32
  let v2698 : BitVec 32 := Scalar.addi v0 c183_i32
  let v2699 : Index := Scalar.indexCast v2698
  ![v2699.toNat]
def k0_off368 (v2700 : BitVec 32) : Fin 2 → Nat :=
  let c0_i32_1615 : BitVec 32 := 0#32
  ![v2700.toNat, 0]

def k0_chk184 (v2700 : BitVec 32) : Prop :=
  (∀ a, (k0_off368 v2700) a + S1x1024.size a ≤ S50257x1024.size a)
instance k0_chk184.dec : ∀ (v2700 : BitVec 32), Decidable (k0_chk184 v2700) := fun v2700 => decidable_of_iff' _ (Iff.of_eq (k0_chk184.eq_1 v2700))
theorem k0_off368_inb : ∀ (v2700 : BitVec 32) (k0_hw184 : k0_chk184 v2700), ∀ a, (k0_off368 v2700) a + S1x1024.size a ≤ S50257x1024.size a := fun v2700 k0_hw184 => k0_hw184

def k0_off369 (i : grid0.Coords) : Fin 1 → Nat :=
  let arg0 : BitVec 32 := BitVec.ofNat 32 (i 0).val
  let c256_i32 : BitVec 32 := 256#32
  let v0 : BitVec 32 := Scalar.muli arg0 c256_i32
  let c184_i32 : BitVec 32 := 184#32
  let v2713 : BitVec 32 := Scalar.addi v0 c184_i32
  let v2714 : Index := Scalar.indexCast v2713
  ![v2714.toNat]
def k0_off370 (v2715 : BitVec 32) : Fin 2 → Nat :=
  let c0_i32_1624 : BitVec 32 := 0#32
  ![v2715.toNat, 0]

def k0_chk185 (v2715 : BitVec 32) : Prop :=
  (∀ a, (k0_off370 v2715) a + S1x1024.size a ≤ S50257x1024.size a)
instance k0_chk185.dec : ∀ (v2715 : BitVec 32), Decidable (k0_chk185 v2715) := fun v2715 => decidable_of_iff' _ (Iff.of_eq (k0_chk185.eq_1 v2715))
theorem k0_off370_inb : ∀ (v2715 : BitVec 32) (k0_hw185 : k0_chk185 v2715), ∀ a, (k0_off370 v2715) a + S1x1024.size a ≤ S50257x1024.size a := fun v2715 k0_hw185 => k0_hw185

def k0_off371 (i : grid0.Coords) : Fin 1 → Nat :=
  let arg0 : BitVec 32 := BitVec.ofNat 32 (i 0).val
  let c256_i32 : BitVec 32 := 256#32
  let v0 : BitVec 32 := Scalar.muli arg0 c256_i32
  let c185_i32 : BitVec 32 := 185#32
  let v2728 : BitVec 32 := Scalar.addi v0 c185_i32
  let v2729 : Index := Scalar.indexCast v2728
  ![v2729.toNat]
def k0_off372 (v2730 : BitVec 32) : Fin 2 → Nat :=
  let c0_i32_1633 : BitVec 32 := 0#32
  ![v2730.toNat, 0]

def k0_chk186 (v2730 : BitVec 32) : Prop :=
  (∀ a, (k0_off372 v2730) a + S1x1024.size a ≤ S50257x1024.size a)
instance k0_chk186.dec : ∀ (v2730 : BitVec 32), Decidable (k0_chk186 v2730) := fun v2730 => decidable_of_iff' _ (Iff.of_eq (k0_chk186.eq_1 v2730))
theorem k0_off372_inb : ∀ (v2730 : BitVec 32) (k0_hw186 : k0_chk186 v2730), ∀ a, (k0_off372 v2730) a + S1x1024.size a ≤ S50257x1024.size a := fun v2730 k0_hw186 => k0_hw186

def k0_off373 (i : grid0.Coords) : Fin 1 → Nat :=
  let arg0 : BitVec 32 := BitVec.ofNat 32 (i 0).val
  let c256_i32 : BitVec 32 := 256#32
  let v0 : BitVec 32 := Scalar.muli arg0 c256_i32
  let c186_i32 : BitVec 32 := 186#32
  let v2743 : BitVec 32 := Scalar.addi v0 c186_i32
  let v2744 : Index := Scalar.indexCast v2743
  ![v2744.toNat]
def k0_off374 (v2745 : BitVec 32) : Fin 2 → Nat :=
  let c0_i32_1642 : BitVec 32 := 0#32
  ![v2745.toNat, 0]

def k0_chk187 (v2745 : BitVec 32) : Prop :=
  (∀ a, (k0_off374 v2745) a + S1x1024.size a ≤ S50257x1024.size a)
instance k0_chk187.dec : ∀ (v2745 : BitVec 32), Decidable (k0_chk187 v2745) := fun v2745 => decidable_of_iff' _ (Iff.of_eq (k0_chk187.eq_1 v2745))
theorem k0_off374_inb : ∀ (v2745 : BitVec 32) (k0_hw187 : k0_chk187 v2745), ∀ a, (k0_off374 v2745) a + S1x1024.size a ≤ S50257x1024.size a := fun v2745 k0_hw187 => k0_hw187

def k0_off375 (i : grid0.Coords) : Fin 1 → Nat :=
  let arg0 : BitVec 32 := BitVec.ofNat 32 (i 0).val
  let c256_i32 : BitVec 32 := 256#32
  let v0 : BitVec 32 := Scalar.muli arg0 c256_i32
  let c187_i32 : BitVec 32 := 187#32
  let v2758 : BitVec 32 := Scalar.addi v0 c187_i32
  let v2759 : Index := Scalar.indexCast v2758
  ![v2759.toNat]
def k0_off376 (v2760 : BitVec 32) : Fin 2 → Nat :=
  let c0_i32_1651 : BitVec 32 := 0#32
  ![v2760.toNat, 0]

def k0_chk188 (v2760 : BitVec 32) : Prop :=
  (∀ a, (k0_off376 v2760) a + S1x1024.size a ≤ S50257x1024.size a)
instance k0_chk188.dec : ∀ (v2760 : BitVec 32), Decidable (k0_chk188 v2760) := fun v2760 => decidable_of_iff' _ (Iff.of_eq (k0_chk188.eq_1 v2760))
theorem k0_off376_inb : ∀ (v2760 : BitVec 32) (k0_hw188 : k0_chk188 v2760), ∀ a, (k0_off376 v2760) a + S1x1024.size a ≤ S50257x1024.size a := fun v2760 k0_hw188 => k0_hw188

def k0_off377 (i : grid0.Coords) : Fin 1 → Nat :=
  let arg0 : BitVec 32 := BitVec.ofNat 32 (i 0).val
  let c256_i32 : BitVec 32 := 256#32
  let v0 : BitVec 32 := Scalar.muli arg0 c256_i32
  let c188_i32 : BitVec 32 := 188#32
  let v2773 : BitVec 32 := Scalar.addi v0 c188_i32
  let v2774 : Index := Scalar.indexCast v2773
  ![v2774.toNat]
def k0_off378 (v2775 : BitVec 32) : Fin 2 → Nat :=
  let c0_i32_1660 : BitVec 32 := 0#32
  ![v2775.toNat, 0]

def k0_chk189 (v2775 : BitVec 32) : Prop :=
  (∀ a, (k0_off378 v2775) a + S1x1024.size a ≤ S50257x1024.size a)
instance k0_chk189.dec : ∀ (v2775 : BitVec 32), Decidable (k0_chk189 v2775) := fun v2775 => decidable_of_iff' _ (Iff.of_eq (k0_chk189.eq_1 v2775))
theorem k0_off378_inb : ∀ (v2775 : BitVec 32) (k0_hw189 : k0_chk189 v2775), ∀ a, (k0_off378 v2775) a + S1x1024.size a ≤ S50257x1024.size a := fun v2775 k0_hw189 => k0_hw189

def k0_off379 (i : grid0.Coords) : Fin 1 → Nat :=
  let arg0 : BitVec 32 := BitVec.ofNat 32 (i 0).val
  let c256_i32 : BitVec 32 := 256#32
  let v0 : BitVec 32 := Scalar.muli arg0 c256_i32
  let c189_i32 : BitVec 32 := 189#32
  let v2788 : BitVec 32 := Scalar.addi v0 c189_i32
  let v2789 : Index := Scalar.indexCast v2788
  ![v2789.toNat]
def k0_off380 (v2790 : BitVec 32) : Fin 2 → Nat :=
  let c0_i32_1669 : BitVec 32 := 0#32
  ![v2790.toNat, 0]

def k0_chk190 (v2790 : BitVec 32) : Prop :=
  (∀ a, (k0_off380 v2790) a + S1x1024.size a ≤ S50257x1024.size a)
instance k0_chk190.dec : ∀ (v2790 : BitVec 32), Decidable (k0_chk190 v2790) := fun v2790 => decidable_of_iff' _ (Iff.of_eq (k0_chk190.eq_1 v2790))
theorem k0_off380_inb : ∀ (v2790 : BitVec 32) (k0_hw190 : k0_chk190 v2790), ∀ a, (k0_off380 v2790) a + S1x1024.size a ≤ S50257x1024.size a := fun v2790 k0_hw190 => k0_hw190

def k0_off381 (i : grid0.Coords) : Fin 1 → Nat :=
  let arg0 : BitVec 32 := BitVec.ofNat 32 (i 0).val
  let c256_i32 : BitVec 32 := 256#32
  let v0 : BitVec 32 := Scalar.muli arg0 c256_i32
  let c190_i32 : BitVec 32 := 190#32
  let v2803 : BitVec 32 := Scalar.addi v0 c190_i32
  let v2804 : Index := Scalar.indexCast v2803
  ![v2804.toNat]
def k0_off382 (v2805 : BitVec 32) : Fin 2 → Nat :=
  let c0_i32_1678 : BitVec 32 := 0#32
  ![v2805.toNat, 0]

def k0_chk191 (v2805 : BitVec 32) : Prop :=
  (∀ a, (k0_off382 v2805) a + S1x1024.size a ≤ S50257x1024.size a)
instance k0_chk191.dec : ∀ (v2805 : BitVec 32), Decidable (k0_chk191 v2805) := fun v2805 => decidable_of_iff' _ (Iff.of_eq (k0_chk191.eq_1 v2805))
theorem k0_off382_inb : ∀ (v2805 : BitVec 32) (k0_hw191 : k0_chk191 v2805), ∀ a, (k0_off382 v2805) a + S1x1024.size a ≤ S50257x1024.size a := fun v2805 k0_hw191 => k0_hw191

def k0_off383 (i : grid0.Coords) : Fin 1 → Nat :=
  let arg0 : BitVec 32 := BitVec.ofNat 32 (i 0).val
  let c256_i32 : BitVec 32 := 256#32
  let v0 : BitVec 32 := Scalar.muli arg0 c256_i32
  let c191_i32 : BitVec 32 := 191#32
  let v2818 : BitVec 32 := Scalar.addi v0 c191_i32
  let v2819 : Index := Scalar.indexCast v2818
  ![v2819.toNat]
def k0_off384 (v2820 : BitVec 32) : Fin 2 → Nat :=
  let c0_i32_1687 : BitVec 32 := 0#32
  ![v2820.toNat, 0]

def k0_chk192 (v2820 : BitVec 32) : Prop :=
  (∀ a, (k0_off384 v2820) a + S1x1024.size a ≤ S50257x1024.size a)
instance k0_chk192.dec : ∀ (v2820 : BitVec 32), Decidable (k0_chk192 v2820) := fun v2820 => decidable_of_iff' _ (Iff.of_eq (k0_chk192.eq_1 v2820))
theorem k0_off384_inb : ∀ (v2820 : BitVec 32) (k0_hw192 : k0_chk192 v2820), ∀ a, (k0_off384 v2820) a + S1x1024.size a ≤ S50257x1024.size a := fun v2820 k0_hw192 => k0_hw192

def k0_off385 (i : grid0.Coords) : Fin 1 → Nat :=
  let arg0 : BitVec 32 := BitVec.ofNat 32 (i 0).val
  let c256_i32 : BitVec 32 := 256#32
  let v0 : BitVec 32 := Scalar.muli arg0 c256_i32
  let c192_i32 : BitVec 32 := 192#32
  let v2833 : BitVec 32 := Scalar.addi v0 c192_i32
  let v2834 : Index := Scalar.indexCast v2833
  ![v2834.toNat]
def k0_off386 (v2835 : BitVec 32) : Fin 2 → Nat :=
  let c0_i32_1696 : BitVec 32 := 0#32
  ![v2835.toNat, 0]

def k0_chk193 (v2835 : BitVec 32) : Prop :=
  (∀ a, (k0_off386 v2835) a + S1x1024.size a ≤ S50257x1024.size a)
instance k0_chk193.dec : ∀ (v2835 : BitVec 32), Decidable (k0_chk193 v2835) := fun v2835 => decidable_of_iff' _ (Iff.of_eq (k0_chk193.eq_1 v2835))
theorem k0_off386_inb : ∀ (v2835 : BitVec 32) (k0_hw193 : k0_chk193 v2835), ∀ a, (k0_off386 v2835) a + S1x1024.size a ≤ S50257x1024.size a := fun v2835 k0_hw193 => k0_hw193

def k0_off387 (i : grid0.Coords) : Fin 1 → Nat :=
  let arg0 : BitVec 32 := BitVec.ofNat 32 (i 0).val
  let c256_i32 : BitVec 32 := 256#32
  let v0 : BitVec 32 := Scalar.muli arg0 c256_i32
  let c193_i32 : BitVec 32 := 193#32
  let v2848 : BitVec 32 := Scalar.addi v0 c193_i32
  let v2849 : Index := Scalar.indexCast v2848
  ![v2849.toNat]
def k0_off388 (v2850 : BitVec 32) : Fin 2 → Nat :=
  let c0_i32_1705 : BitVec 32 := 0#32
  ![v2850.toNat, 0]

def k0_chk194 (v2850 : BitVec 32) : Prop :=
  (∀ a, (k0_off388 v2850) a + S1x1024.size a ≤ S50257x1024.size a)
instance k0_chk194.dec : ∀ (v2850 : BitVec 32), Decidable (k0_chk194 v2850) := fun v2850 => decidable_of_iff' _ (Iff.of_eq (k0_chk194.eq_1 v2850))
theorem k0_off388_inb : ∀ (v2850 : BitVec 32) (k0_hw194 : k0_chk194 v2850), ∀ a, (k0_off388 v2850) a + S1x1024.size a ≤ S50257x1024.size a := fun v2850 k0_hw194 => k0_hw194

def k0_off389 (i : grid0.Coords) : Fin 1 → Nat :=
  let arg0 : BitVec 32 := BitVec.ofNat 32 (i 0).val
  let c256_i32 : BitVec 32 := 256#32
  let v0 : BitVec 32 := Scalar.muli arg0 c256_i32
  let c194_i32 : BitVec 32 := 194#32
  let v2863 : BitVec 32 := Scalar.addi v0 c194_i32
  let v2864 : Index := Scalar.indexCast v2863
  ![v2864.toNat]
def k0_off390 (v2865 : BitVec 32) : Fin 2 → Nat :=
  let c0_i32_1714 : BitVec 32 := 0#32
  ![v2865.toNat, 0]

def k0_chk195 (v2865 : BitVec 32) : Prop :=
  (∀ a, (k0_off390 v2865) a + S1x1024.size a ≤ S50257x1024.size a)
instance k0_chk195.dec : ∀ (v2865 : BitVec 32), Decidable (k0_chk195 v2865) := fun v2865 => decidable_of_iff' _ (Iff.of_eq (k0_chk195.eq_1 v2865))
theorem k0_off390_inb : ∀ (v2865 : BitVec 32) (k0_hw195 : k0_chk195 v2865), ∀ a, (k0_off390 v2865) a + S1x1024.size a ≤ S50257x1024.size a := fun v2865 k0_hw195 => k0_hw195

def k0_off391 (i : grid0.Coords) : Fin 1 → Nat :=
  let arg0 : BitVec 32 := BitVec.ofNat 32 (i 0).val
  let c256_i32 : BitVec 32 := 256#32
  let v0 : BitVec 32 := Scalar.muli arg0 c256_i32
  let c195_i32 : BitVec 32 := 195#32
  let v2878 : BitVec 32 := Scalar.addi v0 c195_i32
  let v2879 : Index := Scalar.indexCast v2878
  ![v2879.toNat]
def k0_off392 (v2880 : BitVec 32) : Fin 2 → Nat :=
  let c0_i32_1723 : BitVec 32 := 0#32
  ![v2880.toNat, 0]

def k0_chk196 (v2880 : BitVec 32) : Prop :=
  (∀ a, (k0_off392 v2880) a + S1x1024.size a ≤ S50257x1024.size a)
instance k0_chk196.dec : ∀ (v2880 : BitVec 32), Decidable (k0_chk196 v2880) := fun v2880 => decidable_of_iff' _ (Iff.of_eq (k0_chk196.eq_1 v2880))
theorem k0_off392_inb : ∀ (v2880 : BitVec 32) (k0_hw196 : k0_chk196 v2880), ∀ a, (k0_off392 v2880) a + S1x1024.size a ≤ S50257x1024.size a := fun v2880 k0_hw196 => k0_hw196

def k0_off393 (i : grid0.Coords) : Fin 1 → Nat :=
  let arg0 : BitVec 32 := BitVec.ofNat 32 (i 0).val
  let c256_i32 : BitVec 32 := 256#32
  let v0 : BitVec 32 := Scalar.muli arg0 c256_i32
  let c196_i32 : BitVec 32 := 196#32
  let v2893 : BitVec 32 := Scalar.addi v0 c196_i32
  let v2894 : Index := Scalar.indexCast v2893
  ![v2894.toNat]
def k0_off394 (v2895 : BitVec 32) : Fin 2 → Nat :=
  let c0_i32_1732 : BitVec 32 := 0#32
  ![v2895.toNat, 0]

def k0_chk197 (v2895 : BitVec 32) : Prop :=
  (∀ a, (k0_off394 v2895) a + S1x1024.size a ≤ S50257x1024.size a)
instance k0_chk197.dec : ∀ (v2895 : BitVec 32), Decidable (k0_chk197 v2895) := fun v2895 => decidable_of_iff' _ (Iff.of_eq (k0_chk197.eq_1 v2895))
theorem k0_off394_inb : ∀ (v2895 : BitVec 32) (k0_hw197 : k0_chk197 v2895), ∀ a, (k0_off394 v2895) a + S1x1024.size a ≤ S50257x1024.size a := fun v2895 k0_hw197 => k0_hw197

def k0_off395 (i : grid0.Coords) : Fin 1 → Nat :=
  let arg0 : BitVec 32 := BitVec.ofNat 32 (i 0).val
  let c256_i32 : BitVec 32 := 256#32
  let v0 : BitVec 32 := Scalar.muli arg0 c256_i32
  let c197_i32 : BitVec 32 := 197#32
  let v2908 : BitVec 32 := Scalar.addi v0 c197_i32
  let v2909 : Index := Scalar.indexCast v2908
  ![v2909.toNat]
def k0_off396 (v2910 : BitVec 32) : Fin 2 → Nat :=
  let c0_i32_1741 : BitVec 32 := 0#32
  ![v2910.toNat, 0]

def k0_chk198 (v2910 : BitVec 32) : Prop :=
  (∀ a, (k0_off396 v2910) a + S1x1024.size a ≤ S50257x1024.size a)
instance k0_chk198.dec : ∀ (v2910 : BitVec 32), Decidable (k0_chk198 v2910) := fun v2910 => decidable_of_iff' _ (Iff.of_eq (k0_chk198.eq_1 v2910))
theorem k0_off396_inb : ∀ (v2910 : BitVec 32) (k0_hw198 : k0_chk198 v2910), ∀ a, (k0_off396 v2910) a + S1x1024.size a ≤ S50257x1024.size a := fun v2910 k0_hw198 => k0_hw198

def k0_off397 (i : grid0.Coords) : Fin 1 → Nat :=
  let arg0 : BitVec 32 := BitVec.ofNat 32 (i 0).val
  let c256_i32 : BitVec 32 := 256#32
  let v0 : BitVec 32 := Scalar.muli arg0 c256_i32
  let c198_i32 : BitVec 32 := 198#32
  let v2923 : BitVec 32 := Scalar.addi v0 c198_i32
  let v2924 : Index := Scalar.indexCast v2923
  ![v2924.toNat]
def k0_off398 (v2925 : BitVec 32) : Fin 2 → Nat :=
  let c0_i32_1750 : BitVec 32 := 0#32
  ![v2925.toNat, 0]

def k0_chk199 (v2925 : BitVec 32) : Prop :=
  (∀ a, (k0_off398 v2925) a + S1x1024.size a ≤ S50257x1024.size a)
instance k0_chk199.dec : ∀ (v2925 : BitVec 32), Decidable (k0_chk199 v2925) := fun v2925 => decidable_of_iff' _ (Iff.of_eq (k0_chk199.eq_1 v2925))
theorem k0_off398_inb : ∀ (v2925 : BitVec 32) (k0_hw199 : k0_chk199 v2925), ∀ a, (k0_off398 v2925) a + S1x1024.size a ≤ S50257x1024.size a := fun v2925 k0_hw199 => k0_hw199

def k0_off399 (i : grid0.Coords) : Fin 1 → Nat :=
  let arg0 : BitVec 32 := BitVec.ofNat 32 (i 0).val
  let c256_i32 : BitVec 32 := 256#32
  let v0 : BitVec 32 := Scalar.muli arg0 c256_i32
  let c199_i32 : BitVec 32 := 199#32
  let v2938 : BitVec 32 := Scalar.addi v0 c199_i32
  let v2939 : Index := Scalar.indexCast v2938
  ![v2939.toNat]
def k0_off400 (v2940 : BitVec 32) : Fin 2 → Nat :=
  let c0_i32_1759 : BitVec 32 := 0#32
  ![v2940.toNat, 0]

def k0_chk200 (v2940 : BitVec 32) : Prop :=
  (∀ a, (k0_off400 v2940) a + S1x1024.size a ≤ S50257x1024.size a)
instance k0_chk200.dec : ∀ (v2940 : BitVec 32), Decidable (k0_chk200 v2940) := fun v2940 => decidable_of_iff' _ (Iff.of_eq (k0_chk200.eq_1 v2940))
theorem k0_off400_inb : ∀ (v2940 : BitVec 32) (k0_hw200 : k0_chk200 v2940), ∀ a, (k0_off400 v2940) a + S1x1024.size a ≤ S50257x1024.size a := fun v2940 k0_hw200 => k0_hw200

def k0_off401 (i : grid0.Coords) : Fin 1 → Nat :=
  let arg0 : BitVec 32 := BitVec.ofNat 32 (i 0).val
  let c256_i32 : BitVec 32 := 256#32
  let v0 : BitVec 32 := Scalar.muli arg0 c256_i32
  let c200_i32 : BitVec 32 := 200#32
  let v2953 : BitVec 32 := Scalar.addi v0 c200_i32
  let v2954 : Index := Scalar.indexCast v2953
  ![v2954.toNat]
def k0_off402 (v2955 : BitVec 32) : Fin 2 → Nat :=
  let c0_i32_1768 : BitVec 32 := 0#32
  ![v2955.toNat, 0]

def k0_chk201 (v2955 : BitVec 32) : Prop :=
  (∀ a, (k0_off402 v2955) a + S1x1024.size a ≤ S50257x1024.size a)
instance k0_chk201.dec : ∀ (v2955 : BitVec 32), Decidable (k0_chk201 v2955) := fun v2955 => decidable_of_iff' _ (Iff.of_eq (k0_chk201.eq_1 v2955))
theorem k0_off402_inb : ∀ (v2955 : BitVec 32) (k0_hw201 : k0_chk201 v2955), ∀ a, (k0_off402 v2955) a + S1x1024.size a ≤ S50257x1024.size a := fun v2955 k0_hw201 => k0_hw201

def k0_off403 (i : grid0.Coords) : Fin 1 → Nat :=
  let arg0 : BitVec 32 := BitVec.ofNat 32 (i 0).val
  let c256_i32 : BitVec 32 := 256#32
  let v0 : BitVec 32 := Scalar.muli arg0 c256_i32
  let c201_i32 : BitVec 32 := 201#32
  let v2968 : BitVec 32 := Scalar.addi v0 c201_i32
  let v2969 : Index := Scalar.indexCast v2968
  ![v2969.toNat]
def k0_off404 (v2970 : BitVec 32) : Fin 2 → Nat :=
  let c0_i32_1777 : BitVec 32 := 0#32
  ![v2970.toNat, 0]

def k0_chk202 (v2970 : BitVec 32) : Prop :=
  (∀ a, (k0_off404 v2970) a + S1x1024.size a ≤ S50257x1024.size a)
instance k0_chk202.dec : ∀ (v2970 : BitVec 32), Decidable (k0_chk202 v2970) := fun v2970 => decidable_of_iff' _ (Iff.of_eq (k0_chk202.eq_1 v2970))
theorem k0_off404_inb : ∀ (v2970 : BitVec 32) (k0_hw202 : k0_chk202 v2970), ∀ a, (k0_off404 v2970) a + S1x1024.size a ≤ S50257x1024.size a := fun v2970 k0_hw202 => k0_hw202

def k0_off405 (i : grid0.Coords) : Fin 1 → Nat :=
  let arg0 : BitVec 32 := BitVec.ofNat 32 (i 0).val
  let c256_i32 : BitVec 32 := 256#32
  let v0 : BitVec 32 := Scalar.muli arg0 c256_i32
  let c202_i32 : BitVec 32 := 202#32
  let v2983 : BitVec 32 := Scalar.addi v0 c202_i32
  let v2984 : Index := Scalar.indexCast v2983
  ![v2984.toNat]
def k0_off406 (v2985 : BitVec 32) : Fin 2 → Nat :=
  let c0_i32_1786 : BitVec 32 := 0#32
  ![v2985.toNat, 0]

def k0_chk203 (v2985 : BitVec 32) : Prop :=
  (∀ a, (k0_off406 v2985) a + S1x1024.size a ≤ S50257x1024.size a)
instance k0_chk203.dec : ∀ (v2985 : BitVec 32), Decidable (k0_chk203 v2985) := fun v2985 => decidable_of_iff' _ (Iff.of_eq (k0_chk203.eq_1 v2985))
theorem k0_off406_inb : ∀ (v2985 : BitVec 32) (k0_hw203 : k0_chk203 v2985), ∀ a, (k0_off406 v2985) a + S1x1024.size a ≤ S50257x1024.size a := fun v2985 k0_hw203 => k0_hw203

def k0_off407 (i : grid0.Coords) : Fin 1 → Nat :=
  let arg0 : BitVec 32 := BitVec.ofNat 32 (i 0).val
  let c256_i32 : BitVec 32 := 256#32
  let v0 : BitVec 32 := Scalar.muli arg0 c256_i32
  let c203_i32 : BitVec 32 := 203#32
  let v2998 : BitVec 32 := Scalar.addi v0 c203_i32
  let v2999 : Index := Scalar.indexCast v2998
  ![v2999.toNat]
def k0_off408 (v3000 : BitVec 32) : Fin 2 → Nat :=
  let c0_i32_1795 : BitVec 32 := 0#32
  ![v3000.toNat, 0]

def k0_chk204 (v3000 : BitVec 32) : Prop :=
  (∀ a, (k0_off408 v3000) a + S1x1024.size a ≤ S50257x1024.size a)
instance k0_chk204.dec : ∀ (v3000 : BitVec 32), Decidable (k0_chk204 v3000) := fun v3000 => decidable_of_iff' _ (Iff.of_eq (k0_chk204.eq_1 v3000))
theorem k0_off408_inb : ∀ (v3000 : BitVec 32) (k0_hw204 : k0_chk204 v3000), ∀ a, (k0_off408 v3000) a + S1x1024.size a ≤ S50257x1024.size a := fun v3000 k0_hw204 => k0_hw204

def k0_off409 (i : grid0.Coords) : Fin 1 → Nat :=
  let arg0 : BitVec 32 := BitVec.ofNat 32 (i 0).val
  let c256_i32 : BitVec 32 := 256#32
  let v0 : BitVec 32 := Scalar.muli arg0 c256_i32
  let c204_i32 : BitVec 32 := 204#32
  let v3013 : BitVec 32 := Scalar.addi v0 c204_i32
  let v3014 : Index := Scalar.indexCast v3013
  ![v3014.toNat]
def k0_off410 (v3015 : BitVec 32) : Fin 2 → Nat :=
  let c0_i32_1804 : BitVec 32 := 0#32
  ![v3015.toNat, 0]

def k0_chk205 (v3015 : BitVec 32) : Prop :=
  (∀ a, (k0_off410 v3015) a + S1x1024.size a ≤ S50257x1024.size a)
instance k0_chk205.dec : ∀ (v3015 : BitVec 32), Decidable (k0_chk205 v3015) := fun v3015 => decidable_of_iff' _ (Iff.of_eq (k0_chk205.eq_1 v3015))
theorem k0_off410_inb : ∀ (v3015 : BitVec 32) (k0_hw205 : k0_chk205 v3015), ∀ a, (k0_off410 v3015) a + S1x1024.size a ≤ S50257x1024.size a := fun v3015 k0_hw205 => k0_hw205

def k0_off411 (i : grid0.Coords) : Fin 1 → Nat :=
  let arg0 : BitVec 32 := BitVec.ofNat 32 (i 0).val
  let c256_i32 : BitVec 32 := 256#32
  let v0 : BitVec 32 := Scalar.muli arg0 c256_i32
  let c205_i32 : BitVec 32 := 205#32
  let v3028 : BitVec 32 := Scalar.addi v0 c205_i32
  let v3029 : Index := Scalar.indexCast v3028
  ![v3029.toNat]
def k0_off412 (v3030 : BitVec 32) : Fin 2 → Nat :=
  let c0_i32_1813 : BitVec 32 := 0#32
  ![v3030.toNat, 0]

def k0_chk206 (v3030 : BitVec 32) : Prop :=
  (∀ a, (k0_off412 v3030) a + S1x1024.size a ≤ S50257x1024.size a)
instance k0_chk206.dec : ∀ (v3030 : BitVec 32), Decidable (k0_chk206 v3030) := fun v3030 => decidable_of_iff' _ (Iff.of_eq (k0_chk206.eq_1 v3030))
theorem k0_off412_inb : ∀ (v3030 : BitVec 32) (k0_hw206 : k0_chk206 v3030), ∀ a, (k0_off412 v3030) a + S1x1024.size a ≤ S50257x1024.size a := fun v3030 k0_hw206 => k0_hw206

def k0_off413 (i : grid0.Coords) : Fin 1 → Nat :=
  let arg0 : BitVec 32 := BitVec.ofNat 32 (i 0).val
  let c256_i32 : BitVec 32 := 256#32
  let v0 : BitVec 32 := Scalar.muli arg0 c256_i32
  let c206_i32 : BitVec 32 := 206#32
  let v3043 : BitVec 32 := Scalar.addi v0 c206_i32
  let v3044 : Index := Scalar.indexCast v3043
  ![v3044.toNat]
def k0_off414 (v3045 : BitVec 32) : Fin 2 → Nat :=
  let c0_i32_1822 : BitVec 32 := 0#32
  ![v3045.toNat, 0]

def k0_chk207 (v3045 : BitVec 32) : Prop :=
  (∀ a, (k0_off414 v3045) a + S1x1024.size a ≤ S50257x1024.size a)
instance k0_chk207.dec : ∀ (v3045 : BitVec 32), Decidable (k0_chk207 v3045) := fun v3045 => decidable_of_iff' _ (Iff.of_eq (k0_chk207.eq_1 v3045))
theorem k0_off414_inb : ∀ (v3045 : BitVec 32) (k0_hw207 : k0_chk207 v3045), ∀ a, (k0_off414 v3045) a + S1x1024.size a ≤ S50257x1024.size a := fun v3045 k0_hw207 => k0_hw207

def k0_off415 (i : grid0.Coords) : Fin 1 → Nat :=
  let arg0 : BitVec 32 := BitVec.ofNat 32 (i 0).val
  let c256_i32 : BitVec 32 := 256#32
  let v0 : BitVec 32 := Scalar.muli arg0 c256_i32
  let c207_i32 : BitVec 32 := 207#32
  let v3058 : BitVec 32 := Scalar.addi v0 c207_i32
  let v3059 : Index := Scalar.indexCast v3058
  ![v3059.toNat]
def k0_off416 (v3060 : BitVec 32) : Fin 2 → Nat :=
  let c0_i32_1831 : BitVec 32 := 0#32
  ![v3060.toNat, 0]

def k0_chk208 (v3060 : BitVec 32) : Prop :=
  (∀ a, (k0_off416 v3060) a + S1x1024.size a ≤ S50257x1024.size a)
instance k0_chk208.dec : ∀ (v3060 : BitVec 32), Decidable (k0_chk208 v3060) := fun v3060 => decidable_of_iff' _ (Iff.of_eq (k0_chk208.eq_1 v3060))
theorem k0_off416_inb : ∀ (v3060 : BitVec 32) (k0_hw208 : k0_chk208 v3060), ∀ a, (k0_off416 v3060) a + S1x1024.size a ≤ S50257x1024.size a := fun v3060 k0_hw208 => k0_hw208

def k0_off417 (i : grid0.Coords) : Fin 1 → Nat :=
  let arg0 : BitVec 32 := BitVec.ofNat 32 (i 0).val
  let c256_i32 : BitVec 32 := 256#32
  let v0 : BitVec 32 := Scalar.muli arg0 c256_i32
  let c208_i32 : BitVec 32 := 208#32
  let v3073 : BitVec 32 := Scalar.addi v0 c208_i32
  let v3074 : Index := Scalar.indexCast v3073
  ![v3074.toNat]
def k0_off418 (v3075 : BitVec 32) : Fin 2 → Nat :=
  let c0_i32_1840 : BitVec 32 := 0#32
  ![v3075.toNat, 0]

def k0_chk209 (v3075 : BitVec 32) : Prop :=
  (∀ a, (k0_off418 v3075) a + S1x1024.size a ≤ S50257x1024.size a)
instance k0_chk209.dec : ∀ (v3075 : BitVec 32), Decidable (k0_chk209 v3075) := fun v3075 => decidable_of_iff' _ (Iff.of_eq (k0_chk209.eq_1 v3075))
theorem k0_off418_inb : ∀ (v3075 : BitVec 32) (k0_hw209 : k0_chk209 v3075), ∀ a, (k0_off418 v3075) a + S1x1024.size a ≤ S50257x1024.size a := fun v3075 k0_hw209 => k0_hw209

def k0_off419 (i : grid0.Coords) : Fin 1 → Nat :=
  let arg0 : BitVec 32 := BitVec.ofNat 32 (i 0).val
  let c256_i32 : BitVec 32 := 256#32
  let v0 : BitVec 32 := Scalar.muli arg0 c256_i32
  let c209_i32 : BitVec 32 := 209#32
  let v3088 : BitVec 32 := Scalar.addi v0 c209_i32
  let v3089 : Index := Scalar.indexCast v3088
  ![v3089.toNat]
def k0_off420 (v3090 : BitVec 32) : Fin 2 → Nat :=
  let c0_i32_1849 : BitVec 32 := 0#32
  ![v3090.toNat, 0]

def k0_chk210 (v3090 : BitVec 32) : Prop :=
  (∀ a, (k0_off420 v3090) a + S1x1024.size a ≤ S50257x1024.size a)
instance k0_chk210.dec : ∀ (v3090 : BitVec 32), Decidable (k0_chk210 v3090) := fun v3090 => decidable_of_iff' _ (Iff.of_eq (k0_chk210.eq_1 v3090))
theorem k0_off420_inb : ∀ (v3090 : BitVec 32) (k0_hw210 : k0_chk210 v3090), ∀ a, (k0_off420 v3090) a + S1x1024.size a ≤ S50257x1024.size a := fun v3090 k0_hw210 => k0_hw210

def k0_off421 (i : grid0.Coords) : Fin 1 → Nat :=
  let arg0 : BitVec 32 := BitVec.ofNat 32 (i 0).val
  let c256_i32 : BitVec 32 := 256#32
  let v0 : BitVec 32 := Scalar.muli arg0 c256_i32
  let c210_i32 : BitVec 32 := 210#32
  let v3103 : BitVec 32 := Scalar.addi v0 c210_i32
  let v3104 : Index := Scalar.indexCast v3103
  ![v3104.toNat]
def k0_off422 (v3105 : BitVec 32) : Fin 2 → Nat :=
  let c0_i32_1858 : BitVec 32 := 0#32
  ![v3105.toNat, 0]

def k0_chk211 (v3105 : BitVec 32) : Prop :=
  (∀ a, (k0_off422 v3105) a + S1x1024.size a ≤ S50257x1024.size a)
instance k0_chk211.dec : ∀ (v3105 : BitVec 32), Decidable (k0_chk211 v3105) := fun v3105 => decidable_of_iff' _ (Iff.of_eq (k0_chk211.eq_1 v3105))
theorem k0_off422_inb : ∀ (v3105 : BitVec 32) (k0_hw211 : k0_chk211 v3105), ∀ a, (k0_off422 v3105) a + S1x1024.size a ≤ S50257x1024.size a := fun v3105 k0_hw211 => k0_hw211

def k0_off423 (i : grid0.Coords) : Fin 1 → Nat :=
  let arg0 : BitVec 32 := BitVec.ofNat 32 (i 0).val
  let c256_i32 : BitVec 32 := 256#32
  let v0 : BitVec 32 := Scalar.muli arg0 c256_i32
  let c211_i32 : BitVec 32 := 211#32
  let v3118 : BitVec 32 := Scalar.addi v0 c211_i32
  let v3119 : Index := Scalar.indexCast v3118
  ![v3119.toNat]
def k0_off424 (v3120 : BitVec 32) : Fin 2 → Nat :=
  let c0_i32_1867 : BitVec 32 := 0#32
  ![v3120.toNat, 0]

def k0_chk212 (v3120 : BitVec 32) : Prop :=
  (∀ a, (k0_off424 v3120) a + S1x1024.size a ≤ S50257x1024.size a)
instance k0_chk212.dec : ∀ (v3120 : BitVec 32), Decidable (k0_chk212 v3120) := fun v3120 => decidable_of_iff' _ (Iff.of_eq (k0_chk212.eq_1 v3120))
theorem k0_off424_inb : ∀ (v3120 : BitVec 32) (k0_hw212 : k0_chk212 v3120), ∀ a, (k0_off424 v3120) a + S1x1024.size a ≤ S50257x1024.size a := fun v3120 k0_hw212 => k0_hw212

def k0_off425 (i : grid0.Coords) : Fin 1 → Nat :=
  let arg0 : BitVec 32 := BitVec.ofNat 32 (i 0).val
  let c256_i32 : BitVec 32 := 256#32
  let v0 : BitVec 32 := Scalar.muli arg0 c256_i32
  let c212_i32 : BitVec 32 := 212#32
  let v3133 : BitVec 32 := Scalar.addi v0 c212_i32
  let v3134 : Index := Scalar.indexCast v3133
  ![v3134.toNat]
def k0_off426 (v3135 : BitVec 32) : Fin 2 → Nat :=
  let c0_i32_1876 : BitVec 32 := 0#32
  ![v3135.toNat, 0]

def k0_chk213 (v3135 : BitVec 32) : Prop :=
  (∀ a, (k0_off426 v3135) a + S1x1024.size a ≤ S50257x1024.size a)
instance k0_chk213.dec : ∀ (v3135 : BitVec 32), Decidable (k0_chk213 v3135) := fun v3135 => decidable_of_iff' _ (Iff.of_eq (k0_chk213.eq_1 v3135))
theorem k0_off426_inb : ∀ (v3135 : BitVec 32) (k0_hw213 : k0_chk213 v3135), ∀ a, (k0_off426 v3135) a + S1x1024.size a ≤ S50257x1024.size a := fun v3135 k0_hw213 => k0_hw213

def k0_off427 (i : grid0.Coords) : Fin 1 → Nat :=
  let arg0 : BitVec 32 := BitVec.ofNat 32 (i 0).val
  let c256_i32 : BitVec 32 := 256#32
  let v0 : BitVec 32 := Scalar.muli arg0 c256_i32
  let c213_i32 : BitVec 32 := 213#32
  let v3148 : BitVec 32 := Scalar.addi v0 c213_i32
  let v3149 : Index := Scalar.indexCast v3148
  ![v3149.toNat]
def k0_off428 (v3150 : BitVec 32) : Fin 2 → Nat :=
  let c0_i32_1885 : BitVec 32 := 0#32
  ![v3150.toNat, 0]

def k0_chk214 (v3150 : BitVec 32) : Prop :=
  (∀ a, (k0_off428 v3150) a + S1x1024.size a ≤ S50257x1024.size a)
instance k0_chk214.dec : ∀ (v3150 : BitVec 32), Decidable (k0_chk214 v3150) := fun v3150 => decidable_of_iff' _ (Iff.of_eq (k0_chk214.eq_1 v3150))
theorem k0_off428_inb : ∀ (v3150 : BitVec 32) (k0_hw214 : k0_chk214 v3150), ∀ a, (k0_off428 v3150) a + S1x1024.size a ≤ S50257x1024.size a := fun v3150 k0_hw214 => k0_hw214

def k0_off429 (i : grid0.Coords) : Fin 1 → Nat :=
  let arg0 : BitVec 32 := BitVec.ofNat 32 (i 0).val
  let c256_i32 : BitVec 32 := 256#32
  let v0 : BitVec 32 := Scalar.muli arg0 c256_i32
  let c214_i32 : BitVec 32 := 214#32
  let v3163 : BitVec 32 := Scalar.addi v0 c214_i32
  let v3164 : Index := Scalar.indexCast v3163
  ![v3164.toNat]
def k0_off430 (v3165 : BitVec 32) : Fin 2 → Nat :=
  let c0_i32_1894 : BitVec 32 := 0#32
  ![v3165.toNat, 0]

def k0_chk215 (v3165 : BitVec 32) : Prop :=
  (∀ a, (k0_off430 v3165) a + S1x1024.size a ≤ S50257x1024.size a)
instance k0_chk215.dec : ∀ (v3165 : BitVec 32), Decidable (k0_chk215 v3165) := fun v3165 => decidable_of_iff' _ (Iff.of_eq (k0_chk215.eq_1 v3165))
theorem k0_off430_inb : ∀ (v3165 : BitVec 32) (k0_hw215 : k0_chk215 v3165), ∀ a, (k0_off430 v3165) a + S1x1024.size a ≤ S50257x1024.size a := fun v3165 k0_hw215 => k0_hw215

def k0_off431 (i : grid0.Coords) : Fin 1 → Nat :=
  let arg0 : BitVec 32 := BitVec.ofNat 32 (i 0).val
  let c256_i32 : BitVec 32 := 256#32
  let v0 : BitVec 32 := Scalar.muli arg0 c256_i32
  let c215_i32 : BitVec 32 := 215#32
  let v3178 : BitVec 32 := Scalar.addi v0 c215_i32
  let v3179 : Index := Scalar.indexCast v3178
  ![v3179.toNat]
def k0_off432 (v3180 : BitVec 32) : Fin 2 → Nat :=
  let c0_i32_1903 : BitVec 32 := 0#32
  ![v3180.toNat, 0]

def k0_chk216 (v3180 : BitVec 32) : Prop :=
  (∀ a, (k0_off432 v3180) a + S1x1024.size a ≤ S50257x1024.size a)
instance k0_chk216.dec : ∀ (v3180 : BitVec 32), Decidable (k0_chk216 v3180) := fun v3180 => decidable_of_iff' _ (Iff.of_eq (k0_chk216.eq_1 v3180))
theorem k0_off432_inb : ∀ (v3180 : BitVec 32) (k0_hw216 : k0_chk216 v3180), ∀ a, (k0_off432 v3180) a + S1x1024.size a ≤ S50257x1024.size a := fun v3180 k0_hw216 => k0_hw216

def k0_off433 (i : grid0.Coords) : Fin 1 → Nat :=
  let arg0 : BitVec 32 := BitVec.ofNat 32 (i 0).val
  let c256_i32 : BitVec 32 := 256#32
  let v0 : BitVec 32 := Scalar.muli arg0 c256_i32
  let c216_i32 : BitVec 32 := 216#32
  let v3193 : BitVec 32 := Scalar.addi v0 c216_i32
  let v3194 : Index := Scalar.indexCast v3193
  ![v3194.toNat]
def k0_off434 (v3195 : BitVec 32) : Fin 2 → Nat :=
  let c0_i32_1912 : BitVec 32 := 0#32
  ![v3195.toNat, 0]

def k0_chk217 (v3195 : BitVec 32) : Prop :=
  (∀ a, (k0_off434 v3195) a + S1x1024.size a ≤ S50257x1024.size a)
instance k0_chk217.dec : ∀ (v3195 : BitVec 32), Decidable (k0_chk217 v3195) := fun v3195 => decidable_of_iff' _ (Iff.of_eq (k0_chk217.eq_1 v3195))
theorem k0_off434_inb : ∀ (v3195 : BitVec 32) (k0_hw217 : k0_chk217 v3195), ∀ a, (k0_off434 v3195) a + S1x1024.size a ≤ S50257x1024.size a := fun v3195 k0_hw217 => k0_hw217

def k0_off435 (i : grid0.Coords) : Fin 1 → Nat :=
  let arg0 : BitVec 32 := BitVec.ofNat 32 (i 0).val
  let c256_i32 : BitVec 32 := 256#32
  let v0 : BitVec 32 := Scalar.muli arg0 c256_i32
  let c217_i32 : BitVec 32 := 217#32
  let v3208 : BitVec 32 := Scalar.addi v0 c217_i32
  let v3209 : Index := Scalar.indexCast v3208
  ![v3209.toNat]
def k0_off436 (v3210 : BitVec 32) : Fin 2 → Nat :=
  let c0_i32_1921 : BitVec 32 := 0#32
  ![v3210.toNat, 0]

def k0_chk218 (v3210 : BitVec 32) : Prop :=
  (∀ a, (k0_off436 v3210) a + S1x1024.size a ≤ S50257x1024.size a)
instance k0_chk218.dec : ∀ (v3210 : BitVec 32), Decidable (k0_chk218 v3210) := fun v3210 => decidable_of_iff' _ (Iff.of_eq (k0_chk218.eq_1 v3210))
theorem k0_off436_inb : ∀ (v3210 : BitVec 32) (k0_hw218 : k0_chk218 v3210), ∀ a, (k0_off436 v3210) a + S1x1024.size a ≤ S50257x1024.size a := fun v3210 k0_hw218 => k0_hw218

def k0_off437 (i : grid0.Coords) : Fin 1 → Nat :=
  let arg0 : BitVec 32 := BitVec.ofNat 32 (i 0).val
  let c256_i32 : BitVec 32 := 256#32
  let v0 : BitVec 32 := Scalar.muli arg0 c256_i32
  let c218_i32 : BitVec 32 := 218#32
  let v3223 : BitVec 32 := Scalar.addi v0 c218_i32
  let v3224 : Index := Scalar.indexCast v3223
  ![v3224.toNat]
def k0_off438 (v3225 : BitVec 32) : Fin 2 → Nat :=
  let c0_i32_1930 : BitVec 32 := 0#32
  ![v3225.toNat, 0]

def k0_chk219 (v3225 : BitVec 32) : Prop :=
  (∀ a, (k0_off438 v3225) a + S1x1024.size a ≤ S50257x1024.size a)
instance k0_chk219.dec : ∀ (v3225 : BitVec 32), Decidable (k0_chk219 v3225) := fun v3225 => decidable_of_iff' _ (Iff.of_eq (k0_chk219.eq_1 v3225))
theorem k0_off438_inb : ∀ (v3225 : BitVec 32) (k0_hw219 : k0_chk219 v3225), ∀ a, (k0_off438 v3225) a + S1x1024.size a ≤ S50257x1024.size a := fun v3225 k0_hw219 => k0_hw219

def k0_off439 (i : grid0.Coords) : Fin 1 → Nat :=
  let arg0 : BitVec 32 := BitVec.ofNat 32 (i 0).val
  let c256_i32 : BitVec 32 := 256#32
  let v0 : BitVec 32 := Scalar.muli arg0 c256_i32
  let c219_i32 : BitVec 32 := 219#32
  let v3238 : BitVec 32 := Scalar.addi v0 c219_i32
  let v3239 : Index := Scalar.indexCast v3238
  ![v3239.toNat]
def k0_off440 (v3240 : BitVec 32) : Fin 2 → Nat :=
  let c0_i32_1939 : BitVec 32 := 0#32
  ![v3240.toNat, 0]

def k0_chk220 (v3240 : BitVec 32) : Prop :=
  (∀ a, (k0_off440 v3240) a + S1x1024.size a ≤ S50257x1024.size a)
instance k0_chk220.dec : ∀ (v3240 : BitVec 32), Decidable (k0_chk220 v3240) := fun v3240 => decidable_of_iff' _ (Iff.of_eq (k0_chk220.eq_1 v3240))
theorem k0_off440_inb : ∀ (v3240 : BitVec 32) (k0_hw220 : k0_chk220 v3240), ∀ a, (k0_off440 v3240) a + S1x1024.size a ≤ S50257x1024.size a := fun v3240 k0_hw220 => k0_hw220

def k0_off441 (i : grid0.Coords) : Fin 1 → Nat :=
  let arg0 : BitVec 32 := BitVec.ofNat 32 (i 0).val
  let c256_i32 : BitVec 32 := 256#32
  let v0 : BitVec 32 := Scalar.muli arg0 c256_i32
  let c220_i32 : BitVec 32 := 220#32
  let v3253 : BitVec 32 := Scalar.addi v0 c220_i32
  let v3254 : Index := Scalar.indexCast v3253
  ![v3254.toNat]
def k0_off442 (v3255 : BitVec 32) : Fin 2 → Nat :=
  let c0_i32_1948 : BitVec 32 := 0#32
  ![v3255.toNat, 0]

def k0_chk221 (v3255 : BitVec 32) : Prop :=
  (∀ a, (k0_off442 v3255) a + S1x1024.size a ≤ S50257x1024.size a)
instance k0_chk221.dec : ∀ (v3255 : BitVec 32), Decidable (k0_chk221 v3255) := fun v3255 => decidable_of_iff' _ (Iff.of_eq (k0_chk221.eq_1 v3255))
theorem k0_off442_inb : ∀ (v3255 : BitVec 32) (k0_hw221 : k0_chk221 v3255), ∀ a, (k0_off442 v3255) a + S1x1024.size a ≤ S50257x1024.size a := fun v3255 k0_hw221 => k0_hw221

def k0_off443 (i : grid0.Coords) : Fin 1 → Nat :=
  let arg0 : BitVec 32 := BitVec.ofNat 32 (i 0).val
  let c256_i32 : BitVec 32 := 256#32
  let v0 : BitVec 32 := Scalar.muli arg0 c256_i32
  let c221_i32 : BitVec 32 := 221#32
  let v3268 : BitVec 32 := Scalar.addi v0 c221_i32
  let v3269 : Index := Scalar.indexCast v3268
  ![v3269.toNat]
def k0_off444 (v3270 : BitVec 32) : Fin 2 → Nat :=
  let c0_i32_1957 : BitVec 32 := 0#32
  ![v3270.toNat, 0]

def k0_chk222 (v3270 : BitVec 32) : Prop :=
  (∀ a, (k0_off444 v3270) a + S1x1024.size a ≤ S50257x1024.size a)
instance k0_chk222.dec : ∀ (v3270 : BitVec 32), Decidable (k0_chk222 v3270) := fun v3270 => decidable_of_iff' _ (Iff.of_eq (k0_chk222.eq_1 v3270))
theorem k0_off444_inb : ∀ (v3270 : BitVec 32) (k0_hw222 : k0_chk222 v3270), ∀ a, (k0_off444 v3270) a + S1x1024.size a ≤ S50257x1024.size a := fun v3270 k0_hw222 => k0_hw222

def k0_off445 (i : grid0.Coords) : Fin 1 → Nat :=
  let arg0 : BitVec 32 := BitVec.ofNat 32 (i 0).val
  let c256_i32 : BitVec 32 := 256#32
  let v0 : BitVec 32 := Scalar.muli arg0 c256_i32
  let c222_i32 : BitVec 32 := 222#32
  let v3283 : BitVec 32 := Scalar.addi v0 c222_i32
  let v3284 : Index := Scalar.indexCast v3283
  ![v3284.toNat]
def k0_off446 (v3285 : BitVec 32) : Fin 2 → Nat :=
  let c0_i32_1966 : BitVec 32 := 0#32
  ![v3285.toNat, 0]

def k0_chk223 (v3285 : BitVec 32) : Prop :=
  (∀ a, (k0_off446 v3285) a + S1x1024.size a ≤ S50257x1024.size a)
instance k0_chk223.dec : ∀ (v3285 : BitVec 32), Decidable (k0_chk223 v3285) := fun v3285 => decidable_of_iff' _ (Iff.of_eq (k0_chk223.eq_1 v3285))
theorem k0_off446_inb : ∀ (v3285 : BitVec 32) (k0_hw223 : k0_chk223 v3285), ∀ a, (k0_off446 v3285) a + S1x1024.size a ≤ S50257x1024.size a := fun v3285 k0_hw223 => k0_hw223

def k0_off447 (i : grid0.Coords) : Fin 1 → Nat :=
  let arg0 : BitVec 32 := BitVec.ofNat 32 (i 0).val
  let c256_i32 : BitVec 32 := 256#32
  let v0 : BitVec 32 := Scalar.muli arg0 c256_i32
  let c223_i32 : BitVec 32 := 223#32
  let v3298 : BitVec 32 := Scalar.addi v0 c223_i32
  let v3299 : Index := Scalar.indexCast v3298
  ![v3299.toNat]
def k0_off448 (v3300 : BitVec 32) : Fin 2 → Nat :=
  let c0_i32_1975 : BitVec 32 := 0#32
  ![v3300.toNat, 0]

def k0_chk224 (v3300 : BitVec 32) : Prop :=
  (∀ a, (k0_off448 v3300) a + S1x1024.size a ≤ S50257x1024.size a)
instance k0_chk224.dec : ∀ (v3300 : BitVec 32), Decidable (k0_chk224 v3300) := fun v3300 => decidable_of_iff' _ (Iff.of_eq (k0_chk224.eq_1 v3300))
theorem k0_off448_inb : ∀ (v3300 : BitVec 32) (k0_hw224 : k0_chk224 v3300), ∀ a, (k0_off448 v3300) a + S1x1024.size a ≤ S50257x1024.size a := fun v3300 k0_hw224 => k0_hw224

def k0_off449 (i : grid0.Coords) : Fin 1 → Nat :=
  let arg0 : BitVec 32 := BitVec.ofNat 32 (i 0).val
  let c256_i32 : BitVec 32 := 256#32
  let v0 : BitVec 32 := Scalar.muli arg0 c256_i32
  let c224_i32 : BitVec 32 := 224#32
  let v3313 : BitVec 32 := Scalar.addi v0 c224_i32
  let v3314 : Index := Scalar.indexCast v3313
  ![v3314.toNat]
def k0_off450 (v3315 : BitVec 32) : Fin 2 → Nat :=
  let c0_i32_1984 : BitVec 32 := 0#32
  ![v3315.toNat, 0]

def k0_chk225 (v3315 : BitVec 32) : Prop :=
  (∀ a, (k0_off450 v3315) a + S1x1024.size a ≤ S50257x1024.size a)
instance k0_chk225.dec : ∀ (v3315 : BitVec 32), Decidable (k0_chk225 v3315) := fun v3315 => decidable_of_iff' _ (Iff.of_eq (k0_chk225.eq_1 v3315))
theorem k0_off450_inb : ∀ (v3315 : BitVec 32) (k0_hw225 : k0_chk225 v3315), ∀ a, (k0_off450 v3315) a + S1x1024.size a ≤ S50257x1024.size a := fun v3315 k0_hw225 => k0_hw225

def k0_off451 (i : grid0.Coords) : Fin 1 → Nat :=
  let arg0 : BitVec 32 := BitVec.ofNat 32 (i 0).val
  let c256_i32 : BitVec 32 := 256#32
  let v0 : BitVec 32 := Scalar.muli arg0 c256_i32
  let c225_i32 : BitVec 32 := 225#32
  let v3328 : BitVec 32 := Scalar.addi v0 c225_i32
  let v3329 : Index := Scalar.indexCast v3328
  ![v3329.toNat]
def k0_off452 (v3330 : BitVec 32) : Fin 2 → Nat :=
  let c0_i32_1993 : BitVec 32 := 0#32
  ![v3330.toNat, 0]

def k0_chk226 (v3330 : BitVec 32) : Prop :=
  (∀ a, (k0_off452 v3330) a + S1x1024.size a ≤ S50257x1024.size a)
instance k0_chk226.dec : ∀ (v3330 : BitVec 32), Decidable (k0_chk226 v3330) := fun v3330 => decidable_of_iff' _ (Iff.of_eq (k0_chk226.eq_1 v3330))
theorem k0_off452_inb : ∀ (v3330 : BitVec 32) (k0_hw226 : k0_chk226 v3330), ∀ a, (k0_off452 v3330) a + S1x1024.size a ≤ S50257x1024.size a := fun v3330 k0_hw226 => k0_hw226

def k0_off453 (i : grid0.Coords) : Fin 1 → Nat :=
  let arg0 : BitVec 32 := BitVec.ofNat 32 (i 0).val
  let c256_i32 : BitVec 32 := 256#32
  let v0 : BitVec 32 := Scalar.muli arg0 c256_i32
  let c226_i32 : BitVec 32 := 226#32
  let v3343 : BitVec 32 := Scalar.addi v0 c226_i32
  let v3344 : Index := Scalar.indexCast v3343
  ![v3344.toNat]
def k0_off454 (v3345 : BitVec 32) : Fin 2 → Nat :=
  let c0_i32_2002 : BitVec 32 := 0#32
  ![v3345.toNat, 0]

def k0_chk227 (v3345 : BitVec 32) : Prop :=
  (∀ a, (k0_off454 v3345) a + S1x1024.size a ≤ S50257x1024.size a)
instance k0_chk227.dec : ∀ (v3345 : BitVec 32), Decidable (k0_chk227 v3345) := fun v3345 => decidable_of_iff' _ (Iff.of_eq (k0_chk227.eq_1 v3345))
theorem k0_off454_inb : ∀ (v3345 : BitVec 32) (k0_hw227 : k0_chk227 v3345), ∀ a, (k0_off454 v3345) a + S1x1024.size a ≤ S50257x1024.size a := fun v3345 k0_hw227 => k0_hw227

def k0_off455 (i : grid0.Coords) : Fin 1 → Nat :=
  let arg0 : BitVec 32 := BitVec.ofNat 32 (i 0).val
  let c256_i32 : BitVec 32 := 256#32
  let v0 : BitVec 32 := Scalar.muli arg0 c256_i32
  let c227_i32 : BitVec 32 := 227#32
  let v3358 : BitVec 32 := Scalar.addi v0 c227_i32
  let v3359 : Index := Scalar.indexCast v3358
  ![v3359.toNat]
def k0_off456 (v3360 : BitVec 32) : Fin 2 → Nat :=
  let c0_i32_2011 : BitVec 32 := 0#32
  ![v3360.toNat, 0]

def k0_chk228 (v3360 : BitVec 32) : Prop :=
  (∀ a, (k0_off456 v3360) a + S1x1024.size a ≤ S50257x1024.size a)
instance k0_chk228.dec : ∀ (v3360 : BitVec 32), Decidable (k0_chk228 v3360) := fun v3360 => decidable_of_iff' _ (Iff.of_eq (k0_chk228.eq_1 v3360))
theorem k0_off456_inb : ∀ (v3360 : BitVec 32) (k0_hw228 : k0_chk228 v3360), ∀ a, (k0_off456 v3360) a + S1x1024.size a ≤ S50257x1024.size a := fun v3360 k0_hw228 => k0_hw228

def k0_off457 (i : grid0.Coords) : Fin 1 → Nat :=
  let arg0 : BitVec 32 := BitVec.ofNat 32 (i 0).val
  let c256_i32 : BitVec 32 := 256#32
  let v0 : BitVec 32 := Scalar.muli arg0 c256_i32
  let c228_i32 : BitVec 32 := 228#32
  let v3373 : BitVec 32 := Scalar.addi v0 c228_i32
  let v3374 : Index := Scalar.indexCast v3373
  ![v3374.toNat]
def k0_off458 (v3375 : BitVec 32) : Fin 2 → Nat :=
  let c0_i32_2020 : BitVec 32 := 0#32
  ![v3375.toNat, 0]

def k0_chk229 (v3375 : BitVec 32) : Prop :=
  (∀ a, (k0_off458 v3375) a + S1x1024.size a ≤ S50257x1024.size a)
instance k0_chk229.dec : ∀ (v3375 : BitVec 32), Decidable (k0_chk229 v3375) := fun v3375 => decidable_of_iff' _ (Iff.of_eq (k0_chk229.eq_1 v3375))
theorem k0_off458_inb : ∀ (v3375 : BitVec 32) (k0_hw229 : k0_chk229 v3375), ∀ a, (k0_off458 v3375) a + S1x1024.size a ≤ S50257x1024.size a := fun v3375 k0_hw229 => k0_hw229

def k0_off459 (i : grid0.Coords) : Fin 1 → Nat :=
  let arg0 : BitVec 32 := BitVec.ofNat 32 (i 0).val
  let c256_i32 : BitVec 32 := 256#32
  let v0 : BitVec 32 := Scalar.muli arg0 c256_i32
  let c229_i32 : BitVec 32 := 229#32
  let v3388 : BitVec 32 := Scalar.addi v0 c229_i32
  let v3389 : Index := Scalar.indexCast v3388
  ![v3389.toNat]
def k0_off460 (v3390 : BitVec 32) : Fin 2 → Nat :=
  let c0_i32_2029 : BitVec 32 := 0#32
  ![v3390.toNat, 0]

def k0_chk230 (v3390 : BitVec 32) : Prop :=
  (∀ a, (k0_off460 v3390) a + S1x1024.size a ≤ S50257x1024.size a)
instance k0_chk230.dec : ∀ (v3390 : BitVec 32), Decidable (k0_chk230 v3390) := fun v3390 => decidable_of_iff' _ (Iff.of_eq (k0_chk230.eq_1 v3390))
theorem k0_off460_inb : ∀ (v3390 : BitVec 32) (k0_hw230 : k0_chk230 v3390), ∀ a, (k0_off460 v3390) a + S1x1024.size a ≤ S50257x1024.size a := fun v3390 k0_hw230 => k0_hw230

def k0_off461 (i : grid0.Coords) : Fin 1 → Nat :=
  let arg0 : BitVec 32 := BitVec.ofNat 32 (i 0).val
  let c256_i32 : BitVec 32 := 256#32
  let v0 : BitVec 32 := Scalar.muli arg0 c256_i32
  let c230_i32 : BitVec 32 := 230#32
  let v3403 : BitVec 32 := Scalar.addi v0 c230_i32
  let v3404 : Index := Scalar.indexCast v3403
  ![v3404.toNat]
def k0_off462 (v3405 : BitVec 32) : Fin 2 → Nat :=
  let c0_i32_2038 : BitVec 32 := 0#32
  ![v3405.toNat, 0]

def k0_chk231 (v3405 : BitVec 32) : Prop :=
  (∀ a, (k0_off462 v3405) a + S1x1024.size a ≤ S50257x1024.size a)
instance k0_chk231.dec : ∀ (v3405 : BitVec 32), Decidable (k0_chk231 v3405) := fun v3405 => decidable_of_iff' _ (Iff.of_eq (k0_chk231.eq_1 v3405))
theorem k0_off462_inb : ∀ (v3405 : BitVec 32) (k0_hw231 : k0_chk231 v3405), ∀ a, (k0_off462 v3405) a + S1x1024.size a ≤ S50257x1024.size a := fun v3405 k0_hw231 => k0_hw231

def k0_off463 (i : grid0.Coords) : Fin 1 → Nat :=
  let arg0 : BitVec 32 := BitVec.ofNat 32 (i 0).val
  let c256_i32 : BitVec 32 := 256#32
  let v0 : BitVec 32 := Scalar.muli arg0 c256_i32
  let c231_i32 : BitVec 32 := 231#32
  let v3418 : BitVec 32 := Scalar.addi v0 c231_i32
  let v3419 : Index := Scalar.indexCast v3418
  ![v3419.toNat]
def k0_off464 (v3420 : BitVec 32) : Fin 2 → Nat :=
  let c0_i32_2047 : BitVec 32 := 0#32
  ![v3420.toNat, 0]

def k0_chk232 (v3420 : BitVec 32) : Prop :=
  (∀ a, (k0_off464 v3420) a + S1x1024.size a ≤ S50257x1024.size a)
instance k0_chk232.dec : ∀ (v3420 : BitVec 32), Decidable (k0_chk232 v3420) := fun v3420 => decidable_of_iff' _ (Iff.of_eq (k0_chk232.eq_1 v3420))
theorem k0_off464_inb : ∀ (v3420 : BitVec 32) (k0_hw232 : k0_chk232 v3420), ∀ a, (k0_off464 v3420) a + S1x1024.size a ≤ S50257x1024.size a := fun v3420 k0_hw232 => k0_hw232

def k0_off465 (i : grid0.Coords) : Fin 1 → Nat :=
  let arg0 : BitVec 32 := BitVec.ofNat 32 (i 0).val
  let c256_i32 : BitVec 32 := 256#32
  let v0 : BitVec 32 := Scalar.muli arg0 c256_i32
  let c232_i32 : BitVec 32 := 232#32
  let v3433 : BitVec 32 := Scalar.addi v0 c232_i32
  let v3434 : Index := Scalar.indexCast v3433
  ![v3434.toNat]
def k0_off466 (v3435 : BitVec 32) : Fin 2 → Nat :=
  let c0_i32_2056 : BitVec 32 := 0#32
  ![v3435.toNat, 0]

def k0_chk233 (v3435 : BitVec 32) : Prop :=
  (∀ a, (k0_off466 v3435) a + S1x1024.size a ≤ S50257x1024.size a)
instance k0_chk233.dec : ∀ (v3435 : BitVec 32), Decidable (k0_chk233 v3435) := fun v3435 => decidable_of_iff' _ (Iff.of_eq (k0_chk233.eq_1 v3435))
theorem k0_off466_inb : ∀ (v3435 : BitVec 32) (k0_hw233 : k0_chk233 v3435), ∀ a, (k0_off466 v3435) a + S1x1024.size a ≤ S50257x1024.size a := fun v3435 k0_hw233 => k0_hw233

def k0_off467 (i : grid0.Coords) : Fin 1 → Nat :=
  let arg0 : BitVec 32 := BitVec.ofNat 32 (i 0).val
  let c256_i32 : BitVec 32 := 256#32
  let v0 : BitVec 32 := Scalar.muli arg0 c256_i32
  let c233_i32 : BitVec 32 := 233#32
  let v3448 : BitVec 32 := Scalar.addi v0 c233_i32
  let v3449 : Index := Scalar.indexCast v3448
  ![v3449.toNat]
def k0_off468 (v3450 : BitVec 32) : Fin 2 → Nat :=
  let c0_i32_2065 : BitVec 32 := 0#32
  ![v3450.toNat, 0]

def k0_chk234 (v3450 : BitVec 32) : Prop :=
  (∀ a, (k0_off468 v3450) a + S1x1024.size a ≤ S50257x1024.size a)
instance k0_chk234.dec : ∀ (v3450 : BitVec 32), Decidable (k0_chk234 v3450) := fun v3450 => decidable_of_iff' _ (Iff.of_eq (k0_chk234.eq_1 v3450))
theorem k0_off468_inb : ∀ (v3450 : BitVec 32) (k0_hw234 : k0_chk234 v3450), ∀ a, (k0_off468 v3450) a + S1x1024.size a ≤ S50257x1024.size a := fun v3450 k0_hw234 => k0_hw234

def k0_off469 (i : grid0.Coords) : Fin 1 → Nat :=
  let arg0 : BitVec 32 := BitVec.ofNat 32 (i 0).val
  let c256_i32 : BitVec 32 := 256#32
  let v0 : BitVec 32 := Scalar.muli arg0 c256_i32
  let c234_i32 : BitVec 32 := 234#32
  let v3463 : BitVec 32 := Scalar.addi v0 c234_i32
  let v3464 : Index := Scalar.indexCast v3463
  ![v3464.toNat]
def k0_off470 (v3465 : BitVec 32) : Fin 2 → Nat :=
  let c0_i32_2074 : BitVec 32 := 0#32
  ![v3465.toNat, 0]

def k0_chk235 (v3465 : BitVec 32) : Prop :=
  (∀ a, (k0_off470 v3465) a + S1x1024.size a ≤ S50257x1024.size a)
instance k0_chk235.dec : ∀ (v3465 : BitVec 32), Decidable (k0_chk235 v3465) := fun v3465 => decidable_of_iff' _ (Iff.of_eq (k0_chk235.eq_1 v3465))
theorem k0_off470_inb : ∀ (v3465 : BitVec 32) (k0_hw235 : k0_chk235 v3465), ∀ a, (k0_off470 v3465) a + S1x1024.size a ≤ S50257x1024.size a := fun v3465 k0_hw235 => k0_hw235

def k0_off471 (i : grid0.Coords) : Fin 1 → Nat :=
  let arg0 : BitVec 32 := BitVec.ofNat 32 (i 0).val
  let c256_i32 : BitVec 32 := 256#32
  let v0 : BitVec 32 := Scalar.muli arg0 c256_i32
  let c235_i32 : BitVec 32 := 235#32
  let v3478 : BitVec 32 := Scalar.addi v0 c235_i32
  let v3479 : Index := Scalar.indexCast v3478
  ![v3479.toNat]
def k0_off472 (v3480 : BitVec 32) : Fin 2 → Nat :=
  let c0_i32_2083 : BitVec 32 := 0#32
  ![v3480.toNat, 0]

def k0_chk236 (v3480 : BitVec 32) : Prop :=
  (∀ a, (k0_off472 v3480) a + S1x1024.size a ≤ S50257x1024.size a)
instance k0_chk236.dec : ∀ (v3480 : BitVec 32), Decidable (k0_chk236 v3480) := fun v3480 => decidable_of_iff' _ (Iff.of_eq (k0_chk236.eq_1 v3480))
theorem k0_off472_inb : ∀ (v3480 : BitVec 32) (k0_hw236 : k0_chk236 v3480), ∀ a, (k0_off472 v3480) a + S1x1024.size a ≤ S50257x1024.size a := fun v3480 k0_hw236 => k0_hw236

def k0_off473 (i : grid0.Coords) : Fin 1 → Nat :=
  let arg0 : BitVec 32 := BitVec.ofNat 32 (i 0).val
  let c256_i32 : BitVec 32 := 256#32
  let v0 : BitVec 32 := Scalar.muli arg0 c256_i32
  let c236_i32 : BitVec 32 := 236#32
  let v3493 : BitVec 32 := Scalar.addi v0 c236_i32
  let v3494 : Index := Scalar.indexCast v3493
  ![v3494.toNat]
def k0_off474 (v3495 : BitVec 32) : Fin 2 → Nat :=
  let c0_i32_2092 : BitVec 32 := 0#32
  ![v3495.toNat, 0]

def k0_chk237 (v3495 : BitVec 32) : Prop :=
  (∀ a, (k0_off474 v3495) a + S1x1024.size a ≤ S50257x1024.size a)
instance k0_chk237.dec : ∀ (v3495 : BitVec 32), Decidable (k0_chk237 v3495) := fun v3495 => decidable_of_iff' _ (Iff.of_eq (k0_chk237.eq_1 v3495))
theorem k0_off474_inb : ∀ (v3495 : BitVec 32) (k0_hw237 : k0_chk237 v3495), ∀ a, (k0_off474 v3495) a + S1x1024.size a ≤ S50257x1024.size a := fun v3495 k0_hw237 => k0_hw237

def k0_off475 (i : grid0.Coords) : Fin 1 → Nat :=
  let arg0 : BitVec 32 := BitVec.ofNat 32 (i 0).val
  let c256_i32 : BitVec 32 := 256#32
  let v0 : BitVec 32 := Scalar.muli arg0 c256_i32
  let c237_i32 : BitVec 32 := 237#32
  let v3508 : BitVec 32 := Scalar.addi v0 c237_i32
  let v3509 : Index := Scalar.indexCast v3508
  ![v3509.toNat]
def k0_off476 (v3510 : BitVec 32) : Fin 2 → Nat :=
  let c0_i32_2101 : BitVec 32 := 0#32
  ![v3510.toNat, 0]

def k0_chk238 (v3510 : BitVec 32) : Prop :=
  (∀ a, (k0_off476 v3510) a + S1x1024.size a ≤ S50257x1024.size a)
instance k0_chk238.dec : ∀ (v3510 : BitVec 32), Decidable (k0_chk238 v3510) := fun v3510 => decidable_of_iff' _ (Iff.of_eq (k0_chk238.eq_1 v3510))
theorem k0_off476_inb : ∀ (v3510 : BitVec 32) (k0_hw238 : k0_chk238 v3510), ∀ a, (k0_off476 v3510) a + S1x1024.size a ≤ S50257x1024.size a := fun v3510 k0_hw238 => k0_hw238

def k0_off477 (i : grid0.Coords) : Fin 1 → Nat :=
  let arg0 : BitVec 32 := BitVec.ofNat 32 (i 0).val
  let c256_i32 : BitVec 32 := 256#32
  let v0 : BitVec 32 := Scalar.muli arg0 c256_i32
  let c238_i32 : BitVec 32 := 238#32
  let v3523 : BitVec 32 := Scalar.addi v0 c238_i32
  let v3524 : Index := Scalar.indexCast v3523
  ![v3524.toNat]
def k0_off478 (v3525 : BitVec 32) : Fin 2 → Nat :=
  let c0_i32_2110 : BitVec 32 := 0#32
  ![v3525.toNat, 0]

def k0_chk239 (v3525 : BitVec 32) : Prop :=
  (∀ a, (k0_off478 v3525) a + S1x1024.size a ≤ S50257x1024.size a)
instance k0_chk239.dec : ∀ (v3525 : BitVec 32), Decidable (k0_chk239 v3525) := fun v3525 => decidable_of_iff' _ (Iff.of_eq (k0_chk239.eq_1 v3525))
theorem k0_off478_inb : ∀ (v3525 : BitVec 32) (k0_hw239 : k0_chk239 v3525), ∀ a, (k0_off478 v3525) a + S1x1024.size a ≤ S50257x1024.size a := fun v3525 k0_hw239 => k0_hw239

def k0_off479 (i : grid0.Coords) : Fin 1 → Nat :=
  let arg0 : BitVec 32 := BitVec.ofNat 32 (i 0).val
  let c256_i32 : BitVec 32 := 256#32
  let v0 : BitVec 32 := Scalar.muli arg0 c256_i32
  let c239_i32 : BitVec 32 := 239#32
  let v3538 : BitVec 32 := Scalar.addi v0 c239_i32
  let v3539 : Index := Scalar.indexCast v3538
  ![v3539.toNat]
def k0_off480 (v3540 : BitVec 32) : Fin 2 → Nat :=
  let c0_i32_2119 : BitVec 32 := 0#32
  ![v3540.toNat, 0]

def k0_chk240 (v3540 : BitVec 32) : Prop :=
  (∀ a, (k0_off480 v3540) a + S1x1024.size a ≤ S50257x1024.size a)
instance k0_chk240.dec : ∀ (v3540 : BitVec 32), Decidable (k0_chk240 v3540) := fun v3540 => decidable_of_iff' _ (Iff.of_eq (k0_chk240.eq_1 v3540))
theorem k0_off480_inb : ∀ (v3540 : BitVec 32) (k0_hw240 : k0_chk240 v3540), ∀ a, (k0_off480 v3540) a + S1x1024.size a ≤ S50257x1024.size a := fun v3540 k0_hw240 => k0_hw240

def k0_off481 (i : grid0.Coords) : Fin 1 → Nat :=
  let arg0 : BitVec 32 := BitVec.ofNat 32 (i 0).val
  let c256_i32 : BitVec 32 := 256#32
  let v0 : BitVec 32 := Scalar.muli arg0 c256_i32
  let c240_i32 : BitVec 32 := 240#32
  let v3553 : BitVec 32 := Scalar.addi v0 c240_i32
  let v3554 : Index := Scalar.indexCast v3553
  ![v3554.toNat]
def k0_off482 (v3555 : BitVec 32) : Fin 2 → Nat :=
  let c0_i32_2128 : BitVec 32 := 0#32
  ![v3555.toNat, 0]

def k0_chk241 (v3555 : BitVec 32) : Prop :=
  (∀ a, (k0_off482 v3555) a + S1x1024.size a ≤ S50257x1024.size a)
instance k0_chk241.dec : ∀ (v3555 : BitVec 32), Decidable (k0_chk241 v3555) := fun v3555 => decidable_of_iff' _ (Iff.of_eq (k0_chk241.eq_1 v3555))
theorem k0_off482_inb : ∀ (v3555 : BitVec 32) (k0_hw241 : k0_chk241 v3555), ∀ a, (k0_off482 v3555) a + S1x1024.size a ≤ S50257x1024.size a := fun v3555 k0_hw241 => k0_hw241

def k0_off483 (i : grid0.Coords) : Fin 1 → Nat :=
  let arg0 : BitVec 32 := BitVec.ofNat 32 (i 0).val
  let c256_i32 : BitVec 32 := 256#32
  let v0 : BitVec 32 := Scalar.muli arg0 c256_i32
  let c241_i32 : BitVec 32 := 241#32
  let v3568 : BitVec 32 := Scalar.addi v0 c241_i32
  let v3569 : Index := Scalar.indexCast v3568
  ![v3569.toNat]
def k0_off484 (v3570 : BitVec 32) : Fin 2 → Nat :=
  let c0_i32_2137 : BitVec 32 := 0#32
  ![v3570.toNat, 0]

def k0_chk242 (v3570 : BitVec 32) : Prop :=
  (∀ a, (k0_off484 v3570) a + S1x1024.size a ≤ S50257x1024.size a)
instance k0_chk242.dec : ∀ (v3570 : BitVec 32), Decidable (k0_chk242 v3570) := fun v3570 => decidable_of_iff' _ (Iff.of_eq (k0_chk242.eq_1 v3570))
theorem k0_off484_inb : ∀ (v3570 : BitVec 32) (k0_hw242 : k0_chk242 v3570), ∀ a, (k0_off484 v3570) a + S1x1024.size a ≤ S50257x1024.size a := fun v3570 k0_hw242 => k0_hw242

def k0_off485 (i : grid0.Coords) : Fin 1 → Nat :=
  let arg0 : BitVec 32 := BitVec.ofNat 32 (i 0).val
  let c256_i32 : BitVec 32 := 256#32
  let v0 : BitVec 32 := Scalar.muli arg0 c256_i32
  let c242_i32 : BitVec 32 := 242#32
  let v3583 : BitVec 32 := Scalar.addi v0 c242_i32
  let v3584 : Index := Scalar.indexCast v3583
  ![v3584.toNat]
def k0_off486 (v3585 : BitVec 32) : Fin 2 → Nat :=
  let c0_i32_2146 : BitVec 32 := 0#32
  ![v3585.toNat, 0]

def k0_chk243 (v3585 : BitVec 32) : Prop :=
  (∀ a, (k0_off486 v3585) a + S1x1024.size a ≤ S50257x1024.size a)
instance k0_chk243.dec : ∀ (v3585 : BitVec 32), Decidable (k0_chk243 v3585) := fun v3585 => decidable_of_iff' _ (Iff.of_eq (k0_chk243.eq_1 v3585))
theorem k0_off486_inb : ∀ (v3585 : BitVec 32) (k0_hw243 : k0_chk243 v3585), ∀ a, (k0_off486 v3585) a + S1x1024.size a ≤ S50257x1024.size a := fun v3585 k0_hw243 => k0_hw243

def k0_off487 (i : grid0.Coords) : Fin 1 → Nat :=
  let arg0 : BitVec 32 := BitVec.ofNat 32 (i 0).val
  let c256_i32 : BitVec 32 := 256#32
  let v0 : BitVec 32 := Scalar.muli arg0 c256_i32
  let c243_i32 : BitVec 32 := 243#32
  let v3598 : BitVec 32 := Scalar.addi v0 c243_i32
  let v3599 : Index := Scalar.indexCast v3598
  ![v3599.toNat]
def k0_off488 (v3600 : BitVec 32) : Fin 2 → Nat :=
  let c0_i32_2155 : BitVec 32 := 0#32
  ![v3600.toNat, 0]

def k0_chk244 (v3600 : BitVec 32) : Prop :=
  (∀ a, (k0_off488 v3600) a + S1x1024.size a ≤ S50257x1024.size a)
instance k0_chk244.dec : ∀ (v3600 : BitVec 32), Decidable (k0_chk244 v3600) := fun v3600 => decidable_of_iff' _ (Iff.of_eq (k0_chk244.eq_1 v3600))
theorem k0_off488_inb : ∀ (v3600 : BitVec 32) (k0_hw244 : k0_chk244 v3600), ∀ a, (k0_off488 v3600) a + S1x1024.size a ≤ S50257x1024.size a := fun v3600 k0_hw244 => k0_hw244

def k0_off489 (i : grid0.Coords) : Fin 1 → Nat :=
  let arg0 : BitVec 32 := BitVec.ofNat 32 (i 0).val
  let c256_i32 : BitVec 32 := 256#32
  let v0 : BitVec 32 := Scalar.muli arg0 c256_i32
  let c244_i32 : BitVec 32 := 244#32
  let v3613 : BitVec 32 := Scalar.addi v0 c244_i32
  let v3614 : Index := Scalar.indexCast v3613
  ![v3614.toNat]
def k0_off490 (v3615 : BitVec 32) : Fin 2 → Nat :=
  let c0_i32_2164 : BitVec 32 := 0#32
  ![v3615.toNat, 0]

def k0_chk245 (v3615 : BitVec 32) : Prop :=
  (∀ a, (k0_off490 v3615) a + S1x1024.size a ≤ S50257x1024.size a)
instance k0_chk245.dec : ∀ (v3615 : BitVec 32), Decidable (k0_chk245 v3615) := fun v3615 => decidable_of_iff' _ (Iff.of_eq (k0_chk245.eq_1 v3615))
theorem k0_off490_inb : ∀ (v3615 : BitVec 32) (k0_hw245 : k0_chk245 v3615), ∀ a, (k0_off490 v3615) a + S1x1024.size a ≤ S50257x1024.size a := fun v3615 k0_hw245 => k0_hw245

def k0_off491 (i : grid0.Coords) : Fin 1 → Nat :=
  let arg0 : BitVec 32 := BitVec.ofNat 32 (i 0).val
  let c256_i32 : BitVec 32 := 256#32
  let v0 : BitVec 32 := Scalar.muli arg0 c256_i32
  let c245_i32 : BitVec 32 := 245#32
  let v3628 : BitVec 32 := Scalar.addi v0 c245_i32
  let v3629 : Index := Scalar.indexCast v3628
  ![v3629.toNat]
def k0_off492 (v3630 : BitVec 32) : Fin 2 → Nat :=
  let c0_i32_2173 : BitVec 32 := 0#32
  ![v3630.toNat, 0]

def k0_chk246 (v3630 : BitVec 32) : Prop :=
  (∀ a, (k0_off492 v3630) a + S1x1024.size a ≤ S50257x1024.size a)
instance k0_chk246.dec : ∀ (v3630 : BitVec 32), Decidable (k0_chk246 v3630) := fun v3630 => decidable_of_iff' _ (Iff.of_eq (k0_chk246.eq_1 v3630))
theorem k0_off492_inb : ∀ (v3630 : BitVec 32) (k0_hw246 : k0_chk246 v3630), ∀ a, (k0_off492 v3630) a + S1x1024.size a ≤ S50257x1024.size a := fun v3630 k0_hw246 => k0_hw246

def k0_off493 (i : grid0.Coords) : Fin 1 → Nat :=
  let arg0 : BitVec 32 := BitVec.ofNat 32 (i 0).val
  let c256_i32 : BitVec 32 := 256#32
  let v0 : BitVec 32 := Scalar.muli arg0 c256_i32
  let c246_i32 : BitVec 32 := 246#32
  let v3643 : BitVec 32 := Scalar.addi v0 c246_i32
  let v3644 : Index := Scalar.indexCast v3643
  ![v3644.toNat]
def k0_off494 (v3645 : BitVec 32) : Fin 2 → Nat :=
  let c0_i32_2182 : BitVec 32 := 0#32
  ![v3645.toNat, 0]

def k0_chk247 (v3645 : BitVec 32) : Prop :=
  (∀ a, (k0_off494 v3645) a + S1x1024.size a ≤ S50257x1024.size a)
instance k0_chk247.dec : ∀ (v3645 : BitVec 32), Decidable (k0_chk247 v3645) := fun v3645 => decidable_of_iff' _ (Iff.of_eq (k0_chk247.eq_1 v3645))
theorem k0_off494_inb : ∀ (v3645 : BitVec 32) (k0_hw247 : k0_chk247 v3645), ∀ a, (k0_off494 v3645) a + S1x1024.size a ≤ S50257x1024.size a := fun v3645 k0_hw247 => k0_hw247

def k0_off495 (i : grid0.Coords) : Fin 1 → Nat :=
  let arg0 : BitVec 32 := BitVec.ofNat 32 (i 0).val
  let c256_i32 : BitVec 32 := 256#32
  let v0 : BitVec 32 := Scalar.muli arg0 c256_i32
  let c247_i32 : BitVec 32 := 247#32
  let v3658 : BitVec 32 := Scalar.addi v0 c247_i32
  let v3659 : Index := Scalar.indexCast v3658
  ![v3659.toNat]
def k0_off496 (v3660 : BitVec 32) : Fin 2 → Nat :=
  let c0_i32_2191 : BitVec 32 := 0#32
  ![v3660.toNat, 0]

def k0_chk248 (v3660 : BitVec 32) : Prop :=
  (∀ a, (k0_off496 v3660) a + S1x1024.size a ≤ S50257x1024.size a)
instance k0_chk248.dec : ∀ (v3660 : BitVec 32), Decidable (k0_chk248 v3660) := fun v3660 => decidable_of_iff' _ (Iff.of_eq (k0_chk248.eq_1 v3660))
theorem k0_off496_inb : ∀ (v3660 : BitVec 32) (k0_hw248 : k0_chk248 v3660), ∀ a, (k0_off496 v3660) a + S1x1024.size a ≤ S50257x1024.size a := fun v3660 k0_hw248 => k0_hw248

def k0_off497 (i : grid0.Coords) : Fin 1 → Nat :=
  let arg0 : BitVec 32 := BitVec.ofNat 32 (i 0).val
  let c256_i32 : BitVec 32 := 256#32
  let v0 : BitVec 32 := Scalar.muli arg0 c256_i32
  let c248_i32 : BitVec 32 := 248#32
  let v3673 : BitVec 32 := Scalar.addi v0 c248_i32
  let v3674 : Index := Scalar.indexCast v3673
  ![v3674.toNat]
def k0_off498 (v3675 : BitVec 32) : Fin 2 → Nat :=
  let c0_i32_2200 : BitVec 32 := 0#32
  ![v3675.toNat, 0]

def k0_chk249 (v3675 : BitVec 32) : Prop :=
  (∀ a, (k0_off498 v3675) a + S1x1024.size a ≤ S50257x1024.size a)
instance k0_chk249.dec : ∀ (v3675 : BitVec 32), Decidable (k0_chk249 v3675) := fun v3675 => decidable_of_iff' _ (Iff.of_eq (k0_chk249.eq_1 v3675))
theorem k0_off498_inb : ∀ (v3675 : BitVec 32) (k0_hw249 : k0_chk249 v3675), ∀ a, (k0_off498 v3675) a + S1x1024.size a ≤ S50257x1024.size a := fun v3675 k0_hw249 => k0_hw249

def k0_off499 (i : grid0.Coords) : Fin 1 → Nat :=
  let arg0 : BitVec 32 := BitVec.ofNat 32 (i 0).val
  let c256_i32 : BitVec 32 := 256#32
  let v0 : BitVec 32 := Scalar.muli arg0 c256_i32
  let c249_i32 : BitVec 32 := 249#32
  let v3688 : BitVec 32 := Scalar.addi v0 c249_i32
  let v3689 : Index := Scalar.indexCast v3688
  ![v3689.toNat]
def k0_off500 (v3690 : BitVec 32) : Fin 2 → Nat :=
  let c0_i32_2209 : BitVec 32 := 0#32
  ![v3690.toNat, 0]

def k0_chk250 (v3690 : BitVec 32) : Prop :=
  (∀ a, (k0_off500 v3690) a + S1x1024.size a ≤ S50257x1024.size a)
instance k0_chk250.dec : ∀ (v3690 : BitVec 32), Decidable (k0_chk250 v3690) := fun v3690 => decidable_of_iff' _ (Iff.of_eq (k0_chk250.eq_1 v3690))
theorem k0_off500_inb : ∀ (v3690 : BitVec 32) (k0_hw250 : k0_chk250 v3690), ∀ a, (k0_off500 v3690) a + S1x1024.size a ≤ S50257x1024.size a := fun v3690 k0_hw250 => k0_hw250

def k0_off501 (i : grid0.Coords) : Fin 1 → Nat :=
  let arg0 : BitVec 32 := BitVec.ofNat 32 (i 0).val
  let c256_i32 : BitVec 32 := 256#32
  let v0 : BitVec 32 := Scalar.muli arg0 c256_i32
  let c250_i32 : BitVec 32 := 250#32
  let v3703 : BitVec 32 := Scalar.addi v0 c250_i32
  let v3704 : Index := Scalar.indexCast v3703
  ![v3704.toNat]
def k0_off502 (v3705 : BitVec 32) : Fin 2 → Nat :=
  let c0_i32_2218 : BitVec 32 := 0#32
  ![v3705.toNat, 0]

def k0_chk251 (v3705 : BitVec 32) : Prop :=
  (∀ a, (k0_off502 v3705) a + S1x1024.size a ≤ S50257x1024.size a)
instance k0_chk251.dec : ∀ (v3705 : BitVec 32), Decidable (k0_chk251 v3705) := fun v3705 => decidable_of_iff' _ (Iff.of_eq (k0_chk251.eq_1 v3705))
theorem k0_off502_inb : ∀ (v3705 : BitVec 32) (k0_hw251 : k0_chk251 v3705), ∀ a, (k0_off502 v3705) a + S1x1024.size a ≤ S50257x1024.size a := fun v3705 k0_hw251 => k0_hw251

def k0_off503 (i : grid0.Coords) : Fin 1 → Nat :=
  let arg0 : BitVec 32 := BitVec.ofNat 32 (i 0).val
  let c256_i32 : BitVec 32 := 256#32
  let v0 : BitVec 32 := Scalar.muli arg0 c256_i32
  let c251_i32 : BitVec 32 := 251#32
  let v3718 : BitVec 32 := Scalar.addi v0 c251_i32
  let v3719 : Index := Scalar.indexCast v3718
  ![v3719.toNat]
def k0_off504 (v3720 : BitVec 32) : Fin 2 → Nat :=
  let c0_i32_2227 : BitVec 32 := 0#32
  ![v3720.toNat, 0]

def k0_chk252 (v3720 : BitVec 32) : Prop :=
  (∀ a, (k0_off504 v3720) a + S1x1024.size a ≤ S50257x1024.size a)
instance k0_chk252.dec : ∀ (v3720 : BitVec 32), Decidable (k0_chk252 v3720) := fun v3720 => decidable_of_iff' _ (Iff.of_eq (k0_chk252.eq_1 v3720))
theorem k0_off504_inb : ∀ (v3720 : BitVec 32) (k0_hw252 : k0_chk252 v3720), ∀ a, (k0_off504 v3720) a + S1x1024.size a ≤ S50257x1024.size a := fun v3720 k0_hw252 => k0_hw252

def k0_off505 (i : grid0.Coords) : Fin 1 → Nat :=
  let arg0 : BitVec 32 := BitVec.ofNat 32 (i 0).val
  let c256_i32 : BitVec 32 := 256#32
  let v0 : BitVec 32 := Scalar.muli arg0 c256_i32
  let c252_i32 : BitVec 32 := 252#32
  let v3733 : BitVec 32 := Scalar.addi v0 c252_i32
  let v3734 : Index := Scalar.indexCast v3733
  ![v3734.toNat]
def k0_off506 (v3735 : BitVec 32) : Fin 2 → Nat :=
  let c0_i32_2236 : BitVec 32 := 0#32
  ![v3735.toNat, 0]

def k0_chk253 (v3735 : BitVec 32) : Prop :=
  (∀ a, (k0_off506 v3735) a + S1x1024.size a ≤ S50257x1024.size a)
instance k0_chk253.dec : ∀ (v3735 : BitVec 32), Decidable (k0_chk253 v3735) := fun v3735 => decidable_of_iff' _ (Iff.of_eq (k0_chk253.eq_1 v3735))
theorem k0_off506_inb : ∀ (v3735 : BitVec 32) (k0_hw253 : k0_chk253 v3735), ∀ a, (k0_off506 v3735) a + S1x1024.size a ≤ S50257x1024.size a := fun v3735 k0_hw253 => k0_hw253

def k0_off507 (i : grid0.Coords) : Fin 1 → Nat :=
  let arg0 : BitVec 32 := BitVec.ofNat 32 (i 0).val
  let c256_i32 : BitVec 32 := 256#32
  let v0 : BitVec 32 := Scalar.muli arg0 c256_i32
  let c253_i32 : BitVec 32 := 253#32
  let v3748 : BitVec 32 := Scalar.addi v0 c253_i32
  let v3749 : Index := Scalar.indexCast v3748
  ![v3749.toNat]
def k0_off508 (v3750 : BitVec 32) : Fin 2 → Nat :=
  let c0_i32_2245 : BitVec 32 := 0#32
  ![v3750.toNat, 0]

def k0_chk254 (v3750 : BitVec 32) : Prop :=
  (∀ a, (k0_off508 v3750) a + S1x1024.size a ≤ S50257x1024.size a)
instance k0_chk254.dec : ∀ (v3750 : BitVec 32), Decidable (k0_chk254 v3750) := fun v3750 => decidable_of_iff' _ (Iff.of_eq (k0_chk254.eq_1 v3750))
theorem k0_off508_inb : ∀ (v3750 : BitVec 32) (k0_hw254 : k0_chk254 v3750), ∀ a, (k0_off508 v3750) a + S1x1024.size a ≤ S50257x1024.size a := fun v3750 k0_hw254 => k0_hw254

def k0_off509 (i : grid0.Coords) : Fin 1 → Nat :=
  let arg0 : BitVec 32 := BitVec.ofNat 32 (i 0).val
  let c256_i32 : BitVec 32 := 256#32
  let v0 : BitVec 32 := Scalar.muli arg0 c256_i32
  let c254_i32 : BitVec 32 := 254#32
  let v3763 : BitVec 32 := Scalar.addi v0 c254_i32
  let v3764 : Index := Scalar.indexCast v3763
  ![v3764.toNat]
def k0_off510 (v3765 : BitVec 32) : Fin 2 → Nat :=
  let c0_i32_2254 : BitVec 32 := 0#32
  ![v3765.toNat, 0]

def k0_chk255 (v3765 : BitVec 32) : Prop :=
  (∀ a, (k0_off510 v3765) a + S1x1024.size a ≤ S50257x1024.size a)
instance k0_chk255.dec : ∀ (v3765 : BitVec 32), Decidable (k0_chk255 v3765) := fun v3765 => decidable_of_iff' _ (Iff.of_eq (k0_chk255.eq_1 v3765))
theorem k0_off510_inb : ∀ (v3765 : BitVec 32) (k0_hw255 : k0_chk255 v3765), ∀ a, (k0_off510 v3765) a + S1x1024.size a ≤ S50257x1024.size a := fun v3765 k0_hw255 => k0_hw255

def k0_off511 (i : grid0.Coords) : Fin 1 → Nat :=
  let arg0 : BitVec 32 := BitVec.ofNat 32 (i 0).val
  let c256_i32 : BitVec 32 := 256#32
  let v0 : BitVec 32 := Scalar.muli arg0 c256_i32
  let c255_i32 : BitVec 32 := 255#32
  let v3778 : BitVec 32 := Scalar.addi v0 c255_i32
  let v3779 : Index := Scalar.indexCast v3778
  ![v3779.toNat]
def k0_off512 (v3780 : BitVec 32) : Fin 2 → Nat :=
  let c0_i32_2263 : BitVec 32 := 0#32
  ![v3780.toNat, 0]

def k0_chk256 (v3780 : BitVec 32) : Prop :=
  (∀ a, (k0_off512 v3780) a + S1x1024.size a ≤ S50257x1024.size a)
instance k0_chk256.dec : ∀ (v3780 : BitVec 32), Decidable (k0_chk256 v3780) := fun v3780 => decidable_of_iff' _ (Iff.of_eq (k0_chk256.eq_1 v3780))
theorem k0_off512_inb : ∀ (v3780 : BitVec 32) (k0_hw256 : k0_chk256 v3780), ∀ a, (k0_off512 v3780) a + S1x1024.size a ≤ S50257x1024.size a := fun v3780 k0_hw256 => k0_hw256

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  shapeCasts_S4x4096_S16384 : S4x4096.ShapeCasts S16384
  transposes_S1024x50257_S50257x1024_1_0 : S1024x50257.Transposes [1, 0] S50257x1024
  numel1_S1 : S1.numel = 1
  inb_S8_S1_0 : ∀ a, (![0] : Fin 1 → Nat) a + S1.size a ≤ S8.size a
  squeezes_S1_S_ : S1.Squeezes S_
  inb_S256x1024_S1x1024_0_0 : ∀ a, (![0, 0] : Fin 2 → Nat) a + S1x1024.size a ≤ S256x1024.size a
  squeezes_S1x1024_S1024 : S1x1024.Squeezes S1024
  inb_S8_S1_1 : ∀ a, (![1] : Fin 1 → Nat) a + S1.size a ≤ S8.size a
  inb_S256x1024_S1x1024_1_0 : ∀ a, (![1, 0] : Fin 2 → Nat) a + S1x1024.size a ≤ S256x1024.size a
  inb_S8_S1_2 : ∀ a, (![2] : Fin 1 → Nat) a + S1.size a ≤ S8.size a
  inb_S256x1024_S1x1024_2_0 : ∀ a, (![2, 0] : Fin 2 → Nat) a + S1x1024.size a ≤ S256x1024.size a
  inb_S8_S1_3 : ∀ a, (![3] : Fin 1 → Nat) a + S1.size a ≤ S8.size a
  inb_S256x1024_S1x1024_3_0 : ∀ a, (![3, 0] : Fin 2 → Nat) a + S1x1024.size a ≤ S256x1024.size a
  inb_S8_S1_4 : ∀ a, (![4] : Fin 1 → Nat) a + S1.size a ≤ S8.size a
  inb_S256x1024_S1x1024_4_0 : ∀ a, (![4, 0] : Fin 2 → Nat) a + S1x1024.size a ≤ S256x1024.size a
  inb_S8_S1_5 : ∀ a, (![5] : Fin 1 → Nat) a + S1.size a ≤ S8.size a
  inb_S256x1024_S1x1024_5_0 : ∀ a, (![5, 0] : Fin 2 → Nat) a + S1x1024.size a ≤ S256x1024.size a
  inb_S8_S1_6 : ∀ a, (![6] : Fin 1 → Nat) a + S1.size a ≤ S8.size a
  inb_S256x1024_S1x1024_6_0 : ∀ a, (![6, 0] : Fin 2 → Nat) a + S1x1024.size a ≤ S256x1024.size a
  inb_S8_S1_7 : ∀ a, (![7] : Fin 1 → Nat) a + S1.size a ≤ S8.size a
  inb_S256x1024_S1x1024_7_0 : ∀ a, (![7, 0] : Fin 2 → Nat) a + S1x1024.size a ≤ S256x1024.size a
  inb_S50257x1024_S1x1024_0_0 : ∀ a, (![0, 0] : Fin 2 → Nat) a + S1x1024.size a ≤ S50257x1024.size a
  inb_S256x1024_S1x1024_8_0 : ∀ a, (![8, 0] : Fin 2 → Nat) a + S1x1024.size a ≤ S256x1024.size a
  inb_S256x1024_S1x1024_9_0 : ∀ a, (![9, 0] : Fin 2 → Nat) a + S1x1024.size a ≤ S256x1024.size a
  inb_S256x1024_S1x1024_10_0 : ∀ a, (![10, 0] : Fin 2 → Nat) a + S1x1024.size a ≤ S256x1024.size a
  inb_S256x1024_S1x1024_11_0 : ∀ a, (![11, 0] : Fin 2 → Nat) a + S1x1024.size a ≤ S256x1024.size a
  inb_S256x1024_S1x1024_12_0 : ∀ a, (![12, 0] : Fin 2 → Nat) a + S1x1024.size a ≤ S256x1024.size a
  inb_S256x1024_S1x1024_13_0 : ∀ a, (![13, 0] : Fin 2 → Nat) a + S1x1024.size a ≤ S256x1024.size a
  inb_S256x1024_S1x1024_14_0 : ∀ a, (![14, 0] : Fin 2 → Nat) a + S1x1024.size a ≤ S256x1024.size a
  inb_S256x1024_S1x1024_15_0 : ∀ a, (![15, 0] : Fin 2 → Nat) a + S1x1024.size a ≤ S256x1024.size a
  inb_S256x1024_S1x1024_16_0 : ∀ a, (![16, 0] : Fin 2 → Nat) a + S1x1024.size a ≤ S256x1024.size a
  inb_S256x1024_S1x1024_17_0 : ∀ a, (![17, 0] : Fin 2 → Nat) a + S1x1024.size a ≤ S256x1024.size a
  inb_S256x1024_S1x1024_18_0 : ∀ a, (![18, 0] : Fin 2 → Nat) a + S1x1024.size a ≤ S256x1024.size a
  inb_S256x1024_S1x1024_19_0 : ∀ a, (![19, 0] : Fin 2 → Nat) a + S1x1024.size a ≤ S256x1024.size a
  inb_S256x1024_S1x1024_20_0 : ∀ a, (![20, 0] : Fin 2 → Nat) a + S1x1024.size a ≤ S256x1024.size a
  inb_S256x1024_S1x1024_21_0 : ∀ a, (![21, 0] : Fin 2 → Nat) a + S1x1024.size a ≤ S256x1024.size a
  inb_S256x1024_S1x1024_22_0 : ∀ a, (![22, 0] : Fin 2 → Nat) a + S1x1024.size a ≤ S256x1024.size a
  inb_S256x1024_S1x1024_23_0 : ∀ a, (![23, 0] : Fin 2 → Nat) a + S1x1024.size a ≤ S256x1024.size a
  inb_S256x1024_S1x1024_24_0 : ∀ a, (![24, 0] : Fin 2 → Nat) a + S1x1024.size a ≤ S256x1024.size a
  inb_S256x1024_S1x1024_25_0 : ∀ a, (![25, 0] : Fin 2 → Nat) a + S1x1024.size a ≤ S256x1024.size a
  inb_S256x1024_S1x1024_26_0 : ∀ a, (![26, 0] : Fin 2 → Nat) a + S1x1024.size a ≤ S256x1024.size a
  inb_S256x1024_S1x1024_27_0 : ∀ a, (![27, 0] : Fin 2 → Nat) a + S1x1024.size a ≤ S256x1024.size a
  inb_S256x1024_S1x1024_28_0 : ∀ a, (![28, 0] : Fin 2 → Nat) a + S1x1024.size a ≤ S256x1024.size a
  inb_S256x1024_S1x1024_29_0 : ∀ a, (![29, 0] : Fin 2 → Nat) a + S1x1024.size a ≤ S256x1024.size a
  inb_S256x1024_S1x1024_30_0 : ∀ a, (![30, 0] : Fin 2 → Nat) a + S1x1024.size a ≤ S256x1024.size a
  inb_S256x1024_S1x1024_31_0 : ∀ a, (![31, 0] : Fin 2 → Nat) a + S1x1024.size a ≤ S256x1024.size a
  inb_S256x1024_S1x1024_32_0 : ∀ a, (![32, 0] : Fin 2 → Nat) a + S1x1024.size a ≤ S256x1024.size a
  inb_S256x1024_S1x1024_33_0 : ∀ a, (![33, 0] : Fin 2 → Nat) a + S1x1024.size a ≤ S256x1024.size a
  inb_S256x1024_S1x1024_34_0 : ∀ a, (![34, 0] : Fin 2 → Nat) a + S1x1024.size a ≤ S256x1024.size a
  inb_S256x1024_S1x1024_35_0 : ∀ a, (![35, 0] : Fin 2 → Nat) a + S1x1024.size a ≤ S256x1024.size a
  inb_S256x1024_S1x1024_36_0 : ∀ a, (![36, 0] : Fin 2 → Nat) a + S1x1024.size a ≤ S256x1024.size a
  inb_S256x1024_S1x1024_37_0 : ∀ a, (![37, 0] : Fin 2 → Nat) a + S1x1024.size a ≤ S256x1024.size a
  inb_S256x1024_S1x1024_38_0 : ∀ a, (![38, 0] : Fin 2 → Nat) a + S1x1024.size a ≤ S256x1024.size a
  inb_S256x1024_S1x1024_39_0 : ∀ a, (![39, 0] : Fin 2 → Nat) a + S1x1024.size a ≤ S256x1024.size a
  inb_S256x1024_S1x1024_40_0 : ∀ a, (![40, 0] : Fin 2 → Nat) a + S1x1024.size a ≤ S256x1024.size a
  inb_S256x1024_S1x1024_41_0 : ∀ a, (![41, 0] : Fin 2 → Nat) a + S1x1024.size a ≤ S256x1024.size a
  inb_S256x1024_S1x1024_42_0 : ∀ a, (![42, 0] : Fin 2 → Nat) a + S1x1024.size a ≤ S256x1024.size a
  inb_S256x1024_S1x1024_43_0 : ∀ a, (![43, 0] : Fin 2 → Nat) a + S1x1024.size a ≤ S256x1024.size a
  inb_S256x1024_S1x1024_44_0 : ∀ a, (![44, 0] : Fin 2 → Nat) a + S1x1024.size a ≤ S256x1024.size a
  inb_S256x1024_S1x1024_45_0 : ∀ a, (![45, 0] : Fin 2 → Nat) a + S1x1024.size a ≤ S256x1024.size a
  inb_S256x1024_S1x1024_46_0 : ∀ a, (![46, 0] : Fin 2 → Nat) a + S1x1024.size a ≤ S256x1024.size a
  inb_S256x1024_S1x1024_47_0 : ∀ a, (![47, 0] : Fin 2 → Nat) a + S1x1024.size a ≤ S256x1024.size a
  inb_S256x1024_S1x1024_48_0 : ∀ a, (![48, 0] : Fin 2 → Nat) a + S1x1024.size a ≤ S256x1024.size a
  inb_S256x1024_S1x1024_49_0 : ∀ a, (![49, 0] : Fin 2 → Nat) a + S1x1024.size a ≤ S256x1024.size a
  inb_S256x1024_S1x1024_50_0 : ∀ a, (![50, 0] : Fin 2 → Nat) a + S1x1024.size a ≤ S256x1024.size a
  inb_S256x1024_S1x1024_51_0 : ∀ a, (![51, 0] : Fin 2 → Nat) a + S1x1024.size a ≤ S256x1024.size a
  inb_S256x1024_S1x1024_52_0 : ∀ a, (![52, 0] : Fin 2 → Nat) a + S1x1024.size a ≤ S256x1024.size a
  inb_S256x1024_S1x1024_53_0 : ∀ a, (![53, 0] : Fin 2 → Nat) a + S1x1024.size a ≤ S256x1024.size a
  inb_S256x1024_S1x1024_54_0 : ∀ a, (![54, 0] : Fin 2 → Nat) a + S1x1024.size a ≤ S256x1024.size a
  inb_S256x1024_S1x1024_55_0 : ∀ a, (![55, 0] : Fin 2 → Nat) a + S1x1024.size a ≤ S256x1024.size a
  inb_S256x1024_S1x1024_56_0 : ∀ a, (![56, 0] : Fin 2 → Nat) a + S1x1024.size a ≤ S256x1024.size a
  inb_S256x1024_S1x1024_57_0 : ∀ a, (![57, 0] : Fin 2 → Nat) a + S1x1024.size a ≤ S256x1024.size a
  inb_S256x1024_S1x1024_58_0 : ∀ a, (![58, 0] : Fin 2 → Nat) a + S1x1024.size a ≤ S256x1024.size a
  inb_S256x1024_S1x1024_59_0 : ∀ a, (![59, 0] : Fin 2 → Nat) a + S1x1024.size a ≤ S256x1024.size a
  inb_S256x1024_S1x1024_60_0 : ∀ a, (![60, 0] : Fin 2 → Nat) a + S1x1024.size a ≤ S256x1024.size a
  inb_S256x1024_S1x1024_61_0 : ∀ a, (![61, 0] : Fin 2 → Nat) a + S1x1024.size a ≤ S256x1024.size a
  inb_S256x1024_S1x1024_62_0 : ∀ a, (![62, 0] : Fin 2 → Nat) a + S1x1024.size a ≤ S256x1024.size a
  inb_S256x1024_S1x1024_63_0 : ∀ a, (![63, 0] : Fin 2 → Nat) a + S1x1024.size a ≤ S256x1024.size a
  inb_S256x1024_S1x1024_64_0 : ∀ a, (![64, 0] : Fin 2 → Nat) a + S1x1024.size a ≤ S256x1024.size a
  inb_S256x1024_S1x1024_65_0 : ∀ a, (![65, 0] : Fin 2 → Nat) a + S1x1024.size a ≤ S256x1024.size a
  inb_S256x1024_S1x1024_66_0 : ∀ a, (![66, 0] : Fin 2 → Nat) a + S1x1024.size a ≤ S256x1024.size a
  inb_S256x1024_S1x1024_67_0 : ∀ a, (![67, 0] : Fin 2 → Nat) a + S1x1024.size a ≤ S256x1024.size a
  inb_S256x1024_S1x1024_68_0 : ∀ a, (![68, 0] : Fin 2 → Nat) a + S1x1024.size a ≤ S256x1024.size a
  inb_S256x1024_S1x1024_69_0 : ∀ a, (![69, 0] : Fin 2 → Nat) a + S1x1024.size a ≤ S256x1024.size a
  inb_S256x1024_S1x1024_70_0 : ∀ a, (![70, 0] : Fin 2 → Nat) a + S1x1024.size a ≤ S256x1024.size a
  inb_S256x1024_S1x1024_71_0 : ∀ a, (![71, 0] : Fin 2 → Nat) a + S1x1024.size a ≤ S256x1024.size a
  inb_S256x1024_S1x1024_72_0 : ∀ a, (![72, 0] : Fin 2 → Nat) a + S1x1024.size a ≤ S256x1024.size a
  inb_S256x1024_S1x1024_73_0 : ∀ a, (![73, 0] : Fin 2 → Nat) a + S1x1024.size a ≤ S256x1024.size a
  inb_S256x1024_S1x1024_74_0 : ∀ a, (![74, 0] : Fin 2 → Nat) a + S1x1024.size a ≤ S256x1024.size a
  inb_S256x1024_S1x1024_75_0 : ∀ a, (![75, 0] : Fin 2 → Nat) a + S1x1024.size a ≤ S256x1024.size a
  inb_S256x1024_S1x1024_76_0 : ∀ a, (![76, 0] : Fin 2 → Nat) a + S1x1024.size a ≤ S256x1024.size a
  inb_S256x1024_S1x1024_77_0 : ∀ a, (![77, 0] : Fin 2 → Nat) a + S1x1024.size a ≤ S256x1024.size a
  inb_S256x1024_S1x1024_78_0 : ∀ a, (![78, 0] : Fin 2 → Nat) a + S1x1024.size a ≤ S256x1024.size a
  inb_S256x1024_S1x1024_79_0 : ∀ a, (![79, 0] : Fin 2 → Nat) a + S1x1024.size a ≤ S256x1024.size a
  inb_S256x1024_S1x1024_80_0 : ∀ a, (![80, 0] : Fin 2 → Nat) a + S1x1024.size a ≤ S256x1024.size a
  inb_S256x1024_S1x1024_81_0 : ∀ a, (![81, 0] : Fin 2 → Nat) a + S1x1024.size a ≤ S256x1024.size a
  inb_S256x1024_S1x1024_82_0 : ∀ a, (![82, 0] : Fin 2 → Nat) a + S1x1024.size a ≤ S256x1024.size a
  inb_S256x1024_S1x1024_83_0 : ∀ a, (![83, 0] : Fin 2 → Nat) a + S1x1024.size a ≤ S256x1024.size a
  inb_S256x1024_S1x1024_84_0 : ∀ a, (![84, 0] : Fin 2 → Nat) a + S1x1024.size a ≤ S256x1024.size a
  inb_S256x1024_S1x1024_85_0 : ∀ a, (![85, 0] : Fin 2 → Nat) a + S1x1024.size a ≤ S256x1024.size a
  inb_S256x1024_S1x1024_86_0 : ∀ a, (![86, 0] : Fin 2 → Nat) a + S1x1024.size a ≤ S256x1024.size a
  inb_S256x1024_S1x1024_87_0 : ∀ a, (![87, 0] : Fin 2 → Nat) a + S1x1024.size a ≤ S256x1024.size a
  inb_S256x1024_S1x1024_88_0 : ∀ a, (![88, 0] : Fin 2 → Nat) a + S1x1024.size a ≤ S256x1024.size a
  inb_S256x1024_S1x1024_89_0 : ∀ a, (![89, 0] : Fin 2 → Nat) a + S1x1024.size a ≤ S256x1024.size a
  inb_S256x1024_S1x1024_90_0 : ∀ a, (![90, 0] : Fin 2 → Nat) a + S1x1024.size a ≤ S256x1024.size a
  inb_S256x1024_S1x1024_91_0 : ∀ a, (![91, 0] : Fin 2 → Nat) a + S1x1024.size a ≤ S256x1024.size a
  inb_S256x1024_S1x1024_92_0 : ∀ a, (![92, 0] : Fin 2 → Nat) a + S1x1024.size a ≤ S256x1024.size a
  inb_S256x1024_S1x1024_93_0 : ∀ a, (![93, 0] : Fin 2 → Nat) a + S1x1024.size a ≤ S256x1024.size a
  inb_S256x1024_S1x1024_94_0 : ∀ a, (![94, 0] : Fin 2 → Nat) a + S1x1024.size a ≤ S256x1024.size a
  inb_S256x1024_S1x1024_95_0 : ∀ a, (![95, 0] : Fin 2 → Nat) a + S1x1024.size a ≤ S256x1024.size a
  inb_S256x1024_S1x1024_96_0 : ∀ a, (![96, 0] : Fin 2 → Nat) a + S1x1024.size a ≤ S256x1024.size a
  inb_S256x1024_S1x1024_97_0 : ∀ a, (![97, 0] : Fin 2 → Nat) a + S1x1024.size a ≤ S256x1024.size a
  inb_S256x1024_S1x1024_98_0 : ∀ a, (![98, 0] : Fin 2 → Nat) a + S1x1024.size a ≤ S256x1024.size a
  inb_S256x1024_S1x1024_99_0 : ∀ a, (![99, 0] : Fin 2 → Nat) a + S1x1024.size a ≤ S256x1024.size a
  inb_S256x1024_S1x1024_100_0 : ∀ a, (![100, 0] : Fin 2 → Nat) a + S1x1024.size a ≤ S256x1024.size a
  inb_S256x1024_S1x1024_101_0 : ∀ a, (![101, 0] : Fin 2 → Nat) a + S1x1024.size a ≤ S256x1024.size a
  inb_S256x1024_S1x1024_102_0 : ∀ a, (![102, 0] : Fin 2 → Nat) a + S1x1024.size a ≤ S256x1024.size a
  inb_S256x1024_S1x1024_103_0 : ∀ a, (![103, 0] : Fin 2 → Nat) a + S1x1024.size a ≤ S256x1024.size a
  inb_S256x1024_S1x1024_104_0 : ∀ a, (![104, 0] : Fin 2 → Nat) a + S1x1024.size a ≤ S256x1024.size a
  inb_S256x1024_S1x1024_105_0 : ∀ a, (![105, 0] : Fin 2 → Nat) a + S1x1024.size a ≤ S256x1024.size a
  inb_S256x1024_S1x1024_106_0 : ∀ a, (![106, 0] : Fin 2 → Nat) a + S1x1024.size a ≤ S256x1024.size a
  inb_S256x1024_S1x1024_107_0 : ∀ a, (![107, 0] : Fin 2 → Nat) a + S1x1024.size a ≤ S256x1024.size a
  inb_S256x1024_S1x1024_108_0 : ∀ a, (![108, 0] : Fin 2 → Nat) a + S1x1024.size a ≤ S256x1024.size a
  inb_S256x1024_S1x1024_109_0 : ∀ a, (![109, 0] : Fin 2 → Nat) a + S1x1024.size a ≤ S256x1024.size a
  inb_S256x1024_S1x1024_110_0 : ∀ a, (![110, 0] : Fin 2 → Nat) a + S1x1024.size a ≤ S256x1024.size a
  inb_S256x1024_S1x1024_111_0 : ∀ a, (![111, 0] : Fin 2 → Nat) a + S1x1024.size a ≤ S256x1024.size a
  inb_S256x1024_S1x1024_112_0 : ∀ a, (![112, 0] : Fin 2 → Nat) a + S1x1024.size a ≤ S256x1024.size a
  inb_S256x1024_S1x1024_113_0 : ∀ a, (![113, 0] : Fin 2 → Nat) a + S1x1024.size a ≤ S256x1024.size a
  inb_S256x1024_S1x1024_114_0 : ∀ a, (![114, 0] : Fin 2 → Nat) a + S1x1024.size a ≤ S256x1024.size a
  inb_S256x1024_S1x1024_115_0 : ∀ a, (![115, 0] : Fin 2 → Nat) a + S1x1024.size a ≤ S256x1024.size a
  inb_S256x1024_S1x1024_116_0 : ∀ a, (![116, 0] : Fin 2 → Nat) a + S1x1024.size a ≤ S256x1024.size a
  inb_S256x1024_S1x1024_117_0 : ∀ a, (![117, 0] : Fin 2 → Nat) a + S1x1024.size a ≤ S256x1024.size a
  inb_S256x1024_S1x1024_118_0 : ∀ a, (![118, 0] : Fin 2 → Nat) a + S1x1024.size a ≤ S256x1024.size a
  inb_S256x1024_S1x1024_119_0 : ∀ a, (![119, 0] : Fin 2 → Nat) a + S1x1024.size a ≤ S256x1024.size a
  inb_S256x1024_S1x1024_120_0 : ∀ a, (![120, 0] : Fin 2 → Nat) a + S1x1024.size a ≤ S256x1024.size a
  inb_S256x1024_S1x1024_121_0 : ∀ a, (![121, 0] : Fin 2 → Nat) a + S1x1024.size a ≤ S256x1024.size a
  inb_S256x1024_S1x1024_122_0 : ∀ a, (![122, 0] : Fin 2 → Nat) a + S1x1024.size a ≤ S256x1024.size a
  inb_S256x1024_S1x1024_123_0 : ∀ a, (![123, 0] : Fin 2 → Nat) a + S1x1024.size a ≤ S256x1024.size a
  inb_S256x1024_S1x1024_124_0 : ∀ a, (![124, 0] : Fin 2 → Nat) a + S1x1024.size a ≤ S256x1024.size a
  inb_S256x1024_S1x1024_125_0 : ∀ a, (![125, 0] : Fin 2 → Nat) a + S1x1024.size a ≤ S256x1024.size a
  inb_S256x1024_S1x1024_126_0 : ∀ a, (![126, 0] : Fin 2 → Nat) a + S1x1024.size a ≤ S256x1024.size a
  inb_S256x1024_S1x1024_127_0 : ∀ a, (![127, 0] : Fin 2 → Nat) a + S1x1024.size a ≤ S256x1024.size a
  inb_S256x1024_S1x1024_128_0 : ∀ a, (![128, 0] : Fin 2 → Nat) a + S1x1024.size a ≤ S256x1024.size a
  inb_S256x1024_S1x1024_129_0 : ∀ a, (![129, 0] : Fin 2 → Nat) a + S1x1024.size a ≤ S256x1024.size a
  inb_S256x1024_S1x1024_130_0 : ∀ a, (![130, 0] : Fin 2 → Nat) a + S1x1024.size a ≤ S256x1024.size a
  inb_S256x1024_S1x1024_131_0 : ∀ a, (![131, 0] : Fin 2 → Nat) a + S1x1024.size a ≤ S256x1024.size a
  inb_S256x1024_S1x1024_132_0 : ∀ a, (![132, 0] : Fin 2 → Nat) a + S1x1024.size a ≤ S256x1024.size a
  inb_S256x1024_S1x1024_133_0 : ∀ a, (![133, 0] : Fin 2 → Nat) a + S1x1024.size a ≤ S256x1024.size a
  inb_S256x1024_S1x1024_134_0 : ∀ a, (![134, 0] : Fin 2 → Nat) a + S1x1024.size a ≤ S256x1024.size a
  inb_S256x1024_S1x1024_135_0 : ∀ a, (![135, 0] : Fin 2 → Nat) a + S1x1024.size a ≤ S256x1024.size a
  inb_S256x1024_S1x1024_136_0 : ∀ a, (![136, 0] : Fin 2 → Nat) a + S1x1024.size a ≤ S256x1024.size a
  inb_S256x1024_S1x1024_137_0 : ∀ a, (![137, 0] : Fin 2 → Nat) a + S1x1024.size a ≤ S256x1024.size a
  inb_S256x1024_S1x1024_138_0 : ∀ a, (![138, 0] : Fin 2 → Nat) a + S1x1024.size a ≤ S256x1024.size a
  inb_S256x1024_S1x1024_139_0 : ∀ a, (![139, 0] : Fin 2 → Nat) a + S1x1024.size a ≤ S256x1024.size a
  inb_S256x1024_S1x1024_140_0 : ∀ a, (![140, 0] : Fin 2 → Nat) a + S1x1024.size a ≤ S256x1024.size a
  inb_S256x1024_S1x1024_141_0 : ∀ a, (![141, 0] : Fin 2 → Nat) a + S1x1024.size a ≤ S256x1024.size a
  inb_S256x1024_S1x1024_142_0 : ∀ a, (![142, 0] : Fin 2 → Nat) a + S1x1024.size a ≤ S256x1024.size a
  inb_S256x1024_S1x1024_143_0 : ∀ a, (![143, 0] : Fin 2 → Nat) a + S1x1024.size a ≤ S256x1024.size a
  inb_S256x1024_S1x1024_144_0 : ∀ a, (![144, 0] : Fin 2 → Nat) a + S1x1024.size a ≤ S256x1024.size a
  inb_S256x1024_S1x1024_145_0 : ∀ a, (![145, 0] : Fin 2 → Nat) a + S1x1024.size a ≤ S256x1024.size a
  inb_S256x1024_S1x1024_146_0 : ∀ a, (![146, 0] : Fin 2 → Nat) a + S1x1024.size a ≤ S256x1024.size a
  inb_S256x1024_S1x1024_147_0 : ∀ a, (![147, 0] : Fin 2 → Nat) a + S1x1024.size a ≤ S256x1024.size a
  inb_S256x1024_S1x1024_148_0 : ∀ a, (![148, 0] : Fin 2 → Nat) a + S1x1024.size a ≤ S256x1024.size a
  inb_S256x1024_S1x1024_149_0 : ∀ a, (![149, 0] : Fin 2 → Nat) a + S1x1024.size a ≤ S256x1024.size a
  inb_S256x1024_S1x1024_150_0 : ∀ a, (![150, 0] : Fin 2 → Nat) a + S1x1024.size a ≤ S256x1024.size a
  inb_S256x1024_S1x1024_151_0 : ∀ a, (![151, 0] : Fin 2 → Nat) a + S1x1024.size a ≤ S256x1024.size a
  inb_S256x1024_S1x1024_152_0 : ∀ a, (![152, 0] : Fin 2 → Nat) a + S1x1024.size a ≤ S256x1024.size a
  inb_S256x1024_S1x1024_153_0 : ∀ a, (![153, 0] : Fin 2 → Nat) a + S1x1024.size a ≤ S256x1024.size a
  inb_S256x1024_S1x1024_154_0 : ∀ a, (![154, 0] : Fin 2 → Nat) a + S1x1024.size a ≤ S256x1024.size a
  inb_S256x1024_S1x1024_155_0 : ∀ a, (![155, 0] : Fin 2 → Nat) a + S1x1024.size a ≤ S256x1024.size a
  inb_S256x1024_S1x1024_156_0 : ∀ a, (![156, 0] : Fin 2 → Nat) a + S1x1024.size a ≤ S256x1024.size a
  inb_S256x1024_S1x1024_157_0 : ∀ a, (![157, 0] : Fin 2 → Nat) a + S1x1024.size a ≤ S256x1024.size a
  inb_S256x1024_S1x1024_158_0 : ∀ a, (![158, 0] : Fin 2 → Nat) a + S1x1024.size a ≤ S256x1024.size a
  inb_S256x1024_S1x1024_159_0 : ∀ a, (![159, 0] : Fin 2 → Nat) a + S1x1024.size a ≤ S256x1024.size a
  inb_S256x1024_S1x1024_160_0 : ∀ a, (![160, 0] : Fin 2 → Nat) a + S1x1024.size a ≤ S256x1024.size a
  inb_S256x1024_S1x1024_161_0 : ∀ a, (![161, 0] : Fin 2 → Nat) a + S1x1024.size a ≤ S256x1024.size a
  inb_S256x1024_S1x1024_162_0 : ∀ a, (![162, 0] : Fin 2 → Nat) a + S1x1024.size a ≤ S256x1024.size a
  inb_S256x1024_S1x1024_163_0 : ∀ a, (![163, 0] : Fin 2 → Nat) a + S1x1024.size a ≤ S256x1024.size a
  inb_S256x1024_S1x1024_164_0 : ∀ a, (![164, 0] : Fin 2 → Nat) a + S1x1024.size a ≤ S256x1024.size a
  inb_S256x1024_S1x1024_165_0 : ∀ a, (![165, 0] : Fin 2 → Nat) a + S1x1024.size a ≤ S256x1024.size a
  inb_S256x1024_S1x1024_166_0 : ∀ a, (![166, 0] : Fin 2 → Nat) a + S1x1024.size a ≤ S256x1024.size a
  inb_S256x1024_S1x1024_167_0 : ∀ a, (![167, 0] : Fin 2 → Nat) a + S1x1024.size a ≤ S256x1024.size a
  inb_S256x1024_S1x1024_168_0 : ∀ a, (![168, 0] : Fin 2 → Nat) a + S1x1024.size a ≤ S256x1024.size a
  inb_S256x1024_S1x1024_169_0 : ∀ a, (![169, 0] : Fin 2 → Nat) a + S1x1024.size a ≤ S256x1024.size a
  inb_S256x1024_S1x1024_170_0 : ∀ a, (![170, 0] : Fin 2 → Nat) a + S1x1024.size a ≤ S256x1024.size a
  inb_S256x1024_S1x1024_171_0 : ∀ a, (![171, 0] : Fin 2 → Nat) a + S1x1024.size a ≤ S256x1024.size a
  inb_S256x1024_S1x1024_172_0 : ∀ a, (![172, 0] : Fin 2 → Nat) a + S1x1024.size a ≤ S256x1024.size a
  inb_S256x1024_S1x1024_173_0 : ∀ a, (![173, 0] : Fin 2 → Nat) a + S1x1024.size a ≤ S256x1024.size a
  inb_S256x1024_S1x1024_174_0 : ∀ a, (![174, 0] : Fin 2 → Nat) a + S1x1024.size a ≤ S256x1024.size a
  inb_S256x1024_S1x1024_175_0 : ∀ a, (![175, 0] : Fin 2 → Nat) a + S1x1024.size a ≤ S256x1024.size a
  inb_S256x1024_S1x1024_176_0 : ∀ a, (![176, 0] : Fin 2 → Nat) a + S1x1024.size a ≤ S256x1024.size a
  inb_S256x1024_S1x1024_177_0 : ∀ a, (![177, 0] : Fin 2 → Nat) a + S1x1024.size a ≤ S256x1024.size a
  inb_S256x1024_S1x1024_178_0 : ∀ a, (![178, 0] : Fin 2 → Nat) a + S1x1024.size a ≤ S256x1024.size a
  inb_S256x1024_S1x1024_179_0 : ∀ a, (![179, 0] : Fin 2 → Nat) a + S1x1024.size a ≤ S256x1024.size a
  inb_S256x1024_S1x1024_180_0 : ∀ a, (![180, 0] : Fin 2 → Nat) a + S1x1024.size a ≤ S256x1024.size a
  inb_S256x1024_S1x1024_181_0 : ∀ a, (![181, 0] : Fin 2 → Nat) a + S1x1024.size a ≤ S256x1024.size a
  inb_S256x1024_S1x1024_182_0 : ∀ a, (![182, 0] : Fin 2 → Nat) a + S1x1024.size a ≤ S256x1024.size a
  inb_S256x1024_S1x1024_183_0 : ∀ a, (![183, 0] : Fin 2 → Nat) a + S1x1024.size a ≤ S256x1024.size a
  inb_S256x1024_S1x1024_184_0 : ∀ a, (![184, 0] : Fin 2 → Nat) a + S1x1024.size a ≤ S256x1024.size a
  inb_S256x1024_S1x1024_185_0 : ∀ a, (![185, 0] : Fin 2 → Nat) a + S1x1024.size a ≤ S256x1024.size a
  inb_S256x1024_S1x1024_186_0 : ∀ a, (![186, 0] : Fin 2 → Nat) a + S1x1024.size a ≤ S256x1024.size a
  inb_S256x1024_S1x1024_187_0 : ∀ a, (![187, 0] : Fin 2 → Nat) a + S1x1024.size a ≤ S256x1024.size a
  inb_S256x1024_S1x1024_188_0 : ∀ a, (![188, 0] : Fin 2 → Nat) a + S1x1024.size a ≤ S256x1024.size a
  inb_S256x1024_S1x1024_189_0 : ∀ a, (![189, 0] : Fin 2 → Nat) a + S1x1024.size a ≤ S256x1024.size a
  inb_S256x1024_S1x1024_190_0 : ∀ a, (![190, 0] : Fin 2 → Nat) a + S1x1024.size a ≤ S256x1024.size a
  inb_S256x1024_S1x1024_191_0 : ∀ a, (![191, 0] : Fin 2 → Nat) a + S1x1024.size a ≤ S256x1024.size a
  inb_S256x1024_S1x1024_192_0 : ∀ a, (![192, 0] : Fin 2 → Nat) a + S1x1024.size a ≤ S256x1024.size a
  inb_S256x1024_S1x1024_193_0 : ∀ a, (![193, 0] : Fin 2 → Nat) a + S1x1024.size a ≤ S256x1024.size a
  inb_S256x1024_S1x1024_194_0 : ∀ a, (![194, 0] : Fin 2 → Nat) a + S1x1024.size a ≤ S256x1024.size a
  inb_S256x1024_S1x1024_195_0 : ∀ a, (![195, 0] : Fin 2 → Nat) a + S1x1024.size a ≤ S256x1024.size a
  inb_S256x1024_S1x1024_196_0 : ∀ a, (![196, 0] : Fin 2 → Nat) a + S1x1024.size a ≤ S256x1024.size a
  inb_S256x1024_S1x1024_197_0 : ∀ a, (![197, 0] : Fin 2 → Nat) a + S1x1024.size a ≤ S256x1024.size a
  inb_S256x1024_S1x1024_198_0 : ∀ a, (![198, 0] : Fin 2 → Nat) a + S1x1024.size a ≤ S256x1024.size a
  inb_S256x1024_S1x1024_199_0 : ∀ a, (![199, 0] : Fin 2 → Nat) a + S1x1024.size a ≤ S256x1024.size a
  inb_S256x1024_S1x1024_200_0 : ∀ a, (![200, 0] : Fin 2 → Nat) a + S1x1024.size a ≤ S256x1024.size a
  inb_S256x1024_S1x1024_201_0 : ∀ a, (![201, 0] : Fin 2 → Nat) a + S1x1024.size a ≤ S256x1024.size a
  inb_S256x1024_S1x1024_202_0 : ∀ a, (![202, 0] : Fin 2 → Nat) a + S1x1024.size a ≤ S256x1024.size a
  inb_S256x1024_S1x1024_203_0 : ∀ a, (![203, 0] : Fin 2 → Nat) a + S1x1024.size a ≤ S256x1024.size a
  inb_S256x1024_S1x1024_204_0 : ∀ a, (![204, 0] : Fin 2 → Nat) a + S1x1024.size a ≤ S256x1024.size a
  inb_S256x1024_S1x1024_205_0 : ∀ a, (![205, 0] : Fin 2 → Nat) a + S1x1024.size a ≤ S256x1024.size a
  inb_S256x1024_S1x1024_206_0 : ∀ a, (![206, 0] : Fin 2 → Nat) a + S1x1024.size a ≤ S256x1024.size a
  inb_S256x1024_S1x1024_207_0 : ∀ a, (![207, 0] : Fin 2 → Nat) a + S1x1024.size a ≤ S256x1024.size a
  inb_S256x1024_S1x1024_208_0 : ∀ a, (![208, 0] : Fin 2 → Nat) a + S1x1024.size a ≤ S256x1024.size a
  inb_S256x1024_S1x1024_209_0 : ∀ a, (![209, 0] : Fin 2 → Nat) a + S1x1024.size a ≤ S256x1024.size a
  inb_S256x1024_S1x1024_210_0 : ∀ a, (![210, 0] : Fin 2 → Nat) a + S1x1024.size a ≤ S256x1024.size a
  inb_S256x1024_S1x1024_211_0 : ∀ a, (![211, 0] : Fin 2 → Nat) a + S1x1024.size a ≤ S256x1024.size a
  inb_S256x1024_S1x1024_212_0 : ∀ a, (![212, 0] : Fin 2 → Nat) a + S1x1024.size a ≤ S256x1024.size a
  inb_S256x1024_S1x1024_213_0 : ∀ a, (![213, 0] : Fin 2 → Nat) a + S1x1024.size a ≤ S256x1024.size a
  inb_S256x1024_S1x1024_214_0 : ∀ a, (![214, 0] : Fin 2 → Nat) a + S1x1024.size a ≤ S256x1024.size a
  inb_S256x1024_S1x1024_215_0 : ∀ a, (![215, 0] : Fin 2 → Nat) a + S1x1024.size a ≤ S256x1024.size a
  inb_S256x1024_S1x1024_216_0 : ∀ a, (![216, 0] : Fin 2 → Nat) a + S1x1024.size a ≤ S256x1024.size a
  inb_S256x1024_S1x1024_217_0 : ∀ a, (![217, 0] : Fin 2 → Nat) a + S1x1024.size a ≤ S256x1024.size a
  inb_S256x1024_S1x1024_218_0 : ∀ a, (![218, 0] : Fin 2 → Nat) a + S1x1024.size a ≤ S256x1024.size a
  inb_S256x1024_S1x1024_219_0 : ∀ a, (![219, 0] : Fin 2 → Nat) a + S1x1024.size a ≤ S256x1024.size a
  inb_S256x1024_S1x1024_220_0 : ∀ a, (![220, 0] : Fin 2 → Nat) a + S1x1024.size a ≤ S256x1024.size a
  inb_S256x1024_S1x1024_221_0 : ∀ a, (![221, 0] : Fin 2 → Nat) a + S1x1024.size a ≤ S256x1024.size a
  inb_S256x1024_S1x1024_222_0 : ∀ a, (![222, 0] : Fin 2 → Nat) a + S1x1024.size a ≤ S256x1024.size a
  inb_S256x1024_S1x1024_223_0 : ∀ a, (![223, 0] : Fin 2 → Nat) a + S1x1024.size a ≤ S256x1024.size a
  inb_S256x1024_S1x1024_224_0 : ∀ a, (![224, 0] : Fin 2 → Nat) a + S1x1024.size a ≤ S256x1024.size a
  inb_S256x1024_S1x1024_225_0 : ∀ a, (![225, 0] : Fin 2 → Nat) a + S1x1024.size a ≤ S256x1024.size a
  inb_S256x1024_S1x1024_226_0 : ∀ a, (![226, 0] : Fin 2 → Nat) a + S1x1024.size a ≤ S256x1024.size a
  inb_S256x1024_S1x1024_227_0 : ∀ a, (![227, 0] : Fin 2 → Nat) a + S1x1024.size a ≤ S256x1024.size a
  inb_S256x1024_S1x1024_228_0 : ∀ a, (![228, 0] : Fin 2 → Nat) a + S1x1024.size a ≤ S256x1024.size a
  inb_S256x1024_S1x1024_229_0 : ∀ a, (![229, 0] : Fin 2 → Nat) a + S1x1024.size a ≤ S256x1024.size a
  inb_S256x1024_S1x1024_230_0 : ∀ a, (![230, 0] : Fin 2 → Nat) a + S1x1024.size a ≤ S256x1024.size a
  inb_S256x1024_S1x1024_231_0 : ∀ a, (![231, 0] : Fin 2 → Nat) a + S1x1024.size a ≤ S256x1024.size a
  inb_S256x1024_S1x1024_232_0 : ∀ a, (![232, 0] : Fin 2 → Nat) a + S1x1024.size a ≤ S256x1024.size a
  inb_S256x1024_S1x1024_233_0 : ∀ a, (![233, 0] : Fin 2 → Nat) a + S1x1024.size a ≤ S256x1024.size a
  inb_S256x1024_S1x1024_234_0 : ∀ a, (![234, 0] : Fin 2 → Nat) a + S1x1024.size a ≤ S256x1024.size a
  inb_S256x1024_S1x1024_235_0 : ∀ a, (![235, 0] : Fin 2 → Nat) a + S1x1024.size a ≤ S256x1024.size a
  inb_S256x1024_S1x1024_236_0 : ∀ a, (![236, 0] : Fin 2 → Nat) a + S1x1024.size a ≤ S256x1024.size a
  inb_S256x1024_S1x1024_237_0 : ∀ a, (![237, 0] : Fin 2 → Nat) a + S1x1024.size a ≤ S256x1024.size a
  inb_S256x1024_S1x1024_238_0 : ∀ a, (![238, 0] : Fin 2 → Nat) a + S1x1024.size a ≤ S256x1024.size a
  inb_S256x1024_S1x1024_239_0 : ∀ a, (![239, 0] : Fin 2 → Nat) a + S1x1024.size a ≤ S256x1024.size a
  inb_S256x1024_S1x1024_240_0 : ∀ a, (![240, 0] : Fin 2 → Nat) a + S1x1024.size a ≤ S256x1024.size a
  inb_S256x1024_S1x1024_241_0 : ∀ a, (![241, 0] : Fin 2 → Nat) a + S1x1024.size a ≤ S256x1024.size a
  inb_S256x1024_S1x1024_242_0 : ∀ a, (![242, 0] : Fin 2 → Nat) a + S1x1024.size a ≤ S256x1024.size a
  inb_S256x1024_S1x1024_243_0 : ∀ a, (![243, 0] : Fin 2 → Nat) a + S1x1024.size a ≤ S256x1024.size a
  inb_S256x1024_S1x1024_244_0 : ∀ a, (![244, 0] : Fin 2 → Nat) a + S1x1024.size a ≤ S256x1024.size a
  inb_S256x1024_S1x1024_245_0 : ∀ a, (![245, 0] : Fin 2 → Nat) a + S1x1024.size a ≤ S256x1024.size a
  inb_S256x1024_S1x1024_246_0 : ∀ a, (![246, 0] : Fin 2 → Nat) a + S1x1024.size a ≤ S256x1024.size a
  inb_S256x1024_S1x1024_247_0 : ∀ a, (![247, 0] : Fin 2 → Nat) a + S1x1024.size a ≤ S256x1024.size a
  inb_S256x1024_S1x1024_248_0 : ∀ a, (![248, 0] : Fin 2 → Nat) a + S1x1024.size a ≤ S256x1024.size a
  inb_S256x1024_S1x1024_249_0 : ∀ a, (![249, 0] : Fin 2 → Nat) a + S1x1024.size a ≤ S256x1024.size a
  inb_S256x1024_S1x1024_250_0 : ∀ a, (![250, 0] : Fin 2 → Nat) a + S1x1024.size a ≤ S256x1024.size a
  inb_S256x1024_S1x1024_251_0 : ∀ a, (![251, 0] : Fin 2 → Nat) a + S1x1024.size a ≤ S256x1024.size a
  inb_S256x1024_S1x1024_252_0 : ∀ a, (![252, 0] : Fin 2 → Nat) a + S1x1024.size a ≤ S256x1024.size a
  inb_S256x1024_S1x1024_253_0 : ∀ a, (![253, 0] : Fin 2 → Nat) a + S1x1024.size a ≤ S256x1024.size a
  inb_S256x1024_S1x1024_254_0 : ∀ a, (![254, 0] : Fin 2 → Nat) a + S1x1024.size a ≤ S256x1024.size a
  inb_S256x1024_S1x1024_255_0 : ∀ a, (![255, 0] : Fin 2 → Nat) a + S1x1024.size a ≤ S256x1024.size a
  shapeCasts_S16384x1024_S4x4096x1024 : S16384x1024.ShapeCasts S4x4096x1024
  hcc0_scratch0 : 2 + S8.numel ≤ 10
  hrank0 : 0 < grid0.rank
  k0_off1_inb : ∀ i : grid0.Coords, ∀ a, (k0_off1 i) a + S1.size a ≤ S16384.size a
  k0_off3_inb : ∀ i : grid0.Coords, ∀ a, (k0_off3 i) a + S1.size a ≤ S16384.size a
  k0_off5_inb : ∀ i : grid0.Coords, ∀ a, (k0_off5 i) a + S1.size a ≤ S16384.size a
  k0_off7_inb : ∀ i : grid0.Coords, ∀ a, (k0_off7 i) a + S1.size a ≤ S16384.size a
  k0_off9_inb : ∀ i : grid0.Coords, ∀ a, (k0_off9 i) a + S1.size a ≤ S16384.size a
  k0_off11_inb : ∀ i : grid0.Coords, ∀ a, (k0_off11 i) a + S1.size a ≤ S16384.size a
  k0_off13_inb : ∀ i : grid0.Coords, ∀ a, (k0_off13 i) a + S1.size a ≤ S16384.size a
  k0_off15_inb : ∀ i : grid0.Coords, ∀ a, (k0_off15 i) a + S1.size a ≤ S16384.size a
  k0_off17_inb : ∀ i : grid0.Coords, ∀ a, (k0_off17 i) a + S1.size a ≤ S16384.size a
  k0_off19_inb : ∀ i : grid0.Coords, ∀ a, (k0_off19 i) a + S1.size a ≤ S16384.size a
  k0_off21_inb : ∀ i : grid0.Coords, ∀ a, (k0_off21 i) a + S1.size a ≤ S16384.size a
  k0_off23_inb : ∀ i : grid0.Coords, ∀ a, (k0_off23 i) a + S1.size a ≤ S16384.size a
  k0_off25_inb : ∀ i : grid0.Coords, ∀ a, (k0_off25 i) a + S1.size a ≤ S16384.size a
  k0_off27_inb : ∀ i : grid0.Coords, ∀ a, (k0_off27 i) a + S1.size a ≤ S16384.size a
  k0_off29_inb : ∀ i : grid0.Coords, ∀ a, (k0_off29 i) a + S1.size a ≤ S16384.size a
  k0_off31_inb : ∀ i : grid0.Coords, ∀ a, (k0_off31 i) a + S1.size a ≤ S16384.size a
  k0_off33_inb : ∀ i : grid0.Coords, ∀ a, (k0_off33 i) a + S1.size a ≤ S16384.size a
  k0_off35_inb : ∀ i : grid0.Coords, ∀ a, (k0_off35 i) a + S1.size a ≤ S16384.size a
  k0_off37_inb : ∀ i : grid0.Coords, ∀ a, (k0_off37 i) a + S1.size a ≤ S16384.size a
  k0_off39_inb : ∀ i : grid0.Coords, ∀ a, (k0_off39 i) a + S1.size a ≤ S16384.size a
  k0_off41_inb : ∀ i : grid0.Coords, ∀ a, (k0_off41 i) a + S1.size a ≤ S16384.size a
  k0_off43_inb : ∀ i : grid0.Coords, ∀ a, (k0_off43 i) a + S1.size a ≤ S16384.size a
  k0_off45_inb : ∀ i : grid0.Coords, ∀ a, (k0_off45 i) a + S1.size a ≤ S16384.size a
  k0_off47_inb : ∀ i : grid0.Coords, ∀ a, (k0_off47 i) a + S1.size a ≤ S16384.size a
  k0_off49_inb : ∀ i : grid0.Coords, ∀ a, (k0_off49 i) a + S1.size a ≤ S16384.size a
  k0_off51_inb : ∀ i : grid0.Coords, ∀ a, (k0_off51 i) a + S1.size a ≤ S16384.size a
  k0_off53_inb : ∀ i : grid0.Coords, ∀ a, (k0_off53 i) a + S1.size a ≤ S16384.size a
  k0_off55_inb : ∀ i : grid0.Coords, ∀ a, (k0_off55 i) a + S1.size a ≤ S16384.size a
  k0_off57_inb : ∀ i : grid0.Coords, ∀ a, (k0_off57 i) a + S1.size a ≤ S16384.size a
  k0_off59_inb : ∀ i : grid0.Coords, ∀ a, (k0_off59 i) a + S1.size a ≤ S16384.size a
  k0_off61_inb : ∀ i : grid0.Coords, ∀ a, (k0_off61 i) a + S1.size a ≤ S16384.size a
  k0_off63_inb : ∀ i : grid0.Coords, ∀ a, (k0_off63 i) a + S1.size a ≤ S16384.size a
  k0_off65_inb : ∀ i : grid0.Coords, ∀ a, (k0_off65 i) a + S1.size a ≤ S16384.size a
  k0_off67_inb : ∀ i : grid0.Coords, ∀ a, (k0_off67 i) a + S1.size a ≤ S16384.size a
  k0_off69_inb : ∀ i : grid0.Coords, ∀ a, (k0_off69 i) a + S1.size a ≤ S16384.size a
  k0_off71_inb : ∀ i : grid0.Coords, ∀ a, (k0_off71 i) a + S1.size a ≤ S16384.size a
  k0_off73_inb : ∀ i : grid0.Coords, ∀ a, (k0_off73 i) a + S1.size a ≤ S16384.size a
  k0_off75_inb : ∀ i : grid0.Coords, ∀ a, (k0_off75 i) a + S1.size a ≤ S16384.size a
  k0_off77_inb : ∀ i : grid0.Coords, ∀ a, (k0_off77 i) a + S1.size a ≤ S16384.size a
  k0_off79_inb : ∀ i : grid0.Coords, ∀ a, (k0_off79 i) a + S1.size a ≤ S16384.size a
  k0_off81_inb : ∀ i : grid0.Coords, ∀ a, (k0_off81 i) a + S1.size a ≤ S16384.size a
  k0_off83_inb : ∀ i : grid0.Coords, ∀ a, (k0_off83 i) a + S1.size a ≤ S16384.size a
  k0_off85_inb : ∀ i : grid0.Coords, ∀ a, (k0_off85 i) a + S1.size a ≤ S16384.size a
  k0_off87_inb : ∀ i : grid0.Coords, ∀ a, (k0_off87 i) a + S1.size a ≤ S16384.size a
  k0_off89_inb : ∀ i : grid0.Coords, ∀ a, (k0_off89 i) a + S1.size a ≤ S16384.size a
  k0_off91_inb : ∀ i : grid0.Coords, ∀ a, (k0_off91 i) a + S1.size a ≤ S16384.size a
  k0_off93_inb : ∀ i : grid0.Coords, ∀ a, (k0_off93 i) a + S1.size a ≤ S16384.size a
  k0_off95_inb : ∀ i : grid0.Coords, ∀ a, (k0_off95 i) a + S1.size a ≤ S16384.size a
  k0_off97_inb : ∀ i : grid0.Coords, ∀ a, (k0_off97 i) a + S1.size a ≤ S16384.size a
  k0_off99_inb : ∀ i : grid0.Coords, ∀ a, (k0_off99 i) a + S1.size a ≤ S16384.size a
  k0_off101_inb : ∀ i : grid0.Coords, ∀ a, (k0_off101 i) a + S1.size a ≤ S16384.size a
  k0_off103_inb : ∀ i : grid0.Coords, ∀ a, (k0_off103 i) a + S1.size a ≤ S16384.size a
  k0_off105_inb : ∀ i : grid0.Coords, ∀ a, (k0_off105 i) a + S1.size a ≤ S16384.size a
  k0_off107_inb : ∀ i : grid0.Coords, ∀ a, (k0_off107 i) a + S1.size a ≤ S16384.size a
  k0_off109_inb : ∀ i : grid0.Coords, ∀ a, (k0_off109 i) a + S1.size a ≤ S16384.size a
  k0_off111_inb : ∀ i : grid0.Coords, ∀ a, (k0_off111 i) a + S1.size a ≤ S16384.size a
  k0_off113_inb : ∀ i : grid0.Coords, ∀ a, (k0_off113 i) a + S1.size a ≤ S16384.size a
  k0_off115_inb : ∀ i : grid0.Coords, ∀ a, (k0_off115 i) a + S1.size a ≤ S16384.size a
  k0_off117_inb : ∀ i : grid0.Coords, ∀ a, (k0_off117 i) a + S1.size a ≤ S16384.size a
  k0_off119_inb : ∀ i : grid0.Coords, ∀ a, (k0_off119 i) a + S1.size a ≤ S16384.size a
  k0_off121_inb : ∀ i : grid0.Coords, ∀ a, (k0_off121 i) a + S1.size a ≤ S16384.size a
  k0_off123_inb : ∀ i : grid0.Coords, ∀ a, (k0_off123 i) a + S1.size a ≤ S16384.size a
  k0_off125_inb : ∀ i : grid0.Coords, ∀ a, (k0_off125 i) a + S1.size a ≤ S16384.size a
  k0_off127_inb : ∀ i : grid0.Coords, ∀ a, (k0_off127 i) a + S1.size a ≤ S16384.size a
  k0_off129_inb : ∀ i : grid0.Coords, ∀ a, (k0_off129 i) a + S1.size a ≤ S16384.size a
  k0_off131_inb : ∀ i : grid0.Coords, ∀ a, (k0_off131 i) a + S1.size a ≤ S16384.size a
  k0_off133_inb : ∀ i : grid0.Coords, ∀ a, (k0_off133 i) a + S1.size a ≤ S16384.size a
  k0_off135_inb : ∀ i : grid0.Coords, ∀ a, (k0_off135 i) a + S1.size a ≤ S16384.size a
  k0_off137_inb : ∀ i : grid0.Coords, ∀ a, (k0_off137 i) a + S1.size a ≤ S16384.size a
  k0_off139_inb : ∀ i : grid0.Coords, ∀ a, (k0_off139 i) a + S1.size a ≤ S16384.size a
  k0_off141_inb : ∀ i : grid0.Coords, ∀ a, (k0_off141 i) a + S1.size a ≤ S16384.size a
  k0_off143_inb : ∀ i : grid0.Coords, ∀ a, (k0_off143 i) a + S1.size a ≤ S16384.size a
  k0_off145_inb : ∀ i : grid0.Coords, ∀ a, (k0_off145 i) a + S1.size a ≤ S16384.size a
  k0_off147_inb : ∀ i : grid0.Coords, ∀ a, (k0_off147 i) a + S1.size a ≤ S16384.size a
  k0_off149_inb : ∀ i : grid0.Coords, ∀ a, (k0_off149 i) a + S1.size a ≤ S16384.size a
  k0_off151_inb : ∀ i : grid0.Coords, ∀ a, (k0_off151 i) a + S1.size a ≤ S16384.size a
  k0_off153_inb : ∀ i : grid0.Coords, ∀ a, (k0_off153 i) a + S1.size a ≤ S16384.size a
  k0_off155_inb : ∀ i : grid0.Coords, ∀ a, (k0_off155 i) a + S1.size a ≤ S16384.size a
  k0_off157_inb : ∀ i : grid0.Coords, ∀ a, (k0_off157 i) a + S1.size a ≤ S16384.size a
  k0_off159_inb : ∀ i : grid0.Coords, ∀ a, (k0_off159 i) a + S1.size a ≤ S16384.size a
  k0_off161_inb : ∀ i : grid0.Coords, ∀ a, (k0_off161 i) a + S1.size a ≤ S16384.size a
  k0_off163_inb : ∀ i : grid0.Coords, ∀ a, (k0_off163 i) a + S1.size a ≤ S16384.size a
  k0_off165_inb : ∀ i : grid0.Coords, ∀ a, (k0_off165 i) a + S1.size a ≤ S16384.size a
  k0_off167_inb : ∀ i : grid0.Coords, ∀ a, (k0_off167 i) a + S1.size a ≤ S16384.size a
  k0_off169_inb : ∀ i : grid0.Coords, ∀ a, (k0_off169 i) a + S1.size a ≤ S16384.size a
  k0_off171_inb : ∀ i : grid0.Coords, ∀ a, (k0_off171 i) a + S1.size a ≤ S16384.size a
  k0_off173_inb : ∀ i : grid0.Coords, ∀ a, (k0_off173 i) a + S1.size a ≤ S16384.size a
  k0_off175_inb : ∀ i : grid0.Coords, ∀ a, (k0_off175 i) a + S1.size a ≤ S16384.size a
  k0_off177_inb : ∀ i : grid0.Coords, ∀ a, (k0_off177 i) a + S1.size a ≤ S16384.size a
  k0_off179_inb : ∀ i : grid0.Coords, ∀ a, (k0_off179 i) a + S1.size a ≤ S16384.size a
  k0_off181_inb : ∀ i : grid0.Coords, ∀ a, (k0_off181 i) a + S1.size a ≤ S16384.size a
  k0_off183_inb : ∀ i : grid0.Coords, ∀ a, (k0_off183 i) a + S1.size a ≤ S16384.size a
  k0_off185_inb : ∀ i : grid0.Coords, ∀ a, (k0_off185 i) a + S1.size a ≤ S16384.size a
  k0_off187_inb : ∀ i : grid0.Coords, ∀ a, (k0_off187 i) a + S1.size a ≤ S16384.size a
  k0_off189_inb : ∀ i : grid0.Coords, ∀ a, (k0_off189 i) a + S1.size a ≤ S16384.size a
  k0_off191_inb : ∀ i : grid0.Coords, ∀ a, (k0_off191 i) a + S1.size a ≤ S16384.size a
  k0_off193_inb : ∀ i : grid0.Coords, ∀ a, (k0_off193 i) a + S1.size a ≤ S16384.size a
  k0_off195_inb : ∀ i : grid0.Coords, ∀ a, (k0_off195 i) a + S1.size a ≤ S16384.size a
  k0_off197_inb : ∀ i : grid0.Coords, ∀ a, (k0_off197 i) a + S1.size a ≤ S16384.size a
  k0_off199_inb : ∀ i : grid0.Coords, ∀ a, (k0_off199 i) a + S1.size a ≤ S16384.size a
  k0_off201_inb : ∀ i : grid0.Coords, ∀ a, (k0_off201 i) a + S1.size a ≤ S16384.size a
  k0_off203_inb : ∀ i : grid0.Coords, ∀ a, (k0_off203 i) a + S1.size a ≤ S16384.size a
  k0_off205_inb : ∀ i : grid0.Coords, ∀ a, (k0_off205 i) a + S1.size a ≤ S16384.size a
  k0_off207_inb : ∀ i : grid0.Coords, ∀ a, (k0_off207 i) a + S1.size a ≤ S16384.size a
  k0_off209_inb : ∀ i : grid0.Coords, ∀ a, (k0_off209 i) a + S1.size a ≤ S16384.size a
  k0_off211_inb : ∀ i : grid0.Coords, ∀ a, (k0_off211 i) a + S1.size a ≤ S16384.size a
  k0_off213_inb : ∀ i : grid0.Coords, ∀ a, (k0_off213 i) a + S1.size a ≤ S16384.size a
  k0_off215_inb : ∀ i : grid0.Coords, ∀ a, (k0_off215 i) a + S1.size a ≤ S16384.size a
  k0_off217_inb : ∀ i : grid0.Coords, ∀ a, (k0_off217 i) a + S1.size a ≤ S16384.size a
  k0_off219_inb : ∀ i : grid0.Coords, ∀ a, (k0_off219 i) a + S1.size a ≤ S16384.size a
  k0_off221_inb : ∀ i : grid0.Coords, ∀ a, (k0_off221 i) a + S1.size a ≤ S16384.size a
  k0_off223_inb : ∀ i : grid0.Coords, ∀ a, (k0_off223 i) a + S1.size a ≤ S16384.size a
  k0_off225_inb : ∀ i : grid0.Coords, ∀ a, (k0_off225 i) a + S1.size a ≤ S16384.size a
  k0_off227_inb : ∀ i : grid0.Coords, ∀ a, (k0_off227 i) a + S1.size a ≤ S16384.size a
  k0_off229_inb : ∀ i : grid0.Coords, ∀ a, (k0_off229 i) a + S1.size a ≤ S16384.size a
  k0_off231_inb : ∀ i : grid0.Coords, ∀ a, (k0_off231 i) a + S1.size a ≤ S16384.size a
  k0_off233_inb : ∀ i : grid0.Coords, ∀ a, (k0_off233 i) a + S1.size a ≤ S16384.size a
  k0_off235_inb : ∀ i : grid0.Coords, ∀ a, (k0_off235 i) a + S1.size a ≤ S16384.size a
  k0_off237_inb : ∀ i : grid0.Coords, ∀ a, (k0_off237 i) a + S1.size a ≤ S16384.size a
  k0_off239_inb : ∀ i : grid0.Coords, ∀ a, (k0_off239 i) a + S1.size a ≤ S16384.size a
  k0_off241_inb : ∀ i : grid0.Coords, ∀ a, (k0_off241 i) a + S1.size a ≤ S16384.size a
  k0_off243_inb : ∀ i : grid0.Coords, ∀ a, (k0_off243 i) a + S1.size a ≤ S16384.size a
  k0_off245_inb : ∀ i : grid0.Coords, ∀ a, (k0_off245 i) a + S1.size a ≤ S16384.size a
  k0_off247_inb : ∀ i : grid0.Coords, ∀ a, (k0_off247 i) a + S1.size a ≤ S16384.size a
  k0_off249_inb : ∀ i : grid0.Coords, ∀ a, (k0_off249 i) a + S1.size a ≤ S16384.size a
  k0_off251_inb : ∀ i : grid0.Coords, ∀ a, (k0_off251 i) a + S1.size a ≤ S16384.size a
  k0_off253_inb : ∀ i : grid0.Coords, ∀ a, (k0_off253 i) a + S1.size a ≤ S16384.size a
  k0_off255_inb : ∀ i : grid0.Coords, ∀ a, (k0_off255 i) a + S1.size a ≤ S16384.size a
  k0_off257_inb : ∀ i : grid0.Coords, ∀ a, (k0_off257 i) a + S1.size a ≤ S16384.size a
  k0_off259_inb : ∀ i : grid0.Coords, ∀ a, (k0_off259 i) a + S1.size a ≤ S16384.size a
  k0_off261_inb : ∀ i : grid0.Coords, ∀ a, (k0_off261 i) a + S1.size a ≤ S16384.size a
  k0_off263_inb : ∀ i : grid0.Coords, ∀ a, (k0_off263 i) a + S1.size a ≤ S16384.size a
  k0_off265_inb : ∀ i : grid0.Coords, ∀ a, (k0_off265 i) a + S1.size a ≤ S16384.size a
  k0_off267_inb : ∀ i : grid0.Coords, ∀ a, (k0_off267 i) a + S1.size a ≤ S16384.size a
  k0_off269_inb : ∀ i : grid0.Coords, ∀ a, (k0_off269 i) a + S1.size a ≤ S16384.size a
  k0_off271_inb : ∀ i : grid0.Coords, ∀ a, (k0_off271 i) a + S1.size a ≤ S16384.size a
  k0_off273_inb : ∀ i : grid0.Coords, ∀ a, (k0_off273 i) a + S1.size a ≤ S16384.size a
  k0_off275_inb : ∀ i : grid0.Coords, ∀ a, (k0_off275 i) a + S1.size a ≤ S16384.size a
  k0_off277_inb : ∀ i : grid0.Coords, ∀ a, (k0_off277 i) a + S1.size a ≤ S16384.size a
  k0_off279_inb : ∀ i : grid0.Coords, ∀ a, (k0_off279 i) a + S1.size a ≤ S16384.size a
  k0_off281_inb : ∀ i : grid0.Coords, ∀ a, (k0_off281 i) a + S1.size a ≤ S16384.size a
  k0_off283_inb : ∀ i : grid0.Coords, ∀ a, (k0_off283 i) a + S1.size a ≤ S16384.size a
  k0_off285_inb : ∀ i : grid0.Coords, ∀ a, (k0_off285 i) a + S1.size a ≤ S16384.size a
  k0_off287_inb : ∀ i : grid0.Coords, ∀ a, (k0_off287 i) a + S1.size a ≤ S16384.size a
  k0_off289_inb : ∀ i : grid0.Coords, ∀ a, (k0_off289 i) a + S1.size a ≤ S16384.size a
  k0_off291_inb : ∀ i : grid0.Coords, ∀ a, (k0_off291 i) a + S1.size a ≤ S16384.size a
  k0_off293_inb : ∀ i : grid0.Coords, ∀ a, (k0_off293 i) a + S1.size a ≤ S16384.size a
  k0_off295_inb : ∀ i : grid0.Coords, ∀ a, (k0_off295 i) a + S1.size a ≤ S16384.size a
  k0_off297_inb : ∀ i : grid0.Coords, ∀ a, (k0_off297 i) a + S1.size a ≤ S16384.size a
  k0_off299_inb : ∀ i : grid0.Coords, ∀ a, (k0_off299 i) a + S1.size a ≤ S16384.size a
  k0_off301_inb : ∀ i : grid0.Coords, ∀ a, (k0_off301 i) a + S1.size a ≤ S16384.size a
  k0_off303_inb : ∀ i : grid0.Coords, ∀ a, (k0_off303 i) a + S1.size a ≤ S16384.size a
  k0_off305_inb : ∀ i : grid0.Coords, ∀ a, (k0_off305 i) a + S1.size a ≤ S16384.size a
  k0_off307_inb : ∀ i : grid0.Coords, ∀ a, (k0_off307 i) a + S1.size a ≤ S16384.size a
  k0_off309_inb : ∀ i : grid0.Coords, ∀ a, (k0_off309 i) a + S1.size a ≤ S16384.size a
  k0_off311_inb : ∀ i : grid0.Coords, ∀ a, (k0_off311 i) a + S1.size a ≤ S16384.size a
  k0_off313_inb : ∀ i : grid0.Coords, ∀ a, (k0_off313 i) a + S1.size a ≤ S16384.size a
  k0_off315_inb : ∀ i : grid0.Coords, ∀ a, (k0_off315 i) a + S1.size a ≤ S16384.size a
  k0_off317_inb : ∀ i : grid0.Coords, ∀ a, (k0_off317 i) a + S1.size a ≤ S16384.size a
  k0_off319_inb : ∀ i : grid0.Coords, ∀ a, (k0_off319 i) a + S1.size a ≤ S16384.size a
  k0_off321_inb : ∀ i : grid0.Coords, ∀ a, (k0_off321 i) a + S1.size a ≤ S16384.size a
  k0_off323_inb : ∀ i : grid0.Coords, ∀ a, (k0_off323 i) a + S1.size a ≤ S16384.size a
  k0_off325_inb : ∀ i : grid0.Coords, ∀ a, (k0_off325 i) a + S1.size a ≤ S16384.size a
  k0_off327_inb : ∀ i : grid0.Coords, ∀ a, (k0_off327 i) a + S1.size a ≤ S16384.size a
  k0_off329_inb : ∀ i : grid0.Coords, ∀ a, (k0_off329 i) a + S1.size a ≤ S16384.size a
  k0_off331_inb : ∀ i : grid0.Coords, ∀ a, (k0_off331 i) a + S1.size a ≤ S16384.size a
  k0_off333_inb : ∀ i : grid0.Coords, ∀ a, (k0_off333 i) a + S1.size a ≤ S16384.size a
  k0_off335_inb : ∀ i : grid0.Coords, ∀ a, (k0_off335 i) a + S1.size a ≤ S16384.size a
  k0_off337_inb : ∀ i : grid0.Coords, ∀ a, (k0_off337 i) a + S1.size a ≤ S16384.size a
  k0_off339_inb : ∀ i : grid0.Coords, ∀ a, (k0_off339 i) a + S1.size a ≤ S16384.size a
  k0_off341_inb : ∀ i : grid0.Coords, ∀ a, (k0_off341 i) a + S1.size a ≤ S16384.size a
  k0_off343_inb : ∀ i : grid0.Coords, ∀ a, (k0_off343 i) a + S1.size a ≤ S16384.size a
  k0_off345_inb : ∀ i : grid0.Coords, ∀ a, (k0_off345 i) a + S1.size a ≤ S16384.size a
  k0_off347_inb : ∀ i : grid0.Coords, ∀ a, (k0_off347 i) a + S1.size a ≤ S16384.size a
  k0_off349_inb : ∀ i : grid0.Coords, ∀ a, (k0_off349 i) a + S1.size a ≤ S16384.size a
  k0_off351_inb : ∀ i : grid0.Coords, ∀ a, (k0_off351 i) a + S1.size a ≤ S16384.size a
  k0_off353_inb : ∀ i : grid0.Coords, ∀ a, (k0_off353 i) a + S1.size a ≤ S16384.size a
  k0_off355_inb : ∀ i : grid0.Coords, ∀ a, (k0_off355 i) a + S1.size a ≤ S16384.size a
  k0_off357_inb : ∀ i : grid0.Coords, ∀ a, (k0_off357 i) a + S1.size a ≤ S16384.size a
  k0_off359_inb : ∀ i : grid0.Coords, ∀ a, (k0_off359 i) a + S1.size a ≤ S16384.size a
  k0_off361_inb : ∀ i : grid0.Coords, ∀ a, (k0_off361 i) a + S1.size a ≤ S16384.size a
  k0_off363_inb : ∀ i : grid0.Coords, ∀ a, (k0_off363 i) a + S1.size a ≤ S16384.size a
  k0_off365_inb : ∀ i : grid0.Coords, ∀ a, (k0_off365 i) a + S1.size a ≤ S16384.size a
  k0_off367_inb : ∀ i : grid0.Coords, ∀ a, (k0_off367 i) a + S1.size a ≤ S16384.size a
  k0_off369_inb : ∀ i : grid0.Coords, ∀ a, (k0_off369 i) a + S1.size a ≤ S16384.size a
  k0_off371_inb : ∀ i : grid0.Coords, ∀ a, (k0_off371 i) a + S1.size a ≤ S16384.size a
  k0_off373_inb : ∀ i : grid0.Coords, ∀ a, (k0_off373 i) a + S1.size a ≤ S16384.size a
  k0_off375_inb : ∀ i : grid0.Coords, ∀ a, (k0_off375 i) a + S1.size a ≤ S16384.size a
  k0_off377_inb : ∀ i : grid0.Coords, ∀ a, (k0_off377 i) a + S1.size a ≤ S16384.size a
  k0_off379_inb : ∀ i : grid0.Coords, ∀ a, (k0_off379 i) a + S1.size a ≤ S16384.size a
  k0_off381_inb : ∀ i : grid0.Coords, ∀ a, (k0_off381 i) a + S1.size a ≤ S16384.size a
  k0_off383_inb : ∀ i : grid0.Coords, ∀ a, (k0_off383 i) a + S1.size a ≤ S16384.size a
  k0_off385_inb : ∀ i : grid0.Coords, ∀ a, (k0_off385 i) a + S1.size a ≤ S16384.size a
  k0_off387_inb : ∀ i : grid0.Coords, ∀ a, (k0_off387 i) a + S1.size a ≤ S16384.size a
  k0_off389_inb : ∀ i : grid0.Coords, ∀ a, (k0_off389 i) a + S1.size a ≤ S16384.size a
  k0_off391_inb : ∀ i : grid0.Coords, ∀ a, (k0_off391 i) a + S1.size a ≤ S16384.size a
  k0_off393_inb : ∀ i : grid0.Coords, ∀ a, (k0_off393 i) a + S1.size a ≤ S16384.size a
  k0_off395_inb : ∀ i : grid0.Coords, ∀ a, (k0_off395 i) a + S1.size a ≤ S16384.size a
  k0_off397_inb : ∀ i : grid0.Coords, ∀ a, (k0_off397 i) a + S1.size a ≤ S16384.size a
  k0_off399_inb : ∀ i : grid0.Coords, ∀ a, (k0_off399 i) a + S1.size a ≤ S16384.size a
  k0_off401_inb : ∀ i : grid0.Coords, ∀ a, (k0_off401 i) a + S1.size a ≤ S16384.size a
  k0_off403_inb : ∀ i : grid0.Coords, ∀ a, (k0_off403 i) a + S1.size a ≤ S16384.size a
  k0_off405_inb : ∀ i : grid0.Coords, ∀ a, (k0_off405 i) a + S1.size a ≤ S16384.size a
  k0_off407_inb : ∀ i : grid0.Coords, ∀ a, (k0_off407 i) a + S1.size a ≤ S16384.size a
  k0_off409_inb : ∀ i : grid0.Coords, ∀ a, (k0_off409 i) a + S1.size a ≤ S16384.size a
  k0_off411_inb : ∀ i : grid0.Coords, ∀ a, (k0_off411 i) a + S1.size a ≤ S16384.size a
  k0_off413_inb : ∀ i : grid0.Coords, ∀ a, (k0_off413 i) a + S1.size a ≤ S16384.size a
  k0_off415_inb : ∀ i : grid0.Coords, ∀ a, (k0_off415 i) a + S1.size a ≤ S16384.size a
  k0_off417_inb : ∀ i : grid0.Coords, ∀ a, (k0_off417 i) a + S1.size a ≤ S16384.size a
  k0_off419_inb : ∀ i : grid0.Coords, ∀ a, (k0_off419 i) a + S1.size a ≤ S16384.size a
  k0_off421_inb : ∀ i : grid0.Coords, ∀ a, (k0_off421 i) a + S1.size a ≤ S16384.size a
  k0_off423_inb : ∀ i : grid0.Coords, ∀ a, (k0_off423 i) a + S1.size a ≤ S16384.size a
  k0_off425_inb : ∀ i : grid0.Coords, ∀ a, (k0_off425 i) a + S1.size a ≤ S16384.size a
  k0_off427_inb : ∀ i : grid0.Coords, ∀ a, (k0_off427 i) a + S1.size a ≤ S16384.size a
  k0_off429_inb : ∀ i : grid0.Coords, ∀ a, (k0_off429 i) a + S1.size a ≤ S16384.size a
  k0_off431_inb : ∀ i : grid0.Coords, ∀ a, (k0_off431 i) a + S1.size a ≤ S16384.size a
  k0_off433_inb : ∀ i : grid0.Coords, ∀ a, (k0_off433 i) a + S1.size a ≤ S16384.size a
  k0_off435_inb : ∀ i : grid0.Coords, ∀ a, (k0_off435 i) a + S1.size a ≤ S16384.size a
  k0_off437_inb : ∀ i : grid0.Coords, ∀ a, (k0_off437 i) a + S1.size a ≤ S16384.size a
  k0_off439_inb : ∀ i : grid0.Coords, ∀ a, (k0_off439 i) a + S1.size a ≤ S16384.size a
  k0_off441_inb : ∀ i : grid0.Coords, ∀ a, (k0_off441 i) a + S1.size a ≤ S16384.size a
  k0_off443_inb : ∀ i : grid0.Coords, ∀ a, (k0_off443 i) a + S1.size a ≤ S16384.size a
  k0_off445_inb : ∀ i : grid0.Coords, ∀ a, (k0_off445 i) a + S1.size a ≤ S16384.size a
  k0_off447_inb : ∀ i : grid0.Coords, ∀ a, (k0_off447 i) a + S1.size a ≤ S16384.size a
  k0_off449_inb : ∀ i : grid0.Coords, ∀ a, (k0_off449 i) a + S1.size a ≤ S16384.size a
  k0_off451_inb : ∀ i : grid0.Coords, ∀ a, (k0_off451 i) a + S1.size a ≤ S16384.size a
  k0_off453_inb : ∀ i : grid0.Coords, ∀ a, (k0_off453 i) a + S1.size a ≤ S16384.size a
  k0_off455_inb : ∀ i : grid0.Coords, ∀ a, (k0_off455 i) a + S1.size a ≤ S16384.size a
  k0_off457_inb : ∀ i : grid0.Coords, ∀ a, (k0_off457 i) a + S1.size a ≤ S16384.size a
  k0_off459_inb : ∀ i : grid0.Coords, ∀ a, (k0_off459 i) a + S1.size a ≤ S16384.size a
  k0_off461_inb : ∀ i : grid0.Coords, ∀ a, (k0_off461 i) a + S1.size a ≤ S16384.size a
  k0_off463_inb : ∀ i : grid0.Coords, ∀ a, (k0_off463 i) a + S1.size a ≤ S16384.size a
  k0_off465_inb : ∀ i : grid0.Coords, ∀ a, (k0_off465 i) a + S1.size a ≤ S16384.size a
  k0_off467_inb : ∀ i : grid0.Coords, ∀ a, (k0_off467 i) a + S1.size a ≤ S16384.size a
  k0_off469_inb : ∀ i : grid0.Coords, ∀ a, (k0_off469 i) a + S1.size a ≤ S16384.size a
  k0_off471_inb : ∀ i : grid0.Coords, ∀ a, (k0_off471 i) a + S1.size a ≤ S16384.size a
  k0_off473_inb : ∀ i : grid0.Coords, ∀ a, (k0_off473 i) a + S1.size a ≤ S16384.size a
  k0_off475_inb : ∀ i : grid0.Coords, ∀ a, (k0_off475 i) a + S1.size a ≤ S16384.size a
  k0_off477_inb : ∀ i : grid0.Coords, ∀ a, (k0_off477 i) a + S1.size a ≤ S16384.size a
  k0_off479_inb : ∀ i : grid0.Coords, ∀ a, (k0_off479 i) a + S1.size a ≤ S16384.size a
  k0_off481_inb : ∀ i : grid0.Coords, ∀ a, (k0_off481 i) a + S1.size a ≤ S16384.size a
  k0_off483_inb : ∀ i : grid0.Coords, ∀ a, (k0_off483 i) a + S1.size a ≤ S16384.size a
  k0_off485_inb : ∀ i : grid0.Coords, ∀ a, (k0_off485 i) a + S1.size a ≤ S16384.size a
  k0_off487_inb : ∀ i : grid0.Coords, ∀ a, (k0_off487 i) a + S1.size a ≤ S16384.size a
  k0_off489_inb : ∀ i : grid0.Coords, ∀ a, (k0_off489 i) a + S1.size a ≤ S16384.size a
  k0_off491_inb : ∀ i : grid0.Coords, ∀ a, (k0_off491 i) a + S1.size a ≤ S16384.size a
  k0_off493_inb : ∀ i : grid0.Coords, ∀ a, (k0_off493 i) a + S1.size a ≤ S16384.size a
  k0_off495_inb : ∀ i : grid0.Coords, ∀ a, (k0_off495 i) a + S1.size a ≤ S16384.size a
  k0_off497_inb : ∀ i : grid0.Coords, ∀ a, (k0_off497 i) a + S1.size a ≤ S16384.size a
  k0_off499_inb : ∀ i : grid0.Coords, ∀ a, (k0_off499 i) a + S1.size a ≤ S16384.size a
  k0_off501_inb : ∀ i : grid0.Coords, ∀ a, (k0_off501 i) a + S1.size a ≤ S16384.size a
  k0_off503_inb : ∀ i : grid0.Coords, ∀ a, (k0_off503 i) a + S1.size a ≤ S16384.size a
  k0_off505_inb : ∀ i : grid0.Coords, ∀ a, (k0_off505 i) a + S1.size a ≤ S16384.size a
  k0_off507_inb : ∀ i : grid0.Coords, ∀ a, (k0_off507 i) a + S1.size a ≤ S16384.size a
  k0_off509_inb : ∀ i : grid0.Coords, ∀ a, (k0_off509 i) a + S1.size a ≤ S16384.size a
  k0_off511_inb : ∀ i : grid0.Coords, ∀ a, (k0_off511 i) a + S1.size a ≤ S16384.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S256x1024.size a ≤ S16384x1024.size a
  hwx0_0 : ∀ i : grid0.Coords, EltTy.bits .f32 = 32 ∨ (Rect.block (s := S16384x1024) S256x1024.size (cc0_transform_1 i) (hinb0_0 i)).WholeWords (EltTy.packing .f32)

variable [Facts₀]

abbrev cc0_scratch0 : DmaSems sig S8 := SemArray.consecutive 2 S8 hcc0_scratch0

abbrev spec0_0 : Pipeline.WinSpec sig grid0.rank :=
  Pipeline.WinSpec.ofSpec (Memref.whole main_v2) S256x1024.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S4x4096 : Shape := ⟨2, ![4, 4096]⟩
abbrev S1024x50257 : Shape := ⟨2, ![1024, 50257]⟩
abbrev S50257x1024 : Shape := ⟨2, ![50257, 1024]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x1024 : Shape := ⟨3, ![4, 4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S1024x50257, .f32⟩
  | .hbm, ⟨2, _⟩ => ⟨S50257x1024, .f32⟩
  | .hbm, ⟨3, _⟩ => ⟨S_, .i32⟩
  | .hbm, ⟨4, _⟩ => ⟨S4x4096, .i32⟩
  | .hbm, ⟨5, _⟩ => ⟨S4x4096, .i1⟩
  | .hbm, ⟨6, _⟩ => ⟨S_, .i32⟩
  | .hbm, ⟨7, _⟩ => ⟨S4x4096, .i32⟩
  | .hbm, ⟨8, _⟩ => ⟨S4x4096, .i32⟩
  | .hbm, ⟨9, _⟩ => ⟨S4x4096, .i32⟩
  | .hbm, ⟨10, _⟩ => ⟨S4x4096x1, .i32⟩
  | .hbm, ⟨11, _⟩ => ⟨S1, .i32⟩
  | .hbm, ⟨12, _⟩ => ⟨S_, .i32⟩
  | .hbm, ⟨13, _⟩ => ⟨S4x4096x1, .i32⟩
  | .hbm, ⟨14, _⟩ => ⟨S4x4096x1, .i1⟩
  | .hbm, ⟨15, _⟩ => ⟨S1x1x1, .i32⟩
  | .hbm, ⟨16, _⟩ => ⟨S4x4096x1, .i32⟩
  | .hbm, ⟨17, _⟩ => ⟨S4x4096x1, .i1⟩
  | .hbm, ⟨18, _⟩ => ⟨S4x4096x1, .i1⟩
  | .hbm, ⟨19, _⟩ => ⟨S_, .i1⟩
  | .hbm, ⟨20, _⟩ => ⟨S4x4096, .i1⟩
  | .hbm, ⟨21, _⟩ => ⟨S4x4096x1024, .f32⟩
  | .hbm, ⟨22, _⟩ => ⟨S4x4096x1024, .i1⟩
  | .hbm, ⟨23, _⟩ => ⟨S_, .f32⟩
  | .hbm, ⟨24, _⟩ => ⟨S4x4096x1024, .f32⟩
  | .hbm, ⟨25, _⟩ => ⟨S4x4096x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  transposes_S1024x50257_S50257x1024_1_0 : S1024x50257.Transposes [1, 0] S50257x1024
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x1024_0_1 : S4x4096.BroadcastsInDim S4x4096x1024 (![0, 1] : Fin 2 → Fin S4x4096x1024.rank)
  bcast_S_S4x4096x1024 : S_.BroadcastsInDim S4x4096x1024 (![] : Fin 0 → Fin S4x4096x1024.rank)
  gather_S50257x1024_S4x4096x1_S4x4096x1024_2_0_n_n_0_2_11024_wf : GatherDims.WF S50257x1024 S4x4096x1 S4x4096x1024 [2] [0] [] [0] [] 2 ![1, 1024]

variable [Facts₀]

def gather_S50257x1024_S4x4096x1_S4x4096x1024_2_0_n_n_0_2_11024 : GatherDims S50257x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S50257x1024_S4x4096x1_S4x4096x1024_2_0_n_n_0_2_11024_wf

class Facts : Prop extends Facts₀ where

variable [Facts]
-- ==== Proof.Spec.lean ====
/-
  The function both programs compute. The input `x` holds token numbers, `W` is a [1024, 50257] matrix whose
  column `k` is the embedding of token `k`; the result's entry (b, s, j) is `W[j, x[b, s]]`: row `x[b, s]` of
  the transposed matrix. No arithmetic is done on the entries, so the statement is the same over any element type.
-/
import Idealize.ShloMosaic.PureOps.Ideal
import Idealize.ShloMosaic.Lib.ValueIdx

noncomputable section

namespace Cert.Gather

open Idealize.ShloMosaic Idealize.ShloMosaic.ValueIdx

/-- The table row a token word names; clamped at the last row so that the function is total (on a word below
    50257 it is the word's value). -/
def rowOf (v : BitVec 32) : Fin 50257 := ⟨min v.toNat 50256, by omega⟩

theorem rowOf_val_of_lt (v : BitVec 32) (h : v.toNat < 50257) : (rowOf v).val = v.toNat := by
  show min v.toNat 50256 = v.toNat
  omega

/-- Every token number names a row of the table. -/
def InRange (x : (⟨2, ![4, 4096]⟩ : Shape).Idx → BitVec 32) : Prop := ∀ i, (x i).toNat < 50257

/-- `out[b, s, j] = W[j, x[b, s]]`. -/
def G {α : Type} (x : (⟨2, ![4, 4096]⟩ : Shape).Idx → BitVec 32) (W : (⟨2, ![1024, 50257]⟩ : Shape).Idx → α) :
    (⟨3, ![4, 4096, 1024]⟩ : Shape).Idx → α :=
  fun i => W (ix2 (⟨(i 2).val, (i 2).isLt⟩ : Fin 1024)
    (rowOf (x (ix2 (⟨(i 0).val, (i 0).isLt⟩ : Fin 4) (⟨(i 1).val, (i 1).isLt⟩ : Fin 4096)))))

end Cert.Gather

end
-- ==== Proof.PreRange.lean ====
/-
  The precondition says, among other things, that every token number is nonnegative and below 50257 when read as a
  signed word. A word in that signed range has the same value read unsigned, so every token number names a row of
  the table. (The precondition's other conjunct, that the table's entries are finite, is not used: the programs only
  copy entries.)
-/
import proofs.«109605_j40200893891216_1_alg».proof.Pre_finite_inputs
import proofs.«109605_j40200893891216_1_alg».proof.Proof.Spec
import Idealize.ShloMosaic.Lib.ReduceAll

noncomputable section

namespace Cert.Gather.Pre

open Idealize.ShloMosaic Idealize.ShloMosaic.ValueIdx

/-- The scalar shape has one index. -/
instance : Subsingleton Cert.Pre_finite_inputs.S_.Idx := ⟨fun a b => funext fun d => d.elim0⟩

/-- A word that is at least 0 and below `n` read signed is below `n` read unsigned. -/
theorem toNat_lt_of_signed (w : BitVec 32) (n : Nat) (hn : n < 2 ^ 31)
    (h0 : (0#32 : BitVec 32).toInt ≤ w.toInt) (h1 : w.toInt < (BitVec.ofNat 32 n).toInt) : w.toNat < n := by
  have hz : (0#32 : BitVec 32).toInt = 0 := by decide
  have hnn : (BitVec.ofNat 32 n).toInt = n := by
    rw [BitVec.toInt_eq_toNat_of_lt (by rw [BitVec.toNat_ofNat]; omega), BitVec.toNat_ofNat]
    omega
  rw [hz] at h0
  rw [hnn] at h1
  have hw := BitVec.toInt_eq_toNat_cond w
  have h32 := w.isLt
  split at hw <;> omega

/-- Under the precondition every token number names a row of the table. -/
theorem inRange_of_pre {F : FTy → Type} [FloatOps F] [Cert.Pre_finite_inputs.Facts]
    (x : IVec Cert.Pre_finite_inputs.S4x4096 32) (W : FVec F Cert.Pre_finite_inputs.S1024x50257 .f32)
    (h : Cert.Pre_finite_inputs.fn (F := F) x W = fun _ => 1#1) : Cert.Gather.InRange x := by
  intro i
  have e := congrFun h ix0
  dsimp only [Cert.Pre_finite_inputs.fn] at e
  have e2 := (IntOp.andi_eq_one.1 e).2
  have e3 := Host.reduce_andi_all _ _ _ _ _ e2 i
  obtain ⟨h0, h1⟩ := IntOp.andi_eq_one.1 e3
  exact toNat_lt_of_signed (x i) 50257 (by decide) (IntOp.cmpi_sge.1 h0) (IntOp.cmpi_slt.1 h1)

end Cert.Gather.Pre

end
-- ==== Proof.RefOps.lean ====
/-
  The reference program as a straight line of host operations. Its @main transposes the table and calls the
  row-lookup function, which calls the three-way choice function; with both calls opened at their call sites the
  program is one list of twenty-four operations, and every weakly fair execution ends with each buffer at the
  fold of those operations over the launch contents.
-/
import proofs.«109605_j40200893891216_1_alg».proof.ReferenceIdeal
import Idealize.ShloMosaic.Lib.StableHlo.Run

noncomputable section

namespace Cert.Gather.Ref

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The program's operations in order: the transpose, then the lookup function's twenty-three (the choice
    function's one select among them, written into its own buffer). -/
abbrev ops : List (HloOp τ sig (Elt F)) :=
  [ unary main_arg1 main_v0 ((transpose S50257x1024 [1, 0] · transposes_S1024x50257_S50257x1024_1_0) : (⟨S1024x50257, .f32⟩ : BufTy).Contents (Elt F) → (⟨S50257x1024, .f32⟩ : BufTy).Contents (Elt F)),
    TRef.nullary main_call0.c (constantI S_ 32 0#32),
    TRef.unary main_call0.c main_call0.v0 (broadcastInDim S4x4096 ![] bcast_S_S4x4096),
    TRef.binary (.of main_arg0) main_call0.v0 main_call0.v1 (cmpi .slt),
    TRef.nullary main_call0.c_0 (constantI S_ 32 50257#32),
    TRef.unary main_call0.c_0 main_call0.v2 (broadcastInDim S4x4096 ![] bcast_S_S4x4096),
    TRef.binary (.of main_arg0) main_call0.v2 main_call0.v3 addi,
    TRef.ternary main_call0.v1 main_call0.v3 (.of main_arg0) main_call0.call0.v0 select,
    TRef.unary main_call0.call0.v0 main_call0.v5 (broadcastInDim S4x4096x1 ![0, 1] bcast_S4x4096_S4x4096x1_0_1),
    TRef.nullary main_call0.c_1 (constantI S1 32 50256#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x1_S4x4096_d2 h_S_),
    TRef.binary (.of main_v0) main_call0.v5 main_call0.v13 (fun x i => Host.gather gather_S50257x1024_S4x4096x1_S4x4096x1024_2_0_n_n_0_2_11024 x i),
    TRef.unary main_call0.v12 main_call0.v14 (broadcastInDim S4x4096x1024 ![0, 1] bcast_S4x4096_S4x4096x1024_0_1),
    TRef.nullary main_call0.cst (constant S_ .f32 0x7FC00000#32),
    TRef.unary main_call0.cst main_call0.v15 (broadcastInDim S4x4096x1024 ![] bcast_S_S4x4096x1024),
    TRef.ternary main_call0.v14 main_call0.v13 main_call0.v15 main_call0.v16 select ]

/-- @main is that straight line: the two functions' bodies opened at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- At the compiled mesh, for any float values, from any memory with zero counters: every weakly fair execution
    of @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Gather.Ref

end
-- ==== Proof.RefTerm.lean ====
/-
  What the reference leaves in its result buffer, as one term of the two argument arrays: the token numbers with
  the negative ones moved up by the table's height, the test that each lies between 0 and the last row, the rows of
  the transposed table gathered at the (clamped) token numbers, and the choice between a gathered entry and the
  not-a-number constant by that test.
-/
import proofs.«109605_j40200893891216_1_alg».proof.Proof.RefOps

noncomputable section

namespace Cert.Gather.Ref

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The token numbers as the lookup uses them: a negative one counted from the end of the table. -/
def wrapped (x : IVec S4x4096 32) : IVec S4x4096 32 :=
  select (cmpi .slt x (broadcastInDim S4x4096 ![] bcast_S_S4x4096 (constantI S_ 32 0#32)))
    (addi x (broadcastInDim S4x4096 ![] bcast_S_S4x4096 (constantI S_ 32 50257#32))) x

/-- The same as a column of start indices for the gather. -/
def starts (x : IVec S4x4096 32) : IVec S4x4096x1 32 :=
  broadcastInDim S4x4096x1 ![0, 1] bcast_S4x4096_S4x4096x1_0_1 (wrapped x)

/-- Whether each (wrapped) token number is a row of the table: at least 0 and at most 50256. -/
def inTable (x : IVec S4x4096 32) : IVec S4x4096 1 :=
  Host.reduce IntOp.andi
    (andi (cmpi .sge (starts x) (broadcastInDim S4x4096x1 ![] bcast_S_S4x4096x1 (constantI S_ 32 0#32)))
      (cmpi .sle (starts x) (broadcastInDim S4x4096x1 ![0, 1, 2] bcast_S1x1x1_S4x4096x1_0_1_2
        (broadcastInDim S1x1x1 ![2] bcast_S1_S1x1x1_2 (constantI S1 32 50256#32)))))
    (constantI S_ 1 1#1) reducesTo_S4x4096x1_S4x4096_d2 h_S_

/-- The result as a term of the arguments. -/
def out (x : IVec S4x4096 32) (W : FVec F S1024x50257 .f32) : FVec F S4x4096x1024 .f32 :=
  select (broadcastInDim S4x4096x1024 ![0, 1] bcast_S4x4096_S4x4096x1024_0_1 (inTable x))
    (Host.gather gather_S50257x1024_S4x4096x1_S4x4096x1024_2_0_n_n_0_2_11024
      (transpose S50257x1024 [1, 0] W transposes_S1024x50257_S50257x1024_1_0) (starts x))
    (broadcastInDim S4x4096x1024 ![] bcast_S_S4x4096x1024 (constant S_ .f32 0x7FC00000#32))

end Cert.Gather.Ref

end
-- ==== Proof.RefFold.lean ====
/-
  The fold of the reference's operations, read at the result buffer, is the term `out` of the launch contents of the
  two argument buffers; read at an argument buffer it is that buffer's launch contents.
-/
import proofs.«109605_j40200893891216_1_alg».proof.Proof.RefTerm

noncomputable section

namespace Cert.Gather.Ref

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

attribute [local irreducible] Host.reduce Host.gather transpose broadcastInDim select cmpi addi andi constantI constant in
set_option maxRecDepth 8192 in
set_option maxHeartbeats 1000000 in
/-- The operations' fold at the result buffer is that term of the launch contents of the two arguments: each
    operation writes its own result buffer and no other, so the fold read at the result buffer composes the
    operations' functions along the data flow, down to the two argument buffers, which no operation writes. -/
theorem out_eq (V : Valuation τ sig (Elt F)) :
    after ops V (main_v1 : DevRef τ sig) = out (V (main_arg0 : DevRef τ sig)) (V (main_arg1 : DevRef τ sig)) := by
  simp only [after_cons, after_nil]
  rfl

attribute [local irreducible] Host.reduce Host.gather transpose broadcastInDim select cmpi addi andi constantI constant in
set_option maxRecDepth 8192 in
/-- No operation writes the token numbers. -/
theorem arg0_eq (V : Valuation τ sig (Elt F)) :
    after (ops (F := F)) V (main_arg0 : DevRef τ sig) = V (main_arg0 : DevRef τ sig) := by
  simp only [after_cons, after_nil]
  rfl

attribute [local irreducible] Host.reduce Host.gather transpose broadcastInDim select cmpi addi andi constantI constant in
set_option maxRecDepth 8192 in
/-- No operation writes the table. -/
theorem arg1_eq (V : Valuation τ sig (Elt F)) :
    after (ops (F := F)) V (main_arg1 : DevRef τ sig) = V (main_arg1 : DevRef τ sig) := by
  simp only [after_cons, after_nil]
  rfl

end Cert.Gather.Ref

end
-- ==== Proof.RefValue.lean ====
/-
  The reference's term, read at one index, is the table entry the specification names. At index (b, s, j), when the
  token number x[b, s] is below 50257 read unsigned: it is nonnegative read signed, so the lookup leaves it as it
  is; it lies between 0 and 50256, so the test is true and the gathered entry is chosen; the gather reads the
  transposed table at row x[b, s] (the clamp changes nothing) and column j; and the transposed table at (row, j) is
  the table at (j, row).
-/
import proofs.«109605_j40200893891216_1_alg».proof.Proof.RefTerm
import proofs.«109605_j40200893891216_1_alg».proof.Proof.Spec
import Idealize.ShloMosaic.Lib.ValueLayout
import Idealize.ShloMosaic.Lib.Pipeline.Value
import Idealize.ShloMosaic.Lib.ReduceAll

noncomputable section

namespace Cert.Gather.Ref

open Cert.ReferenceIdeal Cert.ReferenceIdeal.Facts₀ Idealize.ShloMosaic Idealize.ShloMosaic.ValueIdx

variable {F : FTy → Type} [FloatOps F] [Cert.ReferenceIdeal.Facts]

/-! ## Words -/

/-- A word below 50257 read unsigned: it is not negative read signed, it is at least 0 and at most 50256 read
    signed, and its signed value is its unsigned one. -/
theorem word_facts (w : BitVec 32) (h : w.toNat < 50257) :
    IntOp.cmpi .slt w 0#32 = 0#1 ∧ IntOp.cmpi .sge w 0#32 = 1#1 ∧ IntOp.cmpi .sle w 50256#32 = 1#1
      ∧ w.toInt.toNat = w.toNat := by
  have hi : w.toInt = (w.toNat : Int) := BitVec.toInt_eq_toNat_of_lt (by omega)
  have hz : (0#32 : BitVec 32).toInt = 0 := by decide
  have hl : (50256#32 : BitVec 32).toInt = 50256 := by decide
  refine ⟨eq_zero_of_ne_one fun e => ?_, IntOp.cmpi_sge.2 ?_, IntOp.cmpi_sle.2 ?_, ?_⟩
  · have := IntOp.cmpi_slt.1 e
    rw [hi, hz] at this
    omega
  · rw [hi, hz]; omega
  · rw [hi, hl]; omega
  · rw [hi]; omega

/-- A fold by `and` from 1 over ones is 1. -/
theorem foldl_andi_ones {ι : Type} (g : ι → BitVec 1) (hg : ∀ n, g n = 1#1) :
    ∀ l : List ι, l.foldl (fun r n => IntOp.andi r (g n)) 1#1 = 1#1
  | [] => rfl
  | a :: l => by
    show l.foldl (fun r n => IntOp.andi r (g n)) (IntOp.andi 1#1 (g a)) = 1#1
    rw [hg a, show IntOp.andi 1#1 1#1 = 1#1 from by decide]
    exact foldl_andi_ones g hg l

/-! ## The integer stages at an index -/

/-- A token number in range is left as it is. -/
theorem wrapped_apply (x : IVec S4x4096 32) (hx : Cert.Gather.InRange x) (j : S4x4096.Idx) : wrapped x j = x j := by
  show Scalar.select (IntOp.cmpi .slt (x j) 0#32) (IntOp.addi (x j) 50257#32) (x j) = x j
  rw [(word_facts (x j) (hx j)).1]
  exact select_zero _ _

/-- The column of start indices at (b, s, 0) is the wrapped token number at (b, s). -/
theorem starts_apply (x : IVec S4x4096 32) (k : S4x4096x1.Idx) :
    starts x k = wrapped x (ix2 (⟨(k 0).val, (k 0).isLt⟩ : Fin 4) (⟨(k 1).val, (k 1).isLt⟩ : Fin 4096)) :=
  broadcastInDim_apply _ _ _ k _ fun a => match a with | ⟨0, _⟩ => rfl | ⟨1, _⟩ => rfl

/-- With every token number in range the test is true everywhere. -/
theorem inTable_apply (x : IVec S4x4096 32) (hx : Cert.Gather.InRange x) (j : S4x4096.Idx) : inTable x j = 1#1 := by
  unfold inTable
  rw [Host.reduce_eq_foldl]
  refine foldl_andi_ones _ (fun k => ?_) _
  show IntOp.andi (IntOp.cmpi .sge (starts x k) 0#32) (IntOp.cmpi .sle (starts x k) 50256#32) = 1#1
  rw [starts_apply, wrapped_apply x hx]
  obtain ⟨-, h2, h3, -⟩ := word_facts _ (hx (ix2 (⟨(k 0).val, (k 0).isLt⟩ : Fin 4) (⟨(k 1).val, (k 1).isLt⟩ : Fin 4096)))
  rw [h2, h3]
  decide

/-! ## The gather at an index -/

/-- The gather of rows of a [50257, 1024] table at a [4, 4096, 1] column of start indices, read at (b, s, j): the
    table at the row the start index (b, s, 0) names — read signed, clamped to the last row — and column j. -/
theorem gather_rows_apply {α : Type} (T : S50257x1024.Idx → α) (idx : IVec S4x4096x1 32) (i : S4x4096x1024.Idx) :
    Host.gather gather_S50257x1024_S4x4096x1_S4x4096x1024_2_0_n_n_0_2_11024 T idx i
      = T (ix2 (⟨min (idx (ix3 (⟨(i 0).val, (i 0).isLt⟩ : Fin 4) (⟨(i 1).val, (i 1).isLt⟩ : Fin 4096) (⟨0, Nat.one_pos⟩ : Fin 1))).toInt.toNat 50256,
          by omega⟩ : Fin 50257) (⟨(i 2).val, (i 2).isLt⟩ : Fin 1024)) := by
  unfold Host.gather
  congr 1
  funext a
  refine Fin.ext ?_
  match a with
  | ⟨0, _⟩ =>
    show gather_S50257x1024_S4x4096x1_S4x4096x1024_2_0_n_n_0_2_11024.start i idx 0
        + gather_S50257x1024_S4x4096x1_S4x4096x1024_2_0_n_n_0_2_11024.batchCoord i 0
        + gather_S50257x1024_S4x4096x1_S4x4096x1024_2_0_n_n_0_2_11024.offCoord i 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50257x1024_S4x4096x1_S4x4096x1024_2_0_n_n_0_2_11024.startIndexMap from
      List.mem_singleton.mpr rfl)]
    have hsi : gather_S50257x1024_S4x4096x1_S4x4096x1024_2_0_n_n_0_2_11024.siIdx i
        ⟨List.idxOf (0 : Fin 2) gather_S50257x1024_S4x4096x1_S4x4096x1024_2_0_n_n_0_2_11024.startIndexMap,
          List.idxOf_lt_length_iff.2 (List.mem_singleton.mpr rfl)⟩
        = ix3 (⟨(i 0).val, (i 0).isLt⟩ : Fin 4) (⟨(i 1).val, (i 1).isLt⟩ : Fin 4096) (⟨0, Nat.one_pos⟩ : Fin 1) := by
      funext b; refine Fin.ext ?_
      match b with
      | ⟨0, _⟩ => rfl
      | ⟨1, _⟩ => rfl
      | ⟨2, _⟩ => rfl
    rw [hsi]
    rfl
  | ⟨1, _⟩ =>
    show gather_S50257x1024_S4x4096x1_S4x4096x1024_2_0_n_n_0_2_11024.start i idx 1
        + gather_S50257x1024_S4x4096x1_S4x4096x1024_2_0_n_n_0_2_11024.batchCoord i 1
        + gather_S50257x1024_S4x4096x1_S4x4096x1024_2_0_n_n_0_2_11024.offCoord i 1 = (i 2).val
    have hs : gather_S50257x1024_S4x4096x1_S4x4096x1024_2_0_n_n_0_2_11024.start i idx 1 = 0 := by
      unfold GatherDims.start
      exact dif_neg fun h => absurd (List.mem_singleton.mp h) (by decide)
    have ho : gather_S50257x1024_S4x4096x1_S4x4096x1024_2_0_n_n_0_2_11024.offCoord i 1 = (i 2).val := by
      unfold GatherDims.offCoord
      rw [dif_pos ((GatherDims.mem_sKept _ _).mpr
        ⟨fun h => absurd (List.mem_singleton.mp h) (by decide), List.not_mem_nil⟩)]
      rfl
    rw [GatherDims.batchCoord_eq_zero _ _ _ List.not_mem_nil, hs, ho]
    omega

/-! ## The result at an index -/

/-- With every token number in range, the reference's term is the specification's function. -/
theorem out_eq_G (x : IVec S4x4096 32) (W : FVec F S1024x50257 .f32) (hx : Cert.Gather.InRange x) :
    out (F := F) x W = Cert.Gather.G x W := by
  funext i
  have hc : broadcastInDim S4x4096x1024 ![0, 1] bcast_S4x4096_S4x4096x1024_0_1 (inTable x) i = 1#1 :=
    inTable_apply x hx _
  unfold out
  rw [select_apply, hc, select_one, gather_rows_apply, transpose_ix2_apply]
  refine congrArg W (congrArg (ix2 _) (Fin.ext ?_))
  show min (starts x _).toInt.toNat 50256 = min (x _).toNat 50256
  rw [starts_apply, wrapped_apply x hx, (word_facts _ (hx _)).2.2.2]

end Cert.Gather.Ref

end
-- ==== Proof.RefRun.lean ====
/-
  The reference's run. Every weakly fair execution of the reference terminates, faults nowhere and leaves the two
  argument arrays as they were (its frame); and when every token number names a row of the table, it ends with the
  result array equal to the specification's function of the arguments: entry (b, s, j) is W[j, x[b, s]].
-/
import proofs.«109605_j40200893891216_1_alg».proof.Defs
import proofs.«109605_j40200893891216_1_alg».proof.Proof.RefFold
import proofs.«109605_j40200893891216_1_alg».proof.Proof.RefValue

noncomputable section

namespace Cert.Gather.Ref

open Cert.ReferenceIdeal Idealize.ShloMosaic Idealize.ShloMosaic.TcCoe Idealize.SL.Sem Idealize.ShloMosaic.StableHlo

variable [Cert.ReferenceIdeal.Facts]

/-- From any memory whose token numbers all name rows of the table: the reference runs to the end, its result is the
    specification's function of the launch contents of the arguments, and the arguments are unchanged. -/
theorem run (m' : (ℓ : Loc nD τ sig) → Buf (Elt Ideal) ℓ) (ρ' : Dev nD → PrngReg)
    (hx : ∀ c : Dev nD, Cert.Gather.InRange (m' ((c.tc : Thread nD τ).loc main_arg0))) :
    θ_run (defs (F := Ideal)) (onTc (τ := τ) (main (F := Ideal))) ⟨m', fun _ => 0, ρ'⟩ (fun r => ∀ c : Dev nD,
      r.2.mem ((c.tc : Thread nD τ).loc main_v1)
          = Cert.Gather.G (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono (fun _ h c =>
      ⟨((h c main_v1).trans (out_eq _)).trans (out_eq_G _ _ (hx c)),
        (h c main_arg0).trans (arg0_eq _), (h c main_arg1).trans (arg1_eq _)⟩)
    (run_main m' ρ')

/-- The reference's frame: it runs to the end from any memory and leaves its arguments unchanged. -/
theorem frame [Cert.Pre_finite_inputs.Facts] : Cert.frame_ReferenceIdeal :=
  fun m g _ => (θ_run defs _ _).mono (fun _ h c =>
      ⟨(h c main_arg0).trans (arg0_eq _), (h c main_arg1).trans (arg1_eq _)⟩)
    (run_main m g)

end Cert.Gather.Ref

end
-- ==== Proof.KSpec.lean ====
/-
  The gather before the final reshape: with the token numbers laid out as one vector of 16384 words and the
  table as [50257, 1024] (one row per token), entry (n, j) of the [16384, 1024] result is `table[words[n], j]`;
  the kernel fills it 256 rows at a time, block `t` holding rows `256 t … 256 t + 255`.
-/
import proofs.«109605_j40200893891216_1_alg».proof.Proof.Spec

noncomputable section

namespace Cert.Gather

open Idealize.ShloMosaic Idealize.ShloMosaic.ValueIdx

/-- Every word of the flat token vector names a row of the table. -/
def InRangeFlat (xs : (⟨1, ![16384]⟩ : Shape).Idx → BitVec 32) : Prop := ∀ i, (xs i).toNat < 50257

/-- `out[n, j] = table[words[n], j]`. -/
def Gflat {α : Type} (xs : (⟨1, ![16384]⟩ : Shape).Idx → BitVec 32) (wt : (⟨2, ![50257, 1024]⟩ : Shape).Idx → α) :
    (⟨2, ![16384, 1024]⟩ : Shape).Idx → α :=
  fun i => wt (ix2 (rowOf (xs (ix1 (⟨(i 0).val, (i 0).isLt⟩ : Fin 16384)))) (⟨(i 1).val, (i 1).isLt⟩ : Fin 1024))

/-- Rows `256 t … 256 t + 255` of it, as a [256, 1024] block. -/
def blockOut {α : Type} (xs : (⟨1, ![16384]⟩ : Shape).Idx → BitVec 32) (wt : (⟨2, ![50257, 1024]⟩ : Shape).Idx → α)
    (t : Nat) (ht : t < 64) : (⟨2, ![256, 1024]⟩ : Shape).Idx → α :=
  fun y => wt (ix2 (rowOf (xs (ix1 (⟨256 * t + (y 0).val, by have h : (y 0).val < 256 := (y 0).isLt; omega⟩ : Fin 16384))))
    (⟨(y 1).val, (y 1).isLt⟩ : Fin 1024))

end Cert.Gather

end
-- ==== Proof.KRowsI.lean ====
import proofs.«109605_j40200893891216_1_alg».proof.Proof.Gen.KernelIdeal
import proofs.«109605_j40200893891216_1_alg».proof.Proof.Gen.KernelIdeal.Launch
import proofs.«109605_j40200893891216_1_alg».proof.Proof.KSpec
import Idealize.ShloMosaic.Lib.Writes
import Idealize.ShloMosaic.Lib.ValueIdx

noncomputable section

namespace Cert.Proof.GatherKI

open Cert.KernelIdeal Cert.KernelIdeal.Gen
open Idealize.ShloMosaic Idealize.ShloMosaic.ValueIdx

variable {F : FTy → Type} [FloatOps F]

/-- Row `k` of the [256, 1024] block as a vector of 1024: the slice (1, 1024) at (k, 0), its unit axis dropped. -/
abbrev rowM (M3 : Memref sig .tc .vmem S256x1024 .f32) (k : Nat)
    (hk : ∀ a, (![k, 0] : Fin 2 → Nat) a + S1x1024.size a ≤ S256x1024.size a) : Memref sig .tc .vmem S1024 .f32 :=
  (M3.slice (Rect.unit (s := S256x1024) ![k, 0] S1x1024.size hk) (fun _ => rfl)).squeeze S1024 squeezes_S1x1024_S1024

/-- The rectangle of row `k`. -/
abbrev rowR (k : Nat) (hk : ∀ a, (![k, 0] : Fin 2 → Nat) a + S1x1024.size a ≤ S256x1024.size a) : Rect S256x1024 :=
  Rect.unit (s := S256x1024) ![k, 0] S1x1024.size hk

theorem rowR_emb (k : Nat) (hk) (j : Fin 1024) (hk' : k < 256) :
    (rowR k hk).emb (ix2 (⟨0, Nat.one_pos⟩ : Fin 1) j) = (ix2 (⟨k, hk'⟩ : Fin 256) j : S256x1024.Idx) := by
  funext a; apply Fin.ext
  match a with
  | ⟨0, _⟩ => show k + 1 * 0 = k; omega
  | ⟨1, _⟩ => show 0 + 1 * j.val = j.val; omega

/-- A vector written through row `k` is read back, through the block, on row `k`. -/
theorem read_rowWrite_hit (M3 : Memref sig .tc .vmem S256x1024 .f32) (k : Nat) (hk) (hk' : k < 256)
    (f : M3.view.ty.Contents (Elt F)) (pay : S1024.Idx → Elt F .f32) (j : Fin 1024) :
    M3.view.read (Elt F) ((rowM M3 k hk).view.write (Elt F) f pay Finset.univ) (ix2 (⟨k, hk'⟩ : Fin 256) j) = pay (ix1 j) := by
  show M3.view.read (Elt F) (((M3.view.slice (rowR k hk)).reshape S1024 squeezes_S1x1024_S1024.numel_eq).write (Elt F) f pay Finset.univ)
    (ix2 (⟨k, hk'⟩ : Fin 256) j) = pay (ix1 j)
  rw [View.write_reshape_univ, ← rowR_emb k hk j hk', View.read_slice_write_emb _ _ _ (Finset.mem_univ _)]
  refine congrArg pay ((Equiv.symm_apply_eq _).mpr ?_)
  rw [Shape.reshapeEquiv_cons_one (n := 1) (d := ![1024])]
  funext a
  match a with
  | ⟨0, _⟩ => rfl
  | ⟨1, _⟩ => rfl

/-- and leaves every other row as it was. -/
theorem read_rowWrite_miss (M3 : Memref sig .tc .vmem S256x1024 .f32) (k : Nat) (hk)
    (f : M3.view.ty.Contents (Elt F)) (pay : S1024.Idx → Elt F .f32) (s : Fin 256) (hs : s.val ≠ k) (j : Fin 1024) :
    M3.view.read (Elt F) ((rowM M3 k hk).view.write (Elt F) f pay Finset.univ) (ix2 s j) = M3.view.read (Elt F) f (ix2 s j) := by
  show M3.view.read (Elt F) (((M3.view.slice (rowR k hk)).reshape S1024 squeezes_S1x1024_S1024.numel_eq).write (Elt F) f pay Finset.univ)
    (ix2 s j) = _
  rw [View.write_reshape_univ]
  refine View.read_slice_write_of_not_mem _ _ _ _ ?_
  intro hm
  obtain ⟨z, -, hz⟩ := Finset.mem_map.mp hm
  have h0 := congrArg (fun i : S256x1024.Idx => (i 0).val) hz
  have e : ((rowR k hk).emb z 0).val = k + 1 * (z 0).val := rfl
  have hz0 : (z 0).val < 1 := (z 0).isLt
  simp only at h0
  rw [e] at h0
  have : (ix2 s j : S256x1024.Idx) 0 = s := rfl
  rw [this] at h0
  omega

/-- The transfer's payload out of table row `v`: the row's 1024 entries. -/
theorem srcRow_read (v : BitVec 32) (hv : ∀ a, (![v.toNat, 0] : Fin 2 → Nat) a + S1x1024.size a ≤ S50257x1024.size a)
    (hlt : v.toNat < 50257) (wt : (Memref.whole main_v1 : Memref sig .tc _ _ _).view.ty.Contents (Elt F)) (j : Fin 1024) :
    ReadAs.same.apply (View.read (Elt F) (((Memref.whole main_v1).slice (Rect.unit (s := S50257x1024) ![v.toNat, 0] S1x1024.size hv)
      (fun _ => rfl)).squeeze S1024 squeezes_S1x1024_S1024).view wt) (ix1 j) = wt (ix2 (⟨v.toNat, hlt⟩ : Fin 50257) j) := by
  show View.read (Elt F) (((View.whole main_v1).slice (Rect.unit (s := S50257x1024) ![v.toNat, 0] S1x1024.size hv)).reshape S1024
    squeezes_S1x1024_S1024.numel_eq) wt (ix1 j) = _
  rw [View.read_apply]
  show wt ((((View.whole main_v1).slice (Rect.unit (s := S50257x1024) ![v.toNat, 0] S1x1024.size hv)).reshape S1024
    squeezes_S1x1024_S1024.numel_eq).emb (ix1 j)) = _
  refine congrArg wt ?_
  rw [View.emb_reshape, View.emb_slice, View.emb_whole]
  show (Rect.unit (s := S50257x1024) ![v.toNat, 0] S1x1024.size hv).emb (Shape.reshapeEquiv squeezes_S1x1024_S1024.numel_eq (ix1 j)) = _
  rw [Shape.reshapeEquiv_cons_one (n := 1) (d := ![1024])]
  funext a; apply Fin.ext
  match a with
  | ⟨0, _⟩ => show v.toNat + 1 * 0 = v.toNat; omega
  | ⟨1, _⟩ => show 0 + 1 * j.val = j.val; omega

/-! ## The block row by row -/

/-- Rows `0 … n − 1` of the block hold their rows of the gather. -/
def RowsOK (M3 : Memref sig .tc .vmem S256x1024 .f32) (xs : S16384.Idx → BitVec 32) (wt : S50257x1024.Idx → Elt F .f32)
    (t : Nat) (ht : t < 64) (f : M3.view.ty.Contents (Elt F)) (n : Nat) : Prop :=
  ∀ (s : Fin 256) (j : Fin 1024), s.val < n → M3.view.read (Elt F) f (ix2 s j) = Cert.Gather.blockOut xs wt t ht (ix2 s j)

theorem RowsOK.zero (M3 : Memref sig .tc .vmem S256x1024 .f32) (xs : S16384.Idx → BitVec 32) (wt : S50257x1024.Idx → Elt F .f32)
    (t : Nat) (ht : t < 64) (f : M3.view.ty.Contents (Elt F)) : RowsOK M3 xs wt t ht f 0 :=
  fun _ _ h => absurd h (Nat.not_lt_zero _)

/-- Writing row `n` of the gather through row `n` of the block extends the rows that are right by one. -/
theorem RowsOK.step {M3 : Memref sig .tc .vmem S256x1024 .f32} {xs : S16384.Idx → BitVec 32} {wt : S50257x1024.Idx → Elt F .f32}
    {t : Nat} {ht : t < 64} {f : M3.view.ty.Contents (Elt F)} {n : Nat} (hk) (pay : S1024.Idx → Elt F .f32) (hn : n < 256)
    (hpay : ∀ j : Fin 1024, pay (ix1 j) = Cert.Gather.blockOut xs wt t ht (ix2 (⟨n, hn⟩ : Fin 256) j))
    (h : RowsOK M3 xs wt t ht f n) :
    RowsOK M3 xs wt t ht ((rowM M3 n hk).view.write (Elt F) f pay Finset.univ) (n + 1) := by
  intro s j hs
  by_cases e : s.val = n
  · obtain rfl : s = ⟨n, hn⟩ := Fin.ext e
    rw [read_rowWrite_hit M3 n hk hn f pay j, hpay j]
  · rw [read_rowWrite_miss M3 n hk f pay s e j]
    exact h s j (by omega)

/-- All 256 rows right: the block is the gather's. -/
theorem RowsOK.all {M3 : Memref sig .tc .vmem S256x1024 .f32} {xs : S16384.Idx → BitVec 32} {wt : S50257x1024.Idx → Elt F .f32}
    {t : Nat} {ht : t < 64} {f : M3.view.ty.Contents (Elt F)} (h : RowsOK M3 xs wt t ht f 256) :
    M3.view.read (Elt F) f = Cert.Gather.blockOut xs wt t ht := by
  funext y
  rw [eq_ix2 y]
  exact h (y 0) (y 1) (y 0).isLt

/-- What the copy of step `n` moves is row `n` of the gather's block: the word read at `256 t + n` names the table
    row, which the copy reads whole. -/
theorem pay_eq (xs : S16384.Idx → BitVec 32) (wt : S50257x1024.Idx → Elt F .f32) (hx : Cert.Gather.InRangeFlat xs)
    (t : Fin grid0.N) (n : Nat) (hn : n < 256)
    (off : grid0.Coords → Fin 1 → Nat) (inb : ∀ a, off (grid0.coords t) a + S1.size a ≤ S16384.size a) (hnum : 0 < S1.numel)
    (hoff : ∀ t : Fin grid0.N, off (grid0.coords t) 0 = 256 * t.val + n)
    (hv) (j : Fin 1024) :
    ReadAs.same.apply (View.read (Elt F) (((Memref.whole main_v1).slice (Rect.unit (s := S50257x1024)
        ![(View.readAt (Elt F) (Memref.whole main_v0).view (Rect.unit (s := S16384) (off (grid0.coords t)) S1.size inb).toLoadRect xs
            (Shape.Idx.first hnum)).toNat, 0] S1x1024.size hv)
      (fun _ => rfl)).squeeze S1024 squeezes_S1x1024_S1024).view wt) (ix1 j)
      = Cert.Gather.blockOut xs wt t.val (lt_of_lt_of_eq t.isLt N_0) (ix2 (⟨n, hn⟩ : Fin 256) j) := by
  have ht : t.val < 64 := lt_of_lt_of_eq t.isLt N_0
  have hw : View.readAt (Elt F) (Memref.whole main_v0).view (Rect.unit (s := S16384) (off (grid0.coords t)) S1.size inb).toLoadRect xs
      (Shape.Idx.first hnum) = xs (ix1 (⟨256 * t.val + n, by omega⟩ : Fin 16384)) := by
    show xs _ = xs _
    refine congrArg xs (funext fun a => Fin.ext ?_)
    match a with
    | ⟨0, _⟩ => show off (grid0.coords t) 0 + 1 * 0 = 256 * t.val + n; rw [hoff t]; omega
  generalize View.readAt (Elt F) (Memref.whole main_v0).view (Rect.unit (s := S16384) (off (grid0.coords t)) S1.size inb).toLoadRect xs
      (Shape.Idx.first hnum) = v at hw hv ⊢
  subst hw
  rw [srcRow_read _ hv (hx _) wt j]
  show wt _ = wt _
  refine congrArg wt ?_
  funext a
  match a with
  | ⟨0, _⟩ => exact Fin.ext (Cert.Gather.rowOf_val_of_lt _ (hx _)).symm
  | ⟨1, _⟩ => rfl

end Cert.Proof.GatherKI

end
-- ==== Proof.KBodyI.lean ====
import proofs.«109605_j40200893891216_1_alg».proof.Proof.Gen.KernelIdeal
import proofs.«109605_j40200893891216_1_alg».proof.Proof.Gen.KernelIdeal.Skeleton
import proofs.«109605_j40200893891216_1_alg».proof.Proof.Gen.KernelIdeal.Launch
import proofs.«109605_j40200893891216_1_alg».proof.Proof.KSpec
import proofs.«109605_j40200893891216_1_alg».proof.Proof.KRowsI
import Idealize.ShloMosaic.Lib.Tactic
import Idealize.ShloMosaic.Lib.Pipeline.Kit

noncomputable section

namespace Cert.Proof.GatherKI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The resource algebra: the pipeline's rounds beside the counters the transfers' invariants take their tokens from. -/
abbrev UU (nD : Nat) (τ : Topo) : Type := UR sig nD τ × Counters

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- One of the kernel's own transfer cells at zero. -/
abbrev cell (c : Dev nD) (k : DmaSem sig) : sProp 𝕄 := semVal ((c : Thread nD τ), SemLoc.dma k) 0

/-- The eight cells of the ring (the pool's 2 … 9) at zero. -/
abbrev sems0 (c : Dev nD) : sProp 𝕄 :=
  iprop(cell c 2 ∗ cell c 3 ∗ cell c 4 ∗ cell c 5 ∗ cell c 6 ∗ cell c 7 ∗ cell c 8 ∗ cell c 9)

/-- One read share of the table per cell: up to eight row copies read the table at once, and two of them may
    read the same row, so the table is held as ten shares of which cell `k`'s copy borrows share `k`. -/
abbrev tok (c : Dev nD) (k : Fin 10) (wt : Bf (F := F) c (Memref.whole main_v1)) : sProp 𝕄 :=
  (Memref.whole main_v1).view.loc (c : Thread nD τ) ↦{Transfers.shareTok fullShare 10 k} wt

abbrev toks (c : Dev nD) (wt : Bf (F := F) c (Memref.whole main_v1)) : sProp 𝕄 :=
  iprop(tok c 2 wt ∗ tok c 3 wt ∗ tok c 4 wt ∗ tok c 5 wt ∗ tok c 6 wt ∗ tok c 7 wt ∗ tok c 8 wt ∗ tok c 9 wt)

/-- A token word below 50257 names a row inside the table: its row rectangle fits. -/
theorem chk_of_lt (v : BitVec 32) (h : v.toNat < 50257) :
    ∀ a : Fin 2, (![v.toNat, 0] : Fin 2 → Nat) a + S1x1024.size a ≤ S50257x1024.size a := by
  intro a; fin_cases a
  · show v.toNat + 1 ≤ 50257; omega
  · show 0 + 1024 ≤ 1024; omega

/-- A whole staging buffer owned at a block is its buffer held whole at contents that read as the block. -/
theorem owns_iff_pt (c : Dev nD) (M3 : Memref sig .tc .vmem S256x1024 .f32) (h3 : M3.IsWhole) (X : Vec F S256x1024 .f32) :
    (owns (c : Thread nD τ) M3 fullShare X : sProp 𝕄) = iprop(∃ f, ⌜M3.view.read (Elt F) f = X⌝ ∗ pt c M3 f) := by
  unfold owns; rw [h3.set_eq_univ]

set_option maxRecDepth 100000 in
set_option maxHeartbeats 40000000 in
/-- The body at a grid point, the staging buffer held whole. Step `s` of the body reads word `256 t + s`, which
    names a table row because every word is below 50257, waits (from step 8 on) for the copy that used cell
    `s mod 8` eight steps earlier, and starts the copy of that table row into row `s` of the block on that cell;
    the last eight copies are waited for at the end. Each copy borrows the read share of its cell from the table
    and row `s` from the block, and gives both back at its wait; so at the return the table's shares and the
    cells are as they were, and the block is its entry contents overwritten row by row, row `s` by table row
    `words[256 t + s]`: the gather's block `t`. -/
theorem kernelRunPt (c : Dev nD) (t : Fin grid0.N) (M3 : Memref sig .tc .vmem S256x1024 .f32) (h3 : M3.IsWhole)
    (xs : Bf (F := F) c (Memref.whole main_v0)) (wt : Bf (F := F) c (Memref.whole main_v1)) (o : Bf (F := F) c M3)
    (hx : Cert.Gather.InRangeFlat xs)
    (W : Waits sig Unit) (Q : PUnit → sProp 𝕄) :
    iprop(pt c (Memref.whole main_v0) xs ∗ toks c wt ∗ pt c M3 o ∗ sems0 c ∗ owes (c : Thread nD τ) 0 W
      ∗ (iprop(pt c (Memref.whole main_v0) xs ∗ toks c wt
            ∗ (∃ f, ⌜M3.view.read (Elt F) f = Cert.Gather.blockOut xs wt t.val (lt_of_lt_of_eq t.isLt N_0)⌝ ∗ pt c M3 f) ∗ sems0 c
            ∗ ∃ W, owes (c : Thread nD τ) 0 W) -∗ Q ⟨⟩))
    ⊢ wp frame (wpE (defs₀ (F := F)) Variants.none c none) Set.univ
        (cc0__gather_kernel (grid0.coords t) (Memref.whole main_v0) (Memref.isWhole_whole _) (Memref.whole main_v1) (Memref.isWhole_whole _) M3 h3 cc0_scratch0) Q := by
  iintro ⟨Hx, ⟨Hw2, Hw3, Hw4, Hw5, Hw6, Hw7, Hw8, Hw9⟩, Ho, ⟨Hd0, Hd1, Hd2, Hd3, Hd4, Hd5, Hd6, Hd7⟩, HO, Hk⟩
  set_option sl_exec.dmaWindow true in sl_exec_parts! (disch := exact chk_of_lt _ (hx _))
  sl_step
  iapply Hk
  isplitl [Hx]; · iexact Hx
  isplitl [Hw2 Hw3 Hw4 Hw5 Hw6 Hw7 Hw8 Hw9]
  · isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    iexact Hw9
  isplitl [Ho]
  · iexists _; isplitr; swap
    · iexact Ho
    ipureintro
    refine RowsOK.all ?_
    repeat' (first
      | exact RowsOK.zero _ _ _ _ _ _
      | refine RowsOK.step _ _ (by decide) (fun j => ?_) ?_
      | (sl_unfold_run_names; exact pay_eq xs wt hx t _ _ _ _ _ (by decide +kernel) _ j))
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

/-- THE BODY AT A GRID POINT. From the token words (scalar memory), the table's eight read shares, the output
    block's staging buffer, the eight cells at zero and the core's record of waits: the body runs to its return,
    every one of its 256 row copies started and waited for, the words and the table as they were, the cells at zero
    again, and the staging buffer holding rows `256 t … 256 t + 255` of the gather. -/
theorem kernelRun (c : Dev nD) (t : Fin grid0.N) (M3 : Memref sig .tc .vmem S256x1024 .f32) (h3 : M3.IsWhole)
    (xs : Bf (F := F) c (Memref.whole main_v0)) (wt : Bf (F := F) c (Memref.whole main_v1)) (o : Vec F S256x1024 .f32)
    (hx : Cert.Gather.InRangeFlat xs)
    (W : Waits sig Unit) (Q : PUnit → sProp 𝕄) :
    iprop(pt c (Memref.whole main_v0) xs ∗ toks c wt ∗ owns (c : Thread nD τ) M3 fullShare o ∗ sems0 c ∗ owes (c : Thread nD τ) 0 W
      ∗ (iprop(pt c (Memref.whole main_v0) xs ∗ toks c wt
            ∗ owns (c : Thread nD τ) M3 fullShare (Cert.Gather.blockOut xs wt t.val (lt_of_lt_of_eq t.isLt N_0)) ∗ sems0 c
            ∗ ∃ W, owes (c : Thread nD τ) 0 W) -∗ Q ⟨⟩))
    ⊢ wp frame (wpE (defs₀ (F := F)) Variants.none c none) Set.univ
        (cc0__gather_kernel (grid0.coords t) (Memref.whole main_v0) (Memref.isWhole_whole _) (Memref.whole main_v1) (Memref.isWhole_whole _) M3 h3 cc0_scratch0) Q := by
  rw [owns_iff_pt c M3 h3, owns_iff_pt c M3 h3]
  iintro ⟨Hx, Hw, ⟨%f0, -, Ho⟩, Hs, HO, Hk⟩
  iapply (kernelRunPt c t M3 h3 xs wt f0 hx W Q)
  isplitl [Hx]; · iexact Hx
  isplitl [Hw]; · iexact Hw
  isplitl [Ho]; · iexact Ho
  isplitl [Hs]; · iexact Hs
  isplitl [HO]; · iexact HO
  iexact Hk

end Cert.Proof.GatherKI

end
-- ==== Proof.KLaunchI.lean ====
/-
  The launch of the gather kernel, first part: the proof data of its one pipeline and the body obligation.

  @main reshapes the token numbers into one vector of 16384 words (the pipeline's prefetched table, in scalar
  memory) and transposes the weight matrix into a [50257, 1024] table of rows (left where it is: the body copies
  rows out of it itself), runs ONE region over a grid of 64 points — one output window, block t of the
  [16384, 1024] result, rows 256 t … 256 t + 255, staged and written back at every point — and reshapes the
  result. Between the region's ends the body keeps: the words, the table as ten read shares (eight lent to its
  eight transfer cells, two and the remainder kept beside them) and its eight cells at zero. After the body at
  point t the staging buffer holds rows 256 t … 256 t + 255 of the gather.
-/
import proofs.«109605_j40200893891216_1_alg».proof.Proof.KBodyI
import Idealize.ShloMosaic.Lib.Pipeline.Regions

noncomputable section

namespace Cert.Proof.GatherKI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The staging cells' resource algebra is the left component of the certificate's. -/
abbrev EP : Emb (UR sig nD τ) (MT nD τ sig Unit (Elt F) ℕ (UU nD τ) ℕ) := embL

variable (m : (ℓ : Loc nD τ sig) → Buf (Elt F) ℓ)

/-! ## @main before the region: the reshape and the transpose -/

/-- Core `c`'s buffers at launch, as the operations' valuation; -/
abbrev V₀ (c : Dev nD) : Valuation τ sig (Elt F) := fun b => m ((c : Dev nD), b)
/-- and when the region is entered: the two operations have run. -/
abbrev V (c : Dev nD) (b : Ref sig .tc) : Buf (Elt F) ((c : Thread nD τ).loc b) := StableHlo.after hostOps0 (V₀ m c) b

/-! ## The pipeline's proof data -/

/-- The prefetched table's contents when the region is entered: the token words (one device). -/
abbrev adm : (p : Fin 1) → (pcfgs (F := F) p).Adm := fun _ => ⟨fun k => V m 0 (pre0.ref k), trivial⟩

/-- The table's shares the body does not lend: two of the ten and the remainder. -/
abbrev spare (c : Dev nD) (wt : Bf (F := F) c (Memref.whole main_v1)) : sProp 𝕄 :=
  iprop(tok c 0 wt ∗ tok c 1 wt ∗ ((Memref.whole main_v1).view.loc (c : Thread nD τ) ↦{Transfers.shareDrop fullShare 10} wt))

/-- The invariant between the region's ends, the same at every point: the words, the table's ten shares, the eight
    cells at zero. -/
def Φc (c : Dev nD) : sProp 𝕄 :=
  iprop(pt c (Memref.whole main_v0) (V m c main_v0) ∗ toks c (V m c main_v1) ∗ spare c (V m c main_v1) ∗ sems0 c)

/-- The proof data on core `c`: the result array at its entry contents; after the body at point `t` the staging buffer
    holds rows `256 t … 256 t + 255` of the gather; the invariant; nothing owed; the full share. -/
def dats (p : Fin 1) (c : Dev nD) : Dat τ (Elt F) Unit ℕ (UU nD τ) ℕ (Pipeline.pin (pcfgs (F := F)) (adm m) p) c where
  A w := V m c (Pipeline.arrRef spec0 w)
  after w t := match w with
    | ⟨0, _⟩ => Cert.Gather.blockOut (V m c main_v0) (V m c main_v1) t.val (lt_of_lt_of_eq t.isLt N_0)
  Φ _ := Φc m c
  q _ := fullShare
  owed _ := 0

abbrev 𝒱₀ : Variants := Variants.none

set_option backward.isDefEq.respectTransparency.types false in
/-- The body obligation at every point: the invariant taken apart, the body's run at the point applied to the staging
    buffer at whatever it holds, its post reassembled. -/
theorem body_obligation (hx : ∀ c, Cert.Gather.InRangeFlat (V m c main_v0)) (c : Dev nD) :
    BodyObligation (dats m 0 c) (defs₀ (F := F)) 𝒱₀ () Set.univ := fun t => by
  rw [bigSep_W0, bigSep_W0]
  rw [show (dats m 0 c).Φ t.castSucc = Φc m c from rfl, show (dats m 0 c).Φ t.succ = Φc m c from rfl]
  unfold Φc Dat.owesAt Pipeline.owesWithin
  rw [show (dats m 0 c).owed t.castSucc = 0 from rfl, show (dats m 0 c).owed t.succ = 0 from rfl]
  iintro ⟨⟨Hxs, Htoks, Hsp, Hsems⟩, ⟨%W, %hW, HO⟩, ⟨%d0, H0⟩⟩
  iapply (kernelRun c t _ _ (V m c main_v0) (V m c main_v1) _ (hx c) W)
  isplitl [Hxs]; · iexact Hxs
  isplitl [Htoks]; · iexact Htoks
  isplitl [H0]; · iexact H0
  isplitl [Hsems]; · iexact Hsems
  isplitl [HO]; · iexact HO
  iintro ⟨Hxs, Htoks, H0, Hsems, ⟨%W', HO⟩⟩
  isplitl [Hxs Htoks Hsp Hsems]
  · isplitl [Hxs]; · iexact Hxs
    isplitl [Htoks]; · iexact Htoks
    isplitl [Hsp]; · iexact Hsp
    iexact Hsems
  isplitl [HO]
  · iexists W'; isplitr; · ipureintro; exact fun _ _ => Or.inl trivial
    iexact HO
  iexact H0

end Cert.Proof.GatherKI

end
-- ==== Proof.KRunI.lean ====
/-
  The launch of the gather kernel, second part: @main as three segments — the reshape and the transpose, the
  region, the final reshape — and its run. Entering the region, the core's unscoped buffers are sorted into the
  result array (the pipeline's), the token words (its prefetched table), the table of rows and the eight transfer
  cells (the body's invariant) and the rest (the two arguments and the final result, which bypass the region); the
  table of rows is split into ten read shares on the way in and joined back on the way out. Leaving it, they are put
  back together with the result array at its final contents, and the final reshape runs over them.
-/
import proofs.«109605_j40200893891216_1_alg».proof.Proof.KLaunchI
import Idealize.ShloMosaic.Lib.Pipeline.Regions
import Idealize.ShloMosaic.Lib.Pipeline.RegionsLoop
import Idealize.ShloMosaic.Lib.Pipeline.Frame
import Idealize.ShloMosaic.Lib.Pipeline.FrameSuffix

noncomputable section

namespace Cert.Proof.GatherKI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The table of rows as ten read shares -/

/-- The table held whole is its eight lent shares and the three kept ones. -/
theorem table_shares (c : Dev nD) (wt : Bf (F := F) c (Memref.whole main_v1)) :
    (pt c (Memref.whole main_v1) wt : sProp 𝕄) ⊣⊢ iprop(toks c wt ∗ spare c wt) := by
  have h : (pt c (Memref.whole main_v1) wt : sProp 𝕄) ⊣⊢ iprop(((Memref.whole main_v1).view.loc (c : Thread nD τ) ↦{Transfers.shareDrop fullShare 10} wt)
      ∗ tok c 0 wt ∗ tok c 1 wt ∗ tok c 2 wt ∗ tok c 3 wt ∗ tok c 4 wt ∗ tok c 5 wt ∗ tok c 6 wt ∗ tok c 7 wt ∗ tok c 8 wt ∗ tok c 9 wt) := by
    have h := Transfers.pointsTo_toks (Ix := Unit) (Name := ℕ) (U := UU nD τ) (Lvl := ℕ)
      (ℓ := (Memref.whole main_v1).view.loc (c : Thread nD τ)) (S := Finset.univ) (f := wt) fullShare 10
    rw [bigSep_univ_eq_bigSepL [(0 : Fin 10), 1, 2, 3, 4, 5, 6, 7, 8, 9] (by decide) (by decide)] at h
    exact h
  constructor
  · refine h.1.trans ?_
    iintro ⟨Hd, T0, T1, T2, T3, T4, T5, T6, T7, T8, T9⟩
    isplitl [T2 T3 T4 T5 T6 T7 T8 T9]
    · isplitl [T2]; · iexact T2
      isplitl [T3]; · iexact T3
      isplitl [T4]; · iexact T4
      isplitl [T5]; · iexact T5
      isplitl [T6]; · iexact T6
      isplitl [T7]; · iexact T7
      isplitl [T8]; · iexact T8
      iexact T9
    isplitl [T0]; · iexact T0
    isplitl [T1]; · iexact T1
    iexact Hd
  · refine BIBase.Entails.trans ?_ h.2
    iintro ⟨⟨T2, T3, T4, T5, T6, T7, T8, T9⟩, T0, T1, Hd⟩
    isplitl [Hd]; · iexact Hd
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    iexact T9

/-! ## The kernel's own semaphores -/

/-- The eight transfer cells: the pool's 2 … 9. -/
abbrev osem : Fin 8 → SemLoc sig := fun | 0 => .dma 2 | 1 => .dma 3 | 2 => .dma 4 | 3 => .dma 5 | 4 => .dma 6 | 5 => .dma 7 | 6 => .dma 8 | 7 => .dma 9

/-- They are scoped, distinct, and no staging semaphore. -/
theorem ownSemFacts : Pipeline.OwnSemFacts spec0 osem := by decide

omit [FloatOps F] in
/-- The eight cells at zero, listed. -/
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7] (by decide) (by decide)

/-! ## The launch: @main as segments -/

/-- No core owes another anything: no level is assigned. -/
abbrev L : GSem nD τ sig → Finset Unit := fun _ => ∅
abbrev lv : GSem nD τ sig → Unit → ℕ := fun _ _ => 0

/-- What rides beside the buffers through the host operations: the core's record of waits, nothing owed. -/
abbrev R (c : Dev nD) : sProp 𝕄 := iprop(∃ W, owes (c : Thread nD τ) (0 : CellTallies nD τ sig Unit) W)

/-- THE FIRST HOST SEGMENT: the reshape and the transpose over the unscoped buffers. -/
def seg0 : Pipeline.HostSeg (Name := ℕ) (U := UU nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The result array after the region: every block written back. -/
abbrev final (c : Dev nD) (w : Fin 1) : Buf (Elt F) ((spec0 w).arr.view.loc (c : Thread nD τ)) :=
  (dats m 0 c).arrAt w (cfg0 (adm m 0)).N

/-- Core `c`'s buffers when the region is left: the result array at its final contents, every other buffer as the
    region found it. -/
abbrev V₁ (c : Dev nD) : Valuation τ sig (Elt F) :=
  Pipeline.withArrays spec0 c (StableHlo.after hostOps0 (V₀ m c)) (final m c)

/-- THE LAST HOST SEGMENT: the final reshape over the unscoped buffers. -/
def seg1 : Pipeline.HostSeg (Name := ℕ) (U := UU nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₁ m) R

/-- The unscoped buffers that are not the result array: the token words and the four others, listed. -/
theorem rest_eq (c : Dev nD) (W : (b : Ref sig .tc) → Buf (Elt F) ((c : Thread nD τ).loc b)) :
    (Pipeline.unscopedRest (Ix := Unit) (Name := ℕ) (U := UU nD τ) (Lvl := ℕ) spec0 c W : sProp 𝕄)
      = iprop(Pipeline.prefHeld pre0 c (fun _ => fullShare) (fun k => W (pre0.ref k))
          ∗ (((c : Thread nD τ).loc main_arg0) ↦{fullShare} W main_arg0) ∗ (((c : Thread nD τ).loc main_arg1) ↦{fullShare} W main_arg1)
          ∗ (((c : Thread nD τ).loc main_v1) ↦{fullShare} W main_v1) ∗ (((c : Thread nD τ).loc main_v3) ↦{fullShare} W main_v3)) := by
  rw [Pipeline.unscopedRest_split preFacts0 c W, unscopedRestP0_eq c W]

/-- The one prefetched table held is the token words' buffer held. -/
theorem prefHeld_eq (c : Dev nD) (pf : pre0.Contents (Elt F)) :
    (Pipeline.prefHeld (Ix := Unit) (Name := ℕ) (U := UU nD τ) (Lvl := ℕ) pre0 c (fun _ => fullShare) pf : sProp 𝕄)
      = pt c (Memref.whole main_v0) (pf 0) := by
  unfold Pipeline.prefHeld
  exact bigSep_W0 _

set_option backward.isDefEq.respectTransparency.types false in
/-- THE REGION: the pipeline's decided layout, the kernel's eight DMA semaphores, the body obligation; entered from what
    the first segment left — the result array into the pipeline, the token words as its table, the table of rows and
    the cells into the invariant, the two arguments and the final result bypassing —, left with the result array at
    its final contents among the unscoped buffers again. -/
def reg0 (hx : ∀ c, Cert.Gather.InRangeFlat (V m c main_v0)) :
    Pipeline.RegionSeg (pcfgs (F := F)) (adm m) (dats m) () defs₀ 𝒱₀ L lv 0 where
  win := winFacts0.to₀
  block_pos := block_pos0
  stage_whole := stage_whole0
  K := Fin 8
  osem := osem
  ho := ownSemFacts
  hbody c := (body_obligation m hx c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V₁ m c) ∗ R c)
  X c := iprop(pt c (Memref.whole main_v1) (V m c main_v1) ∗ sems0 c)
  Y c := iprop(pt c (Memref.whole main_v0) (V m c main_v0) ∗ pt c (Memref.whole main_v1) (V m c main_v1))
  Z c := iprop((((c : Thread nD τ).loc main_arg0) ↦{fullShare} V m c main_arg0) ∗ (((c : Thread nD τ).loc main_arg1) ↦{fullShare} V m c main_arg1)
    ∗ (((c : Thread nD τ).loc main_v3) ↦{fullShare} V m c main_v3))
  hentry c := by
    obtain rfl : c = 0 := Subsingleton.elim _ _
    rw [show StableHlo.held ((0 : Dev nD) : Thread nD τ) (Pipeline.ucRefs τ sig) (StableHlo.after hostOps0 (V₀ m 0)) = unscopedBufs 0 (V m 0) from
      (Pipeline.unscopedBufs_held 0 _).symm, ownSems0_eq]
    have hsplit := (Pipeline.arrays_of_unscopedBufs (pcfgs (F := F)) (adm m) (dats m) winFacts0 arr_whole0 0
      ((dats m 0 0).share_full fun _ => rfl) (V m 0) fun _ => rfl).trans (sep_mono .rfl (Entails.of_eq (rest_eq 0 (V m 0))))
    iintro ⟨⟨Hub, HO⟩, Hos, -⟩
    ihave H := hsplit $$ Hub
    icases H with ⟨Ha, Hpf, H0, H1, Hv1, Hv3⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hv1 Hos]
    · isplitl [Hv1]; · iexact Hv1
      iexact Hos
    isplitl [H0]; · iexact H0
    isplitl [H1]; · iexact H1
    iexact Hv3
  hin c := by
    obtain rfl : c = 0 := Subsingleton.elim _ _
    rw [show (dats m 0 0).Φ 0 = Φc m 0 from rfl, prefHeld_eq]; unfold Φc
    iintro ⟨⟨Hv1, Hos⟩, Hpf, -⟩
    ihave Ht := (table_shares 0 (V m 0 main_v1)).1 $$ Hv1
    icases Ht with ⟨Htoks, Hsp⟩
    isplitl [Hpf]; · iexact Hpf
    isplitl [Htoks]; · iexact Htoks
    isplitl [Hsp]; · iexact Hsp
    iexact Hos
  hout c := by
    rw [ownSems0_eq, show (dats m 0 c).Φ (Fin.last _) = Φc m c from rfl]; unfold Φc
    iintro ⟨Hxs, Htoks, Hsp, Hsems⟩
    ihave Hv1 := (table_shares c (V m c main_v1)).2 $$ [Htoks Hsp]
    · isplitl [Htoks] <;> iassumption
    isplitl [Hxs Hv1]; · isplitl [Hxs] <;> iassumption
    isplitl [Hsems]; · iexact Hsems
    iapply (Entails.of_eq (scopedRest0_eq c).symm)
    iempintro
  hexit c := by
    obtain rfl : c = 0 := Subsingleton.elim _ _
    have hjoin := Pipeline.unscopedBufs_of_arrays (pcfgs (F := F)) (adm m) winFacts0 arr_whole0 0 (dats m)
      ((dats m 0 0).share_full fun _ => rfl) (V m 0) (fun b => V₁ m 0 b) (final m 0)
      (fun w => (Pipeline.withArrays_arr spec0 winFacts0.arr_inj 0 _ _ w).symm)
      (fun b hb => Pipeline.withArrays_of_ne spec0 0 _ _ b fun w e => hb (Finset.mem_image.mpr ⟨w, Finset.mem_univ _, e⟩))
    rw [rest_eq, prefHeld_eq, Pipeline.unscopedBufs_held] at hjoin
    iintro ⟨Ha, HO, ⟨Hv0, Hv1⟩, H0, H1, Hv3⟩
    imodintro
    isplitr [HO]
    · iapply hjoin
      isplitl [Ha]; · iexact Ha
      isplitl [Hv0]; · iexact Hv0
      isplitl [H0]; · iexact H0
      isplitl [H1]; · iexact H1
      isplitl [Hv1]; · iexact Hv1
      iexact Hv3
    · unfold Pipeline.Dat.owesAt Pipeline.owesWithin
      icases HO with ⟨%W, -, HO⟩; iexists W; iexact HO

/-- @main as the list of the three. -/
abbrev segs (hx : ∀ c, Cert.Gather.InRangeFlat (V m c main_v0)) :
    List (Pipeline.Seg (pcfgs (F := F)) (adm m) (dats m) () defs₀ 𝒱₀ L lv) :=
  [.host (seg0 m), .region (reg0 m hx), .host (seg1 m)]

/-- The launch element: the staging cells' initial element with the pipeline's transfer tokens; no counter yet. -/
def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

/-- Core `c`'s buffers at the end: the final reshape has run over what the region left. -/
abbrev V₂ (c : Dev nD) : Valuation τ sig (Elt F) := StableHlo.after hostOps1 (V₁ m c)

set_option backward.isDefEq.respectTransparency.types false in
/-- At the compiled mesh, for any float values, from any memory with zero counters whose token words all name rows
    of the table: every weakly fair execution of @main on the TensorCores terminates, and every final state has each
    unscoped buffer at the final reshape's fold over what the region left. -/
theorem run_held (hx : ∀ c, Cert.Gather.InRangeFlat (V m c main_v0)) :
    θ_run defs (onTc (τ := τ) (main (F := F))) ⟨m, fun _ => 0, ρ⟩ (fun r => ∀ c : Dev nD,
    ∀ b ∈ Pipeline.ucRefs τ sig, r.2.mem ((c : Dev nD), b) = V₂ m c b) :=
  Pipeline.θ_run_regions_kit (pcfgs (F := F)) (adm m) (dats m) () (cellOf_inj (adm m)) EP defs₀ 𝒱₀ L lv m ρ main (segs m hx)
    (fun c Q => by rw [main_segs (adm m) (dats m) () 𝒱₀ L lv (seg0 m) (seg1 m) (reg0 m hx) rfl rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₂ m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from
        Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = V₂ m c b)
    (hfin := fun c s' => by
      iintro ⟨Hh, HSI⟩
      ihave Hr := (pointsTo_read_all (Pipeline.ucRefs τ sig) (fun b => ((c : Dev nD), b)) (fun b => V₂ m c b) s') $$ [Hh HSI]
      · isplitl [Hh]; · unfold StableHlo.held; iexact Hh
        iexact HSI
      icases Hr with ⟨%h, HSI⟩
      imodintro
      isplitr; · ipureintro; exact h
      iexact HSI)
    (hQ := fun _ h => h)

/-! ## What the buffers hold, read off the host operations -/

/-- The token words the region reads are the token numbers in row-major order. -/
theorem V_v0 (c : Dev nD) :
    V m c main_v0 = shapeCast S16384 (m ((c : Thread nD τ).loc main_arg0)) shapeCasts_S4x4096_S16384 := by
  show StableHlo.after hostOps0 (V₀ m c) (main_v0 : DevRef τ sig) = _
  after_results
  rfl

/-- The table of rows is the weight matrix transposed. -/
theorem V_v1 (c : Dev nD) :
    V m c main_v1 = transpose S50257x1024 [1, 0] (m ((c : Thread nD τ).loc main_arg1)) transposes_S1024x50257_S50257x1024_1_0 := by
  show StableHlo.after hostOps0 (V₀ m c) (main_v1 : DevRef τ sig) = _
  after_results

/-- Token numbers that all name rows of the table, laid out flat, still do. -/
theorem hx_of_inRange (c : Dev nD) (h : Cert.Gather.InRange (m ((c : Thread nD τ).loc main_arg0))) :
    Cert.Gather.InRangeFlat (V m c main_v0) := by
  intro i
  rw [V_v0]
  exact h _

/-- The final result is the result array's final contents, reshaped. -/
theorem V₂_v3 (c : Dev nD) :
    V₂ m c main_v3 = shapeCast S4x4096x1024 (final m c 0) shapeCasts_S16384x1024_S4x4096x1024 := by
  have e : V₁ m c (main_v2 : DevRef τ sig) = final m c 0 := Pipeline.withArrays_arr spec0 winFacts0.arr_inj c _ _ 0
  show StableHlo.after hostOps1 (V₁ m c) (main_v3 : DevRef τ sig) = _
  generalize V₁ m c = W at e ⊢
  after_results
  rw [e]
  rfl

/-- No operation and no block of the region writes the token numbers; -/
theorem V₂_arg0 (c : Dev nD) : V₂ m c main_arg0 = m ((c : Thread nD τ).loc main_arg0) := by
  have e : V₁ m c (main_arg0 : DevRef τ sig) = StableHlo.after hostOps0 (V₀ m c) (main_arg0 : DevRef τ sig) :=
    Pipeline.withArrays_of_ne spec0 c _ _ main_arg0 (fun w => by fin_cases w; decide)
  show StableHlo.after hostOps1 (V₁ m c) (main_arg0 : DevRef τ sig) = _
  generalize V₁ m c = W at e ⊢
  after_results
  rw [e]
  after_results

/-- nor the weight matrix. -/
theorem V₂_arg1 (c : Dev nD) : V₂ m c main_arg1 = m ((c : Thread nD τ).loc main_arg1) := by
  have e : V₁ m c (main_arg1 : DevRef τ sig) = StableHlo.after hostOps0 (V₀ m c) (main_arg1 : DevRef τ sig) :=
    Pipeline.withArrays_of_ne spec0 c _ _ main_arg1 (fun w => by fin_cases w; decide)
  show StableHlo.after hostOps1 (V₁ m c) (main_arg1 : DevRef τ sig) = _
  generalize V₁ m c = W at e ⊢
  after_results
  rw [e]
  after_results

/-- THE RUN. At the compiled mesh, for any float values, from any memory with zero counters whose token words all
    name rows of the table: every weakly fair execution of @main on the TensorCores terminates, the final result is
    the reshape of the result array as the region's write-backs left it, and the two arguments are unchanged. -/
theorem run_main (hx : ∀ c, Cert.Gather.InRangeFlat (V m c main_v0)) :
    θ_run defs (onTc (τ := τ) (main (F := F))) ⟨m, fun _ => 0, ρ⟩ (fun r => ∀ c : Dev nD,
      r.2.mem ((c : Thread nD τ).loc main_v3)
          = shapeCast S4x4096x1024 ((dats m 0 c).arrAt 0 (cfg0 (adm m 0)).N) shapeCasts_S16384x1024_S4x4096x1024
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c =>
      ⟨(h c (main_v3 : DevRef τ sig) (by decide)).trans (V₂_v3 m c),
        (h c (main_arg0 : DevRef τ sig) (by decide)).trans (V₂_arg0 m c),
        (h c (main_arg1 : DevRef τ sig) (by decide)).trans (V₂_arg1 m c)⟩)
    (run_held m ρ hx)

/-- THE FRAME. From any memory with zero counters whose token numbers all name rows of the table: every weakly fair
    execution of @main terminates, faults nowhere and leaves the two arguments unchanged. -/
theorem frame_of_range (hx : ∀ c : Dev nD, Cert.Gather.InRange (m ((c : Thread nD τ).loc main_arg0))) :
    θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => (h c).2) (run_main m ρ fun c => hx_of_inRange m c (hx c))

end Cert.Proof.GatherKI

end
-- ==== Proof.KBlocks.lean ====
/-
  From blocks to the array. The kernel's one output array [16384, 1024] is written back in 64 blocks of
  [256, 1024]: grid point `t` owns block `(t, 0)`, that is rows `256 t … 256 t + 255`, every point writes its
  block back, and the blocks tile the array (the point that covers row `r` is `r / 256`). So if each point
  leaves rows `256 t … 256 t + 255` of the flat gather in its staging buffer, the array ends holding the flat
  gather, whatever it held before. Everything is stated with the prefetched table's contents a variable: the
  block index map does not read them.
-/
import proofs.«109605_j40200893891216_1_alg».proof.Proof.Gen.KernelIdeal
import proofs.«109605_j40200893891216_1_alg».proof.Proof.Gen.KernelIdeal.Launch
import proofs.«109605_j40200893891216_1_alg».proof.Proof.KSpec
import Idealize.ShloMosaic.Lib.Pipeline.Value
import Idealize.ShloMosaic.Lib.Tactic

noncomputable section

namespace Cert.Gather.KVal

open Cert.KernelIdeal Cert.KernelIdeal.Gen
open Idealize.ShloMosaic Idealize.ShloMosaic.TcCoe Idealize.SL.Sem
open Idealize.ShloMosaic.Pipeline (Dat)
open Idealize.SL Idealize.SL.RA

variable {F : FTy → Type} [FloatOps F]

variable {Ix : Type} [DecidableEq Ix] {Name : Type} [DecidableEq Name] {U : Type} [URA U] {Lvl : Type}

/-- The block index map over the grid: point `t` owns block `(t, 0)`. -/
theorem blockIndex_grid : ∀ t : Fin grid0.N, cc0_transform_1 (grid0.coords t) (0 : Fin 2) = t.val
    ∧ cc0_transform_1 (grid0.coords t) (1 : Fin 2) = 0 := by decide +kernel

theorem blockIndex (a : (pcfg0 (F := F)).Adm) (t : Fin (cfg0 a).N) :
    (win0 a 0).index t (0 : Fin 2) = t.val ∧ (win0 a 0).index t (1 : Fin 2) = 0 := blockIndex_grid t

/-- Every point writes its block back. -/
theorem flush_all (a : (pcfg0 (F := F)).Adm) (t : Fin (cfg0 a).N) : ((cfg0 a).win 0).flush t = true := by
  have hN : grid0.N = 64 := N_0
  have ht : t.val < 64 := lt_of_lt_of_eq t.isLt hN
  show ((win0 a 0).isOut && (decide (t.val + 1 = grid0.N) || decide (∃ h : t.val + 1 < grid0.N, (win0 a 0).index ⟨t.val + 1, h⟩ ≠ (win0 a 0).index t))) = true
  rw [Bool.and_eq_true, Bool.or_eq_true, decide_eq_true_eq, decide_eq_true_eq]
  refine ⟨rfl, ?_⟩
  by_cases h : t.val + 1 = grid0.N
  · exact Or.inl h
  · right
    have h' : t.val + 1 < grid0.N := by rw [hN] at h ⊢; omega
    refine ⟨h', fun e => ?_⟩
    have e0 : (win0 a 0).index ⟨t.val + 1, h'⟩ (0 : Fin 2) = (win0 a 0).index t (0 : Fin 2) := congrFun e 0
    rw [(blockIndex a ⟨t.val + 1, h'⟩).1, (blockIndex a t).1] at e0
    exact absurd e0 (Nat.succ_ne_self _)

theorem mem_block (a : (pcfg0 (F := F)).Adm) (t : Fin (cfg0 a).N) (i : S16384x1024.Idx) :
    i ∈ (((cfg0 a).win 0).blk t).view.set ↔ ∀ b : Fin 2, (win0 a 0).index t b * S256x1024.size b ≤ (i b).val ∧ (i b).val < (win0 a 0).index t b * S256x1024.size b + S256x1024.size b := by
  show i ∈ ((View.whole main_v2).slice ((win0 a 0).rect t)).set ↔ _
  rw [View.set_slice_whole, Rect.mem_set_unit]
  exact Iff.rfl

/-- An entry of the flat gather whose row is `256 t + p` is entry `p` of block `t`. -/
theorem gflat_eq_blockOut (xs : S16384.Idx → BitVec 32) (wt : S50257x1024.Idx → Elt F .f32)
    (t : Nat) (ht : t < 64) (y : S256x1024.Idx) (i : S16384x1024.Idx)
    (h0 : (i 0).val = 256 * t + (y 0).val) (h1 : (i 1).val = (y 1).val) :
    Cert.Gather.blockOut xs wt t ht y = Cert.Gather.Gflat xs wt i := by
  have e0 : (⟨256 * t + (y 0).val, by have h : (y 0).val < 256 := (y 0).isLt; omega⟩ : Fin 16384) = ⟨(i 0).val, (i 0).isLt⟩ := Fin.ext h0.symm
  have e1 : (⟨(y 1).val, (y 1).isLt⟩ : Fin 1024) = ⟨(i 1).val, (i 1).isLt⟩ := Fin.ext h1.symm
  show wt (ValueIdx.ix2 (Cert.Gather.rowOf (xs (ValueIdx.ix1 (⟨256 * t + (y 0).val, _⟩ : Fin 16384)))) (⟨(y 1).val, (y 1).isLt⟩ : Fin 1024))
    = wt (ValueIdx.ix2 (Cert.Gather.rowOf (xs (ValueIdx.ix1 (⟨(i 0).val, (i 0).isLt⟩ : Fin 16384)))) (⟨(i 1).val, (i 1).isLt⟩ : Fin 1024))
  rw [e0, e1]

/-- What point `t` writes back is block `t` of the flat gather. -/
theorem flushed_eq (a : (pcfg0 (F := F)).Adm) {c : Dev nD} (dat : Dat τ (Elt F) Ix Name U Lvl (cfg0 a) c)
    (xs : S16384.Idx → BitVec 32) (wt : S50257x1024.Idx → Elt F .f32) (t : Fin (cfg0 a).N)
    (hafter : dat.after 0 t = Cert.Gather.blockOut xs wt t.val (lt_of_lt_of_eq t.isLt N_0)) :
    dat.flushed 0 t = (((cfg0 a).win 0).blk t).view.read (Elt F) (Cert.Gather.Gflat xs wt) := by
  show ((cfg0 a).win 0).cut (grid0.coords t) (dat.after 0 t) = _
  rw [hafter]
  obtain ⟨e0, e1⟩ := blockIndex a t
  refine funext fun (y : S256x1024.Idx) => ?_
  show Cert.Gather.blockOut xs wt t.val _ y = Cert.Gather.Gflat xs wt ((((cfg0 a).win 0).blk t).view.emb y)
  refine gflat_eq_blockOut xs wt t.val _ y _ ?_ ?_
  · show (win0 a 0).index t (0 : Fin 2) * 256 + 1 * (y 0).val = 256 * t.val + (y 0).val
    rw [e0]; omega
  · show (win0 a 0).index t (1 : Fin 2) * 1024 + 1 * (y 1).val = (y 1).val
    rw [e1]; omega

/-- Every entry of the array lies in the block of the point its row divided by 256 names. -/
theorem covered (a : (pcfg0 (F := F)).Adm) (i : S16384x1024.Idx) :
    ∃ t : Fin (cfg0 a).N, ((cfg0 a).win 0).flush t = true ∧ i ∈ (((cfg0 a).win 0).blk t).view.set := by
  have hi0 : (i 0).val < 16384 := (i 0).isLt
  have hi1 : (i 1).val < 1024 := (i 1).isLt
  have hN : grid0.N = 64 := N_0
  have hq : (i 0).val / 256 < grid0.N := by rw [hN]; omega
  refine ⟨⟨(i 0).val / 256, hq⟩, flush_all a _, ?_⟩
  rw [mem_block]
  obtain ⟨e0, e1⟩ := blockIndex a ⟨(i 0).val / 256, hq⟩
  intro b
  match b with
  | ⟨0, _⟩ =>
    show (win0 a 0).index ⟨(i 0).val / 256, hq⟩ (0 : Fin 2) * 256 ≤ (i 0).val
      ∧ (i 0).val < (win0 a 0).index ⟨(i 0).val / 256, hq⟩ (0 : Fin 2) * 256 + 256
    rw [e0]
    show (i 0).val / 256 * 256 ≤ (i 0).val ∧ (i 0).val < (i 0).val / 256 * 256 + 256
    omega
  | ⟨1, _⟩ =>
    show (win0 a 0).index ⟨(i 0).val / 256, hq⟩ (1 : Fin 2) * 1024 ≤ (i 1).val
      ∧ (i 1).val < (win0 a 0).index ⟨(i 0).val / 256, hq⟩ (1 : Fin 2) * 1024 + 1024
    rw [e1]
    omega

/-- THE ARRAY after all 64 write-backs is the flat gather, whatever it held before: each point leaves rows
    `256 t … 256 t + 255` of it in its staging buffer, the blocks tile the array. -/
theorem final_of_after (a : (pcfg0 (F := F)).Adm) {c : Dev nD} (dat : Dat τ (Elt F) Ix Name U Lvl (cfg0 a) c)
    (xs : S16384.Idx → BitVec 32) (wt : S50257x1024.Idx → Elt F .f32)
    (hafter : ∀ t : Fin (cfg0 a).N, dat.after 0 t = Cert.Gather.blockOut xs wt t.val (lt_of_lt_of_eq t.isLt N_0)) :
    dat.arrAt 0 (cfg0 a).N = Cert.Gather.Gflat xs wt :=
  dat.arrAt_eq_of_cover 0 (Cert.Gather.Gflat xs wt) (fun t _ => flushed_eq a dat xs wt t (hafter t)) (covered a)

end Cert.Gather.KVal
end
-- ==== Proof.KReshape.lean ====
/-
  The gather through the host's layout operations. The program flattens the token numbers [4, 4096] to one vector
  of 16384 words (flat position `n = 4096 b + s`), transposes the matrix [1024, 50257] to a table [50257, 1024]
  (`table[k, j] = W[j, k]`), and after the region reshapes the [16384, 1024] result to [4, 4096, 1024] (entry
  `(b, s, j)` is entry `(4096 b + s, j)`). Read index by index, the reshaped flat gather of the flattened token
  numbers and the transposed matrix is the gather `out[b, s, j] = W[j, x[b, s]]`; no hypothesis on the token
  numbers is needed, and none on the element type.
-/
import proofs.«109605_j40200893891216_1_alg».proof.Proof.KSpec
import Idealize.ShloMosaic.Lib.Pipeline.Value
import Idealize.ShloMosaic.Lib.ValueLayout

noncomputable section

namespace Cert.Gather.KVal

open Idealize.ShloMosaic Idealize.ShloMosaic.ValueIdx

variable {α : Type}

/-- The flattened token vector at position `4096 b + s` is the token number at `(b, s)`. -/
theorem flat_tokens_apply (x : (⟨2, ![4, 4096]⟩ : Shape).Idx → BitVec 32)
    (h1 : (⟨2, ![4, 4096]⟩ : Shape).ShapeCasts ⟨1, ![16384]⟩) (b : Fin 4) (s : Fin 4096) (n : Fin 16384)
    (hn : n.val = 4096 * b.val + s.val) :
    shapeCast ⟨1, ![16384]⟩ x h1 (ix1 n) = x (ix2 b s) :=
  shapeCast_apply x h1 _ _ (by
    rw [Shape.rowMajor_val_two, Shape.rowMajor_val_one]
    show b.val * 4096 + s.val = n.val
    omega)

/-- The [16384, 1024] array reshaped to [4, 4096, 1024] reads, at `(b, s, j)`, its entry `(4096 b + s, j)`. -/
theorem unflatten_apply (y : (⟨2, ![16384, 1024]⟩ : Shape).Idx → α)
    (h3 : (⟨2, ![16384, 1024]⟩ : Shape).ShapeCasts ⟨3, ![4, 4096, 1024]⟩) (b : Fin 4) (s : Fin 4096) (j : Fin 1024)
    (n : Fin 16384) (hn : n.val = 4096 * b.val + s.val) :
    shapeCast ⟨3, ![4, 4096, 1024]⟩ y h3 (ix3 b s j) = y (ix2 n j) :=
  shapeCast_apply y h3 _ _ (by
    rw [Shape.rowMajor_val_two, Shape.rowMajor_val_three]
    show n.val * 1024 + j.val = (b.val * 4096 + s.val) * 1024 + j.val
    rw [hn]; omega)

/-- THE RESHAPED FLAT GATHER of the flattened token numbers and the transposed matrix is the gather. -/
theorem reshape_gather (x : (⟨2, ![4, 4096]⟩ : Shape).Idx → BitVec 32) (W : (⟨2, ![1024, 50257]⟩ : Shape).Idx → α)
    (h1 : (⟨2, ![4, 4096]⟩ : Shape).ShapeCasts ⟨1, ![16384]⟩)
    (h2 : (⟨2, ![1024, 50257]⟩ : Shape).Transposes [1, 0] ⟨2, ![50257, 1024]⟩)
    (h3 : (⟨2, ![16384, 1024]⟩ : Shape).ShapeCasts ⟨3, ![4, 4096, 1024]⟩) :
    shapeCast ⟨3, ![4, 4096, 1024]⟩
        (Gflat (shapeCast ⟨1, ![16384]⟩ x h1) (transpose ⟨2, ![50257, 1024]⟩ [1, 0] W h2)) h3
      = G x W := by
  funext i
  obtain ⟨b, s, j, rfl⟩ : ∃ (b : Fin 4) (s : Fin 4096) (j : Fin 1024), i = ix3 b s j := ⟨i 0, i 1, i 2, eq_ix3 i⟩
  have hb : b.val < 4 := b.isLt
  have hs : s.val < 4096 := s.isLt
  have hn : 4096 * b.val + s.val < 16384 := by omega
  rw [unflatten_apply _ h3 b s j ⟨4096 * b.val + s.val, hn⟩ rfl]
  show transpose ⟨2, ![50257, 1024]⟩ [1, 0] W h2
      (ix2 (rowOf (shapeCast ⟨1, ![16384]⟩ x h1 (ix1 (⟨4096 * b.val + s.val, hn⟩ : Fin 16384)))) (⟨j.val, j.isLt⟩ : Fin 1024))
    = W (ix2 (⟨j.val, j.isLt⟩ : Fin 1024) (rowOf (x (ix2 (⟨b.val, b.isLt⟩ : Fin 4) (⟨s.val, s.isLt⟩ : Fin 4096)))))
  rw [transpose_ix2_apply, flat_tokens_apply x h1 b s ⟨4096 * b.val + s.val, hn⟩ rfl]

/-- Token numbers all naming rows of the table still do once flattened. -/
theorem inRangeFlat_of_inRange (x : (⟨2, ![4, 4096]⟩ : Shape).Idx → BitVec 32)
    (h1 : (⟨2, ![4, 4096]⟩ : Shape).ShapeCasts ⟨1, ![16384]⟩) (h : InRange x) :
    InRangeFlat (shapeCast ⟨1, ![16384]⟩ x h1) := by
  intro i
  show ((x (Shape.reshapeEquiv _ i))).toNat < 50257
  exact h _

end Cert.Gather.KVal

end
-- ==== Proof.KValueI.lean ====
/-
  The kernel's value. The result array after the region is the gather of table rows at the token words (every
  block written back is its 256 rows of it, and the blocks tile the array); the token words are the token numbers
  in row-major order, the table of rows is the weight matrix transposed, and the final reshape puts row
  4096 b + s at (b, s): so the final result's entry (b, s, j) is W[j, x[b, s]], the specification's function of
  the two arguments, whenever every token number names a row of the table.
-/
import proofs.«109605_j40200893891216_1_alg».proof.Proof.KRunI
import proofs.«109605_j40200893891216_1_alg».proof.Proof.KBlocks
import proofs.«109605_j40200893891216_1_alg».proof.Proof.KReshape

noncomputable section

namespace Cert.Proof.GatherKI

open Cert.KernelIdeal Cert.KernelIdeal.Gen

open Idealize.ShloMosaic
open Idealize.ShloMosaic.TcCoe
open Idealize.SL Idealize.SL.RA Idealize.SL.Sem

variable {F : FTy → Type} [FloatOps F]

variable (m : (ℓ : Loc nD τ sig) → Buf (Elt F) ℓ) (ρ : Dev nD → PrngReg)

/-- The result array after the region is the gather of table rows at the token words. -/
theorem final_eq (c : Dev nD) :
    (dats m 0 c).arrAt 0 (cfg0 (adm m 0)).N = Cert.Gather.Gflat (V m c main_v0) (V m c main_v1) :=
  Cert.Gather.KVal.final_of_after (adm m 0) (dats m 0 c) (V m c main_v0) (V m c main_v1) fun t => by dsimp only [dats]; rfl

/-- THE KERNEL'S RUN, READ. From any memory with zero counters whose token numbers all name rows of the table: every
    weakly fair execution of @main terminates, the final result is the specification's function of the two
    arguments, and the arguments are unchanged. -/
theorem run_value (hx : ∀ c : Dev nD, Cert.Gather.InRange (m ((c : Thread nD τ).loc main_arg0))) :
    θ_run defs (onTc (τ := τ) (main (F := F))) ⟨m, fun _ => 0, ρ⟩ (fun r => ∀ c : Dev nD,
      r.2.mem ((c : Thread nD τ).loc main_v3)
          = Cert.Gather.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c =>
      ⟨(h c).1.trans (by rw [final_eq, V_v0, V_v1]; exact Cert.Gather.KVal.reshape_gather _ _ _ _ _), (h c).2⟩)
    (run_main m ρ fun c => hx_of_inRange m c (hx c))

end Cert.Proof.GatherKI

end
-- ==== Proof.KRowsB.lean ====
import proofs.«109605_j40200893891216_1_alg».proof.Proof.Gen.Kernel
import proofs.«109605_j40200893891216_1_alg».proof.Proof.Gen.Kernel.Launch
import proofs.«109605_j40200893891216_1_alg».proof.Proof.KSpec
import Idealize.ShloMosaic.Lib.Writes
import Idealize.ShloMosaic.Lib.ValueIdx

noncomputable section

namespace Cert.Proof.GatherKB

open Cert.Kernel Cert.Kernel.Gen
open Idealize.ShloMosaic Idealize.ShloMosaic.ValueIdx

variable {F : FTy → Type} [FloatOps F]

/-- Row `k` of the [256, 1024] block as a vector of 1024: the slice (1, 1024) at (k, 0), its unit axis dropped. -/
abbrev rowM (M3 : Memref sig .tc .vmem S256x1024 .f32) (k : Nat)
    (hk : ∀ a, (![k, 0] : Fin 2 → Nat) a + S1x1024.size a ≤ S256x1024.size a) : Memref sig .tc .vmem S1024 .f32 :=
  (M3.slice (Rect.unit (s := S256x1024) ![k, 0] S1x1024.size hk) (fun _ => rfl)).squeeze S1024 squeezes_S1x1024_S1024

/-- The rectangle of row `k`. -/
abbrev rowR (k : Nat) (hk : ∀ a, (![k, 0] : Fin 2 → Nat) a + S1x1024.size a ≤ S256x1024.size a) : Rect S256x1024 :=
  Rect.unit (s := S256x1024) ![k, 0] S1x1024.size hk

theorem rowR_emb (k : Nat) (hk) (j : Fin 1024) (hk' : k < 256) :
    (rowR k hk).emb (ix2 (⟨0, Nat.one_pos⟩ : Fin 1) j) = (ix2 (⟨k, hk'⟩ : Fin 256) j : S256x1024.Idx) := by
  funext a; apply Fin.ext
  match a with
  | ⟨0, _⟩ => show k + 1 * 0 = k; omega
  | ⟨1, _⟩ => show 0 + 1 * j.val = j.val; omega

/-- A vector written through row `k` is read back, through the block, on row `k`. -/
theorem read_rowWrite_hit (M3 : Memref sig .tc .vmem S256x1024 .f32) (k : Nat) (hk) (hk' : k < 256)
    (f : M3.view.ty.Contents (Elt F)) (pay : S1024.Idx → Elt F .f32) (j : Fin 1024) :
    M3.view.read (Elt F) ((rowM M3 k hk).view.write (Elt F) f pay Finset.univ) (ix2 (⟨k, hk'⟩ : Fin 256) j) = pay (ix1 j) := by
  show M3.view.read (Elt F) (((M3.view.slice (rowR k hk)).reshape S1024 squeezes_S1x1024_S1024.numel_eq).write (Elt F) f pay Finset.univ)
    (ix2 (⟨k, hk'⟩ : Fin 256) j) = pay (ix1 j)
  rw [View.write_reshape_univ, ← rowR_emb k hk j hk', View.read_slice_write_emb _ _ _ (Finset.mem_univ _)]
  refine congrArg pay ((Equiv.symm_apply_eq _).mpr ?_)
  rw [Shape.reshapeEquiv_cons_one (n := 1) (d := ![1024])]
  funext a
  match a with
  | ⟨0, _⟩ => rfl
  | ⟨1, _⟩ => rfl

/-- and leaves every other row as it was. -/
theorem read_rowWrite_miss (M3 : Memref sig .tc .vmem S256x1024 .f32) (k : Nat) (hk)
    (f : M3.view.ty.Contents (Elt F)) (pay : S1024.Idx → Elt F .f32) (s : Fin 256) (hs : s.val ≠ k) (j : Fin 1024) :
    M3.view.read (Elt F) ((rowM M3 k hk).view.write (Elt F) f pay Finset.univ) (ix2 s j) = M3.view.read (Elt F) f (ix2 s j) := by
  show M3.view.read (Elt F) (((M3.view.slice (rowR k hk)).reshape S1024 squeezes_S1x1024_S1024.numel_eq).write (Elt F) f pay Finset.univ)
    (ix2 s j) = _
  rw [View.write_reshape_univ]
  refine View.read_slice_write_of_not_mem _ _ _ _ ?_
  intro hm
  obtain ⟨z, -, hz⟩ := Finset.mem_map.mp hm
  have h0 := congrArg (fun i : S256x1024.Idx => (i 0).val) hz
  have e : ((rowR k hk).emb z 0).val = k + 1 * (z 0).val := rfl
  have hz0 : (z 0).val < 1 := (z 0).isLt
  simp only at h0
  rw [e] at h0
  have : (ix2 s j : S256x1024.Idx) 0 = s := rfl
  rw [this] at h0
  omega

/-- The transfer's payload out of table row `v`: the row's 1024 entries. -/
theorem srcRow_read (v : BitVec 32) (hv : ∀ a, (![v.toNat, 0] : Fin 2 → Nat) a + S1x1024.size a ≤ S50257x1024.size a)
    (hlt : v.toNat < 50257) (wt : (Memref.whole main_v1 : Memref sig .tc _ _ _).view.ty.Contents (Elt F)) (j : Fin 1024) :
    ReadAs.same.apply (View.read (Elt F) (((Memref.whole main_v1).slice (Rect.unit (s := S50257x1024) ![v.toNat, 0] S1x1024.size hv)
      (fun _ => rfl)).squeeze S1024 squeezes_S1x1024_S1024).view wt) (ix1 j) = wt (ix2 (⟨v.toNat, hlt⟩ : Fin 50257) j) := by
  show View.read (Elt F) (((View.whole main_v1).slice (Rect.unit (s := S50257x1024) ![v.toNat, 0] S1x1024.size hv)).reshape S1024
    squeezes_S1x1024_S1024.numel_eq) wt (ix1 j) = _
  rw [View.read_apply]
  show wt ((((View.whole main_v1).slice (Rect.unit (s := S50257x1024) ![v.toNat, 0] S1x1024.size hv)).reshape S1024
    squeezes_S1x1024_S1024.numel_eq).emb (ix1 j)) = _
  refine congrArg wt ?_
  rw [View.emb_reshape, View.emb_slice, View.emb_whole]
  show (Rect.unit (s := S50257x1024) ![v.toNat, 0] S1x1024.size hv).emb (Shape.reshapeEquiv squeezes_S1x1024_S1024.numel_eq (ix1 j)) = _
  rw [Shape.reshapeEquiv_cons_one (n := 1) (d := ![1024])]
  funext a; apply Fin.ext
  match a with
  | ⟨0, _⟩ => show v.toNat + 1 * 0 = v.toNat; omega
  | ⟨1, _⟩ => show 0 + 1 * j.val = j.val; omega

/-! ## The block row by row -/

/-- Rows `0 … n − 1` of the block hold their rows of the gather. -/
def RowsOK (M3 : Memref sig .tc .vmem S256x1024 .f32) (xs : S16384.Idx → BitVec 32) (wt : S50257x1024.Idx → Elt F .f32)
    (t : Nat) (ht : t < 64) (f : M3.view.ty.Contents (Elt F)) (n : Nat) : Prop :=
  ∀ (s : Fin 256) (j : Fin 1024), s.val < n → M3.view.read (Elt F) f (ix2 s j) = Cert.Gather.blockOut xs wt t ht (ix2 s j)

theorem RowsOK.zero (M3 : Memref sig .tc .vmem S256x1024 .f32) (xs : S16384.Idx → BitVec 32) (wt : S50257x1024.Idx → Elt F .f32)
    (t : Nat) (ht : t < 64) (f : M3.view.ty.Contents (Elt F)) : RowsOK M3 xs wt t ht f 0 :=
  fun _ _ h => absurd h (Nat.not_lt_zero _)

/-- Writing row `n` of the gather through row `n` of the block extends the rows that are right by one. -/
theorem RowsOK.step {M3 : Memref sig .tc .vmem S256x1024 .f32} {xs : S16384.Idx → BitVec 32} {wt : S50257x1024.Idx → Elt F .f32}
    {t : Nat} {ht : t < 64} {f : M3.view.ty.Contents (Elt F)} {n : Nat} (hk) (pay : S1024.Idx → Elt F .f32) (hn : n < 256)
    (hpay : ∀ j : Fin 1024, pay (ix1 j) = Cert.Gather.blockOut xs wt t ht (ix2 (⟨n, hn⟩ : Fin 256) j))
    (h : RowsOK M3 xs wt t ht f n) :
    RowsOK M3 xs wt t ht ((rowM M3 n hk).view.write (Elt F) f pay Finset.univ) (n + 1) := by
  intro s j hs
  by_cases e : s.val = n
  · obtain rfl : s = ⟨n, hn⟩ := Fin.ext e
    rw [read_rowWrite_hit M3 n hk hn f pay j, hpay j]
  · rw [read_rowWrite_miss M3 n hk f pay s e j]
    exact h s j (by omega)

/-- All 256 rows right: the block is the gather's. -/
theorem RowsOK.all {M3 : Memref sig .tc .vmem S256x1024 .f32} {xs : S16384.Idx → BitVec 32} {wt : S50257x1024.Idx → Elt F .f32}
    {t : Nat} {ht : t < 64} {f : M3.view.ty.Contents (Elt F)} (h : RowsOK M3 xs wt t ht f 256) :
    M3.view.read (Elt F) f = Cert.Gather.blockOut xs wt t ht := by
  funext y
  rw [eq_ix2 y]
  exact h (y 0) (y 1) (y 0).isLt

/-- What the copy of step `n` moves is row `n` of the gather's block: the word read at `256 t + n` names the table
    row, which the copy reads whole. -/
theorem pay_eq (xs : S16384.Idx → BitVec 32) (wt : S50257x1024.Idx → Elt F .f32) (hx : Cert.Gather.InRangeFlat xs)
    (t : Fin grid0.N) (n : Nat) (hn : n < 256)
    (off : grid0.Coords → Fin 1 → Nat) (inb : ∀ a, off (grid0.coords t) a + S1.size a ≤ S16384.size a) (hnum : 0 < S1.numel)
    (hoff : ∀ t : Fin grid0.N, off (grid0.coords t) 0 = 256 * t.val + n)
    (hv) (j : Fin 1024) :
    ReadAs.same.apply (View.read (Elt F) (((Memref.whole main_v1).slice (Rect.unit (s := S50257x1024)
        ![(View.readAt (Elt F) (Memref.whole main_v0).view (Rect.unit (s := S16384) (off (grid0.coords t)) S1.size inb).toLoadRect xs
            (Shape.Idx.first hnum)).toNat, 0] S1x1024.size hv)
      (fun _ => rfl)).squeeze S1024 squeezes_S1x1024_S1024).view wt) (ix1 j)
      = Cert.Gather.blockOut xs wt t.val (lt_of_lt_of_eq t.isLt N_0) (ix2 (⟨n, hn⟩ : Fin 256) j) := by
  have ht : t.val < 64 := lt_of_lt_of_eq t.isLt N_0
  have hw : View.readAt (Elt F) (Memref.whole main_v0).view (Rect.unit (s := S16384) (off (grid0.coords t)) S1.size inb).toLoadRect xs
      (Shape.Idx.first hnum) = xs (ix1 (⟨256 * t.val + n, by omega⟩ : Fin 16384)) := by
    show xs _ = xs _
    refine congrArg xs (funext fun a => Fin.ext ?_)
    match a with
    | ⟨0, _⟩ => show off (grid0.coords t) 0 + 1 * 0 = 256 * t.val + n; rw [hoff t]; omega
  generalize View.readAt (Elt F) (Memref.whole main_v0).view (Rect.unit (s := S16384) (off (grid0.coords t)) S1.size inb).toLoadRect xs
      (Shape.Idx.first hnum) = v at hw hv ⊢
  subst hw
  rw [srcRow_read _ hv (hx _) wt j]
  show wt _ = wt _
  refine congrArg wt ?_
  funext a
  match a with
  | ⟨0, _⟩ => exact Fin.ext (Cert.Gather.rowOf_val_of_lt _ (hx _)).symm
  | ⟨1, _⟩ => rfl

end Cert.Proof.GatherKB

end
-- ==== Proof.KBodyB.lean ====
import proofs.«109605_j40200893891216_1_alg».proof.Proof.Gen.Kernel
import proofs.«109605_j40200893891216_1_alg».proof.Proof.Gen.Kernel.Skeleton
import proofs.«109605_j40200893891216_1_alg».proof.Proof.Gen.Kernel.Launch
import proofs.«109605_j40200893891216_1_alg».proof.Proof.KSpec
import proofs.«109605_j40200893891216_1_alg».proof.Proof.KRowsB
import Idealize.ShloMosaic.Lib.Tactic
import Idealize.ShloMosaic.Lib.Pipeline.Kit

noncomputable section

namespace Cert.Proof.GatherKB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The resource algebra: the pipeline's rounds beside the counters the transfers' invariants take their tokens from. -/
abbrev UU (nD : Nat) (τ : Topo) : Type := UR sig nD τ × Counters

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- One of the kernel's own transfer cells at zero. -/
abbrev cell (c : Dev nD) (k : DmaSem sig) : sProp 𝕄 := semVal ((c : Thread nD τ), SemLoc.dma k) 0

/-- The eight cells of the ring (the pool's 2 … 9) at zero. -/
abbrev sems0 (c : Dev nD) : sProp 𝕄 :=
  iprop(cell c 2 ∗ cell c 3 ∗ cell c 4 ∗ cell c 5 ∗ cell c 6 ∗ cell c 7 ∗ cell c 8 ∗ cell c 9)

/-- One read share of the table per cell: up to eight row copies read the table at once, and two of them may
    read the same row, so the table is held as ten shares of which cell `k`'s copy borrows share `k`. -/
abbrev tok (c : Dev nD) (k : Fin 10) (wt : Bf (F := F) c (Memref.whole main_v1)) : sProp 𝕄 :=
  (Memref.whole main_v1).view.loc (c : Thread nD τ) ↦{Transfers.shareTok fullShare 10 k} wt

abbrev toks (c : Dev nD) (wt : Bf (F := F) c (Memref.whole main_v1)) : sProp 𝕄 :=
  iprop(tok c 2 wt ∗ tok c 3 wt ∗ tok c 4 wt ∗ tok c 5 wt ∗ tok c 6 wt ∗ tok c 7 wt ∗ tok c 8 wt ∗ tok c 9 wt)

/-- A token word below 50257 names a row inside the table: its row rectangle fits. -/
theorem chk_of_lt (v : BitVec 32) (h : v.toNat < 50257) :
    ∀ a : Fin 2, (![v.toNat, 0] : Fin 2 → Nat) a + S1x1024.size a ≤ S50257x1024.size a := by
  intro a; fin_cases a
  · show v.toNat + 1 ≤ 50257; omega
  · show 0 + 1024 ≤ 1024; omega

/-- A whole staging buffer owned at a block is its buffer held whole at contents that read as the block. -/
theorem owns_iff_pt (c : Dev nD) (M3 : Memref sig .tc .vmem S256x1024 .f32) (h3 : M3.IsWhole) (X : Vec F S256x1024 .f32) :
    (owns (c : Thread nD τ) M3 fullShare X : sProp 𝕄) = iprop(∃ f, ⌜M3.view.read (Elt F) f = X⌝ ∗ pt c M3 f) := by
  unfold owns; rw [h3.set_eq_univ]

set_option maxRecDepth 100000 in
set_option maxHeartbeats 40000000 in
/-- The body at a grid point, the staging buffer held whole. Step `s` of the body reads word `256 t + s`, which
    names a table row because every word is below 50257, waits (from step 8 on) for the copy that used cell
    `s mod 8` eight steps earlier, and starts the copy of that table row into row `s` of the block on that cell;
    the last eight copies are waited for at the end. Each copy borrows the read share of its cell from the table
    and row `s` from the block, and gives both back at its wait; so at the return the table's shares and the
    cells are as they were, and the block is its entry contents overwritten row by row, row `s` by table row
    `words[256 t + s]`: the gather's block `t`. -/
theorem kernelRunPt (c : Dev nD) (t : Fin grid0.N) (M3 : Memref sig .tc .vmem S256x1024 .f32) (h3 : M3.IsWhole)
    (xs : Bf (F := F) c (Memref.whole main_v0)) (wt : Bf (F := F) c (Memref.whole main_v1)) (o : Bf (F := F) c M3)
    (hx : Cert.Gather.InRangeFlat xs)
    (W : Waits sig Unit) (Q : PUnit → sProp 𝕄) :
    iprop(pt c (Memref.whole main_v0) xs ∗ toks c wt ∗ pt c M3 o ∗ sems0 c ∗ owes (c : Thread nD τ) 0 W
      ∗ (iprop(pt c (Memref.whole main_v0) xs ∗ toks c wt
            ∗ (∃ f, ⌜M3.view.read (Elt F) f = Cert.Gather.blockOut xs wt t.val (lt_of_lt_of_eq t.isLt N_0)⌝ ∗ pt c M3 f) ∗ sems0 c
            ∗ ∃ W, owes (c : Thread nD τ) 0 W) -∗ Q ⟨⟩))
    ⊢ wp frame (wpE (defs₀ (F := F)) Variants.none c none) Set.univ
        (cc0__gather_kernel (grid0.coords t) (Memref.whole main_v0) (Memref.isWhole_whole _) (Memref.whole main_v1) (Memref.isWhole_whole _) M3 h3 cc0_scratch0) Q := by
  iintro ⟨Hx, ⟨Hw2, Hw3, Hw4, Hw5, Hw6, Hw7, Hw8, Hw9⟩, Ho, ⟨Hd0, Hd1, Hd2, Hd3, Hd4, Hd5, Hd6, Hd7⟩, HO, Hk⟩
  set_option sl_exec.dmaWindow true in sl_exec_parts! (disch := exact chk_of_lt _ (hx _))
  sl_step
  iapply Hk
  isplitl [Hx]; · iexact Hx
  isplitl [Hw2 Hw3 Hw4 Hw5 Hw6 Hw7 Hw8 Hw9]
  · isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    iexact Hw9
  isplitl [Ho]
  · iexists _; isplitr; swap
    · iexact Ho
    ipureintro
    refine RowsOK.all ?_
    repeat' (first
      | exact RowsOK.zero _ _ _ _ _ _
      | refine RowsOK.step _ _ (by decide) (fun j => ?_) ?_
      | (sl_unfold_run_names; exact pay_eq xs wt hx t _ _ _ _ _ (by decide +kernel) _ j))
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

/-- THE BODY AT A GRID POINT. From the token words (scalar memory), the table's eight read shares, the output
    block's staging buffer, the eight cells at zero and the core's record of waits: the body runs to its return,
    every one of its 256 row copies started and waited for, the words and the table as they were, the cells at zero
    again, and the staging buffer holding rows `256 t … 256 t + 255` of the gather. -/
theorem kernelRun (c : Dev nD) (t : Fin grid0.N) (M3 : Memref sig .tc .vmem S256x1024 .f32) (h3 : M3.IsWhole)
    (xs : Bf (F := F) c (Memref.whole main_v0)) (wt : Bf (F := F) c (Memref.whole main_v1)) (o : Vec F S256x1024 .f32)
    (hx : Cert.Gather.InRangeFlat xs)
    (W : Waits sig Unit) (Q : PUnit → sProp 𝕄) :
    iprop(pt c (Memref.whole main_v0) xs ∗ toks c wt ∗ owns (c : Thread nD τ) M3 fullShare o ∗ sems0 c ∗ owes (c : Thread nD τ) 0 W
      ∗ (iprop(pt c (Memref.whole main_v0) xs ∗ toks c wt
            ∗ owns (c : Thread nD τ) M3 fullShare (Cert.Gather.blockOut xs wt t.val (lt_of_lt_of_eq t.isLt N_0)) ∗ sems0 c
            ∗ ∃ W, owes (c : Thread nD τ) 0 W) -∗ Q ⟨⟩))
    ⊢ wp frame (wpE (defs₀ (F := F)) Variants.none c none) Set.univ
        (cc0__gather_kernel (grid0.coords t) (Memref.whole main_v0) (Memref.isWhole_whole _) (Memref.whole main_v1) (Memref.isWhole_whole _) M3 h3 cc0_scratch0) Q := by
  rw [owns_iff_pt c M3 h3, owns_iff_pt c M3 h3]
  iintro ⟨Hx, Hw, ⟨%f0, -, Ho⟩, Hs, HO, Hk⟩
  iapply (kernelRunPt c t M3 h3 xs wt f0 hx W Q)
  isplitl [Hx]; · iexact Hx
  isplitl [Hw]; · iexact Hw
  isplitl [Ho]; · iexact Ho
  isplitl [Hs]; · iexact Hs
  isplitl [HO]; · iexact HO
  iexact Hk

end Cert.Proof.GatherKB

end
-- ==== Proof.KLaunchB.lean ====
/-
  The launch of the gather kernel, first part: the proof data of its one pipeline and the body obligation.

  @main reshapes the token numbers into one vector of 16384 words (the pipeline's prefetched table, in scalar
  memory) and transposes the weight matrix into a [50257, 1024] table of rows (left where it is: the body copies
  rows out of it itself), runs ONE region over a grid of 64 points — one output window, block t of the
  [16384, 1024] result, rows 256 t … 256 t + 255, staged and written back at every point — and reshapes the
  result. Between the region's ends the body keeps: the words, the table as ten read shares (eight lent to its
  eight transfer cells, two and the remainder kept beside them) and its eight cells at zero. After the body at
  point t the staging buffer holds rows 256 t … 256 t + 255 of the gather.
-/
import proofs.«109605_j40200893891216_1_alg».proof.Proof.KBodyB
import Idealize.ShloMosaic.Lib.Pipeline.Regions

noncomputable section

namespace Cert.Proof.GatherKB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The staging cells' resource algebra is the left component of the certificate's. -/
abbrev EP : Emb (UR sig nD τ) (MT nD τ sig Unit (Elt F) ℕ (UU nD τ) ℕ) := embL

variable (m : (ℓ : Loc nD τ sig) → Buf (Elt F) ℓ)

/-! ## @main before the region: the reshape and the transpose -/

/-- Core `c`'s buffers at launch, as the operations' valuation; -/
abbrev V₀ (c : Dev nD) : Valuation τ sig (Elt F) := fun b => m ((c : Dev nD), b)
/-- and when the region is entered: the two operations have run. -/
abbrev V (c : Dev nD) (b : Ref sig .tc) : Buf (Elt F) ((c : Thread nD τ).loc b) := StableHlo.after hostOps0 (V₀ m c) b

/-! ## The pipeline's proof data -/

/-- The prefetched table's contents when the region is entered: the token words (one device). -/
abbrev adm : (p : Fin 1) → (pcfgs (F := F) p).Adm := fun _ => ⟨fun k => V m 0 (pre0.ref k), trivial⟩

/-- The table's shares the body does not lend: two of the ten and the remainder. -/
abbrev spare (c : Dev nD) (wt : Bf (F := F) c (Memref.whole main_v1)) : sProp 𝕄 :=
  iprop(tok c 0 wt ∗ tok c 1 wt ∗ ((Memref.whole main_v1).view.loc (c : Thread nD τ) ↦{Transfers.shareDrop fullShare 10} wt))

/-- The invariant between the region's ends, the same at every point: the words, the table's ten shares, the eight
    cells at zero. -/
def Φc (c : Dev nD) : sProp 𝕄 :=
  iprop(pt c (Memref.whole main_v0) (V m c main_v0) ∗ toks c (V m c main_v1) ∗ spare c (V m c main_v1) ∗ sems0 c)

/-- The proof data on core `c`: the result array at its entry contents; after the body at point `t` the staging buffer
    holds rows `256 t … 256 t + 255` of the gather; the invariant; nothing owed; the full share. -/
def dats (p : Fin 1) (c : Dev nD) : Dat τ (Elt F) Unit ℕ (UU nD τ) ℕ (Pipeline.pin (pcfgs (F := F)) (adm m) p) c where
  A w := V m c (Pipeline.arrRef spec0 w)
  after w t := match w with
    | ⟨0, _⟩ => Cert.Gather.blockOut (V m c main_v0) (V m c main_v1) t.val (lt_of_lt_of_eq t.isLt N_0)
  Φ _ := Φc m c
  q _ := fullShare
  owed _ := 0

abbrev 𝒱₀ : Variants := Variants.none

set_option backward.isDefEq.respectTransparency.types false in
/-- The body obligation at every point: the invariant taken apart, the body's run at the point applied to the staging
    buffer at whatever it holds, its post reassembled. -/
theorem body_obligation (hx : ∀ c, Cert.Gather.InRangeFlat (V m c main_v0)) (c : Dev nD) :
    BodyObligation (dats m 0 c) (defs₀ (F := F)) 𝒱₀ () Set.univ := fun t => by
  rw [bigSep_W0, bigSep_W0]
  rw [show (dats m 0 c).Φ t.castSucc = Φc m c from rfl, show (dats m 0 c).Φ t.succ = Φc m c from rfl]
  unfold Φc Dat.owesAt Pipeline.owesWithin
  rw [show (dats m 0 c).owed t.castSucc = 0 from rfl, show (dats m 0 c).owed t.succ = 0 from rfl]
  iintro ⟨⟨Hxs, Htoks, Hsp, Hsems⟩, ⟨%W, %hW, HO⟩, ⟨%d0, H0⟩⟩
  iapply (kernelRun c t _ _ (V m c main_v0) (V m c main_v1) _ (hx c) W)
  isplitl [Hxs]; · iexact Hxs
  isplitl [Htoks]; · iexact Htoks
  isplitl [H0]; · iexact H0
  isplitl [Hsems]; · iexact Hsems
  isplitl [HO]; · iexact HO
  iintro ⟨Hxs, Htoks, H0, Hsems, ⟨%W', HO⟩⟩
  isplitl [Hxs Htoks Hsp Hsems]
  · isplitl [Hxs]; · iexact Hxs
    isplitl [Htoks]; · iexact Htoks
    isplitl [Hsp]; · iexact Hsp
    iexact Hsems
  isplitl [HO]
  · iexists W'; isplitr; · ipureintro; exact fun _ _ => Or.inl trivial
    iexact HO
  iexact H0

end Cert.Proof.GatherKB

end
-- ==== Proof.KRunB.lean ====
/-
  The launch of the gather kernel, second part: @main as three segments — the reshape and the transpose, the
  region, the final reshape — and its run. Entering the region, the core's unscoped buffers are sorted into the
  result array (the pipeline's), the token words (its prefetched table), the table of rows and the eight transfer
  cells (the body's invariant) and the rest (the two arguments and the final result, which bypass the region); the
  table of rows is split into ten read shares on the way in and joined back on the way out. Leaving it, they are put
  back together with the result array at its final contents, and the final reshape runs over them.
-/
import proofs.«109605_j40200893891216_1_alg».proof.Proof.KLaunchB
import Idealize.ShloMosaic.Lib.Pipeline.Regions
import Idealize.ShloMosaic.Lib.Pipeline.RegionsLoop
import Idealize.ShloMosaic.Lib.Pipeline.Frame
import Idealize.ShloMosaic.Lib.Pipeline.FrameSuffix

noncomputable section

namespace Cert.Proof.GatherKB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The table of rows as ten read shares -/

/-- The table held whole is its eight lent shares and the three kept ones. -/
theorem table_shares (c : Dev nD) (wt : Bf (F := F) c (Memref.whole main_v1)) :
    (pt c (Memref.whole main_v1) wt : sProp 𝕄) ⊣⊢ iprop(toks c wt ∗ spare c wt) := by
  have h : (pt c (Memref.whole main_v1) wt : sProp 𝕄) ⊣⊢ iprop(((Memref.whole main_v1).view.loc (c : Thread nD τ) ↦{Transfers.shareDrop fullShare 10} wt)
      ∗ tok c 0 wt ∗ tok c 1 wt ∗ tok c 2 wt ∗ tok c 3 wt ∗ tok c 4 wt ∗ tok c 5 wt ∗ tok c 6 wt ∗ tok c 7 wt ∗ tok c 8 wt ∗ tok c 9 wt) := by
    have h := Transfers.pointsTo_toks (Ix := Unit) (Name := ℕ) (U := UU nD τ) (Lvl := ℕ)
      (ℓ := (Memref.whole main_v1).view.loc (c : Thread nD τ)) (S := Finset.univ) (f := wt) fullShare 10
    rw [bigSep_univ_eq_bigSepL [(0 : Fin 10), 1, 2, 3, 4, 5, 6, 7, 8, 9] (by decide) (by decide)] at h
    exact h
  constructor
  · refine h.1.trans ?_
    iintro ⟨Hd, T0, T1, T2, T3, T4, T5, T6, T7, T8, T9⟩
    isplitl [T2 T3 T4 T5 T6 T7 T8 T9]
    · isplitl [T2]; · iexact T2
      isplitl [T3]; · iexact T3
      isplitl [T4]; · iexact T4
      isplitl [T5]; · iexact T5
      isplitl [T6]; · iexact T6
      isplitl [T7]; · iexact T7
      isplitl [T8]; · iexact T8
      iexact T9
    isplitl [T0]; · iexact T0
    isplitl [T1]; · iexact T1
    iexact Hd
  · refine BIBase.Entails.trans ?_ h.2
    iintro ⟨⟨T2, T3, T4, T5, T6, T7, T8, T9⟩, T0, T1, Hd⟩
    isplitl [Hd]; · iexact Hd
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    iexact T9

/-! ## The kernel's own semaphores -/

/-- The eight transfer cells: the pool's 2 … 9. -/
abbrev osem : Fin 8 → SemLoc sig := fun | 0 => .dma 2 | 1 => .dma 3 | 2 => .dma 4 | 3 => .dma 5 | 4 => .dma 6 | 5 => .dma 7 | 6 => .dma 8 | 7 => .dma 9

/-- They are scoped, distinct, and no staging semaphore. -/
theorem ownSemFacts : Pipeline.OwnSemFacts spec0 osem := by decide

omit [FloatOps F] in
/-- The eight cells at zero, listed. -/
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7] (by decide) (by decide)

/-! ## The launch: @main as segments -/

/-- No core owes another anything: no level is assigned. -/
abbrev L : GSem nD τ sig → Finset Unit := fun _ => ∅
abbrev lv : GSem nD τ sig → Unit → ℕ := fun _ _ => 0

/-- What rides beside the buffers through the host operations: the core's record of waits, nothing owed. -/
abbrev R (c : Dev nD) : sProp 𝕄 := iprop(∃ W, owes (c : Thread nD τ) (0 : CellTallies nD τ sig Unit) W)

/-- THE FIRST HOST SEGMENT: the reshape and the transpose over the unscoped buffers. -/
def seg0 : Pipeline.HostSeg (Name := ℕ) (U := UU nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The result array after the region: every block written back. -/
abbrev final (c : Dev nD) (w : Fin 1) : Buf (Elt F) ((spec0 w).arr.view.loc (c : Thread nD τ)) :=
  (dats m 0 c).arrAt w (cfg0 (adm m 0)).N

/-- Core `c`'s buffers when the region is left: the result array at its final contents, every other buffer as the
    region found it. -/
abbrev V₁ (c : Dev nD) : Valuation τ sig (Elt F) :=
  Pipeline.withArrays spec0 c (StableHlo.after hostOps0 (V₀ m c)) (final m c)

/-- THE LAST HOST SEGMENT: the final reshape over the unscoped buffers. -/
def seg1 : Pipeline.HostSeg (Name := ℕ) (U := UU nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V₁ m) R

/-- The unscoped buffers that are not the result array: the token words and the four others, listed. -/
theorem rest_eq (c : Dev nD) (W : (b : Ref sig .tc) → Buf (Elt F) ((c : Thread nD τ).loc b)) :
    (Pipeline.unscopedRest (Ix := Unit) (Name := ℕ) (U := UU nD τ) (Lvl := ℕ) spec0 c W : sProp 𝕄)
      = iprop(Pipeline.prefHeld pre0 c (fun _ => fullShare) (fun k => W (pre0.ref k))
          ∗ (((c : Thread nD τ).loc main_arg0) ↦{fullShare} W main_arg0) ∗ (((c : Thread nD τ).loc main_arg1) ↦{fullShare} W main_arg1)
          ∗ (((c : Thread nD τ).loc main_v1) ↦{fullShare} W main_v1) ∗ (((c : Thread nD τ).loc main_v3) ↦{fullShare} W main_v3)) := by
  rw [Pipeline.unscopedRest_split preFacts0 c W, unscopedRestP0_eq c W]

/-- The one prefetched table held is the token words' buffer held. -/
theorem prefHeld_eq (c : Dev nD) (pf : pre0.Contents (Elt F)) :
    (Pipeline.prefHeld (Ix := Unit) (Name := ℕ) (U := UU nD τ) (Lvl := ℕ) pre0 c (fun _ => fullShare) pf : sProp 𝕄)
      = pt c (Memref.whole main_v0) (pf 0) := by
  unfold Pipeline.prefHeld
  exact bigSep_W0 _

set_option backward.isDefEq.respectTransparency.types false in
/-- THE REGION: the pipeline's decided layout, the kernel's eight DMA semaphores, the body obligation; entered from what
    the first segment left — the result array into the pipeline, the token words as its table, the table of rows and
    the cells into the invariant, the two arguments and the final result bypassing —, left with the result array at
    its final contents among the unscoped buffers again. -/
def reg0 (hx : ∀ c, Cert.Gather.InRangeFlat (V m c main_v0)) :
    Pipeline.RegionSeg (pcfgs (F := F)) (adm m) (dats m) () defs₀ 𝒱₀ L lv 0 where
  win := winFacts0.to₀
  block_pos := block_pos0
  stage_whole := stage_whole0
  K := Fin 8
  osem := osem
  ho := ownSemFacts
  hbody c := (body_obligation m hx c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V₁ m c) ∗ R c)
  X c := iprop(pt c (Memref.whole main_v1) (V m c main_v1) ∗ sems0 c)
  Y c := iprop(pt c (Memref.whole main_v0) (V m c main_v0) ∗ pt c (Memref.whole main_v1) (V m c main_v1))
  Z c := iprop((((c : Thread nD τ).loc main_arg0) ↦{fullShare} V m c main_arg0) ∗ (((c : Thread nD τ).loc main_arg1) ↦{fullShare} V m c main_arg1)
    ∗ (((c : Thread nD τ).loc main_v3) ↦{fullShare} V m c main_v3))
  hentry c := by
    obtain rfl : c = 0 := Subsingleton.elim _ _
    rw [show StableHlo.held ((0 : Dev nD) : Thread nD τ) (Pipeline.ucRefs τ sig) (StableHlo.after hostOps0 (V₀ m 0)) = unscopedBufs 0 (V m 0) from
      (Pipeline.unscopedBufs_held 0 _).symm, ownSems0_eq]
    have hsplit := (Pipeline.arrays_of_unscopedBufs (pcfgs (F := F)) (adm m) (dats m) winFacts0 arr_whole0 0
      ((dats m 0 0).share_full fun _ => rfl) (V m 0) fun _ => rfl).trans (sep_mono .rfl (Entails.of_eq (rest_eq 0 (V m 0))))
    iintro ⟨⟨Hub, HO⟩, Hos, -⟩
    ihave H := hsplit $$ Hub
    icases H with ⟨Ha, Hpf, H0, H1, Hv1, Hv3⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hv1 Hos]
    · isplitl [Hv1]; · iexact Hv1
      iexact Hos
    isplitl [H0]; · iexact H0
    isplitl [H1]; · iexact H1
    iexact Hv3
  hin c := by
    obtain rfl : c = 0 := Subsingleton.elim _ _
    rw [show (dats m 0 0).Φ 0 = Φc m 0 from rfl, prefHeld_eq]; unfold Φc
    iintro ⟨⟨Hv1, Hos⟩, Hpf, -⟩
    ihave Ht := (table_shares 0 (V m 0 main_v1)).1 $$ Hv1
    icases Ht with ⟨Htoks, Hsp⟩
    isplitl [Hpf]; · iexact Hpf
    isplitl [Htoks]; · iexact Htoks
    isplitl [Hsp]; · iexact Hsp
    iexact Hos
  hout c := by
    rw [ownSems0_eq, show (dats m 0 c).Φ (Fin.last _) = Φc m c from rfl]; unfold Φc
    iintro ⟨Hxs, Htoks, Hsp, Hsems⟩
    ihave Hv1 := (table_shares c (V m c main_v1)).2 $$ [Htoks Hsp]
    · isplitl [Htoks] <;> iassumption
    isplitl [Hxs Hv1]; · isplitl [Hxs] <;> iassumption
    isplitl [Hsems]; · iexact Hsems
    iapply (Entails.of_eq (scopedRest0_eq c).symm)
    iempintro
  hexit c := by
    obtain rfl : c = 0 := Subsingleton.elim _ _
    have hjoin := Pipeline.unscopedBufs_of_arrays (pcfgs (F := F)) (adm m) winFacts0 arr_whole0 0 (dats m)
      ((dats m 0 0).share_full fun _ => rfl) (V m 0) (fun b => V₁ m 0 b) (final m 0)
      (fun w => (Pipeline.withArrays_arr spec0 winFacts0.arr_inj 0 _ _ w).symm)
      (fun b hb => Pipeline.withArrays_of_ne spec0 0 _ _ b fun w e => hb (Finset.mem_image.mpr ⟨w, Finset.mem_univ _, e⟩))
    rw [rest_eq, prefHeld_eq, Pipeline.unscopedBufs_held] at hjoin
    iintro ⟨Ha, HO, ⟨Hv0, Hv1⟩, H0, H1, Hv3⟩
    imodintro
    isplitr [HO]
    · iapply hjoin
      isplitl [Ha]; · iexact Ha
      isplitl [Hv0]; · iexact Hv0
      isplitl [H0]; · iexact H0
      isplitl [H1]; · iexact H1
      isplitl [Hv1]; · iexact Hv1
      iexact Hv3
    · unfold Pipeline.Dat.owesAt Pipeline.owesWithin
      icases HO with ⟨%W, -, HO⟩; iexists W; iexact HO

/-- @main as the list of the three. -/
abbrev segs (hx : ∀ c, Cert.Gather.InRangeFlat (V m c main_v0)) :
    List (Pipeline.Seg (pcfgs (F := F)) (adm m) (dats m) () defs₀ 𝒱₀ L lv) :=
  [.host (seg0 m), .region (reg0 m hx), .host (seg1 m)]

/-- The launch element: the staging cells' initial element with the pipeline's transfer tokens; no counter yet. -/
def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

/-- Core `c`'s buffers at the end: the final reshape has run over what the region left. -/
abbrev V₂ (c : Dev nD) : Valuation τ sig (Elt F) := StableHlo.after hostOps1 (V₁ m c)

set_option backward.isDefEq.respectTransparency.types false in
/-- At the compiled mesh, for any float values, from any memory with zero counters whose token words all name rows
    of the table: every weakly fair execution of @main on the TensorCores terminates, and every final state has each
    unscoped buffer at the final reshape's fold over what the region left. -/
theorem run_held (hx : ∀ c, Cert.Gather.InRangeFlat (V m c main_v0)) :
    θ_run defs (onTc (τ := τ) (main (F := F))) ⟨m, fun _ => 0, ρ⟩ (fun r => ∀ c : Dev nD,
    ∀ b ∈ Pipeline.ucRefs τ sig, r.2.mem ((c : Dev nD), b) = V₂ m c b) :=
  Pipeline.θ_run_regions_kit (pcfgs (F := F)) (adm m) (dats m) () (cellOf_inj (adm m)) EP defs₀ 𝒱₀ L lv m ρ main (segs m hx)
    (fun c Q => by rw [main_segs (adm m) (dats m) () 𝒱₀ L lv (seg0 m) (seg1 m) (reg0 m hx) rfl rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V₂ m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from
        Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = V₂ m c b)
    (hfin := fun c s' => by
      iintro ⟨Hh, HSI⟩
      ihave Hr := (pointsTo_read_all (Pipeline.ucRefs τ sig) (fun b => ((c : Dev nD), b)) (fun b => V₂ m c b) s') $$ [Hh HSI]
      · isplitl [Hh]; · unfold StableHlo.held; iexact Hh
        iexact HSI
      icases Hr with ⟨%h, HSI⟩
      imodintro
      isplitr; · ipureintro; exact h
      iexact HSI)
    (hQ := fun _ h => h)

/-! ## What the buffers hold, read off the host operations -/

/-- The token words the region reads are the token numbers in row-major order. -/
theorem V_v0 (c : Dev nD) :
    V m c main_v0 = shapeCast S16384 (m ((c : Thread nD τ).loc main_arg0)) shapeCasts_S4x4096_S16384 := by
  show StableHlo.after hostOps0 (V₀ m c) (main_v0 : DevRef τ sig) = _
  after_results
  rfl

/-- The table of rows is the weight matrix transposed. -/
theorem V_v1 (c : Dev nD) :
    V m c main_v1 = transpose S50257x1024 [1, 0] (m ((c : Thread nD τ).loc main_arg1)) transposes_S1024x50257_S50257x1024_1_0 := by
  show StableHlo.after hostOps0 (V₀ m c) (main_v1 : DevRef τ sig) = _
  after_results

/-- Token numbers that all name rows of the table, laid out flat, still do. -/
theorem hx_of_inRange (c : Dev nD) (h : Cert.Gather.InRange (m ((c : Thread nD τ).loc main_arg0))) :
    Cert.Gather.InRangeFlat (V m c main_v0) := by
  intro i
  rw [V_v0]
  exact h _

/-- The final result is the result array's final contents, reshaped. -/
theorem V₂_v3 (c : Dev nD) :
    V₂ m c main_v3 = shapeCast S4x4096x1024 (final m c 0) shapeCasts_S16384x1024_S4x4096x1024 := by
  have e : V₁ m c (main_v2 : DevRef τ sig) = final m c 0 := Pipeline.withArrays_arr spec0 winFacts0.arr_inj c _ _ 0
  show StableHlo.after hostOps1 (V₁ m c) (main_v3 : DevRef τ sig) = _
  generalize V₁ m c = W at e ⊢
  after_results
  rw [e]
  rfl

/-- No operation and no block of the region writes the token numbers; -/
theorem V₂_arg0 (c : Dev nD) : V₂ m c main_arg0 = m ((c : Thread nD τ).loc main_arg0) := by
  have e : V₁ m c (main_arg0 : DevRef τ sig) = StableHlo.after hostOps0 (V₀ m c) (main_arg0 : DevRef τ sig) :=
    Pipeline.withArrays_of_ne spec0 c _ _ main_arg0 (fun w => by fin_cases w; decide)
  show StableHlo.after hostOps1 (V₁ m c) (main_arg0 : DevRef τ sig) = _
  generalize V₁ m c = W at e ⊢
  after_results
  rw [e]
  after_results

/-- nor the weight matrix. -/
theorem V₂_arg1 (c : Dev nD) : V₂ m c main_arg1 = m ((c : Thread nD τ).loc main_arg1) := by
  have e : V₁ m c (main_arg1 : DevRef τ sig) = StableHlo.after hostOps0 (V₀ m c) (main_arg1 : DevRef τ sig) :=
    Pipeline.withArrays_of_ne spec0 c _ _ main_arg1 (fun w => by fin_cases w; decide)
  show StableHlo.after hostOps1 (V₁ m c) (main_arg1 : DevRef τ sig) = _
  generalize V₁ m c = W at e ⊢
  after_results
  rw [e]
  after_results

/-- THE RUN. At the compiled mesh, for any float values, from any memory with zero counters whose token words all
    name rows of the table: every weakly fair execution of @main on the TensorCores terminates, the final result is
    the reshape of the result array as the region's write-backs left it, and the two arguments are unchanged. -/
theorem run_main (hx : ∀ c, Cert.Gather.InRangeFlat (V m c main_v0)) :
    θ_run defs (onTc (τ := τ) (main (F := F))) ⟨m, fun _ => 0, ρ⟩ (fun r => ∀ c : Dev nD,
      r.2.mem ((c : Thread nD τ).loc main_v3)
          = shapeCast S4x4096x1024 ((dats m 0 c).arrAt 0 (cfg0 (adm m 0)).N) shapeCasts_S16384x1024_S4x4096x1024
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c =>
      ⟨(h c (main_v3 : DevRef τ sig) (by decide)).trans (V₂_v3 m c),
        (h c (main_arg0 : DevRef τ sig) (by decide)).trans (V₂_arg0 m c),
        (h c (main_arg1 : DevRef τ sig) (by decide)).trans (V₂_arg1 m c)⟩)
    (run_held m ρ hx)

/-- THE FRAME. From any memory with zero counters whose token numbers all name rows of the table: every weakly fair
    execution of @main terminates, faults nowhere and leaves the two arguments unchanged. -/
theorem frame_of_range (hx : ∀ c : Dev nD, Cert.Gather.InRange (m ((c : Thread nD τ).loc main_arg0))) :
    θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => (h c).2) (run_main m ρ fun c => hx_of_inRange m c (hx c))

end Cert.Proof.GatherKB

end
-- ==== Proof.lean ====
/-
  The claim of this certificate, assembled. Both programs compute, from token numbers x : [4, 4096] and a weight
  matrix W : [1024, 50257], the array out[b, s, :] = W[:, x[b, s]]: row x[b, s] of the transposed matrix. The
  reference transposes W and gathers rows at the token numbers. The kernel lays the token numbers out as one
  vector of 16384 words, transposes W into a table of rows, and fills the [16384, 1024] result 256 rows at a
  time: at each of 64 grid points it copies 256 table rows into the block's staging buffer by its own transfers,
  eight in flight at once, and the block is written back; a final reshape gives [4, 4096, 1024]. No arithmetic is
  done on an entry, so the two results are equal index by index, over any element type. The precondition's range
  0 ≤ x[b, s] < 50257 is what makes every copied row exist (each program's frame needs it of the kernel's
  transfers) and what makes the reference's checked, clamped lookup return the row itself. The kernel's
  idealization rewrites no operation: it is the same text read over the extended reals.
-/
import proofs.«109605_j40200893891216_1_alg».proof.Defs
import proofs.«109605_j40200893891216_1_alg».proof.Proof.Gen.Kernel
import proofs.«109605_j40200893891216_1_alg».proof.Proof.Gen.Kernel.Skeleton
import proofs.«109605_j40200893891216_1_alg».proof.Proof.Gen.Kernel.Launch
import proofs.«109605_j40200893891216_1_alg».proof.Proof.Gen.Kernel.Flash
import proofs.«109605_j40200893891216_1_alg».proof.Proof.Gen.KernelIdeal
import proofs.«109605_j40200893891216_1_alg».proof.Proof.Gen.KernelIdeal.Skeleton
import proofs.«109605_j40200893891216_1_alg».proof.Proof.Gen.KernelIdeal.Launch
import proofs.«109605_j40200893891216_1_alg».proof.Proof.Gen.KernelIdeal.Flash
import proofs.«109605_j40200893891216_1_alg».proof.Proof.Gen.ReferenceIdeal
import proofs.«109605_j40200893891216_1_alg».proof.Proof.Gen.Pre_finite_inputs
import proofs.«109605_j40200893891216_1_alg».proof.Proof.PreRange
import proofs.«109605_j40200893891216_1_alg».proof.Proof.RefRun
import proofs.«109605_j40200893891216_1_alg».proof.Proof.KValueI
import proofs.«109605_j40200893891216_1_alg».proof.Proof.KRunB
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged: under the precondition every token
    number names a row of the table, so every row copy stays inside it. -/
theorem frame_k : Cert.frame_Kernel := fun m ρ hpre =>
  Cert.Proof.GatherKB.frame_of_range m ρ fun c => Cert.Gather.Pre.inRange_of_pre (F := Bits) _ _ (hpre c)

/-- The same of its idealization. -/
theorem frame_ki : Cert.frame_KernelIdeal := fun m ρ hpre =>
  Cert.Proof.GatherKI.frame_of_range m ρ fun c => Cert.Gather.Pre.inRange_of_pre (F := Ideal) _ _ (hpre c)

/-- Over the extended reals, from memories agreeing on the arguments, the kernel and the reference both end with
    out[b, s, j] = W[j, x[b, s]] of the same arguments. -/
theorem algebraic : Cert.algebraic_KernelIdeal_ReferenceIdeal := by
  intro m ρ m' ρ' hpre hagree
  have hx : ∀ c : Dev Cert.KernelIdeal.nD, Cert.Gather.InRange
      (m ((c.tc : Thread Cert.KernelIdeal.nD Cert.KernelIdeal.τ).loc Cert.KernelIdeal.main_arg0)) :=
    fun c => Cert.Gather.Pre.inRange_of_pre (F := Ideal) _ _ (hpre c)
  have hx' : ∀ c : Dev Cert.ReferenceIdeal.nD, Cert.Gather.InRange
      (m' ((c.tc : Thread Cert.ReferenceIdeal.nD Cert.ReferenceIdeal.τ).loc Cert.ReferenceIdeal.main_arg0)) :=
    fun c => by rw [(hagree c).1]; exact hx c
  refine ⟨_, Cert.Proof.GatherKI.run_value m ρ hx, ?_⟩
  refine (θ_run Cert.ReferenceIdeal.defs _ _).mono (fun _ h c => ⟨(h c).1.trans ?_, (h c).2⟩)
    (Cert.Gather.Ref.run m' ρ' hx')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, Cert.Gather.Ref.frame, trivial, algebraic⟩

end Cert.Proof

end
